-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_210" .f32 0x3B9C09C1#32 ((1 / 210 : ℝ) : EReal)
  ∧ IdealRules.named_const.Statement Cert.KernelIdeal.κ "inv_210" .f32 0x3B9C09C1#32 ((1 / 210 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x384x32x16x16 : Shape := ⟨5, ![8, 384, 32, 16, 16]⟩
abbrev S_ : Shape := ⟨0, ![]⟩

class Facts : Prop where
  bcast_S_S8x384x32x16x16 : S_.BroadcastsInDim S8x384x32x16x16 (![] : Fin 0 → Fin S8x384x32x16x16.rank)
  reducesTo_S8x384x32x16x16_S_d0_1_2_3_4 : S8x384x32x16x16.ReducesTo [0, 1, 2, 3, 4] S_
  h_S_ : 0 < S_.numel

variable [Facts]

def fn {F : FTy → Type} [FloatOps F] (main_arg0 : FVec F S8x384x32x16x16 .f32) : IVec S_ 1 :=
  let main_v0 : FVec F S8x384x32x16x16 .f32 := Host.absf main_arg0
  let main_cst : FVec F S_ .f32 := constant S_ .f32 0x7F800000#32
  let main_v1 : FVec F S8x384x32x16x16 .f32 := broadcastInDim S8x384x32x16x16 ![] bcast_S_S8x384x32x16x16 main_cst
  let main_v2 : IVec S8x384x32x16x16 1 := cmpf .olt main_v0 main_v1
  let main_c : IVec S_ 1 := constantI S_ 1 1#1
  let main_v3 : IVec S_ 1 := (fun x v => Host.reduce IntOp.andi x v reducesTo_S8x384x32x16x16_S_d0_1_2_3_4 h_S_) main_v2 main_c
  main_v3
-- ==== Kernel.lean ====
abbrev S8x384x32x16x16 : Shape := ⟨5, ![8, 384, 32, 16, 16]⟩
abbrev S8x32x16x16x384 : Shape := ⟨5, ![8, 32, 16, 16, 384]⟩
abbrev S256x16x16x384 : Shape := ⟨4, ![256, 16, 16, 384]⟩
abbrev S192x384 : Shape := ⟨2, ![192, 384]⟩
abbrev S32x15x16x384 : Shape := ⟨4, ![32, 15, 16, 384]⟩
abbrev S32x384 : Shape := ⟨2, ![32, 384]⟩
abbrev S1x1x16x1 : Shape := ⟨4, ![1, 1, 16, 1]⟩
abbrev S24576 : Shape := ⟨1, ![24576]⟩
abbrev S4x16x384 : Shape := ⟨3, ![4, 16, 384]⟩
abbrev S3x16x384 : Shape := ⟨3, ![3, 16, 384]⟩
abbrev S768 : Shape := ⟨1, ![768]⟩
abbrev S_ : Shape := ⟨0, ![]⟩
abbrev S1x1x4x16x384 : Shape := ⟨5, ![1, 1, 4, 16, 384]⟩
abbrev S1x1x3x16x384 : Shape := ⟨5, ![1, 1, 3, 16, 384]⟩
abbrev S1x1x16 : Shape := ⟨3, ![1, 1, 16]⟩
abbrev S16 : Shape := ⟨1, ![16]⟩
abbrev S64x384 : Shape := ⟨2, ![64, 384]⟩
abbrev S256x384 : Shape := ⟨2, ![256, 384]⟩
abbrev S8x32x384 : Shape := ⟨3, ![8, 32, 384]⟩
abbrev S8x384x32 : Shape := ⟨3, ![8, 384, 32]⟩

abbrev nBuf : Table → Nat
  | .hbm => 9
  | .local .tc .vmem => 4
  | .local .scVector .vmem => 5
  | _ => 0

abbrev bufTy : (tb : Table) → Fin (nBuf tb) → BufTy
  | .hbm, ⟨0, _⟩ => ⟨S8x384x32x16x16, .f32⟩
  | .hbm, ⟨1, _⟩ => ⟨S8x32x16x16x384, .f32⟩
  | .hbm, ⟨2, _⟩ => ⟨S256x16x16x384, .f32⟩
  | .hbm, ⟨3, _⟩ => ⟨S192x384, .f32⟩
  | .hbm, ⟨4, _⟩ => ⟨S24576, .f32⟩
  | .hbm, ⟨5, _⟩ => ⟨S64x384, .f32⟩
  | .hbm, ⟨6, _⟩ => ⟨S256x384, .f32⟩
  | .hbm, ⟨7, _⟩ => ⟨S8x32x384, .f32⟩
  | .hbm, ⟨8, _⟩ => ⟨S8x384x32, .f32⟩
  | .local .tc .vmem, ⟨0, _⟩ => ⟨S32x15x16x384, .f32⟩
  | .local .tc .vmem, ⟨1, _⟩ => ⟨S32x15x16x384, .f32⟩
  | .local .tc .vmem, ⟨2, _⟩ => ⟨S32x384, .f32⟩
  | .local .tc .vmem, ⟨3, _⟩ => ⟨S32x384, .f32⟩
  | .local .scVector .vmem, ⟨0, _⟩ => ⟨S4x16x384, .f32⟩
  | .local .scVector .vmem, ⟨1, _⟩ => ⟨S4x16x384, .f32⟩
  | .local .scVector .vmem, ⟨2, _⟩ => ⟨S4x16x384, .f32⟩
  | .local .scVector .vmem, ⟨3, _⟩ => ⟨S3x16x384, .f32⟩
  | .local .scVector .vmem, ⟨4, _⟩ => ⟨S768, .f32⟩
  | _, _ => ⟨S8x384x32x16x16, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v0_scv : Ref sig .scVector := ⟨.hbm, 1, rfl⟩
abbrev main_v3_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![6], ![false]⟩

def cc0_transform_0 (i : grid0.Coords) : Fin 4 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x15x16x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c32_i32 : BitVec 32 := 32#32
  let c0_i32_3 : BitVec 32 := 0#32
  let v10 : BitVec 1 := Scalar.cmpi .sgt c32_i32 c0_i32_3
  let v11 : BitVec 32 := Scalar.extui v10
  let c0_i32_4 : BitVec 32 := 0#32
  let v12 : BitVec 1 := Scalar.cmpi .slt c32_i32 c0_i32_4
  let v13 : BitVec 32 := Scalar.extui v12
  let v14 : BitVec 32 := Scalar.subi v11 v13
  let v15 : BitVec 1 := Scalar.cmpi .ne v9 v14
  let v16 : BitVec 32 := Scalar.remsi v3 c32_i32
  let c0_i32_5 : BitVec 32 := 0#32
  let v17 : BitVec 1 := Scalar.cmpi .ne v16 c0_i32_5
  let v18 : BitVec 1 := Scalar.andi v15 v17
  let v4 : BitVec 32 := Scalar.divsi v3 c32_i32
  let c1_i32 : BitVec 32 := 1#32
  let v19 : BitVec 32 := Scalar.subi v4 c1_i32
  let v20 : BitVec 32 := Scalar.select v18 v19 v4
  let c32_i32_6 : BitVec 32 := 32#32
  let c0_i32_7 : BitVec 32 := 0#32
  let v21 : BitVec 1 := Scalar.cmpi .eq c32_i32_6 c0_i32_7
  let c1_i32_8 : BitVec 32 := 1#32
  let v22 : BitVec 32 := Scalar.select v21 c1_i32_8 c32_i32_6
  let v23 : BitVec 32 := Scalar.remsi v3 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  let c0_i32_14 : BitVec 32 := 0#32
  ![v20.toNat, v30.toNat, 0, 0, 0]
def k1_off2 (i : grid1.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_18 : BitVec 32 := 0#32
  let v35 : BitVec 32 := Scalar.addi v2 c0_i32_18
  let c0_i32_20 : BitVec 32 := 0#32
  let v37 : BitVec 1 := Scalar.cmpi .sgt v35 c0_i32_20
  let v38 : BitVec 32 := Scalar.extui v37
  let c0_i32_21 : BitVec 32 := 0#32
  let v39 : BitVec 1 := Scalar.cmpi .slt v35 c0_i32_21
  let v40 : BitVec 32 := Scalar.extui v39
  let v41 : BitVec 32 := Scalar.subi v38 v40
  let c32_i32_19 : BitVec 32 := 32#32
  let c0_i32_22 : BitVec 32 := 0#32
  let v42 : BitVec 1 := Scalar.cmpi .sgt c32_i32_19 c0_i32_22
  let v43 : BitVec 32 := Scalar.extui v42
  let c0_i32_23 : BitVec 32 := 0#32
  let v44 : BitVec 1 := Scalar.cmpi .slt c32_i32_19 c0_i32_23
  let v45 : BitVec 32 := Scalar.extui v44
  let v46 : BitVec 32 := Scalar.subi v43 v45
  let v47 : BitVec 1 := Scalar.cmpi .ne v41 v46
  let v48 : BitVec 32 := Scalar.remsi v35 c32_i32_19
  let c0_i32_24 : BitVec 32 := 0#32
  let v49 : BitVec 1 := Scalar.cmpi .ne v48 c0_i32_24
  let v50 : BitVec 1 := Scalar.andi v47 v49
  let v36 : BitVec 32 := Scalar.divsi v35 c32_i32_19
  let c1_i32_25 : BitVec 32 := 1#32
  let v51 : BitVec 32 := Scalar.subi v36 c1_i32_25
  let v52 : BitVec 32 := Scalar.select v50 v51 v36
  let c32_i32_26 : BitVec 32 := 32#32
  let c0_i32_27 : BitVec 32 := 0#32
  let v53 : BitVec 1 := Scalar.cmpi .eq c32_i32_26 c0_i32_27
  let c1_i32_28 : BitVec 32 := 1#32
  let v54 : BitVec 32 := Scalar.select v53 c1_i32_28 c32_i32_26
  let v55 : BitVec 32 := Scalar.remsi v35 v54
  let c0_i32_30 : BitVec 32 := 0#32
  let v57 : BitVec 1 := Scalar.cmpi .slt v55 c0_i32_30
  let c0_i32_31 : BitVec 32 := 0#32
  let v58 : BitVec 1 := Scalar.cmpi .slt v54 c0_i32_31
  let v59 : BitVec 1 := Scalar.xori v57 v58
  let c0_i32_29 : BitVec 32 := 0#32
  let v56 : BitVec 1 := Scalar.cmpi .ne v55 c0_i32_29
  let v60 : BitVec 1 := Scalar.andi v59 v56
  let v61 : BitVec 32 := Scalar.addi v55 v54
  let v62 : BitVec 32 := Scalar.select v60 v61 v55
  let c4_i32 : BitVec 32 := 4#32
  let c0_i32_32 : BitVec 32 := 0#32
  let c0_i32_33 : BitVec 32 := 0#32
  ![v52.toNat, v62.toNat, 4, 0, 0]
def k1_off3 (i : grid1.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_37 : BitVec 32 := 0#32
  let v67 : BitVec 32 := Scalar.addi v2 c0_i32_37
  let c0_i32_39 : BitVec 32 := 0#32
  let v69 : BitVec 1 := Scalar.cmpi .sgt v67 c0_i32_39
  let v70 : BitVec 32 := Scalar.extui v69
  let c0_i32_40 : BitVec 32 := 0#32
  let v71 : BitVec 1 := Scalar.cmpi .slt v67 c0_i32_40
  let v72 : BitVec 32 := Scalar.extui v71
  let v73 : BitVec 32 := Scalar.subi v70 v72
  let c32_i32_38 : BitVec 32 := 32#32
  let c0_i32_41 : BitVec 32 := 0#32
  let v74 : BitVec 1 := Scalar.cmpi .sgt c32_i32_38 c0_i32_41
  let v75 : BitVec 32 := Scalar.extui v74
  let c0_i32_42 : BitVec 32 := 0#32
  let v76 : BitVec 1 := Scalar.cmpi .slt c32_i32_38 c0_i32_42
  let v77 : BitVec 32 := Scalar.extui v76
  let v78 : BitVec 32 := Scalar.subi v75 v77
  let v79 : BitVec 1 := Scalar.cmpi .ne v73 v78
  let v80 : BitVec 32 := Scalar.remsi v67 c32_i32_38
  let c0_i32_43 : BitVec 32 := 0#32
  let v81 : BitVec 1 := Scalar.cmpi .ne v80 c0_i32_43
  let v82 : BitVec 1 := Scalar.andi v79 v81
  let v68 : BitVec 32 := Scalar.divsi v67 c32_i32_38
  let c1_i32_44 : BitVec 32 := 1#32
  let v83 : BitVec 32 := Scalar.subi v68 c1_i32_44
  let v84 : BitVec 32 := Scalar.select v82 v83 v68
  let c32_i32_45 : BitVec 32 := 32#32
  let c0_i32_46 : BitVec 32 := 0#32
  let v85 : BitVec 1 := Scalar.cmpi .eq c32_i32_45 c0_i32_46
  let c1_i32_47 : BitVec 32 := 1#32
  let v86 : BitVec 32 := Scalar.select v85 c1_i32_47 c32_i32_45
  let v87 : BitVec 32 := Scalar.remsi v67 v86
  let c0_i32_49 : BitVec 32 := 0#32
  let v89 : BitVec 1 := Scalar.cmpi .slt v87 c0_i32_49
  let c0_i32_50 : BitVec 32 := 0#32
  let v90 : BitVec 1 := Scalar.cmpi .slt v86 c0_i32_50
  let v91 : BitVec 1 := Scalar.xori v89 v90
  let c0_i32_48 : BitVec 32 := 0#32
  let v88 : BitVec 1 := Scalar.cmpi .ne v87 c0_i32_48
  let v92 : BitVec 1 := Scalar.andi v91 v88
  let v93 : BitVec 32 := Scalar.addi v87 v86
  let v94 : BitVec 32 := Scalar.select v92 v93 v87
  let c8_i32 : BitVec 32 := 8#32
  let c0_i32_51 : BitVec 32 := 0#32
  let c0_i32_52 : BitVec 32 := 0#32
  ![v84.toNat, v94.toNat, 8, 0, 0]
@[reducible] def k1_t1_loop : Scf.Loop 32 :=
  let c0_i32_56 : BitVec 32 := 0#32
  let c2_i32_57 : BitVec 32 := 2#32
  let v99 : BitVec 32 := Scalar.addi c0_i32_56 c2_i32_57
  let c1_i32_58 : BitVec 32 := 1#32
  ⟨c0_i32_56, v99, c1_i32_58⟩
def k1_cond1 (k1_t1 : Fin k1_t1_loop.trips) : BitVec 1 :=
  let c0_i32_61 : BitVec 32 := 0#32
  let c0_i32_56 : BitVec 32 := 0#32
  let c1_i32_58 : BitVec 32 := 1#32
  let arg13 : BitVec 32 := Scf.iv c0_i32_56 c1_i32_58 k1_t1
  let c1_i32_60 : BitVec 32 := 1#32
  let v101 : BitVec 32 := Scalar.muli arg13 c1_i32_60
  let v102 : BitVec 32 := Scalar.addi c0_i32_61 v101
  let c0_i32_62 : BitVec 32 := 0#32
  let v103 : BitVec 32 := Scalar.addi v102 c0_i32_62
  let c2_i32_63 : BitVec 32 := 2#32
  let v104 : BitVec 1 := Scalar.cmpi .slt v103 c2_i32_63
  let v105 : BitVec 32 := Scalar.extui v104
  let c0_i32_64 : BitVec 32 := 0#32
  let v106 : BitVec 1 := Scalar.cmpi .ne v105 c0_i32_64
  v106

def k1_off4 (i : grid1.Coords) (k1_t1 : Fin k1_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_61 : BitVec 32 := 0#32
  let c0_i32_56 : BitVec 32 := 0#32
  let c1_i32_58 : BitVec 32 := 1#32
  let arg13 : BitVec 32 := Scf.iv c0_i32_56 c1_i32_58 k1_t1
  let c1_i32_60 : BitVec 32 := 1#32
  let v101 : BitVec 32 := Scalar.muli arg13 c1_i32_60
  let v102 : BitVec 32 := Scalar.addi c0_i32_61 v101
  let c0_i32_62 : BitVec 32 := 0#32
  let v103 : BitVec 32 := Scalar.addi v102 c0_i32_62
  let v251 : BitVec 32 := Scalar.addi v2 v103
  let c0_i32_165 : BitVec 32 := 0#32
  let v253 : BitVec 1 := Scalar.cmpi .sgt v251 c0_i32_165
  let v254 : BitVec 32 := Scalar.extui v253
  let c0_i32_166 : BitVec 32 := 0#32
  let v255 : BitVec 1 := Scalar.cmpi .slt v251 c0_i32_166
  let v256 : BitVec 32 := Scalar.extui v255
  let v257 : BitVec 32 := Scalar.subi v254 v256
  let c32_i32_164 : BitVec 32 := 32#32
  let c0_i32_167 : BitVec 32 := 0#32
  let v258 : BitVec 1 := Scalar.cmpi .sgt c32_i32_164 c0_i32_167
  let v259 : BitVec 32 := Scalar.extui v258
  let c0_i32_168 : BitVec 32 := 0#32
  let v260 : BitVec 1 := Scalar.cmpi .slt c32_i32_164 c0_i32_168
  let v261 : BitVec 32 := Scalar.extui v260
  let v262 : BitVec 32 := Scalar.subi v259 v261
  let v263 : BitVec 1 := Scalar.cmpi .ne v257 v262
  let v264 : BitVec 32 := Scalar.remsi v251 c32_i32_164
  let c0_i32_169 : BitVec 32 := 0#32
  let v265 : BitVec 1 := Scalar.cmpi .ne v264 c0_i32_169
  let v266 : BitVec 1 := Scalar.andi v263 v265
  let v252 : BitVec 32 := Scalar.divsi v251 c32_i32_164
  let c1_i32_170 : BitVec 32 := 1#32
  let v267 : BitVec 32 := Scalar.subi v252 c1_i32_170
  let v268 : BitVec 32 := Scalar.select v266 v267 v252
  let c32_i32_171 : BitVec 32 := 32#32
  let c0_i32_172 : BitVec 32 := 0#32
  let v269 : BitVec 1 := Scalar.cmpi .eq c32_i32_171 c0_i32_172
  let c1_i32_173 : BitVec 32 := 1#32
  let v270 : BitVec 32 := Scalar.select v269 c1_i32_173 c32_i32_171
  let v271 : BitVec 32 := Scalar.remsi v251 v270
  let c0_i32_175 : BitVec 32 := 0#32
  let v273 : BitVec 1 := Scalar.cmpi .slt v271 c0_i32_175
  let c0_i32_176 : BitVec 32 := 0#32
  let v274 : BitVec 1 := Scalar.cmpi .slt v270 c0_i32_176
  let v275 : BitVec 1 := Scalar.xori v273 v274
  let c0_i32_174 : BitVec 32 := 0#32
  let v272 : BitVec 1 := Scalar.cmpi .ne v271 c0_i32_174
  let v276 : BitVec 1 := Scalar.andi v275 v272
  let v277 : BitVec 32 := Scalar.addi v271 v270
  let v278 : BitVec 32 := Scalar.select v276 v277 v271
  let c12_i32_177 : BitVec 32 := 12#32
  let c0_i32_178 : BitVec 32 := 0#32
  let c0_i32_179 : BitVec 32 := 0#32
  ![v268.toNat, v278.toNat, 12, 0, 0]
def k1_off5 (i : grid1.Coords) (k1_t1 : Fin k1_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_61 : BitVec 32 := 0#32
  let c0_i32_56 : BitVec 32 := 0#32
  let c1_i32_58 : BitVec 32 := 1#32
  let arg13 : BitVec 32 := Scf.iv c0_i32_56 c1_i32_58 k1_t1
  let c1_i32_60 : BitVec 32 := 1#32
  let v101 : BitVec 32 := Scalar.muli arg13 c1_i32_60
  let v102 : BitVec 32 := Scalar.addi c0_i32_61 v101
  let v107 : BitVec 32 := Scalar.addi v2 v102
  let c0_i32_66 : BitVec 32 := 0#32
  let v109 : BitVec 1 := Scalar.cmpi .sgt v107 c0_i32_66
  let v110 : BitVec 32 := Scalar.extui v109
  let c0_i32_67 : BitVec 32 := 0#32
  let v111 : BitVec 1 := Scalar.cmpi .slt v107 c0_i32_67
  let v112 : BitVec 32 := Scalar.extui v111
  let v113 : BitVec 32 := Scalar.subi v110 v112
  let c32_i32_65 : BitVec 32 := 32#32
  let c0_i32_68 : BitVec 32 := 0#32
  let v114 : BitVec 1 := Scalar.cmpi .sgt c32_i32_65 c0_i32_68
  let v115 : BitVec 32 := Scalar.extui v114
  let c0_i32_69 : BitVec 32 := 0#32
  let v116 : BitVec 1 := Scalar.cmpi .slt c32_i32_65 c0_i32_69
  let v117 : BitVec 32 := Scalar.extui v116
  let v118 : BitVec 32 := Scalar.subi v115 v117
  let v119 : BitVec 1 := Scalar.cmpi .ne v113 v118
  let v120 : BitVec 32 := Scalar.remsi v107 c32_i32_65
  let c0_i32_70 : BitVec 32 := 0#32
  let v121 : BitVec 1 := Scalar.cmpi .ne v120 c0_i32_70
  let v122 : BitVec 1 := Scalar.andi v119 v121
  let v108 : BitVec 32 := Scalar.divsi v107 c32_i32_65
  let c1_i32_71 : BitVec 32 := 1#32
  let v123 : BitVec 32 := Scalar.subi v108 c1_i32_71
  let v124 : BitVec 32 := Scalar.select v122 v123 v108
  let c32_i32_72 : BitVec 32 := 32#32
  let c0_i32_73 : BitVec 32 := 0#32
  let v125 : BitVec 1 := Scalar.cmpi .eq c32_i32_72 c0_i32_73
  let c1_i32_74 : BitVec 32 := 1#32
  let v126 : BitVec 32 := Scalar.select v125 c1_i32_74 c32_i32_72
  let v127 : BitVec 32 := Scalar.remsi v107 v126
  let c0_i32_76 : BitVec 32 := 0#32
  let v129 : BitVec 1 := Scalar.cmpi .slt v127 c0_i32_76
  let c0_i32_77 : BitVec 32 := 0#32
  let v130 : BitVec 1 := Scalar.cmpi .slt v126 c0_i32_77
  let v131 : BitVec 1 := Scalar.xori v129 v130
  let c0_i32_75 : BitVec 32 := 0#32
  let v128 : BitVec 1 := Scalar.cmpi .ne v127 c0_i32_75
  let v132 : BitVec 1 := Scalar.andi v131 v128
  let v133 : BitVec 32 := Scalar.addi v127 v126
  let v134 : BitVec 32 := Scalar.select v132 v133 v127
  let c0_i32_78 : BitVec 32 := 0#32
  let c0_i32_79 : BitVec 32 := 0#32
  let c0_i32_80 : BitVec 32 := 0#32
  ![v124.toNat, v134.toNat, 0, 0, 0]
@[reducible] def k1_t2_loop : Scf.Loop 32 :=
  let c0_i32_84 : BitVec 32 := 0#32
  let c24_i32 : BitVec 32 := 24#32
  let v139 : BitVec 32 := Scalar.addi c0_i32_84 c24_i32
  let c1_i32_85 : BitVec 32 := 1#32
  ⟨c0_i32_84, v139, c1_i32_85⟩
def k1_off6 (k1_t2 : Fin k1_t2_loop.trips) : Fin 3 → Nat :=
  let c0_i32_168 : BitVec 32 := 0#32
  let v257 : Index := Scalar.indexCast c0_i32_168
  let c1_i32_169 : BitVec 32 := 1#32
  let v258 : Index := Scalar.indexCast c1_i32_169
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_167 : BitVec 32 := 16#32
  let v256 : BitVec 32 := Scalar.muli v252 c16_i32_167
  let v259 : Index := Scalar.indexCast v256
  ![0, 1, v259.toNat]
def k1_off7 (k1_t2 : Fin k1_t2_loop.trips) : Fin 3 → Nat :=
  let c0_i32_171 : BitVec 32 := 0#32
  let v263 : Index := Scalar.indexCast c0_i32_171
  let c2_i32_172 : BitVec 32 := 2#32
  let v264 : Index := Scalar.indexCast c2_i32_172
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_170 : BitVec 32 := 16#32
  let v262 : BitVec 32 := Scalar.muli v252 c16_i32_170
  let v265 : Index := Scalar.indexCast v262
  ![0, 2, v265.toNat]
def k1_off8 (k1_t2 : Fin k1_t2_loop.trips) : Fin 3 → Nat :=
  let c0_i32_174 : BitVec 32 := 0#32
  let v269 : Index := Scalar.indexCast c0_i32_174
  let c3_i32 : BitVec 32 := 3#32
  let v270 : Index := Scalar.indexCast c3_i32
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_173 : BitVec 32 := 16#32
  let v268 : BitVec 32 := Scalar.muli v252 c16_i32_173
  let v271 : Index := Scalar.indexCast v268
  ![0, 3, v271.toNat]
def k1_off9 (k1_t2 : Fin k1_t2_loop.trips) : Fin 3 → Nat :=
  let c0_i32_176 : BitVec 32 := 0#32
  let v275 : Index := Scalar.indexCast c0_i32_176
  let c4_i32_177 : BitVec 32 := 4#32
  let v276 : Index := Scalar.indexCast c4_i32_177
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_175 : BitVec 32 := 16#32
  let v274 : BitVec 32 := Scalar.muli v252 c16_i32_175
  let v277 : Index := Scalar.indexCast v274
  ![0, 4, v277.toNat]
def k1_off10 (k1_t2 : Fin k1_t2_loop.trips) : Fin 3 → Nat :=
  let c0_i32_179 : BitVec 32 := 0#32
  let v281 : Index := Scalar.indexCast c0_i32_179
  let c5_i32 : BitVec 32 := 5#32
  let v282 : Index := Scalar.indexCast c5_i32
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_178 : BitVec 32 := 16#32
  let v280 : BitVec 32 := Scalar.muli v252 c16_i32_178
  let v283 : Index := Scalar.indexCast v280
  ![0, 5, v283.toNat]
def k1_off11 (k1_t2 : Fin k1_t2_loop.trips) : Fin 3 → Nat :=
  let c0_i32_181 : BitVec 32 := 0#32
  let v287 : Index := Scalar.indexCast c0_i32_181
  let c6_i32 : BitVec 32 := 6#32
  let v288 : Index := Scalar.indexCast c6_i32
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_180 : BitVec 32 := 16#32
  let v286 : BitVec 32 := Scalar.muli v252 c16_i32_180
  let v289 : Index := Scalar.indexCast v286
  ![0, 6, v289.toNat]
def k1_off12 (k1_t2 : Fin k1_t2_loop.trips) : Fin 3 → Nat :=
  let c0_i32_183 : BitVec 32 := 0#32
  let v293 : Index := Scalar.indexCast c0_i32_183
  let c7_i32 : BitVec 32 := 7#32
  let v294 : Index := Scalar.indexCast c7_i32
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_182 : BitVec 32 := 16#32
  let v292 : BitVec 32 := Scalar.muli v252 c16_i32_182
  let v295 : Index := Scalar.indexCast v292
  ![0, 7, v295.toNat]
def k1_off13 (k1_t2 : Fin k1_t2_loop.trips) : Fin 3 → Nat :=
  let c0_i32_185 : BitVec 32 := 0#32
  let v299 : Index := Scalar.indexCast c0_i32_185
  let c8_i32_186 : BitVec 32 := 8#32
  let v300 : Index := Scalar.indexCast c8_i32_186
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_184 : BitVec 32 := 16#32
  let v298 : BitVec 32 := Scalar.muli v252 c16_i32_184
  let v301 : Index := Scalar.indexCast v298
  ![0, 8, v301.toNat]
def k1_off14 (k1_t2 : Fin k1_t2_loop.trips) : Fin 3 → Nat :=
  let c0_i32_188 : BitVec 32 := 0#32
  let v305 : Index := Scalar.indexCast c0_i32_188
  let c9_i32 : BitVec 32 := 9#32
  let v306 : Index := Scalar.indexCast c9_i32
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_187 : BitVec 32 := 16#32
  let v304 : BitVec 32 := Scalar.muli v252 c16_i32_187
  let v307 : Index := Scalar.indexCast v304
  ![0, 9, v307.toNat]
def k1_off15 (k1_t2 : Fin k1_t2_loop.trips) : Fin 3 → Nat :=
  let c0_i32_190 : BitVec 32 := 0#32
  let v311 : Index := Scalar.indexCast c0_i32_190
  let c10_i32 : BitVec 32 := 10#32
  let v312 : Index := Scalar.indexCast c10_i32
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_189 : BitVec 32 := 16#32
  let v310 : BitVec 32 := Scalar.muli v252 c16_i32_189
  let v313 : Index := Scalar.indexCast v310
  ![0, 10, v313.toNat]
def k1_off16 (k1_t2 : Fin k1_t2_loop.trips) : Fin 3 → Nat :=
  let c0_i32_192 : BitVec 32 := 0#32
  let v317 : Index := Scalar.indexCast c0_i32_192
  let c11_i32 : BitVec 32 := 11#32
  let v318 : Index := Scalar.indexCast c11_i32
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_191 : BitVec 32 := 16#32
  let v316 : BitVec 32 := Scalar.muli v252 c16_i32_191
  let v319 : Index := Scalar.indexCast v316
  ![0, 11, v319.toNat]
def k1_off17 (k1_t2 : Fin k1_t2_loop.trips) : Fin 3 → Nat :=
  let c0_i32_194 : BitVec 32 := 0#32
  let v323 : Index := Scalar.indexCast c0_i32_194
  let c12_i32_195 : BitVec 32 := 12#32
  let v324 : Index := Scalar.indexCast c12_i32_195
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_193 : BitVec 32 := 16#32
  let v322 : BitVec 32 := Scalar.muli v252 c16_i32_193
  let v325 : Index := Scalar.indexCast v322
  ![0, 12, v325.toNat]
def k1_off18 (k1_t2 : Fin k1_t2_loop.trips) : Fin 3 → Nat :=
  let c0_i32_197 : BitVec 32 := 0#32
  let v329 : Index := Scalar.indexCast c0_i32_197
  let c13_i32 : BitVec 32 := 13#32
  let v330 : Index := Scalar.indexCast c13_i32
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_196 : BitVec 32 := 16#32
  let v328 : BitVec 32 := Scalar.muli v252 c16_i32_196
  let v331 : Index := Scalar.indexCast v328
  ![0, 13, v331.toNat]
def k1_off19 (k1_t2 : Fin k1_t2_loop.trips) : Fin 3 → Nat :=
  let c0_i32_199 : BitVec 32 := 0#32
  let v335 : Index := Scalar.indexCast c0_i32_199
  let c14_i32 : BitVec 32 := 14#32
  let v336 : Index := Scalar.indexCast c14_i32
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_198 : BitVec 32 := 16#32
  let v334 : BitVec 32 := Scalar.muli v252 c16_i32_198
  let v337 : Index := Scalar.indexCast v334
  ![0, 14, v337.toNat]
def k1_off20 (k1_t2 : Fin k1_t2_loop.trips) : Fin 3 → Nat :=
  let c1_i32_201 : BitVec 32 := 1#32
  let v341 : Index := Scalar.indexCast c1_i32_201
  let c1_i32_202 : BitVec 32 := 1#32
  let v342 : Index := Scalar.indexCast c1_i32_202
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_200 : BitVec 32 := 16#32
  let v340 : BitVec 32 := Scalar.muli v252 c16_i32_200
  let v343 : Index := Scalar.indexCast v340
  ![1, 1, v343.toNat]
def k1_off21 (k1_t2 : Fin k1_t2_loop.trips) : Fin 3 → Nat :=
  let c1_i32_204 : BitVec 32 := 1#32
  let v347 : Index := Scalar.indexCast c1_i32_204
  let c2_i32_205 : BitVec 32 := 2#32
  let v348 : Index := Scalar.indexCast c2_i32_205
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_203 : BitVec 32 := 16#32
  let v346 : BitVec 32 := Scalar.muli v252 c16_i32_203
  let v349 : Index := Scalar.indexCast v346
  ![1, 2, v349.toNat]
def k1_off22 (k1_t2 : Fin k1_t2_loop.trips) : Fin 3 → Nat :=
  let c1_i32_207 : BitVec 32 := 1#32
  let v353 : Index := Scalar.indexCast c1_i32_207
  let c3_i32_208 : BitVec 32 := 3#32
  let v354 : Index := Scalar.indexCast c3_i32_208
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_206 : BitVec 32 := 16#32
  let v352 : BitVec 32 := Scalar.muli v252 c16_i32_206
  let v355 : Index := Scalar.indexCast v352
  ![1, 3, v355.toNat]
def k1_off23 (k1_t2 : Fin k1_t2_loop.trips) : Fin 3 → Nat :=
  let c1_i32_210 : BitVec 32 := 1#32
  let v359 : Index := Scalar.indexCast c1_i32_210
  let c4_i32_211 : BitVec 32 := 4#32
  let v360 : Index := Scalar.indexCast c4_i32_211
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_209 : BitVec 32 := 16#32
  let v358 : BitVec 32 := Scalar.muli v252 c16_i32_209
  let v361 : Index := Scalar.indexCast v358
  ![1, 4, v361.toNat]
def k1_off24 (k1_t2 : Fin k1_t2_loop.trips) : Fin 3 → Nat :=
  let c1_i32_213 : BitVec 32 := 1#32
  let v365 : Index := Scalar.indexCast c1_i32_213
  let c5_i32_214 : BitVec 32 := 5#32
  let v366 : Index := Scalar.indexCast c5_i32_214
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_212 : BitVec 32 := 16#32
  let v364 : BitVec 32 := Scalar.muli v252 c16_i32_212
  let v367 : Index := Scalar.indexCast v364
  ![1, 5, v367.toNat]
def k1_off25 (k1_t2 : Fin k1_t2_loop.trips) : Fin 3 → Nat :=
  let c1_i32_216 : BitVec 32 := 1#32
  let v371 : Index := Scalar.indexCast c1_i32_216
  let c6_i32_217 : BitVec 32 := 6#32
  let v372 : Index := Scalar.indexCast c6_i32_217
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_215 : BitVec 32 := 16#32
  let v370 : BitVec 32 := Scalar.muli v252 c16_i32_215
  let v373 : Index := Scalar.indexCast v370
  ![1, 6, v373.toNat]
def k1_off26 (k1_t2 : Fin k1_t2_loop.trips) : Fin 3 → Nat :=
  let c1_i32_219 : BitVec 32 := 1#32
  let v377 : Index := Scalar.indexCast c1_i32_219
  let c7_i32_220 : BitVec 32 := 7#32
  let v378 : Index := Scalar.indexCast c7_i32_220
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_218 : BitVec 32 := 16#32
  let v376 : BitVec 32 := Scalar.muli v252 c16_i32_218
  let v379 : Index := Scalar.indexCast v376
  ![1, 7, v379.toNat]
def k1_off27 (k1_t2 : Fin k1_t2_loop.trips) : Fin 3 → Nat :=
  let c1_i32_222 : BitVec 32 := 1#32
  let v383 : Index := Scalar.indexCast c1_i32_222
  let c8_i32_223 : BitVec 32 := 8#32
  let v384 : Index := Scalar.indexCast c8_i32_223
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_221 : BitVec 32 := 16#32
  let v382 : BitVec 32 := Scalar.muli v252 c16_i32_221
  let v385 : Index := Scalar.indexCast v382
  ![1, 8, v385.toNat]
def k1_off28 (k1_t2 : Fin k1_t2_loop.trips) : Fin 3 → Nat :=
  let c1_i32_225 : BitVec 32 := 1#32
  let v389 : Index := Scalar.indexCast c1_i32_225
  let c9_i32_226 : BitVec 32 := 9#32
  let v390 : Index := Scalar.indexCast c9_i32_226
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_224 : BitVec 32 := 16#32
  let v388 : BitVec 32 := Scalar.muli v252 c16_i32_224
  let v391 : Index := Scalar.indexCast v388
  ![1, 9, v391.toNat]
def k1_off29 (k1_t2 : Fin k1_t2_loop.trips) : Fin 3 → Nat :=
  let c1_i32_228 : BitVec 32 := 1#32
  let v395 : Index := Scalar.indexCast c1_i32_228
  let c10_i32_229 : BitVec 32 := 10#32
  let v396 : Index := Scalar.indexCast c10_i32_229
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_227 : BitVec 32 := 16#32
  let v394 : BitVec 32 := Scalar.muli v252 c16_i32_227
  let v397 : Index := Scalar.indexCast v394
  ![1, 10, v397.toNat]
def k1_off30 (k1_t2 : Fin k1_t2_loop.trips) : Fin 3 → Nat :=
  let c1_i32_231 : BitVec 32 := 1#32
  let v401 : Index := Scalar.indexCast c1_i32_231
  let c11_i32_232 : BitVec 32 := 11#32
  let v402 : Index := Scalar.indexCast c11_i32_232
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_230 : BitVec 32 := 16#32
  let v400 : BitVec 32 := Scalar.muli v252 c16_i32_230
  let v403 : Index := Scalar.indexCast v400
  ![1, 11, v403.toNat]
def k1_off31 (k1_t2 : Fin k1_t2_loop.trips) : Fin 3 → Nat :=
  let c1_i32_234 : BitVec 32 := 1#32
  let v407 : Index := Scalar.indexCast c1_i32_234
  let c12_i32_235 : BitVec 32 := 12#32
  let v408 : Index := Scalar.indexCast c12_i32_235
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_233 : BitVec 32 := 16#32
  let v406 : BitVec 32 := Scalar.muli v252 c16_i32_233
  let v409 : Index := Scalar.indexCast v406
  ![1, 12, v409.toNat]
def k1_off32 (k1_t2 : Fin k1_t2_loop.trips) : Fin 3 → Nat :=
  let c1_i32_237 : BitVec 32 := 1#32
  let v413 : Index := Scalar.indexCast c1_i32_237
  let c13_i32_238 : BitVec 32 := 13#32
  let v414 : Index := Scalar.indexCast c13_i32_238
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_236 : BitVec 32 := 16#32
  let v412 : BitVec 32 := Scalar.muli v252 c16_i32_236
  let v415 : Index := Scalar.indexCast v412
  ![1, 13, v415.toNat]
def k1_off33 (k1_t2 : Fin k1_t2_loop.trips) : Fin 3 → Nat :=
  let c1_i32_240 : BitVec 32 := 1#32
  let v419 : Index := Scalar.indexCast c1_i32_240
  let c14_i32_241 : BitVec 32 := 14#32
  let v420 : Index := Scalar.indexCast c14_i32_241
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_239 : BitVec 32 := 16#32
  let v418 : BitVec 32 := Scalar.muli v252 c16_i32_239
  let v421 : Index := Scalar.indexCast v418
  ![1, 14, v421.toNat]
def k1_off34 (k1_t2 : Fin k1_t2_loop.trips) : Fin 3 → Nat :=
  let c2_i32_243 : BitVec 32 := 2#32
  let v425 : Index := Scalar.indexCast c2_i32_243
  let c1_i32_244 : BitVec 32 := 1#32
  let v426 : Index := Scalar.indexCast c1_i32_244
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_242 : BitVec 32 := 16#32
  let v424 : BitVec 32 := Scalar.muli v252 c16_i32_242
  let v427 : Index := Scalar.indexCast v424
  ![2, 1, v427.toNat]
def k1_off35 (k1_t2 : Fin k1_t2_loop.trips) : Fin 3 → Nat :=
  let c2_i32_246 : BitVec 32 := 2#32
  let v431 : Index := Scalar.indexCast c2_i32_246
  let c2_i32_247 : BitVec 32 := 2#32
  let v432 : Index := Scalar.indexCast c2_i32_247
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_245 : BitVec 32 := 16#32
  let v430 : BitVec 32 := Scalar.muli v252 c16_i32_245
  let v433 : Index := Scalar.indexCast v430
  ![2, 2, v433.toNat]
def k1_off36 (k1_t2 : Fin k1_t2_loop.trips) : Fin 3 → Nat :=
  let c2_i32_249 : BitVec 32 := 2#32
  let v437 : Index := Scalar.indexCast c2_i32_249
  let c3_i32_250 : BitVec 32 := 3#32
  let v438 : Index := Scalar.indexCast c3_i32_250
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_248 : BitVec 32 := 16#32
  let v436 : BitVec 32 := Scalar.muli v252 c16_i32_248
  let v439 : Index := Scalar.indexCast v436
  ![2, 3, v439.toNat]
def k1_off37 (k1_t2 : Fin k1_t2_loop.trips) : Fin 3 → Nat :=
  let c2_i32_252 : BitVec 32 := 2#32
  let v443 : Index := Scalar.indexCast c2_i32_252
  let c4_i32_253 : BitVec 32 := 4#32
  let v444 : Index := Scalar.indexCast c4_i32_253
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_251 : BitVec 32 := 16#32
  let v442 : BitVec 32 := Scalar.muli v252 c16_i32_251
  let v445 : Index := Scalar.indexCast v442
  ![2, 4, v445.toNat]
def k1_off38 (k1_t2 : Fin k1_t2_loop.trips) : Fin 3 → Nat :=
  let c2_i32_255 : BitVec 32 := 2#32
  let v449 : Index := Scalar.indexCast c2_i32_255
  let c5_i32_256 : BitVec 32 := 5#32
  let v450 : Index := Scalar.indexCast c5_i32_256
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_254 : BitVec 32 := 16#32
  let v448 : BitVec 32 := Scalar.muli v252 c16_i32_254
  let v451 : Index := Scalar.indexCast v448
  ![2, 5, v451.toNat]
def k1_off39 (k1_t2 : Fin k1_t2_loop.trips) : Fin 3 → Nat :=
  let c2_i32_258 : BitVec 32 := 2#32
  let v455 : Index := Scalar.indexCast c2_i32_258
  let c6_i32_259 : BitVec 32 := 6#32
  let v456 : Index := Scalar.indexCast c6_i32_259
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_257 : BitVec 32 := 16#32
  let v454 : BitVec 32 := Scalar.muli v252 c16_i32_257
  let v457 : Index := Scalar.indexCast v454
  ![2, 6, v457.toNat]
def k1_off40 (k1_t2 : Fin k1_t2_loop.trips) : Fin 3 → Nat :=
  let c2_i32_261 : BitVec 32 := 2#32
  let v461 : Index := Scalar.indexCast c2_i32_261
  let c7_i32_262 : BitVec 32 := 7#32
  let v462 : Index := Scalar.indexCast c7_i32_262
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_260 : BitVec 32 := 16#32
  let v460 : BitVec 32 := Scalar.muli v252 c16_i32_260
  let v463 : Index := Scalar.indexCast v460
  ![2, 7, v463.toNat]
def k1_off41 (k1_t2 : Fin k1_t2_loop.trips) : Fin 3 → Nat :=
  let c2_i32_264 : BitVec 32 := 2#32
  let v467 : Index := Scalar.indexCast c2_i32_264
  let c8_i32_265 : BitVec 32 := 8#32
  let v468 : Index := Scalar.indexCast c8_i32_265
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_263 : BitVec 32 := 16#32
  let v466 : BitVec 32 := Scalar.muli v252 c16_i32_263
  let v469 : Index := Scalar.indexCast v466
  ![2, 8, v469.toNat]
def k1_off42 (k1_t2 : Fin k1_t2_loop.trips) : Fin 3 → Nat :=
  let c2_i32_267 : BitVec 32 := 2#32
  let v473 : Index := Scalar.indexCast c2_i32_267
  let c9_i32_268 : BitVec 32 := 9#32
  let v474 : Index := Scalar.indexCast c9_i32_268
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_266 : BitVec 32 := 16#32
  let v472 : BitVec 32 := Scalar.muli v252 c16_i32_266
  let v475 : Index := Scalar.indexCast v472
  ![2, 9, v475.toNat]
def k1_off43 (k1_t2 : Fin k1_t2_loop.trips) : Fin 3 → Nat :=
  let c2_i32_270 : BitVec 32 := 2#32
  let v479 : Index := Scalar.indexCast c2_i32_270
  let c10_i32_271 : BitVec 32 := 10#32
  let v480 : Index := Scalar.indexCast c10_i32_271
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_269 : BitVec 32 := 16#32
  let v478 : BitVec 32 := Scalar.muli v252 c16_i32_269
  let v481 : Index := Scalar.indexCast v478
  ![2, 10, v481.toNat]
def k1_off44 (k1_t2 : Fin k1_t2_loop.trips) : Fin 3 → Nat :=
  let c2_i32_273 : BitVec 32 := 2#32
  let v485 : Index := Scalar.indexCast c2_i32_273
  let c11_i32_274 : BitVec 32 := 11#32
  let v486 : Index := Scalar.indexCast c11_i32_274
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_272 : BitVec 32 := 16#32
  let v484 : BitVec 32 := Scalar.muli v252 c16_i32_272
  let v487 : Index := Scalar.indexCast v484
  ![2, 11, v487.toNat]
def k1_off45 (k1_t2 : Fin k1_t2_loop.trips) : Fin 3 → Nat :=
  let c2_i32_276 : BitVec 32 := 2#32
  let v491 : Index := Scalar.indexCast c2_i32_276
  let c12_i32_277 : BitVec 32 := 12#32
  let v492 : Index := Scalar.indexCast c12_i32_277
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_275 : BitVec 32 := 16#32
  let v490 : BitVec 32 := Scalar.muli v252 c16_i32_275
  let v493 : Index := Scalar.indexCast v490
  ![2, 12, v493.toNat]
def k1_off46 (k1_t2 : Fin k1_t2_loop.trips) : Fin 3 → Nat :=
  let c2_i32_279 : BitVec 32 := 2#32
  let v497 : Index := Scalar.indexCast c2_i32_279
  let c13_i32_280 : BitVec 32 := 13#32
  let v498 : Index := Scalar.indexCast c13_i32_280
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_278 : BitVec 32 := 16#32
  let v496 : BitVec 32 := Scalar.muli v252 c16_i32_278
  let v499 : Index := Scalar.indexCast v496
  ![2, 13, v499.toNat]
def k1_off47 (k1_t2 : Fin k1_t2_loop.trips) : Fin 3 → Nat :=
  let c2_i32_282 : BitVec 32 := 2#32
  let v503 : Index := Scalar.indexCast c2_i32_282
  let c14_i32_283 : BitVec 32 := 14#32
  let v504 : Index := Scalar.indexCast c14_i32_283
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_281 : BitVec 32 := 16#32
  let v502 : BitVec 32 := Scalar.muli v252 c16_i32_281
  let v505 : Index := Scalar.indexCast v502
  ![2, 14, v505.toNat]
def k1_off48 (k1_t2 : Fin k1_t2_loop.trips) : Fin 3 → Nat :=
  let c3_i32_285 : BitVec 32 := 3#32
  let v509 : Index := Scalar.indexCast c3_i32_285
  let c1_i32_286 : BitVec 32 := 1#32
  let v510 : Index := Scalar.indexCast c1_i32_286
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_284 : BitVec 32 := 16#32
  let v508 : BitVec 32 := Scalar.muli v252 c16_i32_284
  let v511 : Index := Scalar.indexCast v508
  ![3, 1, v511.toNat]
def k1_off49 (k1_t2 : Fin k1_t2_loop.trips) : Fin 3 → Nat :=
  let c3_i32_288 : BitVec 32 := 3#32
  let v515 : Index := Scalar.indexCast c3_i32_288
  let c2_i32_289 : BitVec 32 := 2#32
  let v516 : Index := Scalar.indexCast c2_i32_289
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_287 : BitVec 32 := 16#32
  let v514 : BitVec 32 := Scalar.muli v252 c16_i32_287
  let v517 : Index := Scalar.indexCast v514
  ![3, 2, v517.toNat]
def k1_off50 (k1_t2 : Fin k1_t2_loop.trips) : Fin 3 → Nat :=
  let c3_i32_291 : BitVec 32 := 3#32
  let v521 : Index := Scalar.indexCast c3_i32_291
  let c3_i32_292 : BitVec 32 := 3#32
  let v522 : Index := Scalar.indexCast c3_i32_292
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_290 : BitVec 32 := 16#32
  let v520 : BitVec 32 := Scalar.muli v252 c16_i32_290
  let v523 : Index := Scalar.indexCast v520
  ![3, 3, v523.toNat]
def k1_off51 (k1_t2 : Fin k1_t2_loop.trips) : Fin 3 → Nat :=
  let c3_i32_294 : BitVec 32 := 3#32
  let v527 : Index := Scalar.indexCast c3_i32_294
  let c4_i32_295 : BitVec 32 := 4#32
  let v528 : Index := Scalar.indexCast c4_i32_295
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_293 : BitVec 32 := 16#32
  let v526 : BitVec 32 := Scalar.muli v252 c16_i32_293
  let v529 : Index := Scalar.indexCast v526
  ![3, 4, v529.toNat]
def k1_off52 (k1_t2 : Fin k1_t2_loop.trips) : Fin 3 → Nat :=
  let c3_i32_297 : BitVec 32 := 3#32
  let v533 : Index := Scalar.indexCast c3_i32_297
  let c5_i32_298 : BitVec 32 := 5#32
  let v534 : Index := Scalar.indexCast c5_i32_298
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_296 : BitVec 32 := 16#32
  let v532 : BitVec 32 := Scalar.muli v252 c16_i32_296
  let v535 : Index := Scalar.indexCast v532
  ![3, 5, v535.toNat]
def k1_off53 (k1_t2 : Fin k1_t2_loop.trips) : Fin 3 → Nat :=
  let c3_i32_300 : BitVec 32 := 3#32
  let v539 : Index := Scalar.indexCast c3_i32_300
  let c6_i32_301 : BitVec 32 := 6#32
  let v540 : Index := Scalar.indexCast c6_i32_301
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_299 : BitVec 32 := 16#32
  let v538 : BitVec 32 := Scalar.muli v252 c16_i32_299
  let v541 : Index := Scalar.indexCast v538
  ![3, 6, v541.toNat]
def k1_off54 (k1_t2 : Fin k1_t2_loop.trips) : Fin 3 → Nat :=
  let c3_i32_303 : BitVec 32 := 3#32
  let v545 : Index := Scalar.indexCast c3_i32_303
  let c7_i32_304 : BitVec 32 := 7#32
  let v546 : Index := Scalar.indexCast c7_i32_304
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_302 : BitVec 32 := 16#32
  let v544 : BitVec 32 := Scalar.muli v252 c16_i32_302
  let v547 : Index := Scalar.indexCast v544
  ![3, 7, v547.toNat]
def k1_off55 (k1_t2 : Fin k1_t2_loop.trips) : Fin 3 → Nat :=
  let c3_i32_306 : BitVec 32 := 3#32
  let v551 : Index := Scalar.indexCast c3_i32_306
  let c8_i32_307 : BitVec 32 := 8#32
  let v552 : Index := Scalar.indexCast c8_i32_307
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_305 : BitVec 32 := 16#32
  let v550 : BitVec 32 := Scalar.muli v252 c16_i32_305
  let v553 : Index := Scalar.indexCast v550
  ![3, 8, v553.toNat]
def k1_off56 (k1_t2 : Fin k1_t2_loop.trips) : Fin 3 → Nat :=
  let c3_i32_309 : BitVec 32 := 3#32
  let v557 : Index := Scalar.indexCast c3_i32_309
  let c9_i32_310 : BitVec 32 := 9#32
  let v558 : Index := Scalar.indexCast c9_i32_310
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_308 : BitVec 32 := 16#32
  let v556 : BitVec 32 := Scalar.muli v252 c16_i32_308
  let v559 : Index := Scalar.indexCast v556
  ![3, 9, v559.toNat]
def k1_off57 (k1_t2 : Fin k1_t2_loop.trips) : Fin 3 → Nat :=
  let c3_i32_312 : BitVec 32 := 3#32
  let v563 : Index := Scalar.indexCast c3_i32_312
  let c10_i32_313 : BitVec 32 := 10#32
  let v564 : Index := Scalar.indexCast c10_i32_313
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_311 : BitVec 32 := 16#32
  let v562 : BitVec 32 := Scalar.muli v252 c16_i32_311
  let v565 : Index := Scalar.indexCast v562
  ![3, 10, v565.toNat]
def k1_off58 (k1_t2 : Fin k1_t2_loop.trips) : Fin 3 → Nat :=
  let c3_i32_315 : BitVec 32 := 3#32
  let v569 : Index := Scalar.indexCast c3_i32_315
  let c11_i32_316 : BitVec 32 := 11#32
  let v570 : Index := Scalar.indexCast c11_i32_316
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_314 : BitVec 32 := 16#32
  let v568 : BitVec 32 := Scalar.muli v252 c16_i32_314
  let v571 : Index := Scalar.indexCast v568
  ![3, 11, v571.toNat]
def k1_off59 (k1_t2 : Fin k1_t2_loop.trips) : Fin 3 → Nat :=
  let c3_i32_318 : BitVec 32 := 3#32
  let v575 : Index := Scalar.indexCast c3_i32_318
  let c12_i32_319 : BitVec 32 := 12#32
  let v576 : Index := Scalar.indexCast c12_i32_319
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_317 : BitVec 32 := 16#32
  let v574 : BitVec 32 := Scalar.muli v252 c16_i32_317
  let v577 : Index := Scalar.indexCast v574
  ![3, 12, v577.toNat]
def k1_off60 (k1_t2 : Fin k1_t2_loop.trips) : Fin 3 → Nat :=
  let c3_i32_321 : BitVec 32 := 3#32
  let v581 : Index := Scalar.indexCast c3_i32_321
  let c13_i32_322 : BitVec 32 := 13#32
  let v582 : Index := Scalar.indexCast c13_i32_322
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_320 : BitVec 32 := 16#32
  let v580 : BitVec 32 := Scalar.muli v252 c16_i32_320
  let v583 : Index := Scalar.indexCast v580
  ![3, 13, v583.toNat]
def k1_off61 (k1_t2 : Fin k1_t2_loop.trips) : Fin 3 → Nat :=
  let c3_i32_324 : BitVec 32 := 3#32
  let v587 : Index := Scalar.indexCast c3_i32_324
  let c14_i32_325 : BitVec 32 := 14#32
  let v588 : Index := Scalar.indexCast c14_i32_325
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32_323 : BitVec 32 := 16#32
  let v586 : BitVec 32 := Scalar.muli v252 c16_i32_323
  let v589 : Index := Scalar.indexCast v586
  ![3, 14, v589.toNat]
def k1_off62 (k1_t1 : Fin k1_t1_loop.trips) (k1_t2 : Fin k1_t2_loop.trips) : Fin 1 → Nat :=
  let c0_i32_61 : BitVec 32 := 0#32
  let c0_i32_56 : BitVec 32 := 0#32
  let c1_i32_58 : BitVec 32 := 1#32
  let arg13 : BitVec 32 := Scf.iv c0_i32_56 c1_i32_58 k1_t1
  let c1_i32_60 : BitVec 32 := 1#32
  let v101 : BitVec 32 := Scalar.muli arg13 c1_i32_60
  let v102 : BitVec 32 := Scalar.addi c0_i32_61 v101
  let c384_i32_166 : BitVec 32 := 384#32
  let v253 : BitVec 32 := Scalar.muli v102 c384_i32_166
  let c0_i32_165 : BitVec 32 := 0#32
  let c0_i32_84 : BitVec 32 := 0#32
  let c1_i32_85 : BitVec 32 := 1#32
  let arg14 : BitVec 32 := Scf.iv c0_i32_84 c1_i32_85 k1_t2
  let c1_i32_164 : BitVec 32 := 1#32
  let v251 : BitVec 32 := Scalar.muli arg14 c1_i32_164
  let v252 : BitVec 32 := Scalar.addi c0_i32_165 v251
  let c16_i32 : BitVec 32 := 16#32
  let v254 : BitVec 32 := Scalar.muli v252 c16_i32
  let v255 : BitVec 32 := Scalar.addi v253 v254
  let v647 : Index := Scalar.indexCast v255
  ![v647.toNat]
def k1_cond2 (k1_t1 : Fin k1_t1_loop.trips) : BitVec 1 :=
  let c0_i32_61 : BitVec 32 := 0#32
  let c0_i32_56 : BitVec 32 := 0#32
  let c1_i32_58 : BitVec 32 := 1#32
  let arg13 : BitVec 32 := Scf.iv c0_i32_56 c1_i32_58 k1_t1
  let c1_i32_60 : BitVec 32 := 1#32
  let v101 : BitVec 32 := Scalar.muli arg13 c1_i32_60
  let v102 : BitVec 32 := Scalar.addi c0_i32_61 v101
  let c1_i32_87 : BitVec 32 := 1#32
  let v140 : BitVec 32 := Scalar.addi v102 c1_i32_87
  let c2_i32_88 : BitVec 32 := 2#32
  let v141 : BitVec 1 := Scalar.cmpi .slt v140 c2_i32_88
  let v142 : BitVec 32 := Scalar.extui v141
  let c0_i32_89 : BitVec 32 := 0#32
  let v143 : BitVec 1 := Scalar.cmpi .ne v142 c0_i32_89
  v143

def k1_off63 (i : grid1.Coords) (k1_t1 : Fin k1_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_61 : BitVec 32 := 0#32
  let c0_i32_56 : BitVec 32 := 0#32
  let c1_i32_58 : BitVec 32 := 1#32
  let arg13 : BitVec 32 := Scf.iv c0_i32_56 c1_i32_58 k1_t1
  let c1_i32_60 : BitVec 32 := 1#32
  let v101 : BitVec 32 := Scalar.muli arg13 c1_i32_60
  let v102 : BitVec 32 := Scalar.addi c0_i32_61 v101
  let c1_i32_87 : BitVec 32 := 1#32
  let v140 : BitVec 32 := Scalar.addi v102 c1_i32_87
  let v251 : BitVec 32 := Scalar.addi v2 v140
  let c0_i32_165 : BitVec 32 := 0#32
  let v253 : BitVec 1 := Scalar.cmpi .sgt v251 c0_i32_165
  let v254 : BitVec 32 := Scalar.extui v253
  let c0_i32_166 : BitVec 32 := 0#32
  let v255 : BitVec 1 := Scalar.cmpi .slt v251 c0_i32_166
  let v256 : BitVec 32 := Scalar.extui v255
  let v257 : BitVec 32 := Scalar.subi v254 v256
  let c32_i32_164 : BitVec 32 := 32#32
  let c0_i32_167 : BitVec 32 := 0#32
  let v258 : BitVec 1 := Scalar.cmpi .sgt c32_i32_164 c0_i32_167
  let v259 : BitVec 32 := Scalar.extui v258
  let c0_i32_168 : BitVec 32 := 0#32
  let v260 : BitVec 1 := Scalar.cmpi .slt c32_i32_164 c0_i32_168
  let v261 : BitVec 32 := Scalar.extui v260
  let v262 : BitVec 32 := Scalar.subi v259 v261
  let v263 : BitVec 1 := Scalar.cmpi .ne v257 v262
  let v264 : BitVec 32 := Scalar.remsi v251 c32_i32_164
  let c0_i32_169 : BitVec 32 := 0#32
  let v265 : BitVec 1 := Scalar.cmpi .ne v264 c0_i32_169
  let v266 : BitVec 1 := Scalar.andi v263 v265
  let v252 : BitVec 32 := Scalar.divsi v251 c32_i32_164
  let c1_i32_170 : BitVec 32 := 1#32
  let v267 : BitVec 32 := Scalar.subi v252 c1_i32_170
  let v268 : BitVec 32 := Scalar.select v266 v267 v252
  let c32_i32_171 : BitVec 32 := 32#32
  let c0_i32_172 : BitVec 32 := 0#32
  let v269 : BitVec 1 := Scalar.cmpi .eq c32_i32_171 c0_i32_172
  let c1_i32_173 : BitVec 32 := 1#32
  let v270 : BitVec 32 := Scalar.select v269 c1_i32_173 c32_i32_171
  let v271 : BitVec 32 := Scalar.remsi v251 v270
  let c0_i32_175 : BitVec 32 := 0#32
  let v273 : BitVec 1 := Scalar.cmpi .slt v271 c0_i32_175
  let c0_i32_176 : BitVec 32 := 0#32
  let v274 : BitVec 1 := Scalar.cmpi .slt v270 c0_i32_176
  let v275 : BitVec 1 := Scalar.xori v273 v274
  let c0_i32_174 : BitVec 32 := 0#32
  let v272 : BitVec 1 := Scalar.cmpi .ne v271 c0_i32_174
  let v276 : BitVec 1 := Scalar.andi v275 v272
  let v277 : BitVec 32 := Scalar.addi v271 v270
  let v278 : BitVec 32 := Scalar.select v276 v277 v271
  let c0_i32_177 : BitVec 32 := 0#32
  let c0_i32_178 : BitVec 32 := 0#32
  let c0_i32_179 : BitVec 32 := 0#32
  ![v268.toNat, v278.toNat, 0, 0, 0]
def k1_off64 (i : grid1.Coords) (k1_t1 : Fin k1_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_61 : BitVec 32 := 0#32
  let c0_i32_56 : BitVec 32 := 0#32
  let c1_i32_58 : BitVec 32 := 1#32
  let arg13 : BitVec 32 := Scf.iv c0_i32_56 c1_i32_58 k1_t1
  let c1_i32_60 : BitVec 32 := 1#32
  let v101 : BitVec 32 := Scalar.muli arg13 c1_i32_60
  let v102 : BitVec 32 := Scalar.addi c0_i32_61 v101
  let v144 : BitVec 32 := Scalar.addi v2 v102
  let c0_i32_91 : BitVec 32 := 0#32
  let v146 : BitVec 1 := Scalar.cmpi .sgt v144 c0_i32_91
  let v147 : BitVec 32 := Scalar.extui v146
  let c0_i32_92 : BitVec 32 := 0#32
  let v148 : BitVec 1 := Scalar.cmpi .slt v144 c0_i32_92
  let v149 : BitVec 32 := Scalar.extui v148
  let v150 : BitVec 32 := Scalar.subi v147 v149
  let c32_i32_90 : BitVec 32 := 32#32
  let c0_i32_93 : BitVec 32 := 0#32
  let v151 : BitVec 1 := Scalar.cmpi .sgt c32_i32_90 c0_i32_93
  let v152 : BitVec 32 := Scalar.extui v151
  let c0_i32_94 : BitVec 32 := 0#32
  let v153 : BitVec 1 := Scalar.cmpi .slt c32_i32_90 c0_i32_94
  let v154 : BitVec 32 := Scalar.extui v153
  let v155 : BitVec 32 := Scalar.subi v152 v154
  let v156 : BitVec 1 := Scalar.cmpi .ne v150 v155
  let v157 : BitVec 32 := Scalar.remsi v144 c32_i32_90
  let c0_i32_95 : BitVec 32 := 0#32
  let v158 : BitVec 1 := Scalar.cmpi .ne v157 c0_i32_95
  let v159 : BitVec 1 := Scalar.andi v156 v158
  let v145 : BitVec 32 := Scalar.divsi v144 c32_i32_90
  let c1_i32_96 : BitVec 32 := 1#32
  let v160 : BitVec 32 := Scalar.subi v145 c1_i32_96
  let v161 : BitVec 32 := Scalar.select v159 v160 v145
  let c32_i32_97 : BitVec 32 := 32#32
  let c0_i32_98 : BitVec 32 := 0#32
  let v162 : BitVec 1 := Scalar.cmpi .eq c32_i32_97 c0_i32_98
  let c1_i32_99 : BitVec 32 := 1#32
  let v163 : BitVec 32 := Scalar.select v162 c1_i32_99 c32_i32_97
  let v164 : BitVec 32 := Scalar.remsi v144 v163
  let c0_i32_101 : BitVec 32 := 0#32
  let v166 : BitVec 1 := Scalar.cmpi .slt v164 c0_i32_101
  let c0_i32_102 : BitVec 32 := 0#32
  let v167 : BitVec 1 := Scalar.cmpi .slt v163 c0_i32_102
  let v168 : BitVec 1 := Scalar.xori v166 v167
  let c0_i32_100 : BitVec 32 := 0#32
  let v165 : BitVec 1 := Scalar.cmpi .ne v164 c0_i32_100
  let v169 : BitVec 1 := Scalar.andi v168 v165
  let v170 : BitVec 32 := Scalar.addi v164 v163
  let v171 : BitVec 32 := Scalar.select v169 v170 v164
  let c4_i32_103 : BitVec 32 := 4#32
  let c0_i32_104 : BitVec 32 := 0#32
  let c0_i32_105 : BitVec 32 := 0#32
  ![v161.toNat, v171.toNat, 4, 0, 0]
@[reducible] def k1_t3_loop : Scf.Loop 32 :=
  let c0_i32_109 : BitVec 32 := 0#32
  let c24_i32_110 : BitVec 32 := 24#32
  let v176 : BitVec 32 := Scalar.addi c0_i32_109 c24_i32_110
  let c1_i32_111 : BitVec 32 := 1#32
  ⟨c0_i32_109, v176, c1_i32_111⟩
def k1_off65 (k1_t3 : Fin k1_t3_loop.trips) : Fin 3 → Nat :=
  let c0_i32_168 : BitVec 32 := 0#32
  let v257 : Index := Scalar.indexCast c0_i32_168
  let c1_i32_169 : BitVec 32 := 1#32
  let v258 : Index := Scalar.indexCast c1_i32_169
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_167 : BitVec 32 := 16#32
  let v256 : BitVec 32 := Scalar.muli v252 c16_i32_167
  let v259 : Index := Scalar.indexCast v256
  ![0, 1, v259.toNat]
def k1_off66 (k1_t3 : Fin k1_t3_loop.trips) : Fin 3 → Nat :=
  let c0_i32_171 : BitVec 32 := 0#32
  let v263 : Index := Scalar.indexCast c0_i32_171
  let c2_i32_172 : BitVec 32 := 2#32
  let v264 : Index := Scalar.indexCast c2_i32_172
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_170 : BitVec 32 := 16#32
  let v262 : BitVec 32 := Scalar.muli v252 c16_i32_170
  let v265 : Index := Scalar.indexCast v262
  ![0, 2, v265.toNat]
def k1_off67 (k1_t3 : Fin k1_t3_loop.trips) : Fin 3 → Nat :=
  let c0_i32_174 : BitVec 32 := 0#32
  let v269 : Index := Scalar.indexCast c0_i32_174
  let c3_i32 : BitVec 32 := 3#32
  let v270 : Index := Scalar.indexCast c3_i32
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_173 : BitVec 32 := 16#32
  let v268 : BitVec 32 := Scalar.muli v252 c16_i32_173
  let v271 : Index := Scalar.indexCast v268
  ![0, 3, v271.toNat]
def k1_off68 (k1_t3 : Fin k1_t3_loop.trips) : Fin 3 → Nat :=
  let c0_i32_176 : BitVec 32 := 0#32
  let v275 : Index := Scalar.indexCast c0_i32_176
  let c4_i32_177 : BitVec 32 := 4#32
  let v276 : Index := Scalar.indexCast c4_i32_177
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_175 : BitVec 32 := 16#32
  let v274 : BitVec 32 := Scalar.muli v252 c16_i32_175
  let v277 : Index := Scalar.indexCast v274
  ![0, 4, v277.toNat]
def k1_off69 (k1_t3 : Fin k1_t3_loop.trips) : Fin 3 → Nat :=
  let c0_i32_179 : BitVec 32 := 0#32
  let v281 : Index := Scalar.indexCast c0_i32_179
  let c5_i32 : BitVec 32 := 5#32
  let v282 : Index := Scalar.indexCast c5_i32
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_178 : BitVec 32 := 16#32
  let v280 : BitVec 32 := Scalar.muli v252 c16_i32_178
  let v283 : Index := Scalar.indexCast v280
  ![0, 5, v283.toNat]
def k1_off70 (k1_t3 : Fin k1_t3_loop.trips) : Fin 3 → Nat :=
  let c0_i32_181 : BitVec 32 := 0#32
  let v287 : Index := Scalar.indexCast c0_i32_181
  let c6_i32 : BitVec 32 := 6#32
  let v288 : Index := Scalar.indexCast c6_i32
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_180 : BitVec 32 := 16#32
  let v286 : BitVec 32 := Scalar.muli v252 c16_i32_180
  let v289 : Index := Scalar.indexCast v286
  ![0, 6, v289.toNat]
def k1_off71 (k1_t3 : Fin k1_t3_loop.trips) : Fin 3 → Nat :=
  let c0_i32_183 : BitVec 32 := 0#32
  let v293 : Index := Scalar.indexCast c0_i32_183
  let c7_i32 : BitVec 32 := 7#32
  let v294 : Index := Scalar.indexCast c7_i32
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_182 : BitVec 32 := 16#32
  let v292 : BitVec 32 := Scalar.muli v252 c16_i32_182
  let v295 : Index := Scalar.indexCast v292
  ![0, 7, v295.toNat]
def k1_off72 (k1_t3 : Fin k1_t3_loop.trips) : Fin 3 → Nat :=
  let c0_i32_185 : BitVec 32 := 0#32
  let v299 : Index := Scalar.indexCast c0_i32_185
  let c8_i32_186 : BitVec 32 := 8#32
  let v300 : Index := Scalar.indexCast c8_i32_186
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_184 : BitVec 32 := 16#32
  let v298 : BitVec 32 := Scalar.muli v252 c16_i32_184
  let v301 : Index := Scalar.indexCast v298
  ![0, 8, v301.toNat]
def k1_off73 (k1_t3 : Fin k1_t3_loop.trips) : Fin 3 → Nat :=
  let c0_i32_188 : BitVec 32 := 0#32
  let v305 : Index := Scalar.indexCast c0_i32_188
  let c9_i32 : BitVec 32 := 9#32
  let v306 : Index := Scalar.indexCast c9_i32
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_187 : BitVec 32 := 16#32
  let v304 : BitVec 32 := Scalar.muli v252 c16_i32_187
  let v307 : Index := Scalar.indexCast v304
  ![0, 9, v307.toNat]
def k1_off74 (k1_t3 : Fin k1_t3_loop.trips) : Fin 3 → Nat :=
  let c0_i32_190 : BitVec 32 := 0#32
  let v311 : Index := Scalar.indexCast c0_i32_190
  let c10_i32 : BitVec 32 := 10#32
  let v312 : Index := Scalar.indexCast c10_i32
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_189 : BitVec 32 := 16#32
  let v310 : BitVec 32 := Scalar.muli v252 c16_i32_189
  let v313 : Index := Scalar.indexCast v310
  ![0, 10, v313.toNat]
def k1_off75 (k1_t3 : Fin k1_t3_loop.trips) : Fin 3 → Nat :=
  let c0_i32_192 : BitVec 32 := 0#32
  let v317 : Index := Scalar.indexCast c0_i32_192
  let c11_i32 : BitVec 32 := 11#32
  let v318 : Index := Scalar.indexCast c11_i32
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_191 : BitVec 32 := 16#32
  let v316 : BitVec 32 := Scalar.muli v252 c16_i32_191
  let v319 : Index := Scalar.indexCast v316
  ![0, 11, v319.toNat]
def k1_off76 (k1_t3 : Fin k1_t3_loop.trips) : Fin 3 → Nat :=
  let c0_i32_194 : BitVec 32 := 0#32
  let v323 : Index := Scalar.indexCast c0_i32_194
  let c12_i32_195 : BitVec 32 := 12#32
  let v324 : Index := Scalar.indexCast c12_i32_195
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_193 : BitVec 32 := 16#32
  let v322 : BitVec 32 := Scalar.muli v252 c16_i32_193
  let v325 : Index := Scalar.indexCast v322
  ![0, 12, v325.toNat]
def k1_off77 (k1_t3 : Fin k1_t3_loop.trips) : Fin 3 → Nat :=
  let c0_i32_197 : BitVec 32 := 0#32
  let v329 : Index := Scalar.indexCast c0_i32_197
  let c13_i32 : BitVec 32 := 13#32
  let v330 : Index := Scalar.indexCast c13_i32
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_196 : BitVec 32 := 16#32
  let v328 : BitVec 32 := Scalar.muli v252 c16_i32_196
  let v331 : Index := Scalar.indexCast v328
  ![0, 13, v331.toNat]
def k1_off78 (k1_t3 : Fin k1_t3_loop.trips) : Fin 3 → Nat :=
  let c0_i32_199 : BitVec 32 := 0#32
  let v335 : Index := Scalar.indexCast c0_i32_199
  let c14_i32 : BitVec 32 := 14#32
  let v336 : Index := Scalar.indexCast c14_i32
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_198 : BitVec 32 := 16#32
  let v334 : BitVec 32 := Scalar.muli v252 c16_i32_198
  let v337 : Index := Scalar.indexCast v334
  ![0, 14, v337.toNat]
def k1_off79 (k1_t3 : Fin k1_t3_loop.trips) : Fin 3 → Nat :=
  let c1_i32_201 : BitVec 32 := 1#32
  let v341 : Index := Scalar.indexCast c1_i32_201
  let c1_i32_202 : BitVec 32 := 1#32
  let v342 : Index := Scalar.indexCast c1_i32_202
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_200 : BitVec 32 := 16#32
  let v340 : BitVec 32 := Scalar.muli v252 c16_i32_200
  let v343 : Index := Scalar.indexCast v340
  ![1, 1, v343.toNat]
def k1_off80 (k1_t3 : Fin k1_t3_loop.trips) : Fin 3 → Nat :=
  let c1_i32_204 : BitVec 32 := 1#32
  let v347 : Index := Scalar.indexCast c1_i32_204
  let c2_i32_205 : BitVec 32 := 2#32
  let v348 : Index := Scalar.indexCast c2_i32_205
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_203 : BitVec 32 := 16#32
  let v346 : BitVec 32 := Scalar.muli v252 c16_i32_203
  let v349 : Index := Scalar.indexCast v346
  ![1, 2, v349.toNat]
def k1_off81 (k1_t3 : Fin k1_t3_loop.trips) : Fin 3 → Nat :=
  let c1_i32_207 : BitVec 32 := 1#32
  let v353 : Index := Scalar.indexCast c1_i32_207
  let c3_i32_208 : BitVec 32 := 3#32
  let v354 : Index := Scalar.indexCast c3_i32_208
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_206 : BitVec 32 := 16#32
  let v352 : BitVec 32 := Scalar.muli v252 c16_i32_206
  let v355 : Index := Scalar.indexCast v352
  ![1, 3, v355.toNat]
def k1_off82 (k1_t3 : Fin k1_t3_loop.trips) : Fin 3 → Nat :=
  let c1_i32_210 : BitVec 32 := 1#32
  let v359 : Index := Scalar.indexCast c1_i32_210
  let c4_i32_211 : BitVec 32 := 4#32
  let v360 : Index := Scalar.indexCast c4_i32_211
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_209 : BitVec 32 := 16#32
  let v358 : BitVec 32 := Scalar.muli v252 c16_i32_209
  let v361 : Index := Scalar.indexCast v358
  ![1, 4, v361.toNat]
def k1_off83 (k1_t3 : Fin k1_t3_loop.trips) : Fin 3 → Nat :=
  let c1_i32_213 : BitVec 32 := 1#32
  let v365 : Index := Scalar.indexCast c1_i32_213
  let c5_i32_214 : BitVec 32 := 5#32
  let v366 : Index := Scalar.indexCast c5_i32_214
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_212 : BitVec 32 := 16#32
  let v364 : BitVec 32 := Scalar.muli v252 c16_i32_212
  let v367 : Index := Scalar.indexCast v364
  ![1, 5, v367.toNat]
def k1_off84 (k1_t3 : Fin k1_t3_loop.trips) : Fin 3 → Nat :=
  let c1_i32_216 : BitVec 32 := 1#32
  let v371 : Index := Scalar.indexCast c1_i32_216
  let c6_i32_217 : BitVec 32 := 6#32
  let v372 : Index := Scalar.indexCast c6_i32_217
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_215 : BitVec 32 := 16#32
  let v370 : BitVec 32 := Scalar.muli v252 c16_i32_215
  let v373 : Index := Scalar.indexCast v370
  ![1, 6, v373.toNat]
def k1_off85 (k1_t3 : Fin k1_t3_loop.trips) : Fin 3 → Nat :=
  let c1_i32_219 : BitVec 32 := 1#32
  let v377 : Index := Scalar.indexCast c1_i32_219
  let c7_i32_220 : BitVec 32 := 7#32
  let v378 : Index := Scalar.indexCast c7_i32_220
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_218 : BitVec 32 := 16#32
  let v376 : BitVec 32 := Scalar.muli v252 c16_i32_218
  let v379 : Index := Scalar.indexCast v376
  ![1, 7, v379.toNat]
def k1_off86 (k1_t3 : Fin k1_t3_loop.trips) : Fin 3 → Nat :=
  let c1_i32_222 : BitVec 32 := 1#32
  let v383 : Index := Scalar.indexCast c1_i32_222
  let c8_i32_223 : BitVec 32 := 8#32
  let v384 : Index := Scalar.indexCast c8_i32_223
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_221 : BitVec 32 := 16#32
  let v382 : BitVec 32 := Scalar.muli v252 c16_i32_221
  let v385 : Index := Scalar.indexCast v382
  ![1, 8, v385.toNat]
def k1_off87 (k1_t3 : Fin k1_t3_loop.trips) : Fin 3 → Nat :=
  let c1_i32_225 : BitVec 32 := 1#32
  let v389 : Index := Scalar.indexCast c1_i32_225
  let c9_i32_226 : BitVec 32 := 9#32
  let v390 : Index := Scalar.indexCast c9_i32_226
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_224 : BitVec 32 := 16#32
  let v388 : BitVec 32 := Scalar.muli v252 c16_i32_224
  let v391 : Index := Scalar.indexCast v388
  ![1, 9, v391.toNat]
def k1_off88 (k1_t3 : Fin k1_t3_loop.trips) : Fin 3 → Nat :=
  let c1_i32_228 : BitVec 32 := 1#32
  let v395 : Index := Scalar.indexCast c1_i32_228
  let c10_i32_229 : BitVec 32 := 10#32
  let v396 : Index := Scalar.indexCast c10_i32_229
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_227 : BitVec 32 := 16#32
  let v394 : BitVec 32 := Scalar.muli v252 c16_i32_227
  let v397 : Index := Scalar.indexCast v394
  ![1, 10, v397.toNat]
def k1_off89 (k1_t3 : Fin k1_t3_loop.trips) : Fin 3 → Nat :=
  let c1_i32_231 : BitVec 32 := 1#32
  let v401 : Index := Scalar.indexCast c1_i32_231
  let c11_i32_232 : BitVec 32 := 11#32
  let v402 : Index := Scalar.indexCast c11_i32_232
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_230 : BitVec 32 := 16#32
  let v400 : BitVec 32 := Scalar.muli v252 c16_i32_230
  let v403 : Index := Scalar.indexCast v400
  ![1, 11, v403.toNat]
def k1_off90 (k1_t3 : Fin k1_t3_loop.trips) : Fin 3 → Nat :=
  let c1_i32_234 : BitVec 32 := 1#32
  let v407 : Index := Scalar.indexCast c1_i32_234
  let c12_i32_235 : BitVec 32 := 12#32
  let v408 : Index := Scalar.indexCast c12_i32_235
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_233 : BitVec 32 := 16#32
  let v406 : BitVec 32 := Scalar.muli v252 c16_i32_233
  let v409 : Index := Scalar.indexCast v406
  ![1, 12, v409.toNat]
def k1_off91 (k1_t3 : Fin k1_t3_loop.trips) : Fin 3 → Nat :=
  let c1_i32_237 : BitVec 32 := 1#32
  let v413 : Index := Scalar.indexCast c1_i32_237
  let c13_i32_238 : BitVec 32 := 13#32
  let v414 : Index := Scalar.indexCast c13_i32_238
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_236 : BitVec 32 := 16#32
  let v412 : BitVec 32 := Scalar.muli v252 c16_i32_236
  let v415 : Index := Scalar.indexCast v412
  ![1, 13, v415.toNat]
def k1_off92 (k1_t3 : Fin k1_t3_loop.trips) : Fin 3 → Nat :=
  let c1_i32_240 : BitVec 32 := 1#32
  let v419 : Index := Scalar.indexCast c1_i32_240
  let c14_i32_241 : BitVec 32 := 14#32
  let v420 : Index := Scalar.indexCast c14_i32_241
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_239 : BitVec 32 := 16#32
  let v418 : BitVec 32 := Scalar.muli v252 c16_i32_239
  let v421 : Index := Scalar.indexCast v418
  ![1, 14, v421.toNat]
def k1_off93 (k1_t3 : Fin k1_t3_loop.trips) : Fin 3 → Nat :=
  let c2_i32_243 : BitVec 32 := 2#32
  let v425 : Index := Scalar.indexCast c2_i32_243
  let c1_i32_244 : BitVec 32 := 1#32
  let v426 : Index := Scalar.indexCast c1_i32_244
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_242 : BitVec 32 := 16#32
  let v424 : BitVec 32 := Scalar.muli v252 c16_i32_242
  let v427 : Index := Scalar.indexCast v424
  ![2, 1, v427.toNat]
def k1_off94 (k1_t3 : Fin k1_t3_loop.trips) : Fin 3 → Nat :=
  let c2_i32_246 : BitVec 32 := 2#32
  let v431 : Index := Scalar.indexCast c2_i32_246
  let c2_i32_247 : BitVec 32 := 2#32
  let v432 : Index := Scalar.indexCast c2_i32_247
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_245 : BitVec 32 := 16#32
  let v430 : BitVec 32 := Scalar.muli v252 c16_i32_245
  let v433 : Index := Scalar.indexCast v430
  ![2, 2, v433.toNat]
def k1_off95 (k1_t3 : Fin k1_t3_loop.trips) : Fin 3 → Nat :=
  let c2_i32_249 : BitVec 32 := 2#32
  let v437 : Index := Scalar.indexCast c2_i32_249
  let c3_i32_250 : BitVec 32 := 3#32
  let v438 : Index := Scalar.indexCast c3_i32_250
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_248 : BitVec 32 := 16#32
  let v436 : BitVec 32 := Scalar.muli v252 c16_i32_248
  let v439 : Index := Scalar.indexCast v436
  ![2, 3, v439.toNat]
def k1_off96 (k1_t3 : Fin k1_t3_loop.trips) : Fin 3 → Nat :=
  let c2_i32_252 : BitVec 32 := 2#32
  let v443 : Index := Scalar.indexCast c2_i32_252
  let c4_i32_253 : BitVec 32 := 4#32
  let v444 : Index := Scalar.indexCast c4_i32_253
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_251 : BitVec 32 := 16#32
  let v442 : BitVec 32 := Scalar.muli v252 c16_i32_251
  let v445 : Index := Scalar.indexCast v442
  ![2, 4, v445.toNat]
def k1_off97 (k1_t3 : Fin k1_t3_loop.trips) : Fin 3 → Nat :=
  let c2_i32_255 : BitVec 32 := 2#32
  let v449 : Index := Scalar.indexCast c2_i32_255
  let c5_i32_256 : BitVec 32 := 5#32
  let v450 : Index := Scalar.indexCast c5_i32_256
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_254 : BitVec 32 := 16#32
  let v448 : BitVec 32 := Scalar.muli v252 c16_i32_254
  let v451 : Index := Scalar.indexCast v448
  ![2, 5, v451.toNat]
def k1_off98 (k1_t3 : Fin k1_t3_loop.trips) : Fin 3 → Nat :=
  let c2_i32_258 : BitVec 32 := 2#32
  let v455 : Index := Scalar.indexCast c2_i32_258
  let c6_i32_259 : BitVec 32 := 6#32
  let v456 : Index := Scalar.indexCast c6_i32_259
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_257 : BitVec 32 := 16#32
  let v454 : BitVec 32 := Scalar.muli v252 c16_i32_257
  let v457 : Index := Scalar.indexCast v454
  ![2, 6, v457.toNat]
def k1_off99 (k1_t3 : Fin k1_t3_loop.trips) : Fin 3 → Nat :=
  let c2_i32_261 : BitVec 32 := 2#32
  let v461 : Index := Scalar.indexCast c2_i32_261
  let c7_i32_262 : BitVec 32 := 7#32
  let v462 : Index := Scalar.indexCast c7_i32_262
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_260 : BitVec 32 := 16#32
  let v460 : BitVec 32 := Scalar.muli v252 c16_i32_260
  let v463 : Index := Scalar.indexCast v460
  ![2, 7, v463.toNat]
def k1_off100 (k1_t3 : Fin k1_t3_loop.trips) : Fin 3 → Nat :=
  let c2_i32_264 : BitVec 32 := 2#32
  let v467 : Index := Scalar.indexCast c2_i32_264
  let c8_i32_265 : BitVec 32 := 8#32
  let v468 : Index := Scalar.indexCast c8_i32_265
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_263 : BitVec 32 := 16#32
  let v466 : BitVec 32 := Scalar.muli v252 c16_i32_263
  let v469 : Index := Scalar.indexCast v466
  ![2, 8, v469.toNat]
def k1_off101 (k1_t3 : Fin k1_t3_loop.trips) : Fin 3 → Nat :=
  let c2_i32_267 : BitVec 32 := 2#32
  let v473 : Index := Scalar.indexCast c2_i32_267
  let c9_i32_268 : BitVec 32 := 9#32
  let v474 : Index := Scalar.indexCast c9_i32_268
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_266 : BitVec 32 := 16#32
  let v472 : BitVec 32 := Scalar.muli v252 c16_i32_266
  let v475 : Index := Scalar.indexCast v472
  ![2, 9, v475.toNat]
def k1_off102 (k1_t3 : Fin k1_t3_loop.trips) : Fin 3 → Nat :=
  let c2_i32_270 : BitVec 32 := 2#32
  let v479 : Index := Scalar.indexCast c2_i32_270
  let c10_i32_271 : BitVec 32 := 10#32
  let v480 : Index := Scalar.indexCast c10_i32_271
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_269 : BitVec 32 := 16#32
  let v478 : BitVec 32 := Scalar.muli v252 c16_i32_269
  let v481 : Index := Scalar.indexCast v478
  ![2, 10, v481.toNat]
def k1_off103 (k1_t3 : Fin k1_t3_loop.trips) : Fin 3 → Nat :=
  let c2_i32_273 : BitVec 32 := 2#32
  let v485 : Index := Scalar.indexCast c2_i32_273
  let c11_i32_274 : BitVec 32 := 11#32
  let v486 : Index := Scalar.indexCast c11_i32_274
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_272 : BitVec 32 := 16#32
  let v484 : BitVec 32 := Scalar.muli v252 c16_i32_272
  let v487 : Index := Scalar.indexCast v484
  ![2, 11, v487.toNat]
def k1_off104 (k1_t3 : Fin k1_t3_loop.trips) : Fin 3 → Nat :=
  let c2_i32_276 : BitVec 32 := 2#32
  let v491 : Index := Scalar.indexCast c2_i32_276
  let c12_i32_277 : BitVec 32 := 12#32
  let v492 : Index := Scalar.indexCast c12_i32_277
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_275 : BitVec 32 := 16#32
  let v490 : BitVec 32 := Scalar.muli v252 c16_i32_275
  let v493 : Index := Scalar.indexCast v490
  ![2, 12, v493.toNat]
def k1_off105 (k1_t3 : Fin k1_t3_loop.trips) : Fin 3 → Nat :=
  let c2_i32_279 : BitVec 32 := 2#32
  let v497 : Index := Scalar.indexCast c2_i32_279
  let c13_i32_280 : BitVec 32 := 13#32
  let v498 : Index := Scalar.indexCast c13_i32_280
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_278 : BitVec 32 := 16#32
  let v496 : BitVec 32 := Scalar.muli v252 c16_i32_278
  let v499 : Index := Scalar.indexCast v496
  ![2, 13, v499.toNat]
def k1_off106 (k1_t3 : Fin k1_t3_loop.trips) : Fin 3 → Nat :=
  let c2_i32_282 : BitVec 32 := 2#32
  let v503 : Index := Scalar.indexCast c2_i32_282
  let c14_i32_283 : BitVec 32 := 14#32
  let v504 : Index := Scalar.indexCast c14_i32_283
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_281 : BitVec 32 := 16#32
  let v502 : BitVec 32 := Scalar.muli v252 c16_i32_281
  let v505 : Index := Scalar.indexCast v502
  ![2, 14, v505.toNat]
def k1_off107 (k1_t3 : Fin k1_t3_loop.trips) : Fin 3 → Nat :=
  let c3_i32_285 : BitVec 32 := 3#32
  let v509 : Index := Scalar.indexCast c3_i32_285
  let c1_i32_286 : BitVec 32 := 1#32
  let v510 : Index := Scalar.indexCast c1_i32_286
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_284 : BitVec 32 := 16#32
  let v508 : BitVec 32 := Scalar.muli v252 c16_i32_284
  let v511 : Index := Scalar.indexCast v508
  ![3, 1, v511.toNat]
def k1_off108 (k1_t3 : Fin k1_t3_loop.trips) : Fin 3 → Nat :=
  let c3_i32_288 : BitVec 32 := 3#32
  let v515 : Index := Scalar.indexCast c3_i32_288
  let c2_i32_289 : BitVec 32 := 2#32
  let v516 : Index := Scalar.indexCast c2_i32_289
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_287 : BitVec 32 := 16#32
  let v514 : BitVec 32 := Scalar.muli v252 c16_i32_287
  let v517 : Index := Scalar.indexCast v514
  ![3, 2, v517.toNat]
def k1_off109 (k1_t3 : Fin k1_t3_loop.trips) : Fin 3 → Nat :=
  let c3_i32_291 : BitVec 32 := 3#32
  let v521 : Index := Scalar.indexCast c3_i32_291
  let c3_i32_292 : BitVec 32 := 3#32
  let v522 : Index := Scalar.indexCast c3_i32_292
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_290 : BitVec 32 := 16#32
  let v520 : BitVec 32 := Scalar.muli v252 c16_i32_290
  let v523 : Index := Scalar.indexCast v520
  ![3, 3, v523.toNat]
def k1_off110 (k1_t3 : Fin k1_t3_loop.trips) : Fin 3 → Nat :=
  let c3_i32_294 : BitVec 32 := 3#32
  let v527 : Index := Scalar.indexCast c3_i32_294
  let c4_i32_295 : BitVec 32 := 4#32
  let v528 : Index := Scalar.indexCast c4_i32_295
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_293 : BitVec 32 := 16#32
  let v526 : BitVec 32 := Scalar.muli v252 c16_i32_293
  let v529 : Index := Scalar.indexCast v526
  ![3, 4, v529.toNat]
def k1_off111 (k1_t3 : Fin k1_t3_loop.trips) : Fin 3 → Nat :=
  let c3_i32_297 : BitVec 32 := 3#32
  let v533 : Index := Scalar.indexCast c3_i32_297
  let c5_i32_298 : BitVec 32 := 5#32
  let v534 : Index := Scalar.indexCast c5_i32_298
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_296 : BitVec 32 := 16#32
  let v532 : BitVec 32 := Scalar.muli v252 c16_i32_296
  let v535 : Index := Scalar.indexCast v532
  ![3, 5, v535.toNat]
def k1_off112 (k1_t3 : Fin k1_t3_loop.trips) : Fin 3 → Nat :=
  let c3_i32_300 : BitVec 32 := 3#32
  let v539 : Index := Scalar.indexCast c3_i32_300
  let c6_i32_301 : BitVec 32 := 6#32
  let v540 : Index := Scalar.indexCast c6_i32_301
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_299 : BitVec 32 := 16#32
  let v538 : BitVec 32 := Scalar.muli v252 c16_i32_299
  let v541 : Index := Scalar.indexCast v538
  ![3, 6, v541.toNat]
def k1_off113 (k1_t3 : Fin k1_t3_loop.trips) : Fin 3 → Nat :=
  let c3_i32_303 : BitVec 32 := 3#32
  let v545 : Index := Scalar.indexCast c3_i32_303
  let c7_i32_304 : BitVec 32 := 7#32
  let v546 : Index := Scalar.indexCast c7_i32_304
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_302 : BitVec 32 := 16#32
  let v544 : BitVec 32 := Scalar.muli v252 c16_i32_302
  let v547 : Index := Scalar.indexCast v544
  ![3, 7, v547.toNat]
def k1_off114 (k1_t3 : Fin k1_t3_loop.trips) : Fin 3 → Nat :=
  let c3_i32_306 : BitVec 32 := 3#32
  let v551 : Index := Scalar.indexCast c3_i32_306
  let c8_i32_307 : BitVec 32 := 8#32
  let v552 : Index := Scalar.indexCast c8_i32_307
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_305 : BitVec 32 := 16#32
  let v550 : BitVec 32 := Scalar.muli v252 c16_i32_305
  let v553 : Index := Scalar.indexCast v550
  ![3, 8, v553.toNat]
def k1_off115 (k1_t3 : Fin k1_t3_loop.trips) : Fin 3 → Nat :=
  let c3_i32_309 : BitVec 32 := 3#32
  let v557 : Index := Scalar.indexCast c3_i32_309
  let c9_i32_310 : BitVec 32 := 9#32
  let v558 : Index := Scalar.indexCast c9_i32_310
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_308 : BitVec 32 := 16#32
  let v556 : BitVec 32 := Scalar.muli v252 c16_i32_308
  let v559 : Index := Scalar.indexCast v556
  ![3, 9, v559.toNat]
def k1_off116 (k1_t3 : Fin k1_t3_loop.trips) : Fin 3 → Nat :=
  let c3_i32_312 : BitVec 32 := 3#32
  let v563 : Index := Scalar.indexCast c3_i32_312
  let c10_i32_313 : BitVec 32 := 10#32
  let v564 : Index := Scalar.indexCast c10_i32_313
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_311 : BitVec 32 := 16#32
  let v562 : BitVec 32 := Scalar.muli v252 c16_i32_311
  let v565 : Index := Scalar.indexCast v562
  ![3, 10, v565.toNat]
def k1_off117 (k1_t3 : Fin k1_t3_loop.trips) : Fin 3 → Nat :=
  let c3_i32_315 : BitVec 32 := 3#32
  let v569 : Index := Scalar.indexCast c3_i32_315
  let c11_i32_316 : BitVec 32 := 11#32
  let v570 : Index := Scalar.indexCast c11_i32_316
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_314 : BitVec 32 := 16#32
  let v568 : BitVec 32 := Scalar.muli v252 c16_i32_314
  let v571 : Index := Scalar.indexCast v568
  ![3, 11, v571.toNat]
def k1_off118 (k1_t3 : Fin k1_t3_loop.trips) : Fin 3 → Nat :=
  let c3_i32_318 : BitVec 32 := 3#32
  let v575 : Index := Scalar.indexCast c3_i32_318
  let c12_i32_319 : BitVec 32 := 12#32
  let v576 : Index := Scalar.indexCast c12_i32_319
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_317 : BitVec 32 := 16#32
  let v574 : BitVec 32 := Scalar.muli v252 c16_i32_317
  let v577 : Index := Scalar.indexCast v574
  ![3, 12, v577.toNat]
def k1_off119 (k1_t3 : Fin k1_t3_loop.trips) : Fin 3 → Nat :=
  let c3_i32_321 : BitVec 32 := 3#32
  let v581 : Index := Scalar.indexCast c3_i32_321
  let c13_i32_322 : BitVec 32 := 13#32
  let v582 : Index := Scalar.indexCast c13_i32_322
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_320 : BitVec 32 := 16#32
  let v580 : BitVec 32 := Scalar.muli v252 c16_i32_320
  let v583 : Index := Scalar.indexCast v580
  ![3, 13, v583.toNat]
def k1_off120 (k1_t3 : Fin k1_t3_loop.trips) : Fin 3 → Nat :=
  let c3_i32_324 : BitVec 32 := 3#32
  let v587 : Index := Scalar.indexCast c3_i32_324
  let c14_i32_325 : BitVec 32 := 14#32
  let v588 : Index := Scalar.indexCast c14_i32_325
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32_323 : BitVec 32 := 16#32
  let v586 : BitVec 32 := Scalar.muli v252 c16_i32_323
  let v589 : Index := Scalar.indexCast v586
  ![3, 14, v589.toNat]
def k1_off121 (k1_t1 : Fin k1_t1_loop.trips) (k1_t3 : Fin k1_t3_loop.trips) : Fin 1 → Nat :=
  let c0_i32_61 : BitVec 32 := 0#32
  let c0_i32_56 : BitVec 32 := 0#32
  let c1_i32_58 : BitVec 32 := 1#32
  let arg13 : BitVec 32 := Scf.iv c0_i32_56 c1_i32_58 k1_t1
  let c1_i32_60 : BitVec 32 := 1#32
  let v101 : BitVec 32 := Scalar.muli arg13 c1_i32_60
  let v102 : BitVec 32 := Scalar.addi c0_i32_61 v101
  let c384_i32_166 : BitVec 32 := 384#32
  let v253 : BitVec 32 := Scalar.muli v102 c384_i32_166
  let c0_i32_165 : BitVec 32 := 0#32
  let c0_i32_109 : BitVec 32 := 0#32
  let c1_i32_111 : BitVec 32 := 1#32
  let arg14 : BitVec 32 := Scf.iv c0_i32_109 c1_i32_111 k1_t3
  let c1_i32_164 : BitVec 32 := 1#32
  let v251 : BitVec 32 := Scalar.muli arg14 c1_i32_164
  let v252 : BitVec 32 := Scalar.addi c0_i32_165 v251
  let c16_i32 : BitVec 32 := 16#32
  let v254 : BitVec 32 := Scalar.muli v252 c16_i32
  let v255 : BitVec 32 := Scalar.addi v253 v254
  let v592 : Index := Scalar.indexCast v255
  ![v592.toNat]
def k1_cond3 (k1_t1 : Fin k1_t1_loop.trips) : BitVec 1 :=
  let c0_i32_61 : BitVec 32 := 0#32
  let c0_i32_56 : BitVec 32 := 0#32
  let c1_i32_58 : BitVec 32 := 1#32
  let arg13 : BitVec 32 := Scf.iv c0_i32_56 c1_i32_58 k1_t1
  let c1_i32_60 : BitVec 32 := 1#32
  let v101 : BitVec 32 := Scalar.muli arg13 c1_i32_60
  let v102 : BitVec 32 := Scalar.addi c0_i32_61 v101
  let c1_i32_113 : BitVec 32 := 1#32
  let v177 : BitVec 32 := Scalar.addi v102 c1_i32_113
  let c2_i32_114 : BitVec 32 := 2#32
  let v178 : BitVec 1 := Scalar.cmpi .slt v177 c2_i32_114
  let v179 : BitVec 32 := Scalar.extui v178
  let c0_i32_115 : BitVec 32 := 0#32
  let v180 : BitVec 1 := Scalar.cmpi .ne v179 c0_i32_115
  v180

def k1_off122 (i : grid1.Coords) (k1_t1 : Fin k1_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_61 : BitVec 32 := 0#32
  let c0_i32_56 : BitVec 32 := 0#32
  let c1_i32_58 : BitVec 32 := 1#32
  let arg13 : BitVec 32 := Scf.iv c0_i32_56 c1_i32_58 k1_t1
  let c1_i32_60 : BitVec 32 := 1#32
  let v101 : BitVec 32 := Scalar.muli arg13 c1_i32_60
  let v102 : BitVec 32 := Scalar.addi c0_i32_61 v101
  let c1_i32_113 : BitVec 32 := 1#32
  let v177 : BitVec 32 := Scalar.addi v102 c1_i32_113
  let v251 : BitVec 32 := Scalar.addi v2 v177
  let c0_i32_165 : BitVec 32 := 0#32
  let v253 : BitVec 1 := Scalar.cmpi .sgt v251 c0_i32_165
  let v254 : BitVec 32 := Scalar.extui v253
  let c0_i32_166 : BitVec 32 := 0#32
  let v255 : BitVec 1 := Scalar.cmpi .slt v251 c0_i32_166
  let v256 : BitVec 32 := Scalar.extui v255
  let v257 : BitVec 32 := Scalar.subi v254 v256
  let c32_i32_164 : BitVec 32 := 32#32
  let c0_i32_167 : BitVec 32 := 0#32
  let v258 : BitVec 1 := Scalar.cmpi .sgt c32_i32_164 c0_i32_167
  let v259 : BitVec 32 := Scalar.extui v258
  let c0_i32_168 : BitVec 32 := 0#32
  let v260 : BitVec 1 := Scalar.cmpi .slt c32_i32_164 c0_i32_168
  let v261 : BitVec 32 := Scalar.extui v260
  let v262 : BitVec 32 := Scalar.subi v259 v261
  let v263 : BitVec 1 := Scalar.cmpi .ne v257 v262
  let v264 : BitVec 32 := Scalar.remsi v251 c32_i32_164
  let c0_i32_169 : BitVec 32 := 0#32
  let v265 : BitVec 1 := Scalar.cmpi .ne v264 c0_i32_169
  let v266 : BitVec 1 := Scalar.andi v263 v265
  let v252 : BitVec 32 := Scalar.divsi v251 c32_i32_164
  let c1_i32_170 : BitVec 32 := 1#32
  let v267 : BitVec 32 := Scalar.subi v252 c1_i32_170
  let v268 : BitVec 32 := Scalar.select v266 v267 v252
  let c32_i32_171 : BitVec 32 := 32#32
  let c0_i32_172 : BitVec 32 := 0#32
  let v269 : BitVec 1 := Scalar.cmpi .eq c32_i32_171 c0_i32_172
  let c1_i32_173 : BitVec 32 := 1#32
  let v270 : BitVec 32 := Scalar.select v269 c1_i32_173 c32_i32_171
  let v271 : BitVec 32 := Scalar.remsi v251 v270
  let c0_i32_175 : BitVec 32 := 0#32
  let v273 : BitVec 1 := Scalar.cmpi .slt v271 c0_i32_175
  let c0_i32_176 : BitVec 32 := 0#32
  let v274 : BitVec 1 := Scalar.cmpi .slt v270 c0_i32_176
  let v275 : BitVec 1 := Scalar.xori v273 v274
  let c0_i32_174 : BitVec 32 := 0#32
  let v272 : BitVec 1 := Scalar.cmpi .ne v271 c0_i32_174
  let v276 : BitVec 1 := Scalar.andi v275 v272
  let v277 : BitVec 32 := Scalar.addi v271 v270
  let v278 : BitVec 32 := Scalar.select v276 v277 v271
  let c4_i32_177 : BitVec 32 := 4#32
  let c0_i32_178 : BitVec 32 := 0#32
  let c0_i32_179 : BitVec 32 := 0#32
  ![v268.toNat, v278.toNat, 4, 0, 0]
def k1_off123 (i : grid1.Coords) (k1_t1 : Fin k1_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_61 : BitVec 32 := 0#32
  let c0_i32_56 : BitVec 32 := 0#32
  let c1_i32_58 : BitVec 32 := 1#32
  let arg13 : BitVec 32 := Scf.iv c0_i32_56 c1_i32_58 k1_t1
  let c1_i32_60 : BitVec 32 := 1#32
  let v101 : BitVec 32 := Scalar.muli arg13 c1_i32_60
  let v102 : BitVec 32 := Scalar.addi c0_i32_61 v101
  let v181 : BitVec 32 := Scalar.addi v2 v102
  let c0_i32_117 : BitVec 32 := 0#32
  let v183 : BitVec 1 := Scalar.cmpi .sgt v181 c0_i32_117
  let v184 : BitVec 32 := Scalar.extui v183
  let c0_i32_118 : BitVec 32 := 0#32
  let v185 : BitVec 1 := Scalar.cmpi .slt v181 c0_i32_118
  let v186 : BitVec 32 := Scalar.extui v185
  let v187 : BitVec 32 := Scalar.subi v184 v186
  let c32_i32_116 : BitVec 32 := 32#32
  let c0_i32_119 : BitVec 32 := 0#32
  let v188 : BitVec 1 := Scalar.cmpi .sgt c32_i32_116 c0_i32_119
  let v189 : BitVec 32 := Scalar.extui v188
  let c0_i32_120 : BitVec 32 := 0#32
  let v190 : BitVec 1 := Scalar.cmpi .slt c32_i32_116 c0_i32_120
  let v191 : BitVec 32 := Scalar.extui v190
  let v192 : BitVec 32 := Scalar.subi v189 v191
  let v193 : BitVec 1 := Scalar.cmpi .ne v187 v192
  let v194 : BitVec 32 := Scalar.remsi v181 c32_i32_116
  let c0_i32_121 : BitVec 32 := 0#32
  let v195 : BitVec 1 := Scalar.cmpi .ne v194 c0_i32_121
  let v196 : BitVec 1 := Scalar.andi v193 v195
  let v182 : BitVec 32 := Scalar.divsi v181 c32_i32_116
  let c1_i32_122 : BitVec 32 := 1#32
  let v197 : BitVec 32 := Scalar.subi v182 c1_i32_122
  let v198 : BitVec 32 := Scalar.select v196 v197 v182
  let c32_i32_123 : BitVec 32 := 32#32
  let c0_i32_124 : BitVec 32 := 0#32
  let v199 : BitVec 1 := Scalar.cmpi .eq c32_i32_123 c0_i32_124
  let c1_i32_125 : BitVec 32 := 1#32
  let v200 : BitVec 32 := Scalar.select v199 c1_i32_125 c32_i32_123
  let v201 : BitVec 32 := Scalar.remsi v181 v200
  let c0_i32_127 : BitVec 32 := 0#32
  let v203 : BitVec 1 := Scalar.cmpi .slt v201 c0_i32_127
  let c0_i32_128 : BitVec 32 := 0#32
  let v204 : BitVec 1 := Scalar.cmpi .slt v200 c0_i32_128
  let v205 : BitVec 1 := Scalar.xori v203 v204
  let c0_i32_126 : BitVec 32 := 0#32
  let v202 : BitVec 1 := Scalar.cmpi .ne v201 c0_i32_126
  let v206 : BitVec 1 := Scalar.andi v205 v202
  let v207 : BitVec 32 := Scalar.addi v201 v200
  let v208 : BitVec 32 := Scalar.select v206 v207 v201
  let c8_i32_129 : BitVec 32 := 8#32
  let c0_i32_130 : BitVec 32 := 0#32
  let c0_i32_131 : BitVec 32 := 0#32
  ![v198.toNat, v208.toNat, 8, 0, 0]
@[reducible] def k1_t4_loop : Scf.Loop 32 :=
  let c0_i32_135 : BitVec 32 := 0#32
  let c24_i32_136 : BitVec 32 := 24#32
  let v213 : BitVec 32 := Scalar.addi c0_i32_135 c24_i32_136
  let c1_i32_137 : BitVec 32 := 1#32
  ⟨c0_i32_135, v213, c1_i32_137⟩
def k1_off124 (k1_t4 : Fin k1_t4_loop.trips) : Fin 3 → Nat :=
  let c0_i32_168 : BitVec 32 := 0#32
  let v257 : Index := Scalar.indexCast c0_i32_168
  let c1_i32_169 : BitVec 32 := 1#32
  let v258 : Index := Scalar.indexCast c1_i32_169
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_167 : BitVec 32 := 16#32
  let v256 : BitVec 32 := Scalar.muli v252 c16_i32_167
  let v259 : Index := Scalar.indexCast v256
  ![0, 1, v259.toNat]
def k1_off125 (k1_t4 : Fin k1_t4_loop.trips) : Fin 3 → Nat :=
  let c0_i32_171 : BitVec 32 := 0#32
  let v263 : Index := Scalar.indexCast c0_i32_171
  let c2_i32_172 : BitVec 32 := 2#32
  let v264 : Index := Scalar.indexCast c2_i32_172
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_170 : BitVec 32 := 16#32
  let v262 : BitVec 32 := Scalar.muli v252 c16_i32_170
  let v265 : Index := Scalar.indexCast v262
  ![0, 2, v265.toNat]
def k1_off126 (k1_t4 : Fin k1_t4_loop.trips) : Fin 3 → Nat :=
  let c0_i32_174 : BitVec 32 := 0#32
  let v269 : Index := Scalar.indexCast c0_i32_174
  let c3_i32 : BitVec 32 := 3#32
  let v270 : Index := Scalar.indexCast c3_i32
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_173 : BitVec 32 := 16#32
  let v268 : BitVec 32 := Scalar.muli v252 c16_i32_173
  let v271 : Index := Scalar.indexCast v268
  ![0, 3, v271.toNat]
def k1_off127 (k1_t4 : Fin k1_t4_loop.trips) : Fin 3 → Nat :=
  let c0_i32_176 : BitVec 32 := 0#32
  let v275 : Index := Scalar.indexCast c0_i32_176
  let c4_i32_177 : BitVec 32 := 4#32
  let v276 : Index := Scalar.indexCast c4_i32_177
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_175 : BitVec 32 := 16#32
  let v274 : BitVec 32 := Scalar.muli v252 c16_i32_175
  let v277 : Index := Scalar.indexCast v274
  ![0, 4, v277.toNat]
def k1_off128 (k1_t4 : Fin k1_t4_loop.trips) : Fin 3 → Nat :=
  let c0_i32_179 : BitVec 32 := 0#32
  let v281 : Index := Scalar.indexCast c0_i32_179
  let c5_i32 : BitVec 32 := 5#32
  let v282 : Index := Scalar.indexCast c5_i32
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_178 : BitVec 32 := 16#32
  let v280 : BitVec 32 := Scalar.muli v252 c16_i32_178
  let v283 : Index := Scalar.indexCast v280
  ![0, 5, v283.toNat]
def k1_off129 (k1_t4 : Fin k1_t4_loop.trips) : Fin 3 → Nat :=
  let c0_i32_181 : BitVec 32 := 0#32
  let v287 : Index := Scalar.indexCast c0_i32_181
  let c6_i32 : BitVec 32 := 6#32
  let v288 : Index := Scalar.indexCast c6_i32
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_180 : BitVec 32 := 16#32
  let v286 : BitVec 32 := Scalar.muli v252 c16_i32_180
  let v289 : Index := Scalar.indexCast v286
  ![0, 6, v289.toNat]
def k1_off130 (k1_t4 : Fin k1_t4_loop.trips) : Fin 3 → Nat :=
  let c0_i32_183 : BitVec 32 := 0#32
  let v293 : Index := Scalar.indexCast c0_i32_183
  let c7_i32 : BitVec 32 := 7#32
  let v294 : Index := Scalar.indexCast c7_i32
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_182 : BitVec 32 := 16#32
  let v292 : BitVec 32 := Scalar.muli v252 c16_i32_182
  let v295 : Index := Scalar.indexCast v292
  ![0, 7, v295.toNat]
def k1_off131 (k1_t4 : Fin k1_t4_loop.trips) : Fin 3 → Nat :=
  let c0_i32_185 : BitVec 32 := 0#32
  let v299 : Index := Scalar.indexCast c0_i32_185
  let c8_i32_186 : BitVec 32 := 8#32
  let v300 : Index := Scalar.indexCast c8_i32_186
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_184 : BitVec 32 := 16#32
  let v298 : BitVec 32 := Scalar.muli v252 c16_i32_184
  let v301 : Index := Scalar.indexCast v298
  ![0, 8, v301.toNat]
def k1_off132 (k1_t4 : Fin k1_t4_loop.trips) : Fin 3 → Nat :=
  let c0_i32_188 : BitVec 32 := 0#32
  let v305 : Index := Scalar.indexCast c0_i32_188
  let c9_i32 : BitVec 32 := 9#32
  let v306 : Index := Scalar.indexCast c9_i32
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_187 : BitVec 32 := 16#32
  let v304 : BitVec 32 := Scalar.muli v252 c16_i32_187
  let v307 : Index := Scalar.indexCast v304
  ![0, 9, v307.toNat]
def k1_off133 (k1_t4 : Fin k1_t4_loop.trips) : Fin 3 → Nat :=
  let c0_i32_190 : BitVec 32 := 0#32
  let v311 : Index := Scalar.indexCast c0_i32_190
  let c10_i32 : BitVec 32 := 10#32
  let v312 : Index := Scalar.indexCast c10_i32
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_189 : BitVec 32 := 16#32
  let v310 : BitVec 32 := Scalar.muli v252 c16_i32_189
  let v313 : Index := Scalar.indexCast v310
  ![0, 10, v313.toNat]
def k1_off134 (k1_t4 : Fin k1_t4_loop.trips) : Fin 3 → Nat :=
  let c0_i32_192 : BitVec 32 := 0#32
  let v317 : Index := Scalar.indexCast c0_i32_192
  let c11_i32 : BitVec 32 := 11#32
  let v318 : Index := Scalar.indexCast c11_i32
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_191 : BitVec 32 := 16#32
  let v316 : BitVec 32 := Scalar.muli v252 c16_i32_191
  let v319 : Index := Scalar.indexCast v316
  ![0, 11, v319.toNat]
def k1_off135 (k1_t4 : Fin k1_t4_loop.trips) : Fin 3 → Nat :=
  let c0_i32_194 : BitVec 32 := 0#32
  let v323 : Index := Scalar.indexCast c0_i32_194
  let c12_i32_195 : BitVec 32 := 12#32
  let v324 : Index := Scalar.indexCast c12_i32_195
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_193 : BitVec 32 := 16#32
  let v322 : BitVec 32 := Scalar.muli v252 c16_i32_193
  let v325 : Index := Scalar.indexCast v322
  ![0, 12, v325.toNat]
def k1_off136 (k1_t4 : Fin k1_t4_loop.trips) : Fin 3 → Nat :=
  let c0_i32_197 : BitVec 32 := 0#32
  let v329 : Index := Scalar.indexCast c0_i32_197
  let c13_i32 : BitVec 32 := 13#32
  let v330 : Index := Scalar.indexCast c13_i32
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_196 : BitVec 32 := 16#32
  let v328 : BitVec 32 := Scalar.muli v252 c16_i32_196
  let v331 : Index := Scalar.indexCast v328
  ![0, 13, v331.toNat]
def k1_off137 (k1_t4 : Fin k1_t4_loop.trips) : Fin 3 → Nat :=
  let c0_i32_199 : BitVec 32 := 0#32
  let v335 : Index := Scalar.indexCast c0_i32_199
  let c14_i32 : BitVec 32 := 14#32
  let v336 : Index := Scalar.indexCast c14_i32
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_198 : BitVec 32 := 16#32
  let v334 : BitVec 32 := Scalar.muli v252 c16_i32_198
  let v337 : Index := Scalar.indexCast v334
  ![0, 14, v337.toNat]
def k1_off138 (k1_t4 : Fin k1_t4_loop.trips) : Fin 3 → Nat :=
  let c1_i32_201 : BitVec 32 := 1#32
  let v341 : Index := Scalar.indexCast c1_i32_201
  let c1_i32_202 : BitVec 32 := 1#32
  let v342 : Index := Scalar.indexCast c1_i32_202
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_200 : BitVec 32 := 16#32
  let v340 : BitVec 32 := Scalar.muli v252 c16_i32_200
  let v343 : Index := Scalar.indexCast v340
  ![1, 1, v343.toNat]
def k1_off139 (k1_t4 : Fin k1_t4_loop.trips) : Fin 3 → Nat :=
  let c1_i32_204 : BitVec 32 := 1#32
  let v347 : Index := Scalar.indexCast c1_i32_204
  let c2_i32_205 : BitVec 32 := 2#32
  let v348 : Index := Scalar.indexCast c2_i32_205
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_203 : BitVec 32 := 16#32
  let v346 : BitVec 32 := Scalar.muli v252 c16_i32_203
  let v349 : Index := Scalar.indexCast v346
  ![1, 2, v349.toNat]
def k1_off140 (k1_t4 : Fin k1_t4_loop.trips) : Fin 3 → Nat :=
  let c1_i32_207 : BitVec 32 := 1#32
  let v353 : Index := Scalar.indexCast c1_i32_207
  let c3_i32_208 : BitVec 32 := 3#32
  let v354 : Index := Scalar.indexCast c3_i32_208
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_206 : BitVec 32 := 16#32
  let v352 : BitVec 32 := Scalar.muli v252 c16_i32_206
  let v355 : Index := Scalar.indexCast v352
  ![1, 3, v355.toNat]
def k1_off141 (k1_t4 : Fin k1_t4_loop.trips) : Fin 3 → Nat :=
  let c1_i32_210 : BitVec 32 := 1#32
  let v359 : Index := Scalar.indexCast c1_i32_210
  let c4_i32_211 : BitVec 32 := 4#32
  let v360 : Index := Scalar.indexCast c4_i32_211
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_209 : BitVec 32 := 16#32
  let v358 : BitVec 32 := Scalar.muli v252 c16_i32_209
  let v361 : Index := Scalar.indexCast v358
  ![1, 4, v361.toNat]
def k1_off142 (k1_t4 : Fin k1_t4_loop.trips) : Fin 3 → Nat :=
  let c1_i32_213 : BitVec 32 := 1#32
  let v365 : Index := Scalar.indexCast c1_i32_213
  let c5_i32_214 : BitVec 32 := 5#32
  let v366 : Index := Scalar.indexCast c5_i32_214
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_212 : BitVec 32 := 16#32
  let v364 : BitVec 32 := Scalar.muli v252 c16_i32_212
  let v367 : Index := Scalar.indexCast v364
  ![1, 5, v367.toNat]
def k1_off143 (k1_t4 : Fin k1_t4_loop.trips) : Fin 3 → Nat :=
  let c1_i32_216 : BitVec 32 := 1#32
  let v371 : Index := Scalar.indexCast c1_i32_216
  let c6_i32_217 : BitVec 32 := 6#32
  let v372 : Index := Scalar.indexCast c6_i32_217
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_215 : BitVec 32 := 16#32
  let v370 : BitVec 32 := Scalar.muli v252 c16_i32_215
  let v373 : Index := Scalar.indexCast v370
  ![1, 6, v373.toNat]
def k1_off144 (k1_t4 : Fin k1_t4_loop.trips) : Fin 3 → Nat :=
  let c1_i32_219 : BitVec 32 := 1#32
  let v377 : Index := Scalar.indexCast c1_i32_219
  let c7_i32_220 : BitVec 32 := 7#32
  let v378 : Index := Scalar.indexCast c7_i32_220
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_218 : BitVec 32 := 16#32
  let v376 : BitVec 32 := Scalar.muli v252 c16_i32_218
  let v379 : Index := Scalar.indexCast v376
  ![1, 7, v379.toNat]
def k1_off145 (k1_t4 : Fin k1_t4_loop.trips) : Fin 3 → Nat :=
  let c1_i32_222 : BitVec 32 := 1#32
  let v383 : Index := Scalar.indexCast c1_i32_222
  let c8_i32_223 : BitVec 32 := 8#32
  let v384 : Index := Scalar.indexCast c8_i32_223
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_221 : BitVec 32 := 16#32
  let v382 : BitVec 32 := Scalar.muli v252 c16_i32_221
  let v385 : Index := Scalar.indexCast v382
  ![1, 8, v385.toNat]
def k1_off146 (k1_t4 : Fin k1_t4_loop.trips) : Fin 3 → Nat :=
  let c1_i32_225 : BitVec 32 := 1#32
  let v389 : Index := Scalar.indexCast c1_i32_225
  let c9_i32_226 : BitVec 32 := 9#32
  let v390 : Index := Scalar.indexCast c9_i32_226
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_224 : BitVec 32 := 16#32
  let v388 : BitVec 32 := Scalar.muli v252 c16_i32_224
  let v391 : Index := Scalar.indexCast v388
  ![1, 9, v391.toNat]
def k1_off147 (k1_t4 : Fin k1_t4_loop.trips) : Fin 3 → Nat :=
  let c1_i32_228 : BitVec 32 := 1#32
  let v395 : Index := Scalar.indexCast c1_i32_228
  let c10_i32_229 : BitVec 32 := 10#32
  let v396 : Index := Scalar.indexCast c10_i32_229
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_227 : BitVec 32 := 16#32
  let v394 : BitVec 32 := Scalar.muli v252 c16_i32_227
  let v397 : Index := Scalar.indexCast v394
  ![1, 10, v397.toNat]
def k1_off148 (k1_t4 : Fin k1_t4_loop.trips) : Fin 3 → Nat :=
  let c1_i32_231 : BitVec 32 := 1#32
  let v401 : Index := Scalar.indexCast c1_i32_231
  let c11_i32_232 : BitVec 32 := 11#32
  let v402 : Index := Scalar.indexCast c11_i32_232
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_230 : BitVec 32 := 16#32
  let v400 : BitVec 32 := Scalar.muli v252 c16_i32_230
  let v403 : Index := Scalar.indexCast v400
  ![1, 11, v403.toNat]
def k1_off149 (k1_t4 : Fin k1_t4_loop.trips) : Fin 3 → Nat :=
  let c1_i32_234 : BitVec 32 := 1#32
  let v407 : Index := Scalar.indexCast c1_i32_234
  let c12_i32_235 : BitVec 32 := 12#32
  let v408 : Index := Scalar.indexCast c12_i32_235
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_233 : BitVec 32 := 16#32
  let v406 : BitVec 32 := Scalar.muli v252 c16_i32_233
  let v409 : Index := Scalar.indexCast v406
  ![1, 12, v409.toNat]
def k1_off150 (k1_t4 : Fin k1_t4_loop.trips) : Fin 3 → Nat :=
  let c1_i32_237 : BitVec 32 := 1#32
  let v413 : Index := Scalar.indexCast c1_i32_237
  let c13_i32_238 : BitVec 32 := 13#32
  let v414 : Index := Scalar.indexCast c13_i32_238
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_236 : BitVec 32 := 16#32
  let v412 : BitVec 32 := Scalar.muli v252 c16_i32_236
  let v415 : Index := Scalar.indexCast v412
  ![1, 13, v415.toNat]
def k1_off151 (k1_t4 : Fin k1_t4_loop.trips) : Fin 3 → Nat :=
  let c1_i32_240 : BitVec 32 := 1#32
  let v419 : Index := Scalar.indexCast c1_i32_240
  let c14_i32_241 : BitVec 32 := 14#32
  let v420 : Index := Scalar.indexCast c14_i32_241
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_239 : BitVec 32 := 16#32
  let v418 : BitVec 32 := Scalar.muli v252 c16_i32_239
  let v421 : Index := Scalar.indexCast v418
  ![1, 14, v421.toNat]
def k1_off152 (k1_t4 : Fin k1_t4_loop.trips) : Fin 3 → Nat :=
  let c2_i32_243 : BitVec 32 := 2#32
  let v425 : Index := Scalar.indexCast c2_i32_243
  let c1_i32_244 : BitVec 32 := 1#32
  let v426 : Index := Scalar.indexCast c1_i32_244
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_242 : BitVec 32 := 16#32
  let v424 : BitVec 32 := Scalar.muli v252 c16_i32_242
  let v427 : Index := Scalar.indexCast v424
  ![2, 1, v427.toNat]
def k1_off153 (k1_t4 : Fin k1_t4_loop.trips) : Fin 3 → Nat :=
  let c2_i32_246 : BitVec 32 := 2#32
  let v431 : Index := Scalar.indexCast c2_i32_246
  let c2_i32_247 : BitVec 32 := 2#32
  let v432 : Index := Scalar.indexCast c2_i32_247
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_245 : BitVec 32 := 16#32
  let v430 : BitVec 32 := Scalar.muli v252 c16_i32_245
  let v433 : Index := Scalar.indexCast v430
  ![2, 2, v433.toNat]
def k1_off154 (k1_t4 : Fin k1_t4_loop.trips) : Fin 3 → Nat :=
  let c2_i32_249 : BitVec 32 := 2#32
  let v437 : Index := Scalar.indexCast c2_i32_249
  let c3_i32_250 : BitVec 32 := 3#32
  let v438 : Index := Scalar.indexCast c3_i32_250
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_248 : BitVec 32 := 16#32
  let v436 : BitVec 32 := Scalar.muli v252 c16_i32_248
  let v439 : Index := Scalar.indexCast v436
  ![2, 3, v439.toNat]
def k1_off155 (k1_t4 : Fin k1_t4_loop.trips) : Fin 3 → Nat :=
  let c2_i32_252 : BitVec 32 := 2#32
  let v443 : Index := Scalar.indexCast c2_i32_252
  let c4_i32_253 : BitVec 32 := 4#32
  let v444 : Index := Scalar.indexCast c4_i32_253
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_251 : BitVec 32 := 16#32
  let v442 : BitVec 32 := Scalar.muli v252 c16_i32_251
  let v445 : Index := Scalar.indexCast v442
  ![2, 4, v445.toNat]
def k1_off156 (k1_t4 : Fin k1_t4_loop.trips) : Fin 3 → Nat :=
  let c2_i32_255 : BitVec 32 := 2#32
  let v449 : Index := Scalar.indexCast c2_i32_255
  let c5_i32_256 : BitVec 32 := 5#32
  let v450 : Index := Scalar.indexCast c5_i32_256
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_254 : BitVec 32 := 16#32
  let v448 : BitVec 32 := Scalar.muli v252 c16_i32_254
  let v451 : Index := Scalar.indexCast v448
  ![2, 5, v451.toNat]
def k1_off157 (k1_t4 : Fin k1_t4_loop.trips) : Fin 3 → Nat :=
  let c2_i32_258 : BitVec 32 := 2#32
  let v455 : Index := Scalar.indexCast c2_i32_258
  let c6_i32_259 : BitVec 32 := 6#32
  let v456 : Index := Scalar.indexCast c6_i32_259
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_257 : BitVec 32 := 16#32
  let v454 : BitVec 32 := Scalar.muli v252 c16_i32_257
  let v457 : Index := Scalar.indexCast v454
  ![2, 6, v457.toNat]
def k1_off158 (k1_t4 : Fin k1_t4_loop.trips) : Fin 3 → Nat :=
  let c2_i32_261 : BitVec 32 := 2#32
  let v461 : Index := Scalar.indexCast c2_i32_261
  let c7_i32_262 : BitVec 32 := 7#32
  let v462 : Index := Scalar.indexCast c7_i32_262
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_260 : BitVec 32 := 16#32
  let v460 : BitVec 32 := Scalar.muli v252 c16_i32_260
  let v463 : Index := Scalar.indexCast v460
  ![2, 7, v463.toNat]
def k1_off159 (k1_t4 : Fin k1_t4_loop.trips) : Fin 3 → Nat :=
  let c2_i32_264 : BitVec 32 := 2#32
  let v467 : Index := Scalar.indexCast c2_i32_264
  let c8_i32_265 : BitVec 32 := 8#32
  let v468 : Index := Scalar.indexCast c8_i32_265
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_263 : BitVec 32 := 16#32
  let v466 : BitVec 32 := Scalar.muli v252 c16_i32_263
  let v469 : Index := Scalar.indexCast v466
  ![2, 8, v469.toNat]
def k1_off160 (k1_t4 : Fin k1_t4_loop.trips) : Fin 3 → Nat :=
  let c2_i32_267 : BitVec 32 := 2#32
  let v473 : Index := Scalar.indexCast c2_i32_267
  let c9_i32_268 : BitVec 32 := 9#32
  let v474 : Index := Scalar.indexCast c9_i32_268
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_266 : BitVec 32 := 16#32
  let v472 : BitVec 32 := Scalar.muli v252 c16_i32_266
  let v475 : Index := Scalar.indexCast v472
  ![2, 9, v475.toNat]
def k1_off161 (k1_t4 : Fin k1_t4_loop.trips) : Fin 3 → Nat :=
  let c2_i32_270 : BitVec 32 := 2#32
  let v479 : Index := Scalar.indexCast c2_i32_270
  let c10_i32_271 : BitVec 32 := 10#32
  let v480 : Index := Scalar.indexCast c10_i32_271
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_269 : BitVec 32 := 16#32
  let v478 : BitVec 32 := Scalar.muli v252 c16_i32_269
  let v481 : Index := Scalar.indexCast v478
  ![2, 10, v481.toNat]
def k1_off162 (k1_t4 : Fin k1_t4_loop.trips) : Fin 3 → Nat :=
  let c2_i32_273 : BitVec 32 := 2#32
  let v485 : Index := Scalar.indexCast c2_i32_273
  let c11_i32_274 : BitVec 32 := 11#32
  let v486 : Index := Scalar.indexCast c11_i32_274
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_272 : BitVec 32 := 16#32
  let v484 : BitVec 32 := Scalar.muli v252 c16_i32_272
  let v487 : Index := Scalar.indexCast v484
  ![2, 11, v487.toNat]
def k1_off163 (k1_t4 : Fin k1_t4_loop.trips) : Fin 3 → Nat :=
  let c2_i32_276 : BitVec 32 := 2#32
  let v491 : Index := Scalar.indexCast c2_i32_276
  let c12_i32_277 : BitVec 32 := 12#32
  let v492 : Index := Scalar.indexCast c12_i32_277
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_275 : BitVec 32 := 16#32
  let v490 : BitVec 32 := Scalar.muli v252 c16_i32_275
  let v493 : Index := Scalar.indexCast v490
  ![2, 12, v493.toNat]
def k1_off164 (k1_t4 : Fin k1_t4_loop.trips) : Fin 3 → Nat :=
  let c2_i32_279 : BitVec 32 := 2#32
  let v497 : Index := Scalar.indexCast c2_i32_279
  let c13_i32_280 : BitVec 32 := 13#32
  let v498 : Index := Scalar.indexCast c13_i32_280
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_278 : BitVec 32 := 16#32
  let v496 : BitVec 32 := Scalar.muli v252 c16_i32_278
  let v499 : Index := Scalar.indexCast v496
  ![2, 13, v499.toNat]
def k1_off165 (k1_t4 : Fin k1_t4_loop.trips) : Fin 3 → Nat :=
  let c2_i32_282 : BitVec 32 := 2#32
  let v503 : Index := Scalar.indexCast c2_i32_282
  let c14_i32_283 : BitVec 32 := 14#32
  let v504 : Index := Scalar.indexCast c14_i32_283
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_281 : BitVec 32 := 16#32
  let v502 : BitVec 32 := Scalar.muli v252 c16_i32_281
  let v505 : Index := Scalar.indexCast v502
  ![2, 14, v505.toNat]
def k1_off166 (k1_t4 : Fin k1_t4_loop.trips) : Fin 3 → Nat :=
  let c3_i32_285 : BitVec 32 := 3#32
  let v509 : Index := Scalar.indexCast c3_i32_285
  let c1_i32_286 : BitVec 32 := 1#32
  let v510 : Index := Scalar.indexCast c1_i32_286
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_284 : BitVec 32 := 16#32
  let v508 : BitVec 32 := Scalar.muli v252 c16_i32_284
  let v511 : Index := Scalar.indexCast v508
  ![3, 1, v511.toNat]
def k1_off167 (k1_t4 : Fin k1_t4_loop.trips) : Fin 3 → Nat :=
  let c3_i32_288 : BitVec 32 := 3#32
  let v515 : Index := Scalar.indexCast c3_i32_288
  let c2_i32_289 : BitVec 32 := 2#32
  let v516 : Index := Scalar.indexCast c2_i32_289
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_287 : BitVec 32 := 16#32
  let v514 : BitVec 32 := Scalar.muli v252 c16_i32_287
  let v517 : Index := Scalar.indexCast v514
  ![3, 2, v517.toNat]
def k1_off168 (k1_t4 : Fin k1_t4_loop.trips) : Fin 3 → Nat :=
  let c3_i32_291 : BitVec 32 := 3#32
  let v521 : Index := Scalar.indexCast c3_i32_291
  let c3_i32_292 : BitVec 32 := 3#32
  let v522 : Index := Scalar.indexCast c3_i32_292
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_290 : BitVec 32 := 16#32
  let v520 : BitVec 32 := Scalar.muli v252 c16_i32_290
  let v523 : Index := Scalar.indexCast v520
  ![3, 3, v523.toNat]
def k1_off169 (k1_t4 : Fin k1_t4_loop.trips) : Fin 3 → Nat :=
  let c3_i32_294 : BitVec 32 := 3#32
  let v527 : Index := Scalar.indexCast c3_i32_294
  let c4_i32_295 : BitVec 32 := 4#32
  let v528 : Index := Scalar.indexCast c4_i32_295
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_293 : BitVec 32 := 16#32
  let v526 : BitVec 32 := Scalar.muli v252 c16_i32_293
  let v529 : Index := Scalar.indexCast v526
  ![3, 4, v529.toNat]
def k1_off170 (k1_t4 : Fin k1_t4_loop.trips) : Fin 3 → Nat :=
  let c3_i32_297 : BitVec 32 := 3#32
  let v533 : Index := Scalar.indexCast c3_i32_297
  let c5_i32_298 : BitVec 32 := 5#32
  let v534 : Index := Scalar.indexCast c5_i32_298
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_296 : BitVec 32 := 16#32
  let v532 : BitVec 32 := Scalar.muli v252 c16_i32_296
  let v535 : Index := Scalar.indexCast v532
  ![3, 5, v535.toNat]
def k1_off171 (k1_t4 : Fin k1_t4_loop.trips) : Fin 3 → Nat :=
  let c3_i32_300 : BitVec 32 := 3#32
  let v539 : Index := Scalar.indexCast c3_i32_300
  let c6_i32_301 : BitVec 32 := 6#32
  let v540 : Index := Scalar.indexCast c6_i32_301
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_299 : BitVec 32 := 16#32
  let v538 : BitVec 32 := Scalar.muli v252 c16_i32_299
  let v541 : Index := Scalar.indexCast v538
  ![3, 6, v541.toNat]
def k1_off172 (k1_t4 : Fin k1_t4_loop.trips) : Fin 3 → Nat :=
  let c3_i32_303 : BitVec 32 := 3#32
  let v545 : Index := Scalar.indexCast c3_i32_303
  let c7_i32_304 : BitVec 32 := 7#32
  let v546 : Index := Scalar.indexCast c7_i32_304
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_302 : BitVec 32 := 16#32
  let v544 : BitVec 32 := Scalar.muli v252 c16_i32_302
  let v547 : Index := Scalar.indexCast v544
  ![3, 7, v547.toNat]
def k1_off173 (k1_t4 : Fin k1_t4_loop.trips) : Fin 3 → Nat :=
  let c3_i32_306 : BitVec 32 := 3#32
  let v551 : Index := Scalar.indexCast c3_i32_306
  let c8_i32_307 : BitVec 32 := 8#32
  let v552 : Index := Scalar.indexCast c8_i32_307
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_305 : BitVec 32 := 16#32
  let v550 : BitVec 32 := Scalar.muli v252 c16_i32_305
  let v553 : Index := Scalar.indexCast v550
  ![3, 8, v553.toNat]
def k1_off174 (k1_t4 : Fin k1_t4_loop.trips) : Fin 3 → Nat :=
  let c3_i32_309 : BitVec 32 := 3#32
  let v557 : Index := Scalar.indexCast c3_i32_309
  let c9_i32_310 : BitVec 32 := 9#32
  let v558 : Index := Scalar.indexCast c9_i32_310
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_308 : BitVec 32 := 16#32
  let v556 : BitVec 32 := Scalar.muli v252 c16_i32_308
  let v559 : Index := Scalar.indexCast v556
  ![3, 9, v559.toNat]
def k1_off175 (k1_t4 : Fin k1_t4_loop.trips) : Fin 3 → Nat :=
  let c3_i32_312 : BitVec 32 := 3#32
  let v563 : Index := Scalar.indexCast c3_i32_312
  let c10_i32_313 : BitVec 32 := 10#32
  let v564 : Index := Scalar.indexCast c10_i32_313
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_311 : BitVec 32 := 16#32
  let v562 : BitVec 32 := Scalar.muli v252 c16_i32_311
  let v565 : Index := Scalar.indexCast v562
  ![3, 10, v565.toNat]
def k1_off176 (k1_t4 : Fin k1_t4_loop.trips) : Fin 3 → Nat :=
  let c3_i32_315 : BitVec 32 := 3#32
  let v569 : Index := Scalar.indexCast c3_i32_315
  let c11_i32_316 : BitVec 32 := 11#32
  let v570 : Index := Scalar.indexCast c11_i32_316
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_314 : BitVec 32 := 16#32
  let v568 : BitVec 32 := Scalar.muli v252 c16_i32_314
  let v571 : Index := Scalar.indexCast v568
  ![3, 11, v571.toNat]
def k1_off177 (k1_t4 : Fin k1_t4_loop.trips) : Fin 3 → Nat :=
  let c3_i32_318 : BitVec 32 := 3#32
  let v575 : Index := Scalar.indexCast c3_i32_318
  let c12_i32_319 : BitVec 32 := 12#32
  let v576 : Index := Scalar.indexCast c12_i32_319
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_317 : BitVec 32 := 16#32
  let v574 : BitVec 32 := Scalar.muli v252 c16_i32_317
  let v577 : Index := Scalar.indexCast v574
  ![3, 12, v577.toNat]
def k1_off178 (k1_t4 : Fin k1_t4_loop.trips) : Fin 3 → Nat :=
  let c3_i32_321 : BitVec 32 := 3#32
  let v581 : Index := Scalar.indexCast c3_i32_321
  let c13_i32_322 : BitVec 32 := 13#32
  let v582 : Index := Scalar.indexCast c13_i32_322
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_320 : BitVec 32 := 16#32
  let v580 : BitVec 32 := Scalar.muli v252 c16_i32_320
  let v583 : Index := Scalar.indexCast v580
  ![3, 13, v583.toNat]
def k1_off179 (k1_t4 : Fin k1_t4_loop.trips) : Fin 3 → Nat :=
  let c3_i32_324 : BitVec 32 := 3#32
  let v587 : Index := Scalar.indexCast c3_i32_324
  let c14_i32_325 : BitVec 32 := 14#32
  let v588 : Index := Scalar.indexCast c14_i32_325
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32_323 : BitVec 32 := 16#32
  let v586 : BitVec 32 := Scalar.muli v252 c16_i32_323
  let v589 : Index := Scalar.indexCast v586
  ![3, 14, v589.toNat]
def k1_off180 (k1_t1 : Fin k1_t1_loop.trips) (k1_t4 : Fin k1_t4_loop.trips) : Fin 1 → Nat :=
  let c0_i32_61 : BitVec 32 := 0#32
  let c0_i32_56 : BitVec 32 := 0#32
  let c1_i32_58 : BitVec 32 := 1#32
  let arg13 : BitVec 32 := Scf.iv c0_i32_56 c1_i32_58 k1_t1
  let c1_i32_60 : BitVec 32 := 1#32
  let v101 : BitVec 32 := Scalar.muli arg13 c1_i32_60
  let v102 : BitVec 32 := Scalar.addi c0_i32_61 v101
  let c384_i32_166 : BitVec 32 := 384#32
  let v253 : BitVec 32 := Scalar.muli v102 c384_i32_166
  let c0_i32_165 : BitVec 32 := 0#32
  let c0_i32_135 : BitVec 32 := 0#32
  let c1_i32_137 : BitVec 32 := 1#32
  let arg14 : BitVec 32 := Scf.iv c0_i32_135 c1_i32_137 k1_t4
  let c1_i32_164 : BitVec 32 := 1#32
  let v251 : BitVec 32 := Scalar.muli arg14 c1_i32_164
  let v252 : BitVec 32 := Scalar.addi c0_i32_165 v251
  let c16_i32 : BitVec 32 := 16#32
  let v254 : BitVec 32 := Scalar.muli v252 c16_i32
  let v255 : BitVec 32 := Scalar.addi v253 v254
  let v592 : Index := Scalar.indexCast v255
  ![v592.toNat]
def k1_cond4 (k1_t1 : Fin k1_t1_loop.trips) : BitVec 1 :=
  let c0_i32_61 : BitVec 32 := 0#32
  let c0_i32_56 : BitVec 32 := 0#32
  let c1_i32_58 : BitVec 32 := 1#32
  let arg13 : BitVec 32 := Scf.iv c0_i32_56 c1_i32_58 k1_t1
  let c1_i32_60 : BitVec 32 := 1#32
  let v101 : BitVec 32 := Scalar.muli arg13 c1_i32_60
  let v102 : BitVec 32 := Scalar.addi c0_i32_61 v101
  let c1_i32_139 : BitVec 32 := 1#32
  let v214 : BitVec 32 := Scalar.addi v102 c1_i32_139
  let c2_i32_140 : BitVec 32 := 2#32
  let v215 : BitVec 1 := Scalar.cmpi .slt v214 c2_i32_140
  let v216 : BitVec 32 := Scalar.extui v215
  let c0_i32_141 : BitVec 32 := 0#32
  let v217 : BitVec 1 := Scalar.cmpi .ne v216 c0_i32_141
  v217

def k1_off181 (i : grid1.Coords) (k1_t1 : Fin k1_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_61 : BitVec 32 := 0#32
  let c0_i32_56 : BitVec 32 := 0#32
  let c1_i32_58 : BitVec 32 := 1#32
  let arg13 : BitVec 32 := Scf.iv c0_i32_56 c1_i32_58 k1_t1
  let c1_i32_60 : BitVec 32 := 1#32
  let v101 : BitVec 32 := Scalar.muli arg13 c1_i32_60
  let v102 : BitVec 32 := Scalar.addi c0_i32_61 v101
  let c1_i32_139 : BitVec 32 := 1#32
  let v214 : BitVec 32 := Scalar.addi v102 c1_i32_139
  let v251 : BitVec 32 := Scalar.addi v2 v214
  let c0_i32_165 : BitVec 32 := 0#32
  let v253 : BitVec 1 := Scalar.cmpi .sgt v251 c0_i32_165
  let v254 : BitVec 32 := Scalar.extui v253
  let c0_i32_166 : BitVec 32 := 0#32
  let v255 : BitVec 1 := Scalar.cmpi .slt v251 c0_i32_166
  let v256 : BitVec 32 := Scalar.extui v255
  let v257 : BitVec 32 := Scalar.subi v254 v256
  let c32_i32_164 : BitVec 32 := 32#32
  let c0_i32_167 : BitVec 32 := 0#32
  let v258 : BitVec 1 := Scalar.cmpi .sgt c32_i32_164 c0_i32_167
  let v259 : BitVec 32 := Scalar.extui v258
  let c0_i32_168 : BitVec 32 := 0#32
  let v260 : BitVec 1 := Scalar.cmpi .slt c32_i32_164 c0_i32_168
  let v261 : BitVec 32 := Scalar.extui v260
  let v262 : BitVec 32 := Scalar.subi v259 v261
  let v263 : BitVec 1 := Scalar.cmpi .ne v257 v262
  let v264 : BitVec 32 := Scalar.remsi v251 c32_i32_164
  let c0_i32_169 : BitVec 32 := 0#32
  let v265 : BitVec 1 := Scalar.cmpi .ne v264 c0_i32_169
  let v266 : BitVec 1 := Scalar.andi v263 v265
  let v252 : BitVec 32 := Scalar.divsi v251 c32_i32_164
  let c1_i32_170 : BitVec 32 := 1#32
  let v267 : BitVec 32 := Scalar.subi v252 c1_i32_170
  let v268 : BitVec 32 := Scalar.select v266 v267 v252
  let c32_i32_171 : BitVec 32 := 32#32
  let c0_i32_172 : BitVec 32 := 0#32
  let v269 : BitVec 1 := Scalar.cmpi .eq c32_i32_171 c0_i32_172
  let c1_i32_173 : BitVec 32 := 1#32
  let v270 : BitVec 32 := Scalar.select v269 c1_i32_173 c32_i32_171
  let v271 : BitVec 32 := Scalar.remsi v251 v270
  let c0_i32_175 : BitVec 32 := 0#32
  let v273 : BitVec 1 := Scalar.cmpi .slt v271 c0_i32_175
  let c0_i32_176 : BitVec 32 := 0#32
  let v274 : BitVec 1 := Scalar.cmpi .slt v270 c0_i32_176
  let v275 : BitVec 1 := Scalar.xori v273 v274
  let c0_i32_174 : BitVec 32 := 0#32
  let v272 : BitVec 1 := Scalar.cmpi .ne v271 c0_i32_174
  let v276 : BitVec 1 := Scalar.andi v275 v272
  let v277 : BitVec 32 := Scalar.addi v271 v270
  let v278 : BitVec 32 := Scalar.select v276 v277 v271
  let c8_i32_177 : BitVec 32 := 8#32
  let c0_i32_178 : BitVec 32 := 0#32
  let c0_i32_179 : BitVec 32 := 0#32
  ![v268.toNat, v278.toNat, 8, 0, 0]
def k1_off182 (i : grid1.Coords) (k1_t1 : Fin k1_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_61 : BitVec 32 := 0#32
  let c0_i32_56 : BitVec 32 := 0#32
  let c1_i32_58 : BitVec 32 := 1#32
  let arg13 : BitVec 32 := Scf.iv c0_i32_56 c1_i32_58 k1_t1
  let c1_i32_60 : BitVec 32 := 1#32
  let v101 : BitVec 32 := Scalar.muli arg13 c1_i32_60
  let v102 : BitVec 32 := Scalar.addi c0_i32_61 v101
  let v218 : BitVec 32 := Scalar.addi v2 v102
  let c0_i32_143 : BitVec 32 := 0#32
  let v220 : BitVec 1 := Scalar.cmpi .sgt v218 c0_i32_143
  let v221 : BitVec 32 := Scalar.extui v220
  let c0_i32_144 : BitVec 32 := 0#32
  let v222 : BitVec 1 := Scalar.cmpi .slt v218 c0_i32_144
  let v223 : BitVec 32 := Scalar.extui v222
  let v224 : BitVec 32 := Scalar.subi v221 v223
  let c32_i32_142 : BitVec 32 := 32#32
  let c0_i32_145 : BitVec 32 := 0#32
  let v225 : BitVec 1 := Scalar.cmpi .sgt c32_i32_142 c0_i32_145
  let v226 : BitVec 32 := Scalar.extui v225
  let c0_i32_146 : BitVec 32 := 0#32
  let v227 : BitVec 1 := Scalar.cmpi .slt c32_i32_142 c0_i32_146
  let v228 : BitVec 32 := Scalar.extui v227
  let v229 : BitVec 32 := Scalar.subi v226 v228
  let v230 : BitVec 1 := Scalar.cmpi .ne v224 v229
  let v231 : BitVec 32 := Scalar.remsi v218 c32_i32_142
  let c0_i32_147 : BitVec 32 := 0#32
  let v232 : BitVec 1 := Scalar.cmpi .ne v231 c0_i32_147
  let v233 : BitVec 1 := Scalar.andi v230 v232
  let v219 : BitVec 32 := Scalar.divsi v218 c32_i32_142
  let c1_i32_148 : BitVec 32 := 1#32
  let v234 : BitVec 32 := Scalar.subi v219 c1_i32_148
  let v235 : BitVec 32 := Scalar.select v233 v234 v219
  let c32_i32_149 : BitVec 32 := 32#32
  let c0_i32_150 : BitVec 32 := 0#32
  let v236 : BitVec 1 := Scalar.cmpi .eq c32_i32_149 c0_i32_150
  let c1_i32_151 : BitVec 32 := 1#32
  let v237 : BitVec 32 := Scalar.select v236 c1_i32_151 c32_i32_149
  let v238 : BitVec 32 := Scalar.remsi v218 v237
  let c0_i32_153 : BitVec 32 := 0#32
  let v240 : BitVec 1 := Scalar.cmpi .slt v238 c0_i32_153
  let c0_i32_154 : BitVec 32 := 0#32
  let v241 : BitVec 1 := Scalar.cmpi .slt v237 c0_i32_154
  let v242 : BitVec 1 := Scalar.xori v240 v241
  let c0_i32_152 : BitVec 32 := 0#32
  let v239 : BitVec 1 := Scalar.cmpi .ne v238 c0_i32_152
  let v243 : BitVec 1 := Scalar.andi v242 v239
  let v244 : BitVec 32 := Scalar.addi v238 v237
  let v245 : BitVec 32 := Scalar.select v243 v244 v238
  let c12_i32 : BitVec 32 := 12#32
  let c0_i32_155 : BitVec 32 := 0#32
  let c0_i32_156 : BitVec 32 := 0#32
  ![v235.toNat, v245.toNat, 12, 0, 0]
@[reducible] def k1_t5_loop : Scf.Loop 32 :=
  let c0_i32_160 : BitVec 32 := 0#32
  let c24_i32_161 : BitVec 32 := 24#32
  let v250 : BitVec 32 := Scalar.addi c0_i32_160 c24_i32_161
  let c1_i32_162 : BitVec 32 := 1#32
  ⟨c0_i32_160, v250, c1_i32_162⟩
def k1_off183 (k1_t5 : Fin k1_t5_loop.trips) : Fin 3 → Nat :=
  let c0_i32_168 : BitVec 32 := 0#32
  let v257 : Index := Scalar.indexCast c0_i32_168
  let c1_i32_169 : BitVec 32 := 1#32
  let v258 : Index := Scalar.indexCast c1_i32_169
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_167 : BitVec 32 := 16#32
  let v256 : BitVec 32 := Scalar.muli v252 c16_i32_167
  let v259 : Index := Scalar.indexCast v256
  ![0, 1, v259.toNat]
def k1_off184 (k1_t5 : Fin k1_t5_loop.trips) : Fin 3 → Nat :=
  let c0_i32_171 : BitVec 32 := 0#32
  let v263 : Index := Scalar.indexCast c0_i32_171
  let c2_i32_172 : BitVec 32 := 2#32
  let v264 : Index := Scalar.indexCast c2_i32_172
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_170 : BitVec 32 := 16#32
  let v262 : BitVec 32 := Scalar.muli v252 c16_i32_170
  let v265 : Index := Scalar.indexCast v262
  ![0, 2, v265.toNat]
def k1_off185 (k1_t5 : Fin k1_t5_loop.trips) : Fin 3 → Nat :=
  let c0_i32_174 : BitVec 32 := 0#32
  let v269 : Index := Scalar.indexCast c0_i32_174
  let c3_i32 : BitVec 32 := 3#32
  let v270 : Index := Scalar.indexCast c3_i32
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_173 : BitVec 32 := 16#32
  let v268 : BitVec 32 := Scalar.muli v252 c16_i32_173
  let v271 : Index := Scalar.indexCast v268
  ![0, 3, v271.toNat]
def k1_off186 (k1_t5 : Fin k1_t5_loop.trips) : Fin 3 → Nat :=
  let c0_i32_176 : BitVec 32 := 0#32
  let v275 : Index := Scalar.indexCast c0_i32_176
  let c4_i32_177 : BitVec 32 := 4#32
  let v276 : Index := Scalar.indexCast c4_i32_177
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_175 : BitVec 32 := 16#32
  let v274 : BitVec 32 := Scalar.muli v252 c16_i32_175
  let v277 : Index := Scalar.indexCast v274
  ![0, 4, v277.toNat]
def k1_off187 (k1_t5 : Fin k1_t5_loop.trips) : Fin 3 → Nat :=
  let c0_i32_179 : BitVec 32 := 0#32
  let v281 : Index := Scalar.indexCast c0_i32_179
  let c5_i32 : BitVec 32 := 5#32
  let v282 : Index := Scalar.indexCast c5_i32
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_178 : BitVec 32 := 16#32
  let v280 : BitVec 32 := Scalar.muli v252 c16_i32_178
  let v283 : Index := Scalar.indexCast v280
  ![0, 5, v283.toNat]
def k1_off188 (k1_t5 : Fin k1_t5_loop.trips) : Fin 3 → Nat :=
  let c0_i32_181 : BitVec 32 := 0#32
  let v287 : Index := Scalar.indexCast c0_i32_181
  let c6_i32 : BitVec 32 := 6#32
  let v288 : Index := Scalar.indexCast c6_i32
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_180 : BitVec 32 := 16#32
  let v286 : BitVec 32 := Scalar.muli v252 c16_i32_180
  let v289 : Index := Scalar.indexCast v286
  ![0, 6, v289.toNat]
def k1_off189 (k1_t5 : Fin k1_t5_loop.trips) : Fin 3 → Nat :=
  let c0_i32_183 : BitVec 32 := 0#32
  let v293 : Index := Scalar.indexCast c0_i32_183
  let c7_i32 : BitVec 32 := 7#32
  let v294 : Index := Scalar.indexCast c7_i32
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_182 : BitVec 32 := 16#32
  let v292 : BitVec 32 := Scalar.muli v252 c16_i32_182
  let v295 : Index := Scalar.indexCast v292
  ![0, 7, v295.toNat]
def k1_off190 (k1_t5 : Fin k1_t5_loop.trips) : Fin 3 → Nat :=
  let c0_i32_185 : BitVec 32 := 0#32
  let v299 : Index := Scalar.indexCast c0_i32_185
  let c8_i32_186 : BitVec 32 := 8#32
  let v300 : Index := Scalar.indexCast c8_i32_186
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_184 : BitVec 32 := 16#32
  let v298 : BitVec 32 := Scalar.muli v252 c16_i32_184
  let v301 : Index := Scalar.indexCast v298
  ![0, 8, v301.toNat]
def k1_off191 (k1_t5 : Fin k1_t5_loop.trips) : Fin 3 → Nat :=
  let c0_i32_188 : BitVec 32 := 0#32
  let v305 : Index := Scalar.indexCast c0_i32_188
  let c9_i32 : BitVec 32 := 9#32
  let v306 : Index := Scalar.indexCast c9_i32
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_187 : BitVec 32 := 16#32
  let v304 : BitVec 32 := Scalar.muli v252 c16_i32_187
  let v307 : Index := Scalar.indexCast v304
  ![0, 9, v307.toNat]
def k1_off192 (k1_t5 : Fin k1_t5_loop.trips) : Fin 3 → Nat :=
  let c0_i32_190 : BitVec 32 := 0#32
  let v311 : Index := Scalar.indexCast c0_i32_190
  let c10_i32 : BitVec 32 := 10#32
  let v312 : Index := Scalar.indexCast c10_i32
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_189 : BitVec 32 := 16#32
  let v310 : BitVec 32 := Scalar.muli v252 c16_i32_189
  let v313 : Index := Scalar.indexCast v310
  ![0, 10, v313.toNat]
def k1_off193 (k1_t5 : Fin k1_t5_loop.trips) : Fin 3 → Nat :=
  let c0_i32_192 : BitVec 32 := 0#32
  let v317 : Index := Scalar.indexCast c0_i32_192
  let c11_i32 : BitVec 32 := 11#32
  let v318 : Index := Scalar.indexCast c11_i32
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_191 : BitVec 32 := 16#32
  let v316 : BitVec 32 := Scalar.muli v252 c16_i32_191
  let v319 : Index := Scalar.indexCast v316
  ![0, 11, v319.toNat]
def k1_off194 (k1_t5 : Fin k1_t5_loop.trips) : Fin 3 → Nat :=
  let c0_i32_194 : BitVec 32 := 0#32
  let v323 : Index := Scalar.indexCast c0_i32_194
  let c12_i32_195 : BitVec 32 := 12#32
  let v324 : Index := Scalar.indexCast c12_i32_195
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_193 : BitVec 32 := 16#32
  let v322 : BitVec 32 := Scalar.muli v252 c16_i32_193
  let v325 : Index := Scalar.indexCast v322
  ![0, 12, v325.toNat]
def k1_off195 (k1_t5 : Fin k1_t5_loop.trips) : Fin 3 → Nat :=
  let c0_i32_197 : BitVec 32 := 0#32
  let v329 : Index := Scalar.indexCast c0_i32_197
  let c13_i32 : BitVec 32 := 13#32
  let v330 : Index := Scalar.indexCast c13_i32
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_196 : BitVec 32 := 16#32
  let v328 : BitVec 32 := Scalar.muli v252 c16_i32_196
  let v331 : Index := Scalar.indexCast v328
  ![0, 13, v331.toNat]
def k1_off196 (k1_t5 : Fin k1_t5_loop.trips) : Fin 3 → Nat :=
  let c0_i32_199 : BitVec 32 := 0#32
  let v335 : Index := Scalar.indexCast c0_i32_199
  let c14_i32 : BitVec 32 := 14#32
  let v336 : Index := Scalar.indexCast c14_i32
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_198 : BitVec 32 := 16#32
  let v334 : BitVec 32 := Scalar.muli v252 c16_i32_198
  let v337 : Index := Scalar.indexCast v334
  ![0, 14, v337.toNat]
def k1_off197 (k1_t5 : Fin k1_t5_loop.trips) : Fin 3 → Nat :=
  let c1_i32_201 : BitVec 32 := 1#32
  let v341 : Index := Scalar.indexCast c1_i32_201
  let c1_i32_202 : BitVec 32 := 1#32
  let v342 : Index := Scalar.indexCast c1_i32_202
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_200 : BitVec 32 := 16#32
  let v340 : BitVec 32 := Scalar.muli v252 c16_i32_200
  let v343 : Index := Scalar.indexCast v340
  ![1, 1, v343.toNat]
def k1_off198 (k1_t5 : Fin k1_t5_loop.trips) : Fin 3 → Nat :=
  let c1_i32_204 : BitVec 32 := 1#32
  let v347 : Index := Scalar.indexCast c1_i32_204
  let c2_i32_205 : BitVec 32 := 2#32
  let v348 : Index := Scalar.indexCast c2_i32_205
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_203 : BitVec 32 := 16#32
  let v346 : BitVec 32 := Scalar.muli v252 c16_i32_203
  let v349 : Index := Scalar.indexCast v346
  ![1, 2, v349.toNat]
def k1_off199 (k1_t5 : Fin k1_t5_loop.trips) : Fin 3 → Nat :=
  let c1_i32_207 : BitVec 32 := 1#32
  let v353 : Index := Scalar.indexCast c1_i32_207
  let c3_i32_208 : BitVec 32 := 3#32
  let v354 : Index := Scalar.indexCast c3_i32_208
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_206 : BitVec 32 := 16#32
  let v352 : BitVec 32 := Scalar.muli v252 c16_i32_206
  let v355 : Index := Scalar.indexCast v352
  ![1, 3, v355.toNat]
def k1_off200 (k1_t5 : Fin k1_t5_loop.trips) : Fin 3 → Nat :=
  let c1_i32_210 : BitVec 32 := 1#32
  let v359 : Index := Scalar.indexCast c1_i32_210
  let c4_i32_211 : BitVec 32 := 4#32
  let v360 : Index := Scalar.indexCast c4_i32_211
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_209 : BitVec 32 := 16#32
  let v358 : BitVec 32 := Scalar.muli v252 c16_i32_209
  let v361 : Index := Scalar.indexCast v358
  ![1, 4, v361.toNat]
def k1_off201 (k1_t5 : Fin k1_t5_loop.trips) : Fin 3 → Nat :=
  let c1_i32_213 : BitVec 32 := 1#32
  let v365 : Index := Scalar.indexCast c1_i32_213
  let c5_i32_214 : BitVec 32 := 5#32
  let v366 : Index := Scalar.indexCast c5_i32_214
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_212 : BitVec 32 := 16#32
  let v364 : BitVec 32 := Scalar.muli v252 c16_i32_212
  let v367 : Index := Scalar.indexCast v364
  ![1, 5, v367.toNat]
def k1_off202 (k1_t5 : Fin k1_t5_loop.trips) : Fin 3 → Nat :=
  let c1_i32_216 : BitVec 32 := 1#32
  let v371 : Index := Scalar.indexCast c1_i32_216
  let c6_i32_217 : BitVec 32 := 6#32
  let v372 : Index := Scalar.indexCast c6_i32_217
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_215 : BitVec 32 := 16#32
  let v370 : BitVec 32 := Scalar.muli v252 c16_i32_215
  let v373 : Index := Scalar.indexCast v370
  ![1, 6, v373.toNat]
def k1_off203 (k1_t5 : Fin k1_t5_loop.trips) : Fin 3 → Nat :=
  let c1_i32_219 : BitVec 32 := 1#32
  let v377 : Index := Scalar.indexCast c1_i32_219
  let c7_i32_220 : BitVec 32 := 7#32
  let v378 : Index := Scalar.indexCast c7_i32_220
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_218 : BitVec 32 := 16#32
  let v376 : BitVec 32 := Scalar.muli v252 c16_i32_218
  let v379 : Index := Scalar.indexCast v376
  ![1, 7, v379.toNat]
def k1_off204 (k1_t5 : Fin k1_t5_loop.trips) : Fin 3 → Nat :=
  let c1_i32_222 : BitVec 32 := 1#32
  let v383 : Index := Scalar.indexCast c1_i32_222
  let c8_i32_223 : BitVec 32 := 8#32
  let v384 : Index := Scalar.indexCast c8_i32_223
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_221 : BitVec 32 := 16#32
  let v382 : BitVec 32 := Scalar.muli v252 c16_i32_221
  let v385 : Index := Scalar.indexCast v382
  ![1, 8, v385.toNat]
def k1_off205 (k1_t5 : Fin k1_t5_loop.trips) : Fin 3 → Nat :=
  let c1_i32_225 : BitVec 32 := 1#32
  let v389 : Index := Scalar.indexCast c1_i32_225
  let c9_i32_226 : BitVec 32 := 9#32
  let v390 : Index := Scalar.indexCast c9_i32_226
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_224 : BitVec 32 := 16#32
  let v388 : BitVec 32 := Scalar.muli v252 c16_i32_224
  let v391 : Index := Scalar.indexCast v388
  ![1, 9, v391.toNat]
def k1_off206 (k1_t5 : Fin k1_t5_loop.trips) : Fin 3 → Nat :=
  let c1_i32_228 : BitVec 32 := 1#32
  let v395 : Index := Scalar.indexCast c1_i32_228
  let c10_i32_229 : BitVec 32 := 10#32
  let v396 : Index := Scalar.indexCast c10_i32_229
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_227 : BitVec 32 := 16#32
  let v394 : BitVec 32 := Scalar.muli v252 c16_i32_227
  let v397 : Index := Scalar.indexCast v394
  ![1, 10, v397.toNat]
def k1_off207 (k1_t5 : Fin k1_t5_loop.trips) : Fin 3 → Nat :=
  let c1_i32_231 : BitVec 32 := 1#32
  let v401 : Index := Scalar.indexCast c1_i32_231
  let c11_i32_232 : BitVec 32 := 11#32
  let v402 : Index := Scalar.indexCast c11_i32_232
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_230 : BitVec 32 := 16#32
  let v400 : BitVec 32 := Scalar.muli v252 c16_i32_230
  let v403 : Index := Scalar.indexCast v400
  ![1, 11, v403.toNat]
def k1_off208 (k1_t5 : Fin k1_t5_loop.trips) : Fin 3 → Nat :=
  let c1_i32_234 : BitVec 32 := 1#32
  let v407 : Index := Scalar.indexCast c1_i32_234
  let c12_i32_235 : BitVec 32 := 12#32
  let v408 : Index := Scalar.indexCast c12_i32_235
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_233 : BitVec 32 := 16#32
  let v406 : BitVec 32 := Scalar.muli v252 c16_i32_233
  let v409 : Index := Scalar.indexCast v406
  ![1, 12, v409.toNat]
def k1_off209 (k1_t5 : Fin k1_t5_loop.trips) : Fin 3 → Nat :=
  let c1_i32_237 : BitVec 32 := 1#32
  let v413 : Index := Scalar.indexCast c1_i32_237
  let c13_i32_238 : BitVec 32 := 13#32
  let v414 : Index := Scalar.indexCast c13_i32_238
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_236 : BitVec 32 := 16#32
  let v412 : BitVec 32 := Scalar.muli v252 c16_i32_236
  let v415 : Index := Scalar.indexCast v412
  ![1, 13, v415.toNat]
def k1_off210 (k1_t5 : Fin k1_t5_loop.trips) : Fin 3 → Nat :=
  let c1_i32_240 : BitVec 32 := 1#32
  let v419 : Index := Scalar.indexCast c1_i32_240
  let c14_i32_241 : BitVec 32 := 14#32
  let v420 : Index := Scalar.indexCast c14_i32_241
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_239 : BitVec 32 := 16#32
  let v418 : BitVec 32 := Scalar.muli v252 c16_i32_239
  let v421 : Index := Scalar.indexCast v418
  ![1, 14, v421.toNat]
def k1_off211 (k1_t5 : Fin k1_t5_loop.trips) : Fin 3 → Nat :=
  let c2_i32_243 : BitVec 32 := 2#32
  let v425 : Index := Scalar.indexCast c2_i32_243
  let c1_i32_244 : BitVec 32 := 1#32
  let v426 : Index := Scalar.indexCast c1_i32_244
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_242 : BitVec 32 := 16#32
  let v424 : BitVec 32 := Scalar.muli v252 c16_i32_242
  let v427 : Index := Scalar.indexCast v424
  ![2, 1, v427.toNat]
def k1_off212 (k1_t5 : Fin k1_t5_loop.trips) : Fin 3 → Nat :=
  let c2_i32_246 : BitVec 32 := 2#32
  let v431 : Index := Scalar.indexCast c2_i32_246
  let c2_i32_247 : BitVec 32 := 2#32
  let v432 : Index := Scalar.indexCast c2_i32_247
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_245 : BitVec 32 := 16#32
  let v430 : BitVec 32 := Scalar.muli v252 c16_i32_245
  let v433 : Index := Scalar.indexCast v430
  ![2, 2, v433.toNat]
def k1_off213 (k1_t5 : Fin k1_t5_loop.trips) : Fin 3 → Nat :=
  let c2_i32_249 : BitVec 32 := 2#32
  let v437 : Index := Scalar.indexCast c2_i32_249
  let c3_i32_250 : BitVec 32 := 3#32
  let v438 : Index := Scalar.indexCast c3_i32_250
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_248 : BitVec 32 := 16#32
  let v436 : BitVec 32 := Scalar.muli v252 c16_i32_248
  let v439 : Index := Scalar.indexCast v436
  ![2, 3, v439.toNat]
def k1_off214 (k1_t5 : Fin k1_t5_loop.trips) : Fin 3 → Nat :=
  let c2_i32_252 : BitVec 32 := 2#32
  let v443 : Index := Scalar.indexCast c2_i32_252
  let c4_i32_253 : BitVec 32 := 4#32
  let v444 : Index := Scalar.indexCast c4_i32_253
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_251 : BitVec 32 := 16#32
  let v442 : BitVec 32 := Scalar.muli v252 c16_i32_251
  let v445 : Index := Scalar.indexCast v442
  ![2, 4, v445.toNat]
def k1_off215 (k1_t5 : Fin k1_t5_loop.trips) : Fin 3 → Nat :=
  let c2_i32_255 : BitVec 32 := 2#32
  let v449 : Index := Scalar.indexCast c2_i32_255
  let c5_i32_256 : BitVec 32 := 5#32
  let v450 : Index := Scalar.indexCast c5_i32_256
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_254 : BitVec 32 := 16#32
  let v448 : BitVec 32 := Scalar.muli v252 c16_i32_254
  let v451 : Index := Scalar.indexCast v448
  ![2, 5, v451.toNat]
def k1_off216 (k1_t5 : Fin k1_t5_loop.trips) : Fin 3 → Nat :=
  let c2_i32_258 : BitVec 32 := 2#32
  let v455 : Index := Scalar.indexCast c2_i32_258
  let c6_i32_259 : BitVec 32 := 6#32
  let v456 : Index := Scalar.indexCast c6_i32_259
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_257 : BitVec 32 := 16#32
  let v454 : BitVec 32 := Scalar.muli v252 c16_i32_257
  let v457 : Index := Scalar.indexCast v454
  ![2, 6, v457.toNat]
def k1_off217 (k1_t5 : Fin k1_t5_loop.trips) : Fin 3 → Nat :=
  let c2_i32_261 : BitVec 32 := 2#32
  let v461 : Index := Scalar.indexCast c2_i32_261
  let c7_i32_262 : BitVec 32 := 7#32
  let v462 : Index := Scalar.indexCast c7_i32_262
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_260 : BitVec 32 := 16#32
  let v460 : BitVec 32 := Scalar.muli v252 c16_i32_260
  let v463 : Index := Scalar.indexCast v460
  ![2, 7, v463.toNat]
def k1_off218 (k1_t5 : Fin k1_t5_loop.trips) : Fin 3 → Nat :=
  let c2_i32_264 : BitVec 32 := 2#32
  let v467 : Index := Scalar.indexCast c2_i32_264
  let c8_i32_265 : BitVec 32 := 8#32
  let v468 : Index := Scalar.indexCast c8_i32_265
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_263 : BitVec 32 := 16#32
  let v466 : BitVec 32 := Scalar.muli v252 c16_i32_263
  let v469 : Index := Scalar.indexCast v466
  ![2, 8, v469.toNat]
def k1_off219 (k1_t5 : Fin k1_t5_loop.trips) : Fin 3 → Nat :=
  let c2_i32_267 : BitVec 32 := 2#32
  let v473 : Index := Scalar.indexCast c2_i32_267
  let c9_i32_268 : BitVec 32 := 9#32
  let v474 : Index := Scalar.indexCast c9_i32_268
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_266 : BitVec 32 := 16#32
  let v472 : BitVec 32 := Scalar.muli v252 c16_i32_266
  let v475 : Index := Scalar.indexCast v472
  ![2, 9, v475.toNat]
def k1_off220 (k1_t5 : Fin k1_t5_loop.trips) : Fin 3 → Nat :=
  let c2_i32_270 : BitVec 32 := 2#32
  let v479 : Index := Scalar.indexCast c2_i32_270
  let c10_i32_271 : BitVec 32 := 10#32
  let v480 : Index := Scalar.indexCast c10_i32_271
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_269 : BitVec 32 := 16#32
  let v478 : BitVec 32 := Scalar.muli v252 c16_i32_269
  let v481 : Index := Scalar.indexCast v478
  ![2, 10, v481.toNat]
def k1_off221 (k1_t5 : Fin k1_t5_loop.trips) : Fin 3 → Nat :=
  let c2_i32_273 : BitVec 32 := 2#32
  let v485 : Index := Scalar.indexCast c2_i32_273
  let c11_i32_274 : BitVec 32 := 11#32
  let v486 : Index := Scalar.indexCast c11_i32_274
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_272 : BitVec 32 := 16#32
  let v484 : BitVec 32 := Scalar.muli v252 c16_i32_272
  let v487 : Index := Scalar.indexCast v484
  ![2, 11, v487.toNat]
def k1_off222 (k1_t5 : Fin k1_t5_loop.trips) : Fin 3 → Nat :=
  let c2_i32_276 : BitVec 32 := 2#32
  let v491 : Index := Scalar.indexCast c2_i32_276
  let c12_i32_277 : BitVec 32 := 12#32
  let v492 : Index := Scalar.indexCast c12_i32_277
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_275 : BitVec 32 := 16#32
  let v490 : BitVec 32 := Scalar.muli v252 c16_i32_275
  let v493 : Index := Scalar.indexCast v490
  ![2, 12, v493.toNat]
def k1_off223 (k1_t5 : Fin k1_t5_loop.trips) : Fin 3 → Nat :=
  let c2_i32_279 : BitVec 32 := 2#32
  let v497 : Index := Scalar.indexCast c2_i32_279
  let c13_i32_280 : BitVec 32 := 13#32
  let v498 : Index := Scalar.indexCast c13_i32_280
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_278 : BitVec 32 := 16#32
  let v496 : BitVec 32 := Scalar.muli v252 c16_i32_278
  let v499 : Index := Scalar.indexCast v496
  ![2, 13, v499.toNat]
def k1_off224 (k1_t5 : Fin k1_t5_loop.trips) : Fin 3 → Nat :=
  let c2_i32_282 : BitVec 32 := 2#32
  let v503 : Index := Scalar.indexCast c2_i32_282
  let c14_i32_283 : BitVec 32 := 14#32
  let v504 : Index := Scalar.indexCast c14_i32_283
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32_281 : BitVec 32 := 16#32
  let v502 : BitVec 32 := Scalar.muli v252 c16_i32_281
  let v505 : Index := Scalar.indexCast v502
  ![2, 14, v505.toNat]
def k1_off225 (k1_t1 : Fin k1_t1_loop.trips) (k1_t5 : Fin k1_t5_loop.trips) : Fin 1 → Nat :=
  let c0_i32_61 : BitVec 32 := 0#32
  let c0_i32_56 : BitVec 32 := 0#32
  let c1_i32_58 : BitVec 32 := 1#32
  let arg13 : BitVec 32 := Scf.iv c0_i32_56 c1_i32_58 k1_t1
  let c1_i32_60 : BitVec 32 := 1#32
  let v101 : BitVec 32 := Scalar.muli arg13 c1_i32_60
  let v102 : BitVec 32 := Scalar.addi c0_i32_61 v101
  let c384_i32_166 : BitVec 32 := 384#32
  let v253 : BitVec 32 := Scalar.muli v102 c384_i32_166
  let c0_i32_165 : BitVec 32 := 0#32
  let c0_i32_160 : BitVec 32 := 0#32
  let c1_i32_162 : BitVec 32 := 1#32
  let arg14 : BitVec 32 := Scf.iv c0_i32_160 c1_i32_162 k1_t5
  let c1_i32_164 : BitVec 32 := 1#32
  let v251 : BitVec 32 := Scalar.muli arg14 c1_i32_164
  let v252 : BitVec 32 := Scalar.addi c0_i32_165 v251
  let c16_i32 : BitVec 32 := 16#32
  let v254 : BitVec 32 := Scalar.muli v252 c16_i32
  let v255 : BitVec 32 := Scalar.addi v253 v254
  let v508 : Index := Scalar.indexCast v255
  ![v508.toNat]
def k1_off226 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c384_i32 : BitVec 32 := 384#32
  let v100 : BitVec 32 := Scalar.muli v2 c384_i32
  ![v100.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S8x384x32x16x16_S8x32x16x16x384_0_2_3_4_1 : S8x384x32x16x16.Transposes [0, 2, 3, 4, 1] S8x32x16x16x384
  shapeCasts_S8x32x16x16x384_S256x16x16x384 : S8x32x16x16x384.ShapeCasts S256x16x16x384
  iota_S1x1x16x1_d2_w32 : S1x1x16x1.Iotas .tc 32 [2]
  inb_S32x15x16x384_S32x15x16x384_0_0_0_0 : ∀ a, (![0, 0, 0, 0] : Fin 4 → Nat) a + S32x15x16x384.size a ≤ S32x15x16x384.size a
  h_S32x15x16x384 : 0 < S32x15x16x384.numel
  shapeCasts_S32x15x16x384_S32x15x16x384 : S32x15x16x384.ShapeCasts S32x15x16x384
  shapeCasts_S1x1x16x1_S1x1x16x1 : S1x1x16x1.ShapeCasts S1x1x16x1
  broadcasts_S1x1x16x1_S32x15x16x384 : S1x1x16x1.Broadcasts S32x15x16x384
  reduces_S32x15x16x384_S32x384 : S32x15x16x384.Reduces [1, 2] S32x384
  inb_S32x384_S32x384_0_0 : ∀ a, (![0, 0] : Fin 2 → Nat) a + S32x384.size a ≤ S32x384.size a
  h_S32x384 : 0 < S32x384.numel
  squeezes_S1x1x4x16x384_S4x16x384 : S1x1x4x16x384.Squeezes S4x16x384
  squeezes_S1x1x3x16x384_S3x16x384 : S1x1x3x16x384.Squeezes S3x16x384
  h_S1x1x16 : 0 < S1x1x16.numel
  shapeCasts_S1x1x16_S16 : S1x1x16.ShapeCasts S16
  h_S16 : 0 < S16.numel
  shapeCasts_S16_S16 : S16.ShapeCasts S16
  shapeCasts_S24576_S64x384 : S24576.ShapeCasts S64x384
  concatenates_S64x384_S192x384_S256x384_d0 : Shape.Concatenates [S64x384, S192x384] S256x384 0
  shapeCasts_S256x384_S8x32x384 : S256x384.ShapeCasts S8x32x384
  transposes_S8x32x384_S8x384x32_0_2_1 : S8x32x384.Transposes [0, 2, 1] S8x384x32
  hcc1_scratch5 : 4 + S_.numel ≤ 9
  hcc1_scratch6 : 5 + S_.numel ≤ 9
  hcc1_scratch7 : 6 + S_.numel ≤ 9
  hcc1_scratch8 : 7 + S_.numel ≤ 9
  hcc1_scoped0 : 8 + S_.numel ≤ 9
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x15x16x384.size a < S256x16x16x384.size a
  hwx0_0 : ∀ i : grid0.Coords, EltTy.bits .f32 = 32 ∨ (Rect.unit (s := S256x16x16x384) (fun a => cc0_transform_0 i a * S32x15x16x384.size a) (fun a => (Pipeline.Clip.of (cc0_transform_0 i a) (S32x15x16x384.size a) (S256x16x16x384.size a)).extent (S32x15x16x384.size a)) fun a => Pipeline.Clip.inb (Pipeline.Clip.ok_of (hstart0_0 i a))).WholeWords (EltTy.packing .f32)
  hwxs0_0 : ∀ i : grid0.Coords, EltTy.bits .f32 = 32 ∨ (Rect.unit (s := S32x15x16x384) (fun _ => 0) (fun a => (Pipeline.Clip.of (cc0_transform_0 i a) (S32x15x16x384.size a) (S256x16x16x384.size a)).extent (S32x15x16x384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x384.size a ≤ S192x384.size a
  hwx0_1 : ∀ i : grid0.Coords, EltTy.bits .f32 = 32 ∨ (Rect.block (s := S192x384) S32x384.size (cc0_transform_1 i) (hinb0_1 i)).WholeWords (EltTy.packing .f32)
  hcore1 : grid1.bound 0 ≤ τ.nSC
  hsub1 : grid1.bound 1 ≤ τ.nSub
  k1_off1_inb : ∀ i : grid1.Coords, ∀ a, (k1_off1 i) a + S1x1x4x16x384.size a ≤ S8x32x16x16x384.size a
  k1_off2_inb : ∀ i : grid1.Coords, ∀ a, (k1_off2 i) a + S1x1x4x16x384.size a ≤ S8x32x16x16x384.size a
  k1_off3_inb : ∀ i : grid1.Coords, ∀ a, (k1_off3 i) a + S1x1x4x16x384.size a ≤ S8x32x16x16x384.size a
  k1_t1_ok : k1_t1_loop.OK
  k1_off4_inb : ∀ (i : grid1.Coords) (k1_t1 : Fin k1_t1_loop.trips), ∀ (k1_h1 : k1_cond1 k1_t1 = 1#1), ∀ a, (k1_off4 i k1_t1) a + S1x1x3x16x384.size a ≤ S8x32x16x16x384.size a
  k1_off5_inb : ∀ (i : grid1.Coords) (k1_t1 : Fin k1_t1_loop.trips), ∀ a, (k1_off5 i k1_t1) a + S1x1x4x16x384.size a ≤ S8x32x16x16x384.size a
  k1_t2_ok : k1_t2_loop.OK
  k1_off6_inb : ∀ k1_t2 : Fin k1_t2_loop.trips, ∀ a, (k1_off6 k1_t2) a + S1x1x16.size a ≤ S4x16x384.size a
  k1_off7_inb : ∀ k1_t2 : Fin k1_t2_loop.trips, ∀ a, (k1_off7 k1_t2) a + S1x1x16.size a ≤ S4x16x384.size a
  k1_off8_inb : ∀ k1_t2 : Fin k1_t2_loop.trips, ∀ a, (k1_off8 k1_t2) a + S1x1x16.size a ≤ S4x16x384.size a
  k1_off9_inb : ∀ k1_t2 : Fin k1_t2_loop.trips, ∀ a, (k1_off9 k1_t2) a + S1x1x16.size a ≤ S4x16x384.size a
  k1_off10_inb : ∀ k1_t2 : Fin k1_t2_loop.trips, ∀ a, (k1_off10 k1_t2) a + S1x1x16.size a ≤ S4x16x384.size a
  k1_off11_inb : ∀ k1_t2 : Fin k1_t2_loop.trips, ∀ a, (k1_off11 k1_t2) a + S1x1x16.size a ≤ S4x16x384.size a
  k1_off12_inb : ∀ k1_t2 : Fin k1_t2_loop.trips, ∀ a, (k1_off12 k1_t2) a + S1x1x16.size a ≤ S4x16x384.size a
  k1_off13_inb : ∀ k1_t2 : Fin k1_t2_loop.trips, ∀ a, (k1_off13 k1_t2) a + S1x1x16.size a ≤ S4x16x384.size a
  k1_off14_inb : ∀ k1_t2 : Fin k1_t2_loop.trips, ∀ a, (k1_off14 k1_t2) a + S1x1x16.size a ≤ S4x16x384.size a
  k1_off15_inb : ∀ k1_t2 : Fin k1_t2_loop.trips, ∀ a, (k1_off15 k1_t2) a + S1x1x16.size a ≤ S4x16x384.size a
  k1_off16_inb : ∀ k1_t2 : Fin k1_t2_loop.trips, ∀ a, (k1_off16 k1_t2) a + S1x1x16.size a ≤ S4x16x384.size a
  k1_off17_inb : ∀ k1_t2 : Fin k1_t2_loop.trips, ∀ a, (k1_off17 k1_t2) a + S1x1x16.size a ≤ S4x16x384.size a
  k1_off18_inb : ∀ k1_t2 : Fin k1_t2_loop.trips, ∀ a, (k1_off18 k1_t2) a + S1x1x16.size a ≤ S4x16x384.size a
  k1_off19_inb : ∀ k1_t2 : Fin k1_t2_loop.trips, ∀ a, (k1_off19 k1_t2) a + S1x1x16.size a ≤ S4x16x384.size a
  k1_off20_inb : ∀ k1_t2 : Fin k1_t2_loop.trips, ∀ a, (k1_off20 k1_t2) a + S1x1x16.size a ≤ S4x16x384.size a
  k1_off21_inb : ∀ k1_t2 : Fin k1_t2_loop.trips, ∀ a, (k1_off21 k1_t2) a + S1x1x16.size a ≤ S4x16x384.size a
  k1_off22_inb : ∀ k1_t2 : Fin k1_t2_loop.trips, ∀ a, (k1_off22 k1_t2) a + S1x1x16.size a ≤ S4x16x384.size a
  k1_off23_inb : ∀ k1_t2 : Fin k1_t2_loop.trips, ∀ a, (k1_off23 k1_t2) a + S1x1x16.size a ≤ S4x16x384.size a
  k1_off24_inb : ∀ k1_t2 : Fin k1_t2_loop.trips, ∀ a, (k1_off24 k1_t2) a + S1x1x16.size a ≤ S4x16x384.size a
  k1_off25_inb : ∀ k1_t2 : Fin k1_t2_loop.trips, ∀ a, (k1_off25 k1_t2) a + S1x1x16.size a ≤ S4x16x384.size a
  k1_off26_inb : ∀ k1_t2 : Fin k1_t2_loop.trips, ∀ a, (k1_off26 k1_t2) a + S1x1x16.size a ≤ S4x16x384.size a
  k1_off27_inb : ∀ k1_t2 : Fin k1_t2_loop.trips, ∀ a, (k1_off27 k1_t2) a + S1x1x16.size a ≤ S4x16x384.size a
  k1_off28_inb : ∀ k1_t2 : Fin k1_t2_loop.trips, ∀ a, (k1_off28 k1_t2) a + S1x1x16.size a ≤ S4x16x384.size a
  k1_off29_inb : ∀ k1_t2 : Fin k1_t2_loop.trips, ∀ a, (k1_off29 k1_t2) a + S1x1x16.size a ≤ S4x16x384.size a
  k1_off30_inb : ∀ k1_t2 : Fin k1_t2_loop.trips, ∀ a, (k1_off30 k1_t2) a + S1x1x16.size a ≤ S4x16x384.size a
  k1_off31_inb : ∀ k1_t2 : Fin k1_t2_loop.trips, ∀ a, (k1_off31 k1_t2) a + S1x1x16.size a ≤ S4x16x384.size a
  k1_off32_inb : ∀ k1_t2 : Fin k1_t2_loop.trips, ∀ a, (k1_off32 k1_t2) a + S1x1x16.size a ≤ S4x16x384.size a
  k1_off33_inb : ∀ k1_t2 : Fin k1_t2_loop.trips, ∀ a, (k1_off33 k1_t2) a + S1x1x16.size a ≤ S4x16x384.size a
  k1_off34_inb : ∀ k1_t2 : Fin k1_t2_loop.trips, ∀ a, (k1_off34 k1_t2) a + S1x1x16.size a ≤ S4x16x384.size a
  k1_off35_inb : ∀ k1_t2 : Fin k1_t2_loop.trips, ∀ a, (k1_off35 k1_t2) a + S1x1x16.size a ≤ S4x16x384.size a
  k1_off36_inb : ∀ k1_t2 : Fin k1_t2_loop.trips, ∀ a, (k1_off36 k1_t2) a + S1x1x16.size a ≤ S4x16x384.size a
  k1_off37_inb : ∀ k1_t2 : Fin k1_t2_loop.trips, ∀ a, (k1_off37 k1_t2) a + S1x1x16.size a ≤ S4x16x384.size a
  k1_off38_inb : ∀ k1_t2 : Fin k1_t2_loop.trips, ∀ a, (k1_off38 k1_t2) a + S1x1x16.size a ≤ S4x16x384.size a
  k1_off39_inb : ∀ k1_t2 : Fin k1_t2_loop.trips, ∀ a, (k1_off39 k1_t2) a + S1x1x16.size a ≤ S4x16x384.size a
  k1_off40_inb : ∀ k1_t2 : Fin k1_t2_loop.trips, ∀ a, (k1_off40 k1_t2) a + S1x1x16.size a ≤ S4x16x384.size a
  k1_off41_inb : ∀ k1_t2 : Fin k1_t2_loop.trips, ∀ a, (k1_off41 k1_t2) a + S1x1x16.size a ≤ S4x16x384.size a
  k1_off42_inb : ∀ k1_t2 : Fin k1_t2_loop.trips, ∀ a, (k1_off42 k1_t2) a + S1x1x16.size a ≤ S4x16x384.size a
  k1_off43_inb : ∀ k1_t2 : Fin k1_t2_loop.trips, ∀ a, (k1_off43 k1_t2) a + S1x1x16.size a ≤ S4x16x384.size a
  k1_off44_inb : ∀ k1_t2 : Fin k1_t2_loop.trips, ∀ a, (k1_off44 k1_t2) a + S1x1x16.size a ≤ S4x16x384.size a
  k1_off45_inb : ∀ k1_t2 : Fin k1_t2_loop.trips, ∀ a, (k1_off45 k1_t2) a + S1x1x16.size a ≤ S4x16x384.size a
  k1_off46_inb : ∀ k1_t2 : Fin k1_t2_loop.trips, ∀ a, (k1_off46 k1_t2) a + S1x1x16.size a ≤ S4x16x384.size a
  k1_off47_inb : ∀ k1_t2 : Fin k1_t2_loop.trips, ∀ a, (k1_off47 k1_t2) a + S1x1x16.size a ≤ S4x16x384.size a
  k1_off48_inb : ∀ k1_t2 : Fin k1_t2_loop.trips, ∀ a, (k1_off48 k1_t2) a + S1x1x16.size a ≤ S4x16x384.size a
  k1_off49_inb : ∀ k1_t2 : Fin k1_t2_loop.trips, ∀ a, (k1_off49 k1_t2) a + S1x1x16.size a ≤ S4x16x384.size a
  k1_off50_inb : ∀ k1_t2 : Fin k1_t2_loop.trips, ∀ a, (k1_off50 k1_t2) a + S1x1x16.size a ≤ S4x16x384.size a
  k1_off51_inb : ∀ k1_t2 : Fin k1_t2_loop.trips, ∀ a, (k1_off51 k1_t2) a + S1x1x16.size a ≤ S4x16x384.size a
  k1_off52_inb : ∀ k1_t2 : Fin k1_t2_loop.trips, ∀ a, (k1_off52 k1_t2) a + S1x1x16.size a ≤ S4x16x384.size a
  k1_off53_inb : ∀ k1_t2 : Fin k1_t2_loop.trips, ∀ a, (k1_off53 k1_t2) a + S1x1x16.size a ≤ S4x16x384.size a
  k1_off54_inb : ∀ k1_t2 : Fin k1_t2_loop.trips, ∀ a, (k1_off54 k1_t2) a + S1x1x16.size a ≤ S4x16x384.size a
  k1_off55_inb : ∀ k1_t2 : Fin k1_t2_loop.trips, ∀ a, (k1_off55 k1_t2) a + S1x1x16.size a ≤ S4x16x384.size a
  k1_off56_inb : ∀ k1_t2 : Fin k1_t2_loop.trips, ∀ a, (k1_off56 k1_t2) a + S1x1x16.size a ≤ S4x16x384.size a
  k1_off57_inb : ∀ k1_t2 : Fin k1_t2_loop.trips, ∀ a, (k1_off57 k1_t2) a + S1x1x16.size a ≤ S4x16x384.size a
  k1_off58_inb : ∀ k1_t2 : Fin k1_t2_loop.trips, ∀ a, (k1_off58 k1_t2) a + S1x1x16.size a ≤ S4x16x384.size a
  k1_off59_inb : ∀ k1_t2 : Fin k1_t2_loop.trips, ∀ a, (k1_off59 k1_t2) a + S1x1x16.size a ≤ S4x16x384.size a
  k1_off60_inb : ∀ k1_t2 : Fin k1_t2_loop.trips, ∀ a, (k1_off60 k1_t2) a + S1x1x16.size a ≤ S4x16x384.size a
  k1_off61_inb : ∀ k1_t2 : Fin k1_t2_loop.trips, ∀ a, (k1_off61 k1_t2) a + S1x1x16.size a ≤ S4x16x384.size a
  k1_off62_inb : ∀ (k1_t1 : Fin k1_t1_loop.trips) (k1_t2 : Fin k1_t2_loop.trips), ∀ a, (k1_off62 k1_t1 k1_t2) a + S16.size a ≤ S768.size a
  k1_off63_inb : ∀ (i : grid1.Coords) (k1_t1 : Fin k1_t1_loop.trips), ∀ (k1_h2 : k1_cond2 k1_t1 = 1#1), ∀ a, (k1_off63 i k1_t1) a + S1x1x4x16x384.size a ≤ S8x32x16x16x384.size a
  k1_off64_inb : ∀ (i : grid1.Coords) (k1_t1 : Fin k1_t1_loop.trips), ∀ a, (k1_off64 i k1_t1) a + S1x1x4x16x384.size a ≤ S8x32x16x16x384.size a
  k1_t3_ok : k1_t3_loop.OK
  k1_off65_inb : ∀ k1_t3 : Fin k1_t3_loop.trips, ∀ a, (k1_off65 k1_t3) a + S1x1x16.size a ≤ S4x16x384.size a
  k1_off66_inb : ∀ k1_t3 : Fin k1_t3_loop.trips, ∀ a, (k1_off66 k1_t3) a + S1x1x16.size a ≤ S4x16x384.size a
  k1_off67_inb : ∀ k1_t3 : Fin k1_t3_loop.trips, ∀ a, (k1_off67 k1_t3) a + S1x1x16.size a ≤ S4x16x384.size a
  k1_off68_inb : ∀ k1_t3 : Fin k1_t3_loop.trips, ∀ a, (k1_off68 k1_t3) a + S1x1x16.size a ≤ S4x16x384.size a
  k1_off69_inb : ∀ k1_t3 : Fin k1_t3_loop.trips, ∀ a, (k1_off69 k1_t3) a + S1x1x16.size a ≤ S4x16x384.size a
  k1_off70_inb : ∀ k1_t3 : Fin k1_t3_loop.trips, ∀ a, (k1_off70 k1_t3) a + S1x1x16.size a ≤ S4x16x384.size a
  k1_off71_inb : ∀ k1_t3 : Fin k1_t3_loop.trips, ∀ a, (k1_off71 k1_t3) a + S1x1x16.size a ≤ S4x16x384.size a
  k1_off72_inb : ∀ k1_t3 : Fin k1_t3_loop.trips, ∀ a, (k1_off72 k1_t3) a + S1x1x16.size a ≤ S4x16x384.size a
  k1_off73_inb : ∀ k1_t3 : Fin k1_t3_loop.trips, ∀ a, (k1_off73 k1_t3) a + S1x1x16.size a ≤ S4x16x384.size a
  k1_off74_inb : ∀ k1_t3 : Fin k1_t3_loop.trips, ∀ a, (k1_off74 k1_t3) a + S1x1x16.size a ≤ S4x16x384.size a
  k1_off75_inb : ∀ k1_t3 : Fin k1_t3_loop.trips, ∀ a, (k1_off75 k1_t3) a + S1x1x16.size a ≤ S4x16x384.size a
  k1_off76_inb : ∀ k1_t3 : Fin k1_t3_loop.trips, ∀ a, (k1_off76 k1_t3) a + S1x1x16.size a ≤ S4x16x384.size a
  k1_off77_inb : ∀ k1_t3 : Fin k1_t3_loop.trips, ∀ a, (k1_off77 k1_t3) a + S1x1x16.size a ≤ S4x16x384.size a
  k1_off78_inb : ∀ k1_t3 : Fin k1_t3_loop.trips, ∀ a, (k1_off78 k1_t3) a + S1x1x16.size a ≤ S4x16x384.size a
  k1_off79_inb : ∀ k1_t3 : Fin k1_t3_loop.trips, ∀ a, (k1_off79 k1_t3) a + S1x1x16.size a ≤ S4x16x384.size a
  k1_off80_inb : ∀ k1_t3 : Fin k1_t3_loop.trips, ∀ a, (k1_off80 k1_t3) a + S1x1x16.size a ≤ S4x16x384.size a
  k1_off81_inb : ∀ k1_t3 : Fin k1_t3_loop.trips, ∀ a, (k1_off81 k1_t3) a + S1x1x16.size a ≤ S4x16x384.size a
  k1_off82_inb : ∀ k1_t3 : Fin k1_t3_loop.trips, ∀ a, (k1_off82 k1_t3) a + S1x1x16.size a ≤ S4x16x384.size a
  k1_off83_inb : ∀ k1_t3 : Fin k1_t3_loop.trips, ∀ a, (k1_off83 k1_t3) a + S1x1x16.size a ≤ S4x16x384.size a
  k1_off84_inb : ∀ k1_t3 : Fin k1_t3_loop.trips, ∀ a, (k1_off84 k1_t3) a + S1x1x16.size a ≤ S4x16x384.size a
  k1_off85_inb : ∀ k1_t3 : Fin k1_t3_loop.trips, ∀ a, (k1_off85 k1_t3) a + S1x1x16.size a ≤ S4x16x384.size a
  k1_off86_inb : ∀ k1_t3 : Fin k1_t3_loop.trips, ∀ a, (k1_off86 k1_t3) a + S1x1x16.size a ≤ S4x16x384.size a
  k1_off87_inb : ∀ k1_t3 : Fin k1_t3_loop.trips, ∀ a, (k1_off87 k1_t3) a + S1x1x16.size a ≤ S4x16x384.size a
  k1_off88_inb : ∀ k1_t3 : Fin k1_t3_loop.trips, ∀ a, (k1_off88 k1_t3) a + S1x1x16.size a ≤ S4x16x384.size a
  k1_off89_inb : ∀ k1_t3 : Fin k1_t3_loop.trips, ∀ a, (k1_off89 k1_t3) a + S1x1x16.size a ≤ S4x16x384.size a
  k1_off90_inb : ∀ k1_t3 : Fin k1_t3_loop.trips, ∀ a, (k1_off90 k1_t3) a + S1x1x16.size a ≤ S4x16x384.size a
  k1_off91_inb : ∀ k1_t3 : Fin k1_t3_loop.trips, ∀ a, (k1_off91 k1_t3) a + S1x1x16.size a ≤ S4x16x384.size a
  k1_off92_inb : ∀ k1_t3 : Fin k1_t3_loop.trips, ∀ a, (k1_off92 k1_t3) a + S1x1x16.size a ≤ S4x16x384.size a
  k1_off93_inb : ∀ k1_t3 : Fin k1_t3_loop.trips, ∀ a, (k1_off93 k1_t3) a + S1x1x16.size a ≤ S4x16x384.size a
  k1_off94_inb : ∀ k1_t3 : Fin k1_t3_loop.trips, ∀ a, (k1_off94 k1_t3) a + S1x1x16.size a ≤ S4x16x384.size a
  k1_off95_inb : ∀ k1_t3 : Fin k1_t3_loop.trips, ∀ a, (k1_off95 k1_t3) a + S1x1x16.size a ≤ S4x16x384.size a
  k1_off96_inb : ∀ k1_t3 : Fin k1_t3_loop.trips, ∀ a, (k1_off96 k1_t3) a + S1x1x16.size a ≤ S4x16x384.size a
  k1_off97_inb : ∀ k1_t3 : Fin k1_t3_loop.trips, ∀ a, (k1_off97 k1_t3) a + S1x1x16.size a ≤ S4x16x384.size a
  k1_off98_inb : ∀ k1_t3 : Fin k1_t3_loop.trips, ∀ a, (k1_off98 k1_t3) a + S1x1x16.size a ≤ S4x16x384.size a
  k1_off99_inb : ∀ k1_t3 : Fin k1_t3_loop.trips, ∀ a, (k1_off99 k1_t3) a + S1x1x16.size a ≤ S4x16x384.size a
  k1_off100_inb : ∀ k1_t3 : Fin k1_t3_loop.trips, ∀ a, (k1_off100 k1_t3) a + S1x1x16.size a ≤ S4x16x384.size a
  k1_off101_inb : ∀ k1_t3 : Fin k1_t3_loop.trips, ∀ a, (k1_off101 k1_t3) a + S1x1x16.size a ≤ S4x16x384.size a
  k1_off102_inb : ∀ k1_t3 : Fin k1_t3_loop.trips, ∀ a, (k1_off102 k1_t3) a + S1x1x16.size a ≤ S4x16x384.size a
  k1_off103_inb : ∀ k1_t3 : Fin k1_t3_loop.trips, ∀ a, (k1_off103 k1_t3) a + S1x1x16.size a ≤ S4x16x384.size a
  k1_off104_inb : ∀ k1_t3 : Fin k1_t3_loop.trips, ∀ a, (k1_off104 k1_t3) a + S1x1x16.size a ≤ S4x16x384.size a
  k1_off105_inb : ∀ k1_t3 : Fin k1_t3_loop.trips, ∀ a, (k1_off105 k1_t3) a + S1x1x16.size a ≤ S4x16x384.size a
  k1_off106_inb : ∀ k1_t3 : Fin k1_t3_loop.trips, ∀ a, (k1_off106 k1_t3) a + S1x1x16.size a ≤ S4x16x384.size a
  k1_off107_inb : ∀ k1_t3 : Fin k1_t3_loop.trips, ∀ a, (k1_off107 k1_t3) a + S1x1x16.size a ≤ S4x16x384.size a
  k1_off108_inb : ∀ k1_t3 : Fin k1_t3_loop.trips, ∀ a, (k1_off108 k1_t3) a + S1x1x16.size a ≤ S4x16x384.size a
  k1_off109_inb : ∀ k1_t3 : Fin k1_t3_loop.trips, ∀ a, (k1_off109 k1_t3) a + S1x1x16.size a ≤ S4x16x384.size a
  k1_off110_inb : ∀ k1_t3 : Fin k1_t3_loop.trips, ∀ a, (k1_off110 k1_t3) a + S1x1x16.size a ≤ S4x16x384.size a
  k1_off111_inb : ∀ k1_t3 : Fin k1_t3_loop.trips, ∀ a, (k1_off111 k1_t3) a + S1x1x16.size a ≤ S4x16x384.size a
  k1_off112_inb : ∀ k1_t3 : Fin k1_t3_loop.trips, ∀ a, (k1_off112 k1_t3) a + S1x1x16.size a ≤ S4x16x384.size a
  k1_off113_inb : ∀ k1_t3 : Fin k1_t3_loop.trips, ∀ a, (k1_off113 k1_t3) a + S1x1x16.size a ≤ S4x16x384.size a
  k1_off114_inb : ∀ k1_t3 : Fin k1_t3_loop.trips, ∀ a, (k1_off114 k1_t3) a + S1x1x16.size a ≤ S4x16x384.size a
  k1_off115_inb : ∀ k1_t3 : Fin k1_t3_loop.trips, ∀ a, (k1_off115 k1_t3) a + S1x1x16.size a ≤ S4x16x384.size a
  k1_off116_inb : ∀ k1_t3 : Fin k1_t3_loop.trips, ∀ a, (k1_off116 k1_t3) a + S1x1x16.size a ≤ S4x16x384.size a
  k1_off117_inb : ∀ k1_t3 : Fin k1_t3_loop.trips, ∀ a, (k1_off117 k1_t3) a + S1x1x16.size a ≤ S4x16x384.size a
  k1_off118_inb : ∀ k1_t3 : Fin k1_t3_loop.trips, ∀ a, (k1_off118 k1_t3) a + S1x1x16.size a ≤ S4x16x384.size a
  k1_off119_inb : ∀ k1_t3 : Fin k1_t3_loop.trips, ∀ a, (k1_off119 k1_t3) a + S1x1x16.size a ≤ S4x16x384.size a
  k1_off120_inb : ∀ k1_t3 : Fin k1_t3_loop.trips, ∀ a, (k1_off120 k1_t3) a + S1x1x16.size a ≤ S4x16x384.size a
  k1_off121_inb : ∀ (k1_t1 : Fin k1_t1_loop.trips) (k1_t3 : Fin k1_t3_loop.trips), ∀ a, (k1_off121 k1_t1 k1_t3) a + S16.size a ≤ S768.size a
  k1_off122_inb : ∀ (i : grid1.Coords) (k1_t1 : Fin k1_t1_loop.trips), ∀ (k1_h3 : k1_cond3 k1_t1 = 1#1), ∀ a, (k1_off122 i k1_t1) a + S1x1x4x16x384.size a ≤ S8x32x16x16x384.size a
  k1_off123_inb : ∀ (i : grid1.Coords) (k1_t1 : Fin k1_t1_loop.trips), ∀ a, (k1_off123 i k1_t1) a + S1x1x4x16x384.size a ≤ S8x32x16x16x384.size a
  k1_t4_ok : k1_t4_loop.OK
  k1_off124_inb : ∀ k1_t4 : Fin k1_t4_loop.trips, ∀ a, (k1_off124 k1_t4) a + S1x1x16.size a ≤ S4x16x384.size a
  k1_off125_inb : ∀ k1_t4 : Fin k1_t4_loop.trips, ∀ a, (k1_off125 k1_t4) a + S1x1x16.size a ≤ S4x16x384.size a
  k1_off126_inb : ∀ k1_t4 : Fin k1_t4_loop.trips, ∀ a, (k1_off126 k1_t4) a + S1x1x16.size a ≤ S4x16x384.size a
  k1_off127_inb : ∀ k1_t4 : Fin k1_t4_loop.trips, ∀ a, (k1_off127 k1_t4) a + S1x1x16.size a ≤ S4x16x384.size a
  k1_off128_inb : ∀ k1_t4 : Fin k1_t4_loop.trips, ∀ a, (k1_off128 k1_t4) a + S1x1x16.size a ≤ S4x16x384.size a
  k1_off129_inb : ∀ k1_t4 : Fin k1_t4_loop.trips, ∀ a, (k1_off129 k1_t4) a + S1x1x16.size a ≤ S4x16x384.size a
  k1_off130_inb : ∀ k1_t4 : Fin k1_t4_loop.trips, ∀ a, (k1_off130 k1_t4) a + S1x1x16.size a ≤ S4x16x384.size a
  k1_off131_inb : ∀ k1_t4 : Fin k1_t4_loop.trips, ∀ a, (k1_off131 k1_t4) a + S1x1x16.size a ≤ S4x16x384.size a
  k1_off132_inb : ∀ k1_t4 : Fin k1_t4_loop.trips, ∀ a, (k1_off132 k1_t4) a + S1x1x16.size a ≤ S4x16x384.size a
  k1_off133_inb : ∀ k1_t4 : Fin k1_t4_loop.trips, ∀ a, (k1_off133 k1_t4) a + S1x1x16.size a ≤ S4x16x384.size a
  k1_off134_inb : ∀ k1_t4 : Fin k1_t4_loop.trips, ∀ a, (k1_off134 k1_t4) a + S1x1x16.size a ≤ S4x16x384.size a
  k1_off135_inb : ∀ k1_t4 : Fin k1_t4_loop.trips, ∀ a, (k1_off135 k1_t4) a + S1x1x16.size a ≤ S4x16x384.size a
  k1_off136_inb : ∀ k1_t4 : Fin k1_t4_loop.trips, ∀ a, (k1_off136 k1_t4) a + S1x1x16.size a ≤ S4x16x384.size a
  k1_off137_inb : ∀ k1_t4 : Fin k1_t4_loop.trips, ∀ a, (k1_off137 k1_t4) a + S1x1x16.size a ≤ S4x16x384.size a
  k1_off138_inb : ∀ k1_t4 : Fin k1_t4_loop.trips, ∀ a, (k1_off138 k1_t4) a + S1x1x16.size a ≤ S4x16x384.size a
  k1_off139_inb : ∀ k1_t4 : Fin k1_t4_loop.trips, ∀ a, (k1_off139 k1_t4) a + S1x1x16.size a ≤ S4x16x384.size a
  k1_off140_inb : ∀ k1_t4 : Fin k1_t4_loop.trips, ∀ a, (k1_off140 k1_t4) a + S1x1x16.size a ≤ S4x16x384.size a
  k1_off141_inb : ∀ k1_t4 : Fin k1_t4_loop.trips, ∀ a, (k1_off141 k1_t4) a + S1x1x16.size a ≤ S4x16x384.size a
  k1_off142_inb : ∀ k1_t4 : Fin k1_t4_loop.trips, ∀ a, (k1_off142 k1_t4) a + S1x1x16.size a ≤ S4x16x384.size a
  k1_off143_inb : ∀ k1_t4 : Fin k1_t4_loop.trips, ∀ a, (k1_off143 k1_t4) a + S1x1x16.size a ≤ S4x16x384.size a
  k1_off144_inb : ∀ k1_t4 : Fin k1_t4_loop.trips, ∀ a, (k1_off144 k1_t4) a + S1x1x16.size a ≤ S4x16x384.size a
  k1_off145_inb : ∀ k1_t4 : Fin k1_t4_loop.trips, ∀ a, (k1_off145 k1_t4) a + S1x1x16.size a ≤ S4x16x384.size a
  k1_off146_inb : ∀ k1_t4 : Fin k1_t4_loop.trips, ∀ a, (k1_off146 k1_t4) a + S1x1x16.size a ≤ S4x16x384.size a
  k1_off147_inb : ∀ k1_t4 : Fin k1_t4_loop.trips, ∀ a, (k1_off147 k1_t4) a + S1x1x16.size a ≤ S4x16x384.size a
  k1_off148_inb : ∀ k1_t4 : Fin k1_t4_loop.trips, ∀ a, (k1_off148 k1_t4) a + S1x1x16.size a ≤ S4x16x384.size a
  k1_off149_inb : ∀ k1_t4 : Fin k1_t4_loop.trips, ∀ a, (k1_off149 k1_t4) a + S1x1x16.size a ≤ S4x16x384.size a
  k1_off150_inb : ∀ k1_t4 : Fin k1_t4_loop.trips, ∀ a, (k1_off150 k1_t4) a + S1x1x16.size a ≤ S4x16x384.size a
  k1_off151_inb : ∀ k1_t4 : Fin k1_t4_loop.trips, ∀ a, (k1_off151 k1_t4) a + S1x1x16.size a ≤ S4x16x384.size a
  k1_off152_inb : ∀ k1_t4 : Fin k1_t4_loop.trips, ∀ a, (k1_off152 k1_t4) a + S1x1x16.size a ≤ S4x16x384.size a
  k1_off153_inb : ∀ k1_t4 : Fin k1_t4_loop.trips, ∀ a, (k1_off153 k1_t4) a + S1x1x16.size a ≤ S4x16x384.size a
  k1_off154_inb : ∀ k1_t4 : Fin k1_t4_loop.trips, ∀ a, (k1_off154 k1_t4) a + S1x1x16.size a ≤ S4x16x384.size a
  k1_off155_inb : ∀ k1_t4 : Fin k1_t4_loop.trips, ∀ a, (k1_off155 k1_t4) a + S1x1x16.size a ≤ S4x16x384.size a
  k1_off156_inb : ∀ k1_t4 : Fin k1_t4_loop.trips, ∀ a, (k1_off156 k1_t4) a + S1x1x16.size a ≤ S4x16x384.size a
  k1_off157_inb : ∀ k1_t4 : Fin k1_t4_loop.trips, ∀ a, (k1_off157 k1_t4) a + S1x1x16.size a ≤ S4x16x384.size a
  k1_off158_inb : ∀ k1_t4 : Fin k1_t4_loop.trips, ∀ a, (k1_off158 k1_t4) a + S1x1x16.size a ≤ S4x16x384.size a
  k1_off159_inb : ∀ k1_t4 : Fin k1_t4_loop.trips, ∀ a, (k1_off159 k1_t4) a + S1x1x16.size a ≤ S4x16x384.size a
  k1_off160_inb : ∀ k1_t4 : Fin k1_t4_loop.trips, ∀ a, (k1_off160 k1_t4) a + S1x1x16.size a ≤ S4x16x384.size a
  k1_off161_inb : ∀ k1_t4 : Fin k1_t4_loop.trips, ∀ a, (k1_off161 k1_t4) a + S1x1x16.size a ≤ S4x16x384.size a
  k1_off162_inb : ∀ k1_t4 : Fin k1_t4_loop.trips, ∀ a, (k1_off162 k1_t4) a + S1x1x16.size a ≤ S4x16x384.size a
  k1_off163_inb : ∀ k1_t4 : Fin k1_t4_loop.trips, ∀ a, (k1_off163 k1_t4) a + S1x1x16.size a ≤ S4x16x384.size a
  k1_off164_inb : ∀ k1_t4 : Fin k1_t4_loop.trips, ∀ a, (k1_off164 k1_t4) a + S1x1x16.size a ≤ S4x16x384.size a
  k1_off165_inb : ∀ k1_t4 : Fin k1_t4_loop.trips, ∀ a, (k1_off165 k1_t4) a + S1x1x16.size a ≤ S4x16x384.size a
  k1_off166_inb : ∀ k1_t4 : Fin k1_t4_loop.trips, ∀ a, (k1_off166 k1_t4) a + S1x1x16.size a ≤ S4x16x384.size a
  k1_off167_inb : ∀ k1_t4 : Fin k1_t4_loop.trips, ∀ a, (k1_off167 k1_t4) a + S1x1x16.size a ≤ S4x16x384.size a
  k1_off168_inb : ∀ k1_t4 : Fin k1_t4_loop.trips, ∀ a, (k1_off168 k1_t4) a + S1x1x16.size a ≤ S4x16x384.size a
  k1_off169_inb : ∀ k1_t4 : Fin k1_t4_loop.trips, ∀ a, (k1_off169 k1_t4) a + S1x1x16.size a ≤ S4x16x384.size a
  k1_off170_inb : ∀ k1_t4 : Fin k1_t4_loop.trips, ∀ a, (k1_off170 k1_t4) a + S1x1x16.size a ≤ S4x16x384.size a
  k1_off171_inb : ∀ k1_t4 : Fin k1_t4_loop.trips, ∀ a, (k1_off171 k1_t4) a + S1x1x16.size a ≤ S4x16x384.size a
  k1_off172_inb : ∀ k1_t4 : Fin k1_t4_loop.trips, ∀ a, (k1_off172 k1_t4) a + S1x1x16.size a ≤ S4x16x384.size a
  k1_off173_inb : ∀ k1_t4 : Fin k1_t4_loop.trips, ∀ a, (k1_off173 k1_t4) a + S1x1x16.size a ≤ S4x16x384.size a
  k1_off174_inb : ∀ k1_t4 : Fin k1_t4_loop.trips, ∀ a, (k1_off174 k1_t4) a + S1x1x16.size a ≤ S4x16x384.size a
  k1_off175_inb : ∀ k1_t4 : Fin k1_t4_loop.trips, ∀ a, (k1_off175 k1_t4) a + S1x1x16.size a ≤ S4x16x384.size a
  k1_off176_inb : ∀ k1_t4 : Fin k1_t4_loop.trips, ∀ a, (k1_off176 k1_t4) a + S1x1x16.size a ≤ S4x16x384.size a
  k1_off177_inb : ∀ k1_t4 : Fin k1_t4_loop.trips, ∀ a, (k1_off177 k1_t4) a + S1x1x16.size a ≤ S4x16x384.size a
  k1_off178_inb : ∀ k1_t4 : Fin k1_t4_loop.trips, ∀ a, (k1_off178 k1_t4) a + S1x1x16.size a ≤ S4x16x384.size a
  k1_off179_inb : ∀ k1_t4 : Fin k1_t4_loop.trips, ∀ a, (k1_off179 k1_t4) a + S1x1x16.size a ≤ S4x16x384.size a
  k1_off180_inb : ∀ (k1_t1 : Fin k1_t1_loop.trips) (k1_t4 : Fin k1_t4_loop.trips), ∀ a, (k1_off180 k1_t1 k1_t4) a + S16.size a ≤ S768.size a
  k1_off181_inb : ∀ (i : grid1.Coords) (k1_t1 : Fin k1_t1_loop.trips), ∀ (k1_h4 : k1_cond4 k1_t1 = 1#1), ∀ a, (k1_off181 i k1_t1) a + S1x1x4x16x384.size a ≤ S8x32x16x16x384.size a
  k1_off182_inb : ∀ (i : grid1.Coords) (k1_t1 : Fin k1_t1_loop.trips), ∀ a, (k1_off182 i k1_t1) a + S1x1x3x16x384.size a ≤ S8x32x16x16x384.size a
  k1_t5_ok : k1_t5_loop.OK
  k1_off183_inb : ∀ k1_t5 : Fin k1_t5_loop.trips, ∀ a, (k1_off183 k1_t5) a + S1x1x16.size a ≤ S3x16x384.size a
  k1_off184_inb : ∀ k1_t5 : Fin k1_t5_loop.trips, ∀ a, (k1_off184 k1_t5) a + S1x1x16.size a ≤ S3x16x384.size a
  k1_off185_inb : ∀ k1_t5 : Fin k1_t5_loop.trips, ∀ a, (k1_off185 k1_t5) a + S1x1x16.size a ≤ S3x16x384.size a
  k1_off186_inb : ∀ k1_t5 : Fin k1_t5_loop.trips, ∀ a, (k1_off186 k1_t5) a + S1x1x16.size a ≤ S3x16x384.size a
  k1_off187_inb : ∀ k1_t5 : Fin k1_t5_loop.trips, ∀ a, (k1_off187 k1_t5) a + S1x1x16.size a ≤ S3x16x384.size a
  k1_off188_inb : ∀ k1_t5 : Fin k1_t5_loop.trips, ∀ a, (k1_off188 k1_t5) a + S1x1x16.size a ≤ S3x16x384.size a
  k1_off189_inb : ∀ k1_t5 : Fin k1_t5_loop.trips, ∀ a, (k1_off189 k1_t5) a + S1x1x16.size a ≤ S3x16x384.size a
  k1_off190_inb : ∀ k1_t5 : Fin k1_t5_loop.trips, ∀ a, (k1_off190 k1_t5) a + S1x1x16.size a ≤ S3x16x384.size a
  k1_off191_inb : ∀ k1_t5 : Fin k1_t5_loop.trips, ∀ a, (k1_off191 k1_t5) a + S1x1x16.size a ≤ S3x16x384.size a
  k1_off192_inb : ∀ k1_t5 : Fin k1_t5_loop.trips, ∀ a, (k1_off192 k1_t5) a + S1x1x16.size a ≤ S3x16x384.size a
  k1_off193_inb : ∀ k1_t5 : Fin k1_t5_loop.trips, ∀ a, (k1_off193 k1_t5) a + S1x1x16.size a ≤ S3x16x384.size a
  k1_off194_inb : ∀ k1_t5 : Fin k1_t5_loop.trips, ∀ a, (k1_off194 k1_t5) a + S1x1x16.size a ≤ S3x16x384.size a
  k1_off195_inb : ∀ k1_t5 : Fin k1_t5_loop.trips, ∀ a, (k1_off195 k1_t5) a + S1x1x16.size a ≤ S3x16x384.size a
  k1_off196_inb : ∀ k1_t5 : Fin k1_t5_loop.trips, ∀ a, (k1_off196 k1_t5) a + S1x1x16.size a ≤ S3x16x384.size a
  k1_off197_inb : ∀ k1_t5 : Fin k1_t5_loop.trips, ∀ a, (k1_off197 k1_t5) a + S1x1x16.size a ≤ S3x16x384.size a
  k1_off198_inb : ∀ k1_t5 : Fin k1_t5_loop.trips, ∀ a, (k1_off198 k1_t5) a + S1x1x16.size a ≤ S3x16x384.size a
  k1_off199_inb : ∀ k1_t5 : Fin k1_t5_loop.trips, ∀ a, (k1_off199 k1_t5) a + S1x1x16.size a ≤ S3x16x384.size a
  k1_off200_inb : ∀ k1_t5 : Fin k1_t5_loop.trips, ∀ a, (k1_off200 k1_t5) a + S1x1x16.size a ≤ S3x16x384.size a
  k1_off201_inb : ∀ k1_t5 : Fin k1_t5_loop.trips, ∀ a, (k1_off201 k1_t5) a + S1x1x16.size a ≤ S3x16x384.size a
  k1_off202_inb : ∀ k1_t5 : Fin k1_t5_loop.trips, ∀ a, (k1_off202 k1_t5) a + S1x1x16.size a ≤ S3x16x384.size a
  k1_off203_inb : ∀ k1_t5 : Fin k1_t5_loop.trips, ∀ a, (k1_off203 k1_t5) a + S1x1x16.size a ≤ S3x16x384.size a
  k1_off204_inb : ∀ k1_t5 : Fin k1_t5_loop.trips, ∀ a, (k1_off204 k1_t5) a + S1x1x16.size a ≤ S3x16x384.size a
  k1_off205_inb : ∀ k1_t5 : Fin k1_t5_loop.trips, ∀ a, (k1_off205 k1_t5) a + S1x1x16.size a ≤ S3x16x384.size a
  k1_off206_inb : ∀ k1_t5 : Fin k1_t5_loop.trips, ∀ a, (k1_off206 k1_t5) a + S1x1x16.size a ≤ S3x16x384.size a
  k1_off207_inb : ∀ k1_t5 : Fin k1_t5_loop.trips, ∀ a, (k1_off207 k1_t5) a + S1x1x16.size a ≤ S3x16x384.size a
  k1_off208_inb : ∀ k1_t5 : Fin k1_t5_loop.trips, ∀ a, (k1_off208 k1_t5) a + S1x1x16.size a ≤ S3x16x384.size a
  k1_off209_inb : ∀ k1_t5 : Fin k1_t5_loop.trips, ∀ a, (k1_off209 k1_t5) a + S1x1x16.size a ≤ S3x16x384.size a
  k1_off210_inb : ∀ k1_t5 : Fin k1_t5_loop.trips, ∀ a, (k1_off210 k1_t5) a + S1x1x16.size a ≤ S3x16x384.size a
  k1_off211_inb : ∀ k1_t5 : Fin k1_t5_loop.trips, ∀ a, (k1_off211 k1_t5) a + S1x1x16.size a ≤ S3x16x384.size a
  k1_off212_inb : ∀ k1_t5 : Fin k1_t5_loop.trips, ∀ a, (k1_off212 k1_t5) a + S1x1x16.size a ≤ S3x16x384.size a
  k1_off213_inb : ∀ k1_t5 : Fin k1_t5_loop.trips, ∀ a, (k1_off213 k1_t5) a + S1x1x16.size a ≤ S3x16x384.size a
  k1_off214_inb : ∀ k1_t5 : Fin k1_t5_loop.trips, ∀ a, (k1_off214 k1_t5) a + S1x1x16.size a ≤ S3x16x384.size a
  k1_off215_inb : ∀ k1_t5 : Fin k1_t5_loop.trips, ∀ a, (k1_off215 k1_t5) a + S1x1x16.size a ≤ S3x16x384.size a
  k1_off216_inb : ∀ k1_t5 : Fin k1_t5_loop.trips, ∀ a, (k1_off216 k1_t5) a + S1x1x16.size a ≤ S3x16x384.size a
  k1_off217_inb : ∀ k1_t5 : Fin k1_t5_loop.trips, ∀ a, (k1_off217 k1_t5) a + S1x1x16.size a ≤ S3x16x384.size a
  k1_off218_inb : ∀ k1_t5 : Fin k1_t5_loop.trips, ∀ a, (k1_off218 k1_t5) a + S1x1x16.size a ≤ S3x16x384.size a
  k1_off219_inb : ∀ k1_t5 : Fin k1_t5_loop.trips, ∀ a, (k1_off219 k1_t5) a + S1x1x16.size a ≤ S3x16x384.size a
  k1_off220_inb : ∀ k1_t5 : Fin k1_t5_loop.trips, ∀ a, (k1_off220 k1_t5) a + S1x1x16.size a ≤ S3x16x384.size a
  k1_off221_inb : ∀ k1_t5 : Fin k1_t5_loop.trips, ∀ a, (k1_off221 k1_t5) a + S1x1x16.size a ≤ S3x16x384.size a
  k1_off222_inb : ∀ k1_t5 : Fin k1_t5_loop.trips, ∀ a, (k1_off222 k1_t5) a + S1x1x16.size a ≤ S3x16x384.size a
  k1_off223_inb : ∀ k1_t5 : Fin k1_t5_loop.trips, ∀ a, (k1_off223 k1_t5) a + S1x1x16.size a ≤ S3x16x384.size a
  k1_off224_inb : ∀ k1_t5 : Fin k1_t5_loop.trips, ∀ a, (k1_off224 k1_t5) a + S1x1x16.size a ≤ S3x16x384.size a
  k1_off225_inb : ∀ (k1_t1 : Fin k1_t1_loop.trips) (k1_t5 : Fin k1_t5_loop.trips), ∀ a, (k1_off225 k1_t1 k1_t5) a + S16.size a ≤ S768.size a
  k1_off226_inb : ∀ i : grid1.Coords, ∀ a, (k1_off226 i) a + S768.size a ≤ S24576.size a

variable [Facts₀]

abbrev cc1_scratch5 : DmaSems sig S_ := SemArray.consecutive 4 S_ hcc1_scratch5
abbrev cc1_scratch6 : DmaSems sig S_ := SemArray.consecutive 5 S_ hcc1_scratch6
abbrev cc1_scratch7 : DmaSems sig S_ := SemArray.consecutive 6 S_ hcc1_scratch7
abbrev cc1_scratch8 : DmaSems sig S_ := SemArray.consecutive 7 S_ hcc1_scratch8
abbrev cc1_scoped0 : DmaSems sig S_ := SemArray.consecutive 8 S_ hcc1_scoped0

abbrev win0_0 : Pipeline.Window sig grid0 :=
  Pipeline.Window.ofSpecClip (Memref.whole main_v1) S32x15x16x384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v2) S32x384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x384x32x16x16 : Shape := ⟨5, ![8, 384, 32, 16, 16]⟩
abbrev S210 : Shape := ⟨1, ![210]⟩
abbrev S8x384x32x256 : Shape := ⟨4, ![8, 384, 32, 256]⟩
abbrev S_ : Shape := ⟨0, ![]⟩
abbrev S210x1 : Shape := ⟨2, ![210, 1]⟩
abbrev S1 : Shape := ⟨1, ![1]⟩
abbrev S1x1 : Shape := ⟨2, ![1, 1]⟩
abbrev S8x384x32x210 : Shape := ⟨4, ![8, 384, 32, 210]⟩
abbrev S8x384x32 : Shape := ⟨3, ![8, 384, 32]⟩

abbrev nBuf : Space → Nat
  | .hbm => 31
  | .vmem => 0
  | .smem => 0
  | _ => 0

abbrev bufTy : (tb : Table) → Fin (tcTables nBuf tb) → BufTy
  | .hbm, ⟨0, _⟩ => ⟨S8x384x32x16x16, .f32⟩
  | .hbm, ⟨1, _⟩ => ⟨S210, .i32⟩
  | .hbm, ⟨2, _⟩ => ⟨S8x384x32x256, .f32⟩
  | .hbm, ⟨3, _⟩ => ⟨S_, .i32⟩
  | .hbm, ⟨4, _⟩ => ⟨S210, .i32⟩
  | .hbm, ⟨5, _⟩ => ⟨S210, .i1⟩
  | .hbm, ⟨6, _⟩ => ⟨S_, .i32⟩
  | .hbm, ⟨7, _⟩ => ⟨S210, .i32⟩
  | .hbm, ⟨8, _⟩ => ⟨S210, .i32⟩
  | .hbm, ⟨9, _⟩ => ⟨S210, .i32⟩
  | .hbm, ⟨10, _⟩ => ⟨S210x1, .i32⟩
  | .hbm, ⟨11, _⟩ => ⟨S1, .i32⟩
  | .hbm, ⟨12, _⟩ => ⟨S_, .i32⟩
  | .hbm, ⟨13, _⟩ => ⟨S210x1, .i32⟩
  | .hbm, ⟨14, _⟩ => ⟨S210x1, .i1⟩
  | .hbm, ⟨15, _⟩ => ⟨S1x1, .i32⟩
  | .hbm, ⟨16, _⟩ => ⟨S210x1, .i32⟩
  | .hbm, ⟨17, _⟩ => ⟨S210x1, .i1⟩
  | .hbm, ⟨18, _⟩ => ⟨S210x1, .i1⟩
  | .hbm, ⟨19, _⟩ => ⟨S_, .i1⟩
  | .hbm, ⟨20, _⟩ => ⟨S210, .i1⟩
  | .hbm, ⟨21, _⟩ => ⟨S8x384x32x210, .f32⟩
  | .hbm, ⟨22, _⟩ => ⟨S8x384x32x210, .i1⟩
  | .hbm, ⟨23, _⟩ => ⟨S_, .f32⟩
  | .hbm, ⟨24, _⟩ => ⟨S8x384x32x210, .f32⟩
  | .hbm, ⟨25, _⟩ => ⟨S8x384x32x210, .f32⟩
  | .hbm, ⟨26, _⟩ => ⟨S_, .f32⟩
  | .hbm, ⟨27, _⟩ => ⟨S8x384x32, .f32⟩
  | .hbm, ⟨28, _⟩ => ⟨S_, .f32⟩
  | .hbm, ⟨29, _⟩ => ⟨S8x384x32, .f32⟩
  | .hbm, ⟨30, _⟩ => ⟨S8x384x32, .f32⟩
  | _, _ => ⟨S8x384x32x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_cst_0 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  shapeCasts_S8x384x32x16x16_S8x384x32x256 : S8x384x32x16x16.ShapeCasts S8x384x32x256
  bcast_S_S210 : S_.BroadcastsInDim S210 (![] : Fin 0 → Fin S210.rank)
  bcast_S210_S210x1_0 : S210.BroadcastsInDim S210x1 (![0] : Fin 1 → Fin S210x1.rank)
  bcast_S_S210x1 : S_.BroadcastsInDim S210x1 (![] : Fin 0 → Fin S210x1.rank)
  bcast_S1_S1x1_1 : S1.BroadcastsInDim S1x1 (![1] : Fin 1 → Fin S1x1.rank)
  bcast_S1x1_S210x1_0_1 : S1x1.BroadcastsInDim S210x1 (![0, 1] : Fin 2 → Fin S210x1.rank)
  reducesTo_S210x1_S210_d1 : S210x1.ReducesTo [1] S210
  h_S_ : 0 < S_.numel
  bcast_S210_S8x384x32x210_3 : S210.BroadcastsInDim S8x384x32x210 (![3] : Fin 1 → Fin S8x384x32x210.rank)
  bcast_S_S8x384x32x210 : S_.BroadcastsInDim S8x384x32x210 (![] : Fin 0 → Fin S8x384x32x210.rank)
  reducesTo_S8x384x32x210_S8x384x32_d3 : S8x384x32x210.ReducesTo [3] S8x384x32
  bcast_S_S8x384x32 : S_.BroadcastsInDim S8x384x32 (![] : Fin 0 → Fin S8x384x32.rank)
  gather_S8x384x32x256_S210x1_S8x384x32x210_012_3_n_n_3_1_8384321_wf : GatherDims.WF S8x384x32x256 S210x1 S8x384x32x210 [0, 1, 2] [3] [] [3] [] 1 ![8, 384, 32, 1]

variable [Facts₀]

def gather_S8x384x32x256_S210x1_S8x384x32x210_012_3_n_n_3_1_8384321 : GatherDims S8x384x32x256 S210x1 S8x384x32x210 where
  offsetDims := [0, 1, 2]
  collapsedSliceDims := [3]
  operandBatchingDims := []
  startIndicesBatchingDims := []
  startIndexMap := [3]
  indexVectorDim := 1
  sliceSizes := ![8, 384, 32, 1]
  wf := gather_S8x384x32x256_S210x1_S8x384x32x210_012_3_n_n_3_1_8384321_wf

class Facts : Prop extends Facts₀ where

variable [Facts]
-- ==== Proof.Spec.lean ====
/-
  The function both programs compute, stated once over literal shapes.

  For an input `x` of shape [8, 384, 32, 16, 16] (batch, channel, time, row, column) the result at (b, c, t) is the
  mean of the 15 × 14 = 210 interior entries of the 16 × 16 plane `x[b, c, t, ·, ·]`: rows 0 … 14 (the last row is
  left out) and columns 1 … 14 (the first and the last column are left out), that is, their sum times 1/210 on the
  extended reals.
-/
import Idealize.ShloMosaic.PureOps.Ideal
import Idealize.ShloMosaic.Lib.ValueIdx

noncomputable section

open scoped BigOperators

namespace Cert.Spec

open Idealize.ShloMosaic Idealize.ShloMosaic.ValueIdx

/-- The input's shape: [batch, channel, time, row, column]. -/
abbrev SIn : Shape := ⟨5, ![8, 384, 32, 16, 16]⟩
/-- The result's shape: [batch, channel, time]. -/
abbrev SOut : Shape := ⟨3, ![8, 384, 32]⟩

/-- Row `r` of the 15 kept rows, as a row of the 16. -/
abbrev keptRow (r : Fin 15) : Fin 16 := ⟨r.val, by omega⟩
/-- Column `q` of the 14 kept columns, as a column of the 16: the kept columns are 1 … 14. -/
abbrev keptCol (q : Fin 14) : Fin 16 := ⟨q.val + 1, by omega⟩

/-- The sum of the 210 interior entries of the plane at (b, c, t). -/
def interiorSum (x : SIn.Idx → EReal) (b : Fin 8) (c : Fin 384) (t : Fin 32) : EReal :=
  ∑ r : Fin 15, ∑ q : Fin 14, x (ix5 b c t (keptRow r) (keptCol q))

/-- The mean of the 210 interior entries of the plane at (b, c, t): their sum times 1/210. -/
def pooledAt (x : SIn.Idx → EReal) (b : Fin 8) (c : Fin 384) (t : Fin 32) : EReal :=
  interiorSum x b c t * ((1 / 210 : ℝ) : EReal)

/-- The whole result array: the interior mean of every plane. -/
def pooled (x : SIn.Idx → EReal) : SOut.Idx → EReal :=
  fun i => pooledAt x (i 0) (i 1) (i 2)

theorem pooled_apply (x : SIn.Idx → EReal) (b : Fin 8) (c : Fin 384) (t : Fin 32) :
    pooled x (ix3 b c t) = pooledAt x b c t := rfl

end Cert.Spec

end
-- ==== Proof.RefOps.lean ====
/-
  The reference program's @main as the straight line of its host operations, the two outlined functions it calls
  (the take along the last axis, and inside it the select that normalises the indices) written out at their call
  sites over the buffers of those calls, and its run read back: every weakly fair execution terminates with each
  buffer at the fold of the operations over the launch contents.

  The result buffer's term is named piece by piece after what it computes:
    table       the 210 constant index words,
    normalised  an index below zero moved up by 256 (no table entry is),
    column      the indices as a [210, 1] array (one start index per row),
    inRange     per table entry, whether 0 ≤ index ≤ 255 (every one is),
    taken       the gather along the last axis of the [8, 384, 32, 256] view, or NaN where out of range,
    refOut      the sum of the 210 taken entries from 0, divided by 210.
-/
import proofs.«214330_g12317966205028_cont_fleet_230_29_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The value, piece by piece -/

/-- The 210 constant index words, as a vector. -/
def table : IVec S210 32 := fun i => lit0 (S210.rowMajor i)

/-- The indices with a negative one moved up by the axis length 256. -/
def normalised (idx : IVec S210 32) : IVec S210 32 :=
  select (cmpi .slt idx (broadcastInDim S210 ![] bcast_S_S210 (constantI S_ 32 0#32)))
    (addi idx (broadcastInDim S210 ![] bcast_S_S210 (constantI S_ 32 256#32))) idx

/-- The indices as a [210, 1] array: one start index per row. -/
def column (idx : IVec S210 32) : IVec S210x1 32 :=
  broadcastInDim S210x1 ![0] bcast_S210_S210x1_0 (normalised idx)

/-- Per table entry, whether its index lies in 0 … 255. -/
def inRange (col : IVec S210x1 32) : IVec S210 1 :=
  Host.reduce IntOp.andi
    (andi (cmpi .sge col (broadcastInDim S210x1 ![] bcast_S_S210x1 (constantI S_ 32 0#32)))
      (cmpi .sle col (broadcastInDim S210x1 ![0, 1] bcast_S1x1_S210x1_0_1
        (broadcastInDim S1x1 ![1] bcast_S1_S1x1_1 (constantI S1 32 255#32)))))
    (constantI S_ 1 1#1) reducesTo_S210x1_S210_d1 h_S_

/-- The take along the last axis: the gathered entry where the index is in range, NaN elsewhere. -/
def taken (x : FVec F S8x384x32x256 .f32) (idx : IVec S210 32) : FVec F S8x384x32x210 .f32 :=
  select (broadcastInDim S8x384x32x210 ![3] bcast_S210_S8x384x32x210_3 (inRange (column idx)))
    (Host.gather gather_S8x384x32x256_S210x1_S8x384x32x210_012_3_n_n_3_1_8384321 x (column idx))
    (broadcastInDim S8x384x32x210 ![] bcast_S_S8x384x32x210 (constant S_ .f32 0x7FC00000#32))

/-- The whole result: the 210 taken entries of each plane summed from zero, then divided by 210. -/
def refOut (x : FVec F S8x384x32x16x16 .f32) : FVec F S8x384x32 .f32 :=
  Host.divf
    (Host.reduceAdd (taken (shapeCast S8x384x32x256 x shapeCasts_S8x384x32x16x16_S8x384x32x256) table)
      (constant S_ .f32 0x00000000#32) reducesTo_S8x384x32x210_S8x384x32_d3 h_S_)
    (broadcastInDim S8x384x32 ![] bcast_S_S8x384x32 (constant S_ .f32 0x43520000#32))

/-! ## @main as a list of operations -/

/-- @main's thirty-one operations in order, the calls unfolded: the index table and the reshape; the take's
    twenty-four (the select that normalises the indices is the inner call's one operation, into that call's
    buffer); then the zero, the sum over the last axis, the constant 210, its broadcast and the quotient. -/
abbrev ops : List (HloOp τ sig (Elt F)) :=
  [ nullary main_c (fun i => lit0 (S210.rowMajor i)),
    reshape main_arg0 main_v0 rfl shapeCasts_S8x384x32x16x16_S8x384x32x256,
    TRef.nullary main_call0.c (constantI S_ 32 0#32),
    TRef.unary main_call0.c main_call0.v0 (broadcastInDim S210 ![] bcast_S_S210),
    TRef.binary (.of main_c) main_call0.v0 main_call0.v1 (cmpi .slt),
    TRef.nullary main_call0.c_0 (constantI S_ 32 256#32),
    TRef.unary main_call0.c_0 main_call0.v2 (broadcastInDim S210 ![] bcast_S_S210),
    TRef.binary (.of main_c) main_call0.v2 main_call0.v3 addi,
    TRef.ternary main_call0.v1 main_call0.v3 (.of main_c) main_call0.call0.v0 select,
    TRef.unary main_call0.call0.v0 main_call0.v5 (broadcastInDim S210x1 ![0] bcast_S210_S210x1_0),
    TRef.nullary main_call0.c_1 (constantI S1 32 255#32),
    TRef.nullary main_call0.c_2 (constantI S_ 32 0#32),
    TRef.unary main_call0.c_2 main_call0.v6 (broadcastInDim S210x1 ![] bcast_S_S210x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S210x1 ![0, 1] bcast_S1x1_S210x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S210x1_S210_d1 h_S_),
    TRef.binary (.of main_v0) main_call0.v5 main_call0.v13 (fun x i => Host.gather gather_S8x384x32x256_S210x1_S8x384x32x210_012_3_n_n_3_1_8384321 x i),
    TRef.unary main_call0.v12 main_call0.v14 (broadcastInDim S8x384x32x210 ![3] bcast_S210_S8x384x32x210_3),
    TRef.nullary main_call0.cst (constant S_ .f32 0x7FC00000#32),
    TRef.unary main_call0.cst main_call0.v15 (broadcastInDim S8x384x32x210 ![] bcast_S_S8x384x32x210),
    TRef.ternary main_call0.v14 main_call0.v13 main_call0.v15 main_call0.v16 select,
    nullary main_cst (constant S_ .f32 0x00000000#32),
    binary main_v1 main_cst main_v2 ((fun x v => Host.reduceAdd x v reducesTo_S8x384x32x210_S8x384x32_d3 h_S_) : (⟨S8x384x32x210, .f32⟩ : BufTy).Contents (Elt F) → (⟨S_, .f32⟩ : BufTy).Contents (Elt F) → (⟨S8x384x32, .f32⟩ : BufTy).Contents (Elt F)),
    nullary main_cst_0 (constant S_ .f32 0x43520000#32),
    unary main_cst_0 main_v3 (broadcastInDim S8x384x32 ![] bcast_S_S8x384x32 : (⟨S_, .f32⟩ : BufTy).Contents (Elt F) → (⟨S8x384x32, .f32⟩ : BufTy).Contents (Elt F)),
    binary main_v2 main_v3 main_v4 (Host.divf : (⟨S8x384x32, .f32⟩ : BufTy).Contents (Elt F) → (⟨S8x384x32, .f32⟩ : BufTy).Contents (Elt F) → (⟨S8x384x32, .f32⟩ : BufTy).Contents (Elt F)) ]

set_option maxRecDepth 1024 in
/-- @main is that straight line: the two functions' definitions unfolded at their calls, both sides are one chain of
    host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., reshape_bufs_sub .., nullary_bufs_sub .., unary_bufs_sub .., binary_bufs_sub ..,
    nullary_bufs_sub .., unary_bufs_sub .., binary_bufs_sub .., ternary_bufs_sub .., unary_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., nullary_bufs_sub .., unary_bufs_sub .., binary_bufs_sub ..⟩

/-- From any memory with zero counters every weakly fair execution of @main terminates, and every buffer ends at the
    operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather Host.reduceAdd in
set_option maxRecDepth 8192 in
/-- The fold at the result buffer is `refOut` of the argument: each operation's result read at its own buffer, every
    other buffer left alone, and the typed references of the two calls the plain ones at these literal buffers. -/
theorem out_eq (V : Valuation τ sig (Elt F)) :
    after ops V (main_v4 : DevRef τ sig) = refOut (V (main_arg0 : DevRef τ sig)) := by
  after_results
  unfold refOut taken inRange column normalised table
  simp only [TRef.ofBuf, TRef.toBuf, cast_eq]
  rfl

/-- No operation writes the argument's buffer. -/
theorem arg0_eq (V : Valuation τ sig (Elt F)) :
    after ops V (main_arg0 : DevRef τ sig) = V (main_arg0 : DevRef τ sig) := by
  after_results

/-- The run with the result named: on every device the result buffer ends at `refOut` of the argument's launch
    contents, and the argument's buffer is unchanged. -/
theorem run_refOut (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v4).trans (out_eq _), (h c main_arg0).trans (arg0_eq _)⟩)
    (run_after m ρ)

end Cert.ReferenceIdeal.RefValue

end
-- ==== Proof.RefTable.lean ====
/-
  The constant index table of the reference, as facts about its 210 words.

  Entry number 14 r + q (r = 0 … 14, q = 0 … 13) is the word 16 r + q + 1: the position, in a 16 × 16 plane laid out
  row after row, of row r and column q + 1. So the table lists exactly the interior positions the mean is taken over:
  rows 0 … 14, columns 1 … 14, in increasing order. Every word is a small non-negative number (at most 238), so the
  reference's index normalisation leaves it alone and its range check passes. A sum over the 210 entries is the double
  sum over rows and columns.
-/
import proofs.«214330_g12317966205028_cont_fleet_230_29_alg».proof.Proof.Gen.ReferenceIdeal

noncomputable section

open scoped BigOperators

namespace Cert.ReferenceIdeal.RefValue

open Cert.ReferenceIdeal Idealize.ShloMosaic

/-- Table entry number 14 r + q: the one for row r, kept column q. -/
abbrev entry (r : Fin 15) (q : Fin 14) : Fin 210 := ⟨14 * r.val + q.val, by omega⟩

/-- Every table word, read as a signed integer, is not below 0, is at least 0 and is at most 255. -/
theorem word_signs : ∀ k : Fin 210,
    IntOp.cmpi .slt (lit0 k) 0#32 = 0#1 ∧ IntOp.cmpi .sge (lit0 k) 0#32 = 1#1 ∧ IntOp.cmpi .sle (lit0 k) 255#32 = 1#1 := by
  decide

/-- Entry 14 r + q is the number 16 r + (q + 1). -/
theorem word_value : ∀ (r : Fin 15) (q : Fin 14), (lit0 (entry r q)).toInt.toNat = 16 * r.val + (q.val + 1) := by
  decide

/-- A sum over the 210 entries is the sum over the 15 rows of the sums over the 14 kept columns. -/
theorem sum_entries {M : Type*} [AddCommMonoid M] (f : Fin 210 → M) :
    ∑ k : Fin 210, f k = ∑ r : Fin 15, ∑ q : Fin 14, f (entry r q) := by
  rw [← Fintype.sum_prod_type']
  refine (Fintype.sum_equiv (finProdFinEquiv (m := 15) (n := 14)) _ _ fun p => ?_).symm
  congr 1
  refine Fin.ext ?_
  simp only [finProdFinEquiv_apply_val]
  omega

end Cert.ReferenceIdeal.RefValue

end
-- ==== Proof.RefIndex.lean ====
/-
  The reference's array operations read at an index, over its literal shapes:
  the [8, 384, 32, 256] view of the [8, 384, 32, 16, 16] input (position 16 r + q of the last axis is row r, column q);
  the gather along the last axis (the first three coordinates kept, the last one the start index read as a signed
  integer and clamped into 0 … 255); and a reduction by "and" of an array that is 1 everywhere, from 1, which is 1.
-/
import proofs.«214330_g12317966205028_cont_fleet_230_29_alg».proof.Proof.Gen.ReferenceIdeal
import Idealize.ShloMosaic.Lib.ValueIdx
import Idealize.ShloMosaic.Lib.ValueLayout
import Idealize.ShloMosaic.Lib.ReduceAll

noncomputable section

namespace Cert.ReferenceIdeal.RefValue

open Cert.ReferenceIdeal Cert.ReferenceIdeal.Gen Idealize.ShloMosaic Idealize.ShloMosaic.ValueIdx

variable {α : Type}

/-- The take's dimension numbers: the first three axes kept whole, the last one indexed. -/
abbrev lastAxis : GatherDims S8x384x32x256 S210x1 S8x384x32x210 :=
  gather_S8x384x32x256_S210x1_S8x384x32x210_012_3_n_n_3_1_8384321

/-- The gather along the last axis read at (b, c, t, k): the operand at (b, c, t, ·), the last coordinate the k-th
    start index read signed and clamped into 0 … 255. -/
theorem gather_apply (x : S8x384x32x256.Idx → α) (idx : IVec S210x1 32) (b : Fin 8) (c : Fin 384) (t : Fin 32) (k : Fin 210) :
    Host.gather lastAxis x idx (ix4 b c t k)
      = x (ix4 b c t ⟨min (idx (ix2 k (0 : Fin 1))).toInt.toNat 255, by omega⟩) := by
  unfold Host.gather
  congr 1
  funext a
  refine Fin.ext ?_
  show lastAxis.start (ix4 b c t k) idx a + lastAxis.batchCoord (ix4 b c t k) a + lastAxis.offCoord (ix4 b c t k) a = _
  rw [GatherDims.batchCoord_eq_zero _ _ _ List.not_mem_nil, Nat.add_zero]
  match a with
  | ⟨0, _⟩ =>
    rw [show lastAxis.start (ix4 b c t k) idx ⟨0, by decide⟩ = 0 from dif_neg (by decide), Nat.zero_add]
    rfl
  | ⟨1, _⟩ =>
    rw [show lastAxis.start (ix4 b c t k) idx ⟨1, by decide⟩ = 0 from dif_neg (by decide), Nat.zero_add]
    rfl
  | ⟨2, _⟩ =>
    rw [show lastAxis.start (ix4 b c t k) idx ⟨2, by decide⟩ = 0 from dif_neg (by decide), Nat.zero_add]
    rfl
  | ⟨3, _⟩ =>
    show lastAxis.start (ix4 b c t k) idx ⟨3, by decide⟩ + lastAxis.offCoord (ix4 b c t k) ⟨3, by decide⟩ = _
    rw [GatherDims.offCoord_eq_zero _ _ ⟨3, by decide⟩ (by decide), Nat.add_zero]
    unfold GatherDims.start
    rw [dif_pos (show (⟨3, by decide⟩ : Fin 4) ∈ lastAxis.startIndexMap by decide)]
    have hsi : lastAxis.siIdx (ix4 b c t k) ⟨List.idxOf (⟨3, by decide⟩ : Fin 4) lastAxis.startIndexMap,
        List.idxOf_lt_length_iff.2 (by decide)⟩ = ix2 k (0 : Fin 1) := by
      funext d; refine Fin.ext ?_
      match d with
      | ⟨0, _⟩ => rfl
      | ⟨1, _⟩ => rfl
    rw [hsi]
    rfl

/-- The [8, 384, 32, 256] view of the input read at (b, c, t, 16 r + q): the input at (b, c, t, r, q). -/
theorem reshape_apply (x : S8x384x32x16x16.Idx → α) (h : S8x384x32x16x16.ShapeCasts S8x384x32x256)
    (b : Fin 8) (c : Fin 384) (t : Fin 32) (r q : Fin 16) (p : Fin 256) (hp : p.val = 16 * r.val + q.val) :
    shapeCast S8x384x32x256 x h (ix4 b c t p) = x (ix5 b c t r q) :=
  shapeCast_apply x h _ _ (by
    rw [Shape.rowMajor_val_five, Shape.rowMajor_val_four]
    show ((((b.val * 384 + c.val) * 32 + t.val) * 16 + r.val) * 16 + q.val) = ((b.val * 384 + c.val) * 32 + t.val) * 256 + p.val
    omega)

/-- A left fold by "and" from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A reduction by "and", from 1, of an array that is 1 everywhere is 1 at every index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun n _ => hx n

end Cert.ReferenceIdeal.RefValue

end
-- ==== Proof.RefConsts.lean ====
/-
  The float constant the reference divides by, as the extended real its pattern denotes: 0x43520000 is 210.
-/
import Idealize.ShloMosaic.PureOps.Ideal

noncomputable section

namespace Cert.ReferenceIdeal.RefValue

open Idealize.ShloMosaic

/-- The pattern 0x43520000 (sign 0, exponent 134, fraction 0x520000) denotes the real 210 = 1.640625 · 2⁷. -/
theorem ofBits_210 : Ideal.ofBits .f32 0x43520000#32 = ((210 : ℝ) : EReal) := by
  simp [Ideal.ofBits, Ideal.ieee, -EReal.coe_mul]; norm_num

end Cert.ReferenceIdeal.RefValue

end
-- ==== Proof.RefValue.lean ====
/-
  What the reference computes, index by index, at the ideal values (a float an extended real, every operation exact):
  its result at (b, c, t) is the mean of the 210 interior entries of the plane x[b, c, t, ·, ·].

  The chain: the table word k, once normalised (no word is negative) and laid out as a column, is still the word; the
  range mask is 1 at every entry (every word is within 0 … 255); so the take returns, at entry 14 r + q, the view's
  element at position 16 r + q + 1 of the last axis, which is the input at row r and column q + 1; the sum over the last
  axis from 0 is the sum of those 210 elements, re-indexed as a double sum over rows and columns; and dividing by the
  real number 210 multiplies by 1/210 on every extended real.
-/
import proofs.«214330_g12317966205028_cont_fleet_230_29_alg».proof.Proof.RefOps
import proofs.«214330_g12317966205028_cont_fleet_230_29_alg».proof.Proof.RefTable
import proofs.«214330_g12317966205028_cont_fleet_230_29_alg».proof.Proof.RefIndex
import proofs.«214330_g12317966205028_cont_fleet_230_29_alg».proof.Proof.RefConsts
import proofs.«214330_g12317966205028_cont_fleet_230_29_alg».proof.Proof.Spec
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The indices -/

/-- The table vector at k is the k-th word. -/
theorem table_apply (k : Fin 210) : table (ix1 k) = lit0 k := by
  unfold table
  exact congrArg lit0 (Fin.ext (Shape.rowMajor_val_one _))

/-- Normalising leaves every word alone: none is below zero. -/
theorem normalised_table (k : Fin 210) : normalised table (ix1 k) = lit0 k := by
  show Scalar.select (IntOp.cmpi .slt (table (ix1 k)) 0#32) (IntOp.addi (table (ix1 k)) 256#32) (table (ix1 k)) = lit0 k
  rw [table_apply, (word_signs k).1, select_zero]

/-- The column of start indices at row k is the k-th word. -/
theorem column_table (k : Fin 210) (u : Fin 1) : column table (ix2 k u) = lit0 k := by
  unfold column
  rw [broadcastInDim_apply _ _ _ _ (ix1 k) (fun a => by
    obtain rfl : a = 0 := Subsingleton.elim _ _
    rfl)]
  exact normalised_table k

/-- Every entry's index is in range. -/
theorem inRange_table (k : Fin 210) : inRange (column table) (ix1 k) = 1#1 := by
  unfold inRange
  refine reduce_andi_of_all _ _ _ _ rfl (fun i => ?_) _
  obtain ⟨k', u, rfl⟩ : ∃ k' u, i = ix2 k' u := ⟨i 0, i 1, eq_ix2 i⟩
  show IntOp.andi (IntOp.cmpi .sge (column table (ix2 k' u)) 0#32) (IntOp.cmpi .sle (column table (ix2 k' u)) 255#32) = 1#1
  rw [column_table, (word_signs k').2.1, (word_signs k').2.2]
  decide

/-! ## The take -/

variable {F : FTy → Type} [FloatOps F]

/-- The take at (b, c, t, entry 14 r + q): the view's element at position 16 r + (q + 1) of its last axis. -/
theorem taken_apply (v : FVec F S8x384x32x256 .f32) (b : Fin 8) (c : Fin 384) (t : Fin 32) (r : Fin 15) (q : Fin 14) :
    taken v table (ix4 b c t (entry r q)) = v (ix4 b c t ⟨16 * r.val + (q.val + 1), by omega⟩) := by
  unfold taken
  rw [select_apply, broadcastInDim_apply _ _ _ _ (ix1 (entry r q)) (fun a => by
    obtain rfl : a = 0 := Subsingleton.elim _ _
    rfl), inRange_table, select_one]
  show Host.gather lastAxis v (column table) (ix4 b c t (entry r q)) = _
  rw [gather_apply]
  refine congrArg v (congrArg (ix4 b c t) (Fin.ext ?_))
  show min (column table (ix2 (entry r q) 0)).toInt.toNat 255 = 16 * r.val + (q.val + 1)
  rw [column_table, word_value]
  omega

/-! ## The result -/

/-- The reduction's shape relation in the form that names the inserted index. -/
theorem reducesLast : S8x384x32x210.Reduces [3] S8x384x32 := by decide

/-- The reduced index (b, c, t) with k inserted on the last axis is (b, c, t, k). -/
theorem lift_apply (b : Fin 8) (c : Fin 384) (t : Fin 32) (k : Fin 210) :
    reducesLast.lift (ix3 b c t) k = ix4 b c t k := by
  funext a
  refine Fin.ext ?_
  match a with
  | ⟨0, _⟩ => rfl
  | ⟨1, _⟩ => rfl
  | ⟨2, _⟩ => rfl
  | ⟨3, _⟩ => rfl

/-- The reference's result at (b, c, t) is the interior mean of the plane at (b, c, t). -/
theorem refOut_apply (x : FVec Ideal S8x384x32x16x16 .f32) (b : Fin 8) (c : Fin 384) (t : Fin 32) :
    refOut (F := Ideal) x (ix3 b c t) = Cert.Spec.pooledAt x b c t := by
  show Ideal.div
      (Ideal.hostReduceAdd reducesTo_S8x384x32x210_S8x384x32_d3
        (taken (shapeCast S8x384x32x256 x shapeCasts_S8x384x32x16x16_S8x384x32x256) table)
        (Ideal.ofBits .f32 0x00000000#32) (ix3 b c t))
      (Ideal.ofBits .f32 0x43520000#32) = _
  rw [ofBits_210, Ideal.div_coe (by norm_num : (210 : ℝ) ≠ 0), Ideal.hostReduceAdd_single _ reducesLast,
    Ideal.ofBits_zero_f32, zero_add]
  unfold Cert.Spec.pooledAt Cert.Spec.interiorSum
  congr 1
  refine (sum_entries (M := EReal) _).trans ?_
  refine Finset.sum_congr rfl fun r _ => Finset.sum_congr rfl fun q _ => ?_
  rw [lift_apply, taken_apply]
  exact reshape_apply x _ b c t (Cert.Spec.keptRow r) (Cert.Spec.keptCol q) _ rfl

/-- The reference's whole result is the specification's array. -/
theorem refOut_eq_pooled (x : FVec Ideal S8x384x32x16x16 .f32) : refOut (F := Ideal) x = Cert.Spec.pooled x := by
  funext i
  obtain ⟨b, c, t, rfl⟩ : ∃ b c t, i = ix3 b c t := ⟨i 0, i 1, i 2, eq_ix3 i⟩
  exact refOut_apply x b c t

end Cert.ReferenceIdeal.RefValue

end
-- ==== Proof.RefRun.lean ====
/-
  The reference's run, ending at the specification: from any memory with zero counters every weakly fair execution of
  the reference terminates, its result buffer holds the interior mean of every plane of the argument's launch
  contents, and the argument's buffer is unchanged.
-/
import proofs.«214330_g12317966205028_cont_fleet_230_29_alg».proof.Proof.RefValue

noncomputable section

open Idealize.ShloMosaic Idealize.ShloMosaic.TcCoe Idealize.SL.Sem

namespace Cert.ReferenceIdeal.RefValue

theorem run
    (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v4)
          = Cert.Spec.pooled (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  (θ_run (Cert.ReferenceIdeal.defs (F := Ideal)) _ _).mono
    (fun _ h c => ⟨(h c).1.trans (refOut_eq_pooled _), (h c).2⟩)
    (run_refOut (F := Ideal) m g)

end Cert.ReferenceIdeal.RefValue

end
-- ==== Proof.KI.Base.lean ====
/-
  The idealized kernel's program as the launch theorem of a SparseCore program sees it, and the resource algebra
  every part of its run is stated over.

  The program has three kinds of thread: the TensorCore, which runs the host operations and one pipelined kernel
  region (the plane sums of pairs 64 … 255) and starts the SparseCore call; the two sequencers, which only dispatch;
  and the 32 vector subcores, each of which sums the interior of two planes (pairs 0 … 63). The ghost state has three
  components side by side: the launch handshakes' rounds, the rounds of the pipelined region's staging cells, and the
  counters of the local copies a vector subcore makes and waits for.
-/
import proofs.«214330_g12317966205028_cont_fleet_230_29_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«214330_g12317966205028_cont_fleet_230_29_alg».proof.Proof.Gen.KernelIdeal
import proofs.«214330_g12317966205028_cont_fleet_230_29_alg».proof.Proof.Gen.KernelIdeal.Skeleton
import proofs.«214330_g12317966205028_cont_fleet_230_29_alg».proof.Proof.Gen.KernelIdeal.Launch
import proofs.«214330_g12317966205028_cont_fleet_230_29_alg».proof.Proof.Gen.KernelIdeal.Points

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

/-- The label signature of the TensorCore side: the kernels' labels and the one pipelined region. -/
abbrev ΛP : Labels := Pipeline.Sig Λ₀ (Fin 1) fun p => (pcfgs (F := F) p).Adm
/-- The SparseCore calls of @main: one, the vector-subcore kernel on 2 × 16 subcores. -/
abbrev K : SparseCore.Cfg τ sig (ΛP (F := F)) 1 := sc (F := F)
theorem nCore_zero : (K (F := F)).nCore 0 = 2 := rfl
theorem nSub_zero : (K (F := F)).nSub 0 = 16 := rfl
/-- The body table below the SparseCore dispatch: the kernels' bodies and the pipelined region. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelined region's staging cells' rounds. -/
abbrev UP : Type := URounds (GSem nD τ sig) Unit
/-- The three components side by side; the counters of local copies sit rightmost, where they are found by instance. -/
abbrev UU : Type := UH × (UP × Counters)

/-- The handshakes' component, embedded. -/
abbrev EH : Emb UH (MT nD τ sig (HIx 1) (Elt F) ℕ UU ℕ) := embL
/-- The staging cells' component, embedded: the left of the right. -/
def EP : Emb UP (MT nD τ sig (HIx 1) (Elt F) ℕ UU ℕ) :=
  (Emb.inl : Emb UP (UP × Counters)).trans ((Emb.inr : Emb (UP × Counters) UU).trans
    (uEmb (nD := nD) (τ := τ) (sig := sig) (Ix := HIx 1) (Val := Elt F) (Name := ℕ) (U := UU) (Lvl := ℕ)).toEmb)

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## Threads, locations and memrefs -/

/-- The SparseCore and the subcore a grid point of the vector-subcore kernel runs on. -/
abbrev cV (L : grid1.Coords) : Fin τ.nSC := (L 0).castLE hcore1
abbrev jV (L : grid1.Coords) : Fin τ.nSub := (L 1).castLE hsub1
/-- The grid point of SparseCore `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The transposed input [8, 32, 16, 16, 384] and the flat result [24576] of the SparseCore call, as locations of the device. -/
abbrev xtLoc (d : Dev nD) : Loc nD τ sig := (SparseCore.T d).loc main_v0
abbrev oLoc (d : Dev nD) : Loc nD τ sig := (SparseCore.T d).loc main_v3

/-- The same two arrays as a vector subcore's memrefs, and its five scratch buffers. -/
abbrev xtV : Memref sig .scVector .hbm S8x32x16x16x384 .f32 := Memref.whole main_v0_scv
abbrev oV : Memref sig .scVector .hbm S24576 .f32 := Memref.whole main_v3_scv
abbrev b0 : Memref sig .scVector .vmem S4x16x384 .f32 := Memref.whole cc1_scratch0
abbrev b1 : Memref sig .scVector .vmem S4x16x384 .f32 := Memref.whole cc1_scratch1
abbrev b2 : Memref sig .scVector .vmem S4x16x384 .f32 := Memref.whole cc1_scratch2
abbrev b3 : Memref sig .scVector .vmem S3x16x384 .f32 := Memref.whole cc1_scratch3
abbrev acc : Memref sig .scVector .vmem S768 .f32 := Memref.whole cc1_scratch4

/-- The 768 consecutive entries of the flat result that the subcore at grid point `L` writes: two planes × 384 channels. -/
abbrev oRect (L : grid1.Coords) : Rect S24576 := Rect.unit (s := S24576) (k1_off226 L) S768.size (k1_off226_inb L)
abbrev oSlice (L : grid1.Coords) : Memref sig .scVector .hbm S768 .f32 := (oV).slice (oRect L) (fun _ => rfl)
abbrev oSet (L : grid1.Coords) : Finset S24576.Idx := (oSlice L).view.set

/-- The vector-subcore kernel at grid point `L`, on the whole arrays and the subcore's own scratch: the task's program. -/
abbrev tileProg (L : grid1.Coords) :
    Prog (TpuEff nD τ sig (Elt F) Λ₀ (.scVector (cV L) (jV L))) PUnit :=
  cc1_sc_kernel (F := F) L xtV (Memref.isWhole_whole _) oV (Memref.isWhole_whole _) b0 (Memref.isWhole_whole _) b1 (Memref.isWhole_whole _)
    b2 (Memref.isWhole_whole _) b3 (Memref.isWhole_whole _) acc (Memref.isWhole_whole _) cc1_scratch5 cc1_scratch6 cc1_scratch7 cc1_scratch8 cc1_scoped0

theorem defs₀_vector (c : Fin τ.nSC) (s : Fin τ.nSub) :
    defs₀ (F := F) (.scVector c s) 1 ()
      = SparseCore.onTile hcore1 hsub1 (fun c s => tileProg (F := F) (coordsV c s)) ⟨⟩ c s := rfl

end Cert.KernelIdeal.Hand

end
-- ==== Proof.KI.Pay.lean ====
/-
  What the launch handshakes of the SparseCore call carry.

  The TensorCore hands each of the two SparseCores a read share of the whole transposed input and the full ownership
  of that SparseCore's entries of the flat result: subcore s of SparseCore c computes pairs 4s + 2c and 4s + 2c + 1,
  so its entries are the 768 from (4s + 2c)·384 on, and a SparseCore's entries are the union over its sixteen
  subcores. A sequencer deals each subcore a read share of the input and the subcore's own 768 entries; the results
  come back the same way, the entries now at the final contents. The read shares are the input's full share with one
  token split off per SparseCore, and of that one token per subcore; the remainders stay with the giver.
-/
import proofs.«214330_g12317966205028_cont_fleet_230_29_alg».proof.Proof.KI.Base

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareDrop shareTokN shareTok)

variable {F : FTy → Type} [FloatOps F] [Named F]

local notation "𝕄" => MT nD τ sig (HIx 1) (Elt F) ℕ UU ℕ

/-- The grid point of subcore `i` of SparseCore `c` of the call's grid. -/
abbrev LV (c : Fin ((K (F := F)).nCore 0)) (i : Fin ((K (F := F)).nSub 0)) : grid1.Coords := coordsV ⟨c.val, c.isLt⟩ ⟨i.val, i.isLt⟩

/-- SparseCore `c`'s read share of the input: the `c`-th token of the full share. -/
abbrev qC (c : ℕ) : PosShare TreeShare := shareTokN fullShare c
/-- Subcore `i`'s read share: the `i`-th token of its SparseCore's. -/
abbrev qT (c i : ℕ) : PosShare TreeShare := shareTokN (qC c) i

/-- The result entries of SparseCore `c`: its sixteen subcores' entries together. -/
def coreSet (c : Fin ((K (F := F)).nCore 0)) : Finset S24576.Idx :=
  (Finset.univ : Finset (Fin ((K (F := F)).nSub 0))).biUnion fun i => oSet (LV (F := F) c i)

section Payloads

variable (xt : (d : Dev nD) → Buf (Elt F) (xtLoc d)) (o₀ o₁ : (d : Dev nD) → Buf (Elt F) (oLoc d))

/-- The call's payloads: the input's contents `xt` when the call is made, the result's entries at `o₀` before and at `o₁` after. -/
def callPay : (K (F := F)).Pay (nD := nD) (Val := Elt F) (Name := ℕ) (U := UU) where
  st := fun q d c => match q with | 0 => iprop((xtLoc d ↦{qC c.val} xt d) ∗ (oLoc d ↦[coreSet (F := F) c]{fullShare} o₀ d))
  dn := fun q d c => match q with | 0 => iprop((xtLoc d ↦{qC c.val} xt d) ∗ (oLoc d ↦[coreSet (F := F) c]{fullShare} o₁ d))
  go := fun q d c i => match q with | 0 => iprop((xtLoc d ↦{qT c.val i.val} xt d) ∗ (oLoc d ↦[oSet (LV (F := F) c i)]{fullShare} o₀ d))
  td := fun q d c i => match q with | 0 => iprop((xtLoc d ↦{qT c.val i.val} xt d) ∗ (oLoc d ↦[oSet (LV (F := F) c i)]{fullShare} o₁ d))
  x := fun _ _ => iprop(emp)

instance callPay_storable : (callPay (F := F) xt o₀ o₁).IsStorable where
  st q d c := match q with | 0 => (inferInstance : BI.Storable (upEmb : UEmb _ 𝕄) iprop((xtLoc d ↦{qC c.val} xt d) ∗ (oLoc d ↦[coreSet (F := F) c]{fullShare} o₀ d)))
  dn q d c := match q with | 0 => (inferInstance : BI.Storable (upEmb : UEmb _ 𝕄) iprop((xtLoc d ↦{qC c.val} xt d) ∗ (oLoc d ↦[coreSet (F := F) c]{fullShare} o₁ d)))
  go q d c i := match q with | 0 => (inferInstance : BI.Storable (upEmb : UEmb _ 𝕄) iprop((xtLoc d ↦{qT c.val i.val} xt d) ∗ (oLoc d ↦[oSet (LV (F := F) c i)]{fullShare} o₀ d)))
  td q d c i := match q with | 0 => (inferInstance : BI.Storable (upEmb : UEmb _ 𝕄) iprop((xtLoc d ↦{qT c.val i.val} xt d) ∗ (oLoc d ↦[oSet (LV (F := F) c i)]{fullShare} o₁ d)))

end Payloads

/-! ## The result's entries, part by part -/

/-- The flat result splits into 32 equal parts of 768 entries. -/
theorem hdiv32 : 32 ∣ S24576.size 0 := ⟨768, rfl⟩
/-- Part `w` of the 32. -/
abbrev oPart (w : Fin 32) : Rect S24576 := Rect.part (s := S24576) (a₀ := 0) hdiv32 w
/-- The part of the subcore at grid point `L`: number 2·(subcore) + (SparseCore). -/
def widOf (L : grid1.Coords) : Fin 32 := ⟨2 * (L 1).val + (L 0).val, by
  have h0 : (L 0).val < 2 := (L 0).isLt
  have h1 : (L 1).val < 16 := (L 1).isLt
  omega⟩

theorem oRect_eq (L : grid1.Coords) : oRect L = oPart (widOf L) := by
  unfold oRect oPart Rect.part Rect.block
  congr 1 <;> funext a
  · rw [k1_off226_eq]
    match a with
    | 0 => simp [Shape.partIx, Shape.partSize, widOf]; omega
  · match a with
    | 0 => simp [Shape.partSize]

theorem oSet_eq (L : grid1.Coords) : oSet L = (oPart (widOf L)).set := by
  show ((View.whole (main_v3_scv : Ref sig .scVector)).slice (oRect L)).set = _
  rw [View.set_slice, oRect_eq]; exact Finset.map_refl

theorem widOf_LV_inj (c : Fin ((K (F := F)).nCore 0)) {i j : Fin ((K (F := F)).nSub 0)} (h : i ≠ j) :
    widOf (LV (F := F) c i) ≠ widOf (LV (F := F) c j) := by
  intro e
  apply h
  have := congrArg Fin.val e
  simp only [widOf, LV, coordsV] at this
  exact Fin.ext (by omega)

theorem oSets_disjoint (c : Fin ((K (F := F)).nCore 0)) :
    ∀ i ∈ (Finset.univ : Finset (Fin ((K (F := F)).nSub 0))), ∀ j ∈ (Finset.univ : Finset (Fin ((K (F := F)).nSub 0))), i ≠ j →
      Disjoint (oSet (LV (F := F) c i)) (oSet (LV (F := F) c j)) :=
  fun i _ j _ h => by rw [oSet_eq, oSet_eq]; exact Rect.part_disjoint hdiv32 (widOf_LV_inj (F := F) c h)

/-- A SparseCore's entries at one contents are its subcores' entries at those contents. -/
theorem oPts_tiles (d : Dev nD) (c : Fin ((K (F := F)).nCore 0)) (f : Buf (Elt F) (oLoc d)) :
    (oLoc d ↦[coreSet (F := F) c]{fullShare} f : sProp 𝕄)
      = bigSep Finset.univ fun i : Fin ((K (F := F)).nSub 0) => oLoc d ↦[oSet (LV (F := F) c i)]{fullShare} f := by
  unfold coreSet
  rw [← pointsTo_biUnion Finset.univ (ℓ := oLoc d) (fun i => oSet (LV (F := F) c i)) (oSets_disjoint (F := F) c)]

section Split

variable (xt : (d : Dev nD) → Buf (Elt F) (xtLoc d)) (o₀ o₁ : (d : Dev nD) → Buf (Elt F) (oLoc d))

/-- The sequencer's deal: one read token and one part per subcore out, the same back, the share's remainder kept meanwhile. -/
theorem vecSplit : (K (F := F)).VecSplit' (callPay (F := F) xt o₀ o₁) 0 := by
  intro d c
  show iprop((xtLoc d ↦{qC c.val} xt d) ∗ (oLoc d ↦[coreSet (F := F) c]{fullShare} o₀ d)) ⊢ |={Set.univ}=> iprop(
      (bigSep Finset.univ fun i : Fin ((K (F := F)).nSub 0) =>
        iprop((xtLoc d ↦{qT c.val i.val} xt d) ∗ (oLoc d ↦[oSet (LV (F := F) c i)]{fullShare} o₀ d)))
      ∗ ((bigSep Finset.univ fun i : Fin ((K (F := F)).nSub 0) =>
          iprop((xtLoc d ↦{qT c.val i.val} xt d) ∗ (oLoc d ↦[oSet (LV (F := F) c i)]{fullShare} o₁ d)))
          -∗ iprop((xtLoc d ↦{qC c.val} xt d) ∗ (oLoc d ↦[coreSet (F := F) c]{fullShare} o₁ d))))
  rw [bigSep_sep', bigSep_sep', oPts_tiles, oPts_tiles]
  iintro ⟨Hx, Ho⟩
  ihave Hx' := (Transfers.pointsTo_toks_split (qC c.val) ((K (F := F)).nSub 0)) $$ Hx
  icases Hx' with ⟨Hrem, Htoks⟩
  imodintro
  isplitl [Htoks Ho]
  · isplitl [Htoks]; · iexact Htoks
    iexact Ho
  iintro ⟨Htoks, Ho⟩
  isplitl [Hrem Htoks]
  · iapply (Transfers.pointsTo_toks_join (qC c.val) ((K (F := F)).nSub 0))
    isplitl [Hrem]; · iexact Hrem
    iexact Htoks
  iexact Ho

end Split

end Cert.KernelIdeal.Hand

end
-- ==== Proof.KI.Stages.lean ====
/-
  The host operations around the two kernels, as functions of arrays.

  Before the kernels: the input [8, 384, 32, 16, 16] is transposed to [8, 32, 16, 16, 384] (the channel axis last) and
  that is re-laid as [256, 16, 16, 384] (batch and time merged into the pair index p = 32·b + t). After them: the
  SparseCore's flat result of 24576 entries is re-laid as [64, 384] (pairs 0 … 63), the pipelined region's [192, 384]
  (pairs 64 … 255) is appended below it, the [256, 384] array is re-laid as [8, 32, 384] and its last two axes are
  exchanged, giving [8, 384, 32].
-/
import proofs.«214330_g12317966205028_cont_fleet_230_29_alg».proof.Proof.Gen.KernelIdeal

noncomputable section

namespace Cert.KernelIdeal.Hand

open Cert.KernelIdeal Cert.KernelIdeal.Gen
open Idealize.ShloMosaic

variable {F : FTy → Type} [FloatOps F] [Named F]

/-- The input with the channel axis moved last. -/
def xtOf (x : S8x384x32x16x16.Idx → Elt F .f32) : S8x32x16x16x384.Idx → Elt F .f32 :=
  transpose S8x32x16x16x384 [0, 2, 3, 4, 1] x transposes_S8x384x32x16x16_S8x32x16x16x384_0_2_3_4_1

/-- The transposed input with batch and time merged into the pair index. -/
def v1Of (xt : S8x32x16x16x384.Idx → Elt F .f32) : S256x16x16x384.Idx → Elt F .f32 :=
  fun i => shapeCast S256x16x16x384 xt shapeCasts_S8x32x16x16x384_S256x16x16x384 i

/-- The host operations after the kernels, of the SparseCore's flat result `v3` and the region's result `v2`. -/
def tailOf (v3 : S24576.Idx → Elt F .f32) (v2 : S192x384.Idx → Elt F .f32) : S8x384x32.Idx → Elt F .f32 :=
  transpose S8x384x32 [0, 2, 1]
    (fun i => shapeCast S8x32x384
      (concatenate S256x384 0 [⟨S64x384, fun j => shapeCast S64x384 v3 shapeCasts_S24576_S64x384 j⟩, ⟨S192x384, v2⟩]
        concatenates_S64x384_S192x384_S256x384_d0)
      shapeCasts_S256x384_S8x32x384 i)
    transposes_S8x32x384_S8x384x32_0_2_1

/-- The whole program's result from the input, given what the two kernels compute of their operands. -/
def kernelOut (fS : (S8x32x16x16x384.Idx → Elt F .f32) → S24576.Idx → Elt F .f32)
    (fT : (S256x16x16x384.Idx → Elt F .f32) → S192x384.Idx → Elt F .f32)
    (x : S8x384x32x16x16.Idx → Elt F .f32) : S8x384x32.Idx → Elt F .f32 :=
  tailOf (fS (xtOf x)) (fT (v1Of (xtOf x)))

end Cert.KernelIdeal.Hand

end
-- ==== Proof.KI.Launch.lean ====
/-
  The launch of the SparseCore program: each thread's obligation from the proofs of the parts.

  The subcore's body enters as a hypothesis in the shape the launch theorem's tile obligation needs; the pipelined
  region on the TensorCore enters as a hypothesis too. From them: every weakly fair execution of the 35 threads ends,
  faults nowhere, leaves the input unchanged and the result at the host operations' value of the two kernels' outputs.
-/
import proofs.«214330_g12317966205028_cont_fleet_230_29_alg».proof.Proof.KI.Pay
import proofs.«214330_g12317966205028_cont_fleet_230_29_alg».proof.Proof.KI.Stages

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareDrop shareTokN shareTok)

variable {F : FTy → Type} [FloatOps F] [Named F]

local notation "𝕄" => MT nD τ sig (HIx 1) (Elt F) ℕ UU ℕ

section Obligations

variable (xt : (d : Dev nD) → Buf (Elt F) (xtLoc d)) (o₀ o₁ : (d : Dev nD) → Buf (Elt F) (oLoc d))

/-- One subcore's task, at a symbolic grid point and read share: from a read share of the input at `xt` and its own
    768 result entries at `o₀`, it runs and leaves those entries at `o₁`. -/
def TileBody : Prop :=
  ∀ (d : Dev nD) (L : grid1.Coords) (q : PosShare TreeShare) (O : CellTallies nD τ sig (HIx 1)) (W : Waits sig (HIx 1)), (∀ g, O g none = 0) →
    iprop(levAts (K (F := F)).L (K (F := F)).lev ∗ (xtLoc d ↦{q} xt d) ∗ (oLoc d ↦[oSet L]{fullShare} o₀ d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => (iprop((xtLoc d ↦{q} xt d) ∗ (oLoc d ↦[oSet L]{fullShare} o₁ d)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

theorem obl_pre {A B C D' E' G : sProp 𝕄} : iprop(A ∗ emp ∗ (B ∗ C) ∗ D' ∗ E' ∗ G) ⊢ iprop(A ∗ B ∗ C ∗ D' ∗ E' ∗ G) := by
  iintro ⟨HA, -, ⟨HB, HC⟩, HD, HE, HG⟩
  isplitl [HA]; · iexact HA
  isplitl [HB]; · iexact HB
  isplitl [HC]; · iexact HC
  isplitl [HD]; · iexact HD
  isplitl [HE]; · iexact HE
  iexact HG

theorem obl_post {thr : Thread nD τ} {A B C D' : sProp 𝕄} {O : CellTallies nD τ sig (HIx 1)} {W : Waits sig (HIx 1)} {q : Fin 1} :
    iprop(A ∗ B ∗ C ∗ D' ∗ ∃ W', ⌜∀ p ∈ W', p ∈ W ∨ p.2 = none⌝ ∗ owes thr O W')
      ⊢ iprop((A ∗ B) ∗ C ∗ D' ∗ ∃ W', ⌜∀ p ∈ W', p ∈ W ∨ p.2 = none ∨ p.2 = some q⌝ ∗ owes thr O W') := by
  iintro ⟨HA, HB, HC, HD, %W', %hW', HO⟩
  isplitl [HA HB]
  · isplitl [HA]; · iexact HA
    iexact HB
  isplitl [HC]; · iexact HC
  isplitl [HD]; · iexact HD
  iexists W'; isplitr
  · ipureintro; exact fun p hp => (hW' p hp).imp_right Or.inl
  · iexact HO

/-- The launch theorem's tile obligation for the one call, from the body. -/
theorem tileObl (hbody : TileBody (F := F) xt o₀ o₁) : (K (F := F)).TileObl (D (F := F)) 𝒱 (callPay (F := F) xt o₀ o₁) v₀ 0 := by
  intro d c i O W hO _ _
  simp only [show (callPay (F := F) xt o₀ o₁).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact obl_pre.trans ((hbody d (LV (F := F) c i) (qT c.val i.val) O W hO).trans (wp_mono frame _ _ fun _ => obl_post))

end Obligations

/-! ## The launch element -/

section LaunchElement

variable (xt : (d : Dev nD) → Buf (Elt F) (xtLoc d)) (o₀ o₁ : (d : Dev nD) → Buf (Elt F) (oLoc d))
variable (uP : UP) (G : Dev nD → sProp (MT nD τ sig (HIx 1) (Elt F) ℕ UU ℕ))

/-- The launch element: the handshakes' rounds, the pipelined region's staging cells, the counters' unit. -/
def u₀ : UU := (initOf (K (F := F)).hsCells (K (F := F)).hsToks, (uP, (1 : Counters)))

theorem bigSep_emp' {I : Type} (s : Finset I) : (bigSep s fun _ => iprop(emp)) = (iprop(emp) : sProp 𝕄) := bigSep_emp_const s

/-- The element splits into the handshakes' component and the staging cells' (funded per device by `hG`); the counters' unit is dropped. -/
theorem hu₀ (hG : (BI.own (EP (F := F) uP) : sProp 𝕄) ⊢ |={Set.univ}=> bigSep Finset.univ G) :
    (ownU (u₀ (F := F) uP) : sProp 𝕄)
      ⊢ |={Set.univ}=> iprop(BI.own (EH (initOf (K (F := F)).hsCells (K (F := F)).hsToks)) ∗ (bigSep Finset.univ G)
        ∗ bigSep Finset.univ fun thr : Thread nD τ => bigSep Finset.univ fun q : Fin 1 => (callPay (F := F) xt o₀ o₁).x q thr) := by
  unfold u₀
  iintro Hu
  ihave H := (ownU_pair _ _) $$ Hu
  icases H with ⟨HH, HR⟩
  ihave HR' := (own_pair_emb (embR (A := UH) (B := UP × Counters)) uP (1 : Counters)) $$ HR
  icases HR' with ⟨HP, -⟩
  ihave HP' := (Entails.of_eq (show (BI.own (((Emb.inl : Emb UP (UP × Counters)).trans (embR (A := UH) (B := UP × Counters))) uP) : sProp 𝕄) = BI.own (EP (F := F) uP) from rfl)) $$ HP
  imod (hG) $$ HP' with HG
  imodintro
  isplitl [HH]; · iexact HH
  isplitl [HG]; · iexact HG
  unfold callPay; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end LaunchElement

/-! ## @main on the TensorCore -/

section Main

variable (m : (ℓ : Loc nD τ sig) → Buf (Elt F) ℓ) (ρ : Dev nD → PrngReg)
variable (fS : (S8x32x16x16x384.Idx → Elt F .f32) → S24576.Idx → Elt F .f32)
  (fT : (S256x16x16x384.Idx → Elt F .f32) → S192x384.Idx → Elt F .f32)

/-- The TensorCore's nine arrays: the input, and one per value of @main. -/
abbrev a0' : DevRef τ sig := Proc.devRef .tc (main_arg0 : Ref sig .tc)
abbrev r0' : DevRef τ sig := Proc.devRef .tc (main_v0 : Ref sig .tc)
abbrev r1' : DevRef τ sig := Proc.devRef .tc (main_v1 : Ref sig .tc)
abbrev r2' : DevRef τ sig := Proc.devRef .tc (main_v2 : Ref sig .tc)
abbrev r3' : DevRef τ sig := Proc.devRef .tc (main_v3 : Ref sig .tc)
abbrev r4' : DevRef τ sig := Proc.devRef .tc (main_v4 : Ref sig .tc)
abbrev r5' : DevRef τ sig := Proc.devRef .tc (main_v5 : Ref sig .tc)
abbrev r6' : DevRef τ sig := Proc.devRef .tc (main_v6 : Ref sig .tc)
abbrev r7' : DevRef τ sig := Proc.devRef .tc (main_v7 : Ref sig .tc)
abbrev S9 : Finset (DevRef τ sig) := {a0', r0', r1', r2', r3', r4', r5', r6', r7'}

/-- The host operations, as @main spells them. -/
abbrev op0 : HloOp τ sig (Elt F) :=
  StableHlo.unary main_arg0 main_v0 ((transpose S8x32x16x16x384 [0, 2, 3, 4, 1] · transposes_S8x384x32x16x16_S8x32x16x16x384_0_2_3_4_1) : (⟨S8x384x32x16x16, .f32⟩ : BufTy).Contents (Elt F) → (⟨S8x32x16x16x384, .f32⟩ : BufTy).Contents (Elt F))
abbrev op1 : HloOp τ sig (Elt F) := StableHlo.reshape main_v0 main_v1 rfl shapeCasts_S8x32x16x16x384_S256x16x16x384
abbrev op4 : HloOp τ sig (Elt F) := StableHlo.reshape main_v3 main_v4 rfl shapeCasts_S24576_S64x384
abbrev op5 : HloOp τ sig (Elt F) :=
  StableHlo.binary main_v4 main_v2 main_v5 ((fun a b => concatenate S256x384 0 [⟨S64x384, a⟩, ⟨S192x384, b⟩] concatenates_S64x384_S192x384_S256x384_d0) : (⟨S64x384, .f32⟩ : BufTy).Contents (Elt F) → (⟨S192x384, .f32⟩ : BufTy).Contents (Elt F) → (⟨S256x384, .f32⟩ : BufTy).Contents (Elt F))
abbrev op6 : HloOp τ sig (Elt F) := StableHlo.reshape main_v5 main_v6 rfl shapeCasts_S256x384_S8x32x384
abbrev op7 : HloOp τ sig (Elt F) :=
  StableHlo.unary main_v6 main_v7 ((transpose S8x384x32 [0, 2, 1] · transposes_S8x32x384_S8x384x32_0_2_1) : (⟨S8x32x384, .f32⟩ : BufTy).Contents (Elt F) → (⟨S8x384x32, .f32⟩ : BufTy).Contents (Elt F))

theorem h0 : (op0 (F := F)).bufs ⊆ S9 := show ({a0', r0'} : Finset (DevRef τ sig)) ⊆ S9 by decide
theorem h1 : (op1 (F := F)).bufs ⊆ S9 := show ({r0', r1'} : Finset (DevRef τ sig)) ⊆ S9 by decide
theorem h4 : (op4 (F := F)).bufs ⊆ S9 := show ({r3', r4'} : Finset (DevRef τ sig)) ⊆ S9 by decide
theorem h5 : (op5 (F := F)).bufs ⊆ S9 := show ({r4', r2', r5'} : Finset (DevRef τ sig)) ⊆ S9 by decide
theorem h6 : (op6 (F := F)).bufs ⊆ S9 := show ({r5', r6'} : Finset (DevRef τ sig)) ⊆ S9 by decide
theorem h7 : (op7 (F := F)).bufs ⊆ S9 := show ({r6', r7'} : Finset (DevRef τ sig)) ⊆ S9 by decide

/-- The arrays' contents: at the launch; after the two host operations before the kernels; after the pipelined region
    (its result at `fT` of its operand); after the SparseCore call (its result at `fS` of its operand); after each of the
    four host operations that follow. -/
abbrev V0 (d : Dev nD) : Valuation τ sig (Elt F) := fun b => m (d, b)
abbrev V1 (d : Dev nD) : Valuation τ sig (Elt F) := (op0 (F := F)).result (V0 m d)
abbrev V2 (d : Dev nD) : Valuation τ sig (Elt F) := (op1 (F := F)).result (V1 m d)
abbrev V3 (d : Dev nD) : Valuation τ sig (Elt F) := Function.update (V2 m d) r2' (fT (V2 m d r1'))
abbrev V4 (d : Dev nD) : Valuation τ sig (Elt F) := Function.update (V3 m fT d) r3' (fS (V3 m fT d r0'))
abbrev V5 (d : Dev nD) : Valuation τ sig (Elt F) := (op4 (F := F)).result (V4 m fS fT d)
abbrev V6 (d : Dev nD) : Valuation τ sig (Elt F) := (op5 (F := F)).result (V5 m fS fT d)
abbrev V7 (d : Dev nD) : Valuation τ sig (Elt F) := (op6 (F := F)).result (V6 m fS fT d)
abbrev V8 (d : Dev nD) : Valuation τ sig (Elt F) := (op7 (F := F)).result (V7 m fS fT d)

end Main

section Held

variable (thr : Thread nD τ) (x y : DevRef τ sig) (hxy : x ≠ y) (hx : x ∈ S9) (hy : y ∈ S9) (W : Valuation τ sig (Elt F))
include hxy hx hy

theorem pair_sub : ({x, y} : Finset (DevRef τ sig)) ⊆ S9 := by
  intro b hb
  rcases Finset.mem_insert.mp hb with rfl | hb
  · exact hx
  · rw [Finset.mem_singleton.mp hb]; exact hy

/-- Two of the nine arrays singled out, the other seven kept together. -/
theorem held_two_elim :
    (held thr S9 W : sProp 𝕄) ⊢ iprop(((thr.1, x) ↦{fullShare} W x) ∗ ((thr.1, y) ↦{fullShare} W y) ∗ held thr (S9 \ {x, y}) W) := by
  rw [StableHlo.held_sub_split thr (pair_sub x y hxy hx hy) W]
  unfold held
  rw [SparseCore.bigSep_insert' (by simpa using hxy), bigSep_singleton]
  iintro ⟨⟨Hx, Hy⟩, Hr⟩
  isplitl [Hx]; · iexact Hx
  isplitl [Hy]; · iexact Hy
  iexact Hr

/-- … and put back, the second at new contents. -/
theorem held_two_intro (f : Buf (Elt F) ((thr.1, y) : Loc nD τ sig)) :
    iprop(((thr.1, x) ↦{fullShare} W x) ∗ ((thr.1, y) ↦{fullShare} f) ∗ held thr (S9 \ {x, y}) W)
      ⊢ (held thr S9 (Function.update W y f) : sProp 𝕄) := by
  rw [StableHlo.held_sub_split thr (pair_sub x y hxy hx hy) (Function.update W y f),
    StableHlo.held_congr thr (S := S9 \ {x, y}) (V := Function.update W y f) (V' := W) (fun b hb => by
      have : b ≠ y := fun e => (Finset.mem_sdiff.mp hb).2 (by rw [e]; simp)
      exact Function.update_of_ne this _ _)]
  unfold held
  rw [SparseCore.bigSep_insert' (by simpa using hxy), bigSep_singleton, Function.update_of_ne hxy, Function.update_self]
  iintro ⟨Hx, Hy, Hr⟩
  isplitl [Hx Hy]
  · isplitl [Hx]; · iexact Hx
    iexact Hy
  iexact Hr

end Held

section MainProof

variable (m : (ℓ : Loc nD τ sig) → Buf (Elt F) ℓ) (ρ : Dev nD → PrngReg)
variable (fS : (S8x32x16x16x384.Idx → Elt F .f32) → S24576.Idx → Elt F .f32)
  (fT : (S256x16x16x384.Idx → Elt F .f32) → S192x384.Idx → Elt F .f32)
variable (Gd : Dev nD → sProp (MT nD τ sig (HIx 1) (Elt F) ℕ UU ℕ))

/-- The launch hands the TensorCore its nine arrays at the launch contents. -/
theorem unscoped_held (d : Dev nD) :
    (unscopedBufs d (fun b => m ((SparseCore.T d).loc b)) : sProp 𝕄) = held (T d) S9 (V0 m d) := by
  unfold unscopedBufs held S9
  rw [show (Finset.univ.filter fun b : Ref sig .tc => ¬ b.isScoped) = {main_arg0, main_v0, main_v1, main_v2, main_v3, main_v4, main_v5, main_v6, main_v7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! ### The SparseCores' shares of the call's operands -/

theorem widOf_LV_ne {c c' : Fin ((K (F := F)).nCore 0)} (h : c ≠ c') (i j : Fin ((K (F := F)).nSub 0)) :
    widOf (LV (F := F) c i) ≠ widOf (LV (F := F) c' j) := by
  intro e
  apply h
  have := congrArg Fin.val e
  simp only [widOf, LV, coordsV] at this
  have hc : c.val < 2 := c.isLt
  have hc' : c'.val < 2 := c'.isLt
  exact Fin.ext (by omega)

theorem coreSets_disjoint :
    ∀ c ∈ (Finset.univ : Finset (Fin ((K (F := F)).nCore 0))), ∀ c' ∈ (Finset.univ : Finset (Fin ((K (F := F)).nCore 0))), c ≠ c' →
      Disjoint (coreSet (F := F) c) (coreSet (F := F) c') := by
  intro c _ c' _ h
  unfold coreSet
  rw [Finset.disjoint_biUnion_left]
  intro i _
  rw [Finset.disjoint_biUnion_right]
  intro j _
  rw [oSet_eq, oSet_eq]
  exact Rect.part_disjoint hdiv32 (widOf_LV_ne (F := F) h i j)

theorem coreSets_cover : (Finset.univ : Finset (Fin ((K (F := F)).nCore 0))).biUnion (coreSet (F := F)) = Finset.univ := by
  apply Finset.eq_univ_of_forall
  intro idx
  have hidx : idx ∈ (Finset.univ : Finset (Fin 32)).biUnion (fun w => (oPart w).set) := by
    rw [Rect.biUnion_part hdiv32]; exact Finset.mem_univ _
  obtain ⟨w, -, hw⟩ := Finset.mem_biUnion.mp hidx
  have hw32 : w.val < 32 := w.isLt
  refine Finset.mem_biUnion.mpr ⟨⟨w.val % 2, Nat.mod_lt _ (by decide)⟩, Finset.mem_univ _, ?_⟩
  unfold coreSet
  refine Finset.mem_biUnion.mpr ⟨⟨w.val / 2, by show w.val / 2 < 16; omega⟩, Finset.mem_univ _, ?_⟩
  rw [oSet_eq]
  have : widOf (LV (F := F) ⟨w.val % 2, Nat.mod_lt _ (by decide)⟩ ⟨w.val / 2, by show w.val / 2 < 16; omega⟩) = w := by
    apply Fin.ext
    simp only [widOf, LV, coordsV]
    omega
  rw [this]; exact hw

/-- The flat result whole is the two SparseCores' entries. -/
theorem oPts_cores (d : Dev nD) (f : Buf (Elt F) (oLoc d)) :
    (oLoc d ↦{fullShare} f : sProp 𝕄) = bigSep Finset.univ fun c : Fin ((K (F := F)).nCore 0) => oLoc d ↦[coreSet (F := F) c]{fullShare} f := by
  rw [← pointsTo_biUnion Finset.univ (ℓ := oLoc d) (coreSet (F := F)) (coreSets_disjoint (F := F)), coreSets_cover]; try rfl

end MainProof

section MainRun

variable (m : (ℓ : Loc nD τ sig) → Buf (Elt F) ℓ) (ρ : Dev nD → PrngReg)
variable (fS : (S8x32x16x16x384.Idx → Elt F .f32) → S24576.Idx → Elt F .f32)
  (fT : (S256x16x16x384.Idx → Elt F .f32) → S192x384.Idx → Elt F .f32)
variable (Gd : Dev nD → sProp (MT nD τ sig (HIx 1) (Elt F) ℕ UU ℕ))

/-- The SparseCore call's operands: the transposed input when the call is made, the flat result before and after. -/
abbrev xtAt (d : Dev nD) : Buf (Elt F) (xtLoc d) := V3 m fT d r0'
abbrev oBefore (d : Dev nD) : Buf (Elt F) (oLoc d) := V3 m fT d r3'
abbrev oAfter (d : Dev nD) : Buf (Elt F) (oLoc d) := fS (V3 m fT d r0')

abbrev PP : (K (F := F)).Pay (nD := nD) (Val := Elt F) (Name := ℕ) (U := UU) := callPay (F := F) (xtAt m fT) (oBefore m fT) (oAfter m fS fT)

/-- The pipelined region on the TensorCore, as @main calls it: from the handshake state, the region boundary, its operand
    and result arrays whole and the staging cells' ghost state, to the same with the result at `fT` of the operand. -/
def TcRegion : Prop :=
  ∀ (κ : GSem nD τ sig → ℕ) (d : Dev nD) (v1 : Buf (Elt F) ((d, r1') : Loc nD τ sig)) (v2 : Buf (Elt F) ((d, r2') : Loc nD τ sig)) (Φ : PUnit → sProp 𝕄),
    iprop((K (F := F)).ctx EH (PP m fS fT) κ ∗ (K (F := F)).tcSt EH d 0 ∗ boundary (SparseCore.T d)
        ∗ (((d, r1') : Loc nD τ sig) ↦{fullShare} v1) ∗ (((d, r2') : Loc nD τ sig) ↦{fullShare} v2) ∗ Gd d
        ∗ (iprop((K (F := F)).tcSt EH d 0 ∗ boundary (SparseCore.T d) ∗ (((d, r1') : Loc nD τ sig) ↦{fullShare} v1)
            ∗ (((d, r2') : Loc nD τ sig) ↦{fullShare} fT v1)) -∗ Φ ⟨⟩))
      ⊢ wp frame (wpE ((K (F := F)).defs (D (F := F))) 𝒱 (SparseCore.T d) none) Set.univ
          (.op (.customCall (SparseCore.inner (Pipeline.entry 0)) ()) fun _ => .ret ⟨⟩) Φ

/-- What the call takes for the two SparseCores, and what it hands back: a read token of the input and its entries each. -/
theorem st0_eq (d : Dev nD) : (bigSep Finset.univ fun c : Fin ((K (F := F)).nCore 0) => (PP m fS fT).st 0 d c)
    = iprop((bigSep Finset.univ fun c : Fin ((K (F := F)).nCore 0) => xtLoc d ↦{qC c.val} xtAt m fT d)
        ∗ bigSep Finset.univ fun c : Fin ((K (F := F)).nCore 0) => oLoc d ↦[coreSet (F := F) c]{fullShare} oBefore m fT d) := by
  show (bigSep Finset.univ fun c : Fin ((K (F := F)).nCore 0) =>
    iprop((xtLoc d ↦{qC c.val} xtAt m fT d) ∗ (oLoc d ↦[coreSet (F := F) c]{fullShare} oBefore m fT d))) = _
  rw [bigSep_sep']
theorem dn0_eq (d : Dev nD) : (bigSep Finset.univ fun c : Fin ((K (F := F)).nCore 0) => (PP m fS fT).dn 0 d c)
    = iprop((bigSep Finset.univ fun c : Fin ((K (F := F)).nCore 0) => xtLoc d ↦{qC c.val} xtAt m fT d)
        ∗ bigSep Finset.univ fun c : Fin ((K (F := F)).nCore 0) => oLoc d ↦[coreSet (F := F) c]{fullShare} oAfter m fS fT d) := by
  show (bigSep Finset.univ fun c : Fin ((K (F := F)).nCore 0) =>
    iprop((xtLoc d ↦{qC c.val} xtAt m fT d) ∗ (oLoc d ↦[coreSet (F := F) c]{fullShare} oAfter m fS fT d))) = _
  rw [bigSep_sep']

/-- @main on device `d`'s TensorCore: the two host operations, the pipelined region (`hreg`), the SparseCore call (the
    library's rule for the call, each SparseCore handed a read token of the transposed input and its entries of the flat
    result), the four host operations after it. All nine arrays end at the last valuation. -/
theorem hmain (hreg : TcRegion (F := F) m fS fT Gd) (κ : GSem nD τ sig → ℕ) (d : Dev nD) :
    iprop((K (F := F)).ctx EH (PP m fS fT) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ held (T d) S9 (V8 m fS fT d)) := by
  unfold SparseCore.Cfg.tcRes
  rw [unscoped_held]
  simp only [main, wp_bind, wp_pure]
  iintro ⟨#Hctx, Hst, ⟨Hb, Hh, -, -⟩, HG⟩
  iapply (wp_hlo_within 𝒱 (SparseCore.T d) none Set.univ (op := op0 (F := F)) (S := S9) h0 (V := V0 m d)) $$ [Hb Hh]
  · isplitl [Hb]; · iexact Hb
    iexact Hh
  iintro ⟨Hb, Hh⟩
  rw [wp_ret]; imodintro
  iapply (wp_hlo_within 𝒱 (SparseCore.T d) none Set.univ (op := op1 (F := F)) (S := S9) h1 (V := V1 m d)) $$ [Hb Hh]
  · isplitl [Hb]; · iexact Hb
    iexact Hh
  iintro ⟨Hb, Hh⟩
  rw [wp_ret]; imodintro
  -- the pipelined region: its operand and result out of the nine, and back
  ihave Hh' := (held_two_elim (F := F) (T d) r1' r2' (by decide) (by decide) (by decide) (V2 m d)) $$ Hh
  icases Hh' with ⟨H1, H2, Hrest⟩
  iapply (hreg κ d (V2 m d r1') (V2 m d r2') _) $$ [Hst Hb H1 H2 HG Hrest]
  isplitr; · iexact Hctx
  isplitl [Hst]; · iexact Hst
  isplitl [Hb]; · iexact Hb
  isplitl [H1]; · iexact H1
  isplitl [H2]; · iexact H2
  isplitl [HG]; · iexact HG
  iintro ⟨Hst, Hb, H1, H2⟩
  ihave Hh := (held_two_intro (F := F) (T d) r1' r2' (by decide) (by decide) (by decide) (V2 m d) (fT (V2 m d r1'))) $$ [H1 H2 Hrest]
  · isplitl [H1]; · iexact H1
    isplitl [H2]; · iexact H2
    iexact Hrest
  -- the SparseCore call: the transposed input as two read tokens and a remainder, the flat result as the two SparseCores' entries
  ihave Hh' := (held_two_elim (F := F) (T d) r0' r3' (by decide) (by decide) (by decide) (V3 m fT d)) $$ Hh
  icases Hh' with ⟨H0, H3, Hrest⟩
  ihave H0' := (Transfers.pointsTo_toks_split fullShare ((K (F := F)).nCore 0)) $$ H0
  icases H0' with ⟨H0rem, H0toks⟩
  ihave H3' := (Entails.of_eq (oPts_cores (F := F) d (V3 m fT d r3'))) $$ H3
  iapply ((K (F := F)).wp_run (D (F := F)) 𝒱 (EH := EH) (P := PP m fS fT) κ d 0) $$ [Hst H0toks H3' Hb Hrest H0rem]
  isplitr; · iexact Hctx
  isplitl [Hst]; · iexact Hst
  isplitl [H0toks H3']
  · rw [st0_eq]
    isplitl [H0toks]; · iexact H0toks
    iexact H3'
  iintro ⟨Hst, Hdn⟩
  ihave Hdn' := (Entails.of_eq (dn0_eq m fS fT d)) $$ Hdn
  icases Hdn' with ⟨H0toks, H3'⟩
  ihave H0 := (Transfers.pointsTo_toks_join fullShare ((K (F := F)).nCore 0)) $$ [H0rem H0toks]
  · isplitl [H0rem]; · iexact H0rem
    iexact H0toks
  ihave H3 := (Entails.of_eq (oPts_cores (F := F) d (fS (V3 m fT d r0'))).symm) $$ H3'
  ihave Hh := (held_two_intro (F := F) (T d) r0' r3' (by decide) (by decide) (by decide) (V3 m fT d) (fS (V3 m fT d r0'))) $$ [H0 H3 Hrest]
  · isplitl [H0]; · iexact H0
    isplitl [H3]; · iexact H3
    iexact Hrest
  iapply (wp_hlo_within 𝒱 (SparseCore.T d) none Set.univ (op := op4 (F := F)) (S := S9) h4 (V := V4 m fS fT d)) $$ [Hb Hh]
  · isplitl [Hb]; · iexact Hb
    iexact Hh
  iintro ⟨Hb, Hh⟩
  rw [wp_ret]; imodintro
  iapply (wp_hlo_within 𝒱 (SparseCore.T d) none Set.univ (op := op5 (F := F)) (S := S9) h5 (V := V5 m fS fT d)) $$ [Hb Hh]
  · isplitl [Hb]; · iexact Hb
    iexact Hh
  iintro ⟨Hb, Hh⟩
  rw [wp_ret]; imodintro
  iapply (wp_hlo_within 𝒱 (SparseCore.T d) none Set.univ (op := op6 (F := F)) (S := S9) h6 (V := V6 m fS fT d)) $$ [Hb Hh]
  · isplitl [Hb]; · iexact Hb
    iexact Hh
  iintro ⟨Hb, Hh⟩
  rw [wp_ret]; imodintro
  iapply (wp_hlo_within 𝒱 (SparseCore.T d) none Set.univ (op := op7 (F := F)) (S := S9) h7 (V := V7 m fS fT d)) $$ [Hb Hh]
  · isplitl [Hb]; · iexact Hb
    iexact Hh
  iintro ⟨Hb, Hh⟩
  rw [wp_ret]; imodintro; imodintro
  isplitl [Hst]; · iexact Hst
  iexact Hh

end MainRun

/-! ## The arrays at the end, and the program's run -/

section Final

variable (m : (ℓ : Loc nD τ sig) → Buf (Elt F) ℓ) (ρ : Dev nD → PrngReg)
variable (fS : (S8x32x16x16x384.Idx → Elt F .f32) → S24576.Idx → Elt F .f32)
  (fT : (S256x16x16x384.Idx → Elt F .f32) → S192x384.Idx → Elt F .f32)

/-- The input's and the result's locations on device `d`. -/
abbrev xLoc (d : Dev nD) : Loc nD τ sig := (SparseCore.T d).loc main_arg0
abbrev yLoc (d : Dev nD) : Loc nD τ sig := (SparseCore.T d).loc main_v7

/-- No operation and neither kernel writes the input. -/
theorem V8_a0 (d : Dev nD) : V8 m fS fT d a0' = m (xLoc d) := by
  show (op7 (F := F)).result (V7 m fS fT d) a0' = _
  rw [StableHlo.unary_result_ne (h := show (main_arg0 : Ref sig .tc) ≠ main_v7 by decide)]
  show (op6 (F := F)).result (V6 m fS fT d) a0' = _
  rw [StableHlo.reshape_result_ne (h := show (main_arg0 : Ref sig .tc) ≠ main_v6 by decide)]
  show (op5 (F := F)).result (V5 m fS fT d) a0' = _
  rw [StableHlo.binary_result_ne (h := show (main_arg0 : Ref sig .tc) ≠ main_v5 by decide)]
  show (op4 (F := F)).result (V4 m fS fT d) a0' = _
  rw [StableHlo.reshape_result_ne (h := show (main_arg0 : Ref sig .tc) ≠ main_v4 by decide)]
  show Function.update (V3 m fT d) r3' _ a0' = _
  rw [Function.update_of_ne (show a0' ≠ r3' by decide)]
  show Function.update (V2 m d) r2' _ a0' = _
  rw [Function.update_of_ne (show a0' ≠ r2' by decide)]
  show (op1 (F := F)).result (V1 m d) a0' = _
  rw [StableHlo.reshape_result_ne (h := show (main_arg0 : Ref sig .tc) ≠ main_v1 by decide)]
  show (op0 (F := F)).result (V0 m d) a0' = _
  rw [StableHlo.unary_result_ne (h := show (main_arg0 : Ref sig .tc) ≠ main_v0 by decide)]

/-- The result array ends at the host operations' value of the two kernels' outputs. -/
theorem V8_r7 (d : Dev nD) : V8 m fS fT d r7' = kernelOut fS fT (m (xLoc d)) := by
  have e0 : V1 m d r0' = xtOf (m (xLoc d)) := StableHlo.unary_result _ _ _ _ _ _
  have e0' : V2 m d r0' = V1 m d r0' := StableHlo.reshape_result_ne (h := show (main_v0 : Ref sig .tc) ≠ main_v1 by decide) ..
  have e1 : V2 m d r1' = v1Of (V1 m d r0') := StableHlo.reshape_result _ _ _ _ _ _ _
  have e3 : V3 m fT d r0' = V2 m d r0' := Function.update_of_ne (show r0' ≠ r2' by decide) _ _
  have e2 : V3 m fT d r2' = fT (V2 m d r1') := Function.update_self _ _ _
  have e4 : V4 m fS fT d r3' = fS (V3 m fT d r0') := Function.update_self _ _ _
  have e2' : V4 m fS fT d r2' = V3 m fT d r2' := Function.update_of_ne (show r2' ≠ r3' by decide) _ _
  have e5 : V5 m fS fT d r4' = fun j => shapeCast S64x384 (V4 m fS fT d r3') shapeCasts_S24576_S64x384 j := StableHlo.reshape_result _ _ _ _ _ _ _
  have e5' : V5 m fS fT d r2' = V4 m fS fT d r2' := StableHlo.reshape_result_ne (h := show (main_v2 : Ref sig .tc) ≠ main_v4 by decide) ..
  have e6 : V6 m fS fT d r5' = concatenate S256x384 0 [⟨S64x384, V5 m fS fT d r4'⟩, ⟨S192x384, V5 m fS fT d r2'⟩] concatenates_S64x384_S192x384_S256x384_d0 :=
    StableHlo.binary_result _ _ _ _ _ _ _ _
  have e7 : V7 m fS fT d r6' = fun i => shapeCast S8x32x384 (V6 m fS fT d r5') shapeCasts_S256x384_S8x32x384 i := StableHlo.reshape_result _ _ _ _ _ _ _
  have e8 : V8 m fS fT d r7' = transpose S8x384x32 [0, 2, 1] (V7 m fS fT d r6') transposes_S8x32x384_S8x384x32_0_2_1 := StableHlo.unary_result _ _ _ _ _ _
  rw [e8, e7, e6, e5, e5', e2', e2, e1, e4, e3, e0', e0]
  rfl

/-- What the claim reads off the final memory of device `d`: the input unchanged, the result at the program's value. -/
def fq (d : Dev nD) (s' : Phys nD τ sig (Elt F)) : Prop :=
  s'.mem.mem (xLoc d) = m (xLoc d) ∧ s'.mem.mem (yLoc d) = kernelOut fS fT (m (xLoc d))

theorem hfin (d : Dev nD) (s' : Phys nD τ sig (Elt F)) :
    iprop(held (T d) S9 (V8 m fS fT d) ∗ SI s') ⊢ (⌜fq m fS fT d s'⌝ : sProp 𝕄) := by
  iintro ⟨Hh, HSI⟩
  ihave Hh' := (held_two_elim (F := F) (T d) a0' r7' (by decide) (by decide) (by decide) (V8 m fS fT d)) $$ Hh
  icases Hh' with ⟨Ha, Hy, -⟩
  ihave H := (persistent_entails_right (SI_pointsTo_agree (st := s') (ℓ := xLoc d) (I := Finset.univ) (q := fullShare) (f := V8 m fS fT d a0'))) $$ [HSI Ha]
  · isplitl [HSI] <;> iassumption
  icases H with ⟨%h1, HSI, -⟩
  ihave H := (SI_pointsTo_agree (st := s') (ℓ := yLoc d) (I := Finset.univ) (q := fullShare) (f := V8 m fS fT d r7')) $$ [HSI Hy]
  · isplitl [HSI] <;> iassumption
  icases H with %h2
  ipureintro
  exact ⟨(funext fun i => h1 i (Finset.mem_univ i)).trans (V8_a0 m fS fT d), (funext fun i => h2 i (Finset.mem_univ i)).trans (V8_r7 m fS fT d)⟩

/-- The run's post: on every device the result at the program's value of the input, the input unchanged. -/
def QC : PUnit × MemSt nD τ sig (Elt F) → Prop :=
  fun r => ∀ c : Dev nD, r.2.mem (yLoc c) = kernelOut fS fT (m (xLoc c)) ∧ r.2.mem (xLoc c) = m (xLoc c)

/-- Every weakly fair execution of the program's 35 threads from the launch memory ends, faults nowhere, and ends in `QC`:
    from the subcore's body, the pipelined region and the funding of its staging cells. -/
theorem run_main [∀ e, Nonempty (Elt F e)] (uP : UP) (Gd : Dev nD → sProp (MT nD τ sig (HIx 1) (Elt F) ℕ UU ℕ))
    (hG : (BI.own (EP (F := F) uP) : sProp 𝕄) ⊢ |={Set.univ}=> bigSep Finset.univ Gd)
    (hreg : TcRegion (F := F) m fS fT Gd)
    (hbody : TileBody (F := F) (xtAt m fT) (oBefore m fT) (oAfter m fS fT)) :
    θ_run (Cert.KernelIdeal.defs (F := F)) (Cert.KernelIdeal.threads (F := F)) ⟨m, fun _ => 0, ρ⟩ (QC m fS fT) :=
  SparseCore.Cfg.θ_run_sc (K := K (F := F)) (D := D (F := F)) (𝒱 := 𝒱) (EH := EH) (P := PP m fS fT) facts v₀
    (fun q hq => match q with | 0 => nomatch hq)
    (fun q _ => match q with | 0 => tileObl (xtAt m fT) (oBefore m fT) (oAfter m fS fT) hbody)
    (fun q _ => match q with | 0 => SparseCore.Cfg.VecSplit.of_plain (vecSplit (xtAt m fT) (oBefore m fT) (oAfter m fS fT)))
    m ρ main Gd (fun d => held (T d) S9 (V8 m fS fT d)) (u₀ (F := F) uP)
    (sep_elim_left.trans (hu₀ (xtAt m fT) (oBefore m fT) (oAfter m fS fT) uP Gd hG))
    (hmain m ρ fS fT Gd hreg) (fq m fS fT) (hfin m fS fT) (QC m fS fT) (fun _ h c => ⟨(h c).2, (h c).1⟩)

end Final

end Cert.KernelIdeal.Hand

end
-- ==== Proof.KI.TcOut.lean ====
/-
  The one whole-array function the pipelined region of the TensorCore leaves in its result array.

  The region runs on a grid of six points. Point `t` reads the block of the reshaped input made of planes
  64 + 32·t … 64 + 32·t + 31, rows 0 … 14 of each plane, every column and every channel, and writes rows
  32·t … 32·t + 31 of the result: the body's one stored value, computed from that block. Read at a row
  `r = 32·t + y` and a channel, the result is therefore the stored value of block `r / 32` at `(r % 32, channel)`.
-/
import proofs.«214330_g12317966205028_cont_fleet_230_29_alg».proof.Proof.Gen.KernelIdeal.Skeleton
import Idealize.ShloMosaic.Lib.ValueIdx

noncomputable section

namespace Cert.KernelIdeal.Hand

open Cert.KernelIdeal Cert.KernelIdeal.Gen

open Idealize.ShloMosaic
open Idealize.ShloMosaic.ValueIdx

variable {F : FTy → Type} [FloatOps F] [Named F]

/-- The input block of grid point `t`, read out of the whole reshaped input: entry `(y, h, w, c)` of the block is
    entry `(64 + 32·t + y, h, w, c)` of the array (planes 64 + 32·t … 64 + 32·t + 31; rows 0 … 14 of 16). -/
def tcIn (v1 : S256x16x16x384.Idx → Elt F .f32) (t : Fin 6) : Vec F S32x15x16x384 .f32 :=
  fun j => v1 (ix4 (n0 := 256) (n1 := 16) (n2 := 16) (n3 := 384)
    ⟨64 + 32 * t.val + (j 0).val, by have h : (j 0).val < 32 := (j 0).isLt; have := t.isLt; omega⟩
    ⟨(j 1).val, by have h : (j 1).val < 15 := (j 1).isLt; omega⟩
    ⟨(j 2).val, (j 2).isLt⟩ ⟨(j 3).val, (j 3).isLt⟩)

/-- What the region leaves in its result array, as one function of the reshaped input: row `r`, channel `c` is the
    body's stored value of block `r / 32` at `(r % 32, c)`. -/
def tcOut (v1 : S256x16x16x384.Idx → Elt F .f32) : S192x384.Idx → Elt F .f32 :=
  fun i => k0_pay1 (tcIn v1 ⟨(i 0).val / 32, by have h : (i 0).val < 192 := (i 0).isLt; omega⟩)
    (ix2 (n0 := 32) (n1 := 384) ⟨(i 0).val % 32, Nat.mod_lt _ (by decide)⟩ ⟨(i 1).val, (i 1).isLt⟩)

/-- The block read at an entry. -/
theorem tcIn_apply (v1 : S256x16x16x384.Idx → Elt F .f32) (t : Fin 6) (j : S32x15x16x384.Idx) :
    tcIn v1 t j = v1 (ix4 (n0 := 256) (n1 := 16) (n2 := 16) (n3 := 384)
      ⟨64 + 32 * t.val + (j 0).val, by have h : (j 0).val < 32 := (j 0).isLt; have := t.isLt; omega⟩
      ⟨(j 1).val, by have h : (j 1).val < 15 := (j 1).isLt; omega⟩
      ⟨(j 2).val, (j 2).isLt⟩ ⟨(j 3).val, (j 3).isLt⟩) := rfl

/-- The result read at row `32·t + y`: the stored value of block `t` at `(y, c)`. -/
theorem tcOut_block (v1 : S256x16x16x384.Idx → Elt F .f32) (t : Fin 6) (y : Fin 32) (c : Fin 384) :
    tcOut v1 (ix2 (n0 := 192) (n1 := 384) ⟨32 * t.val + y.val, by have := t.isLt; have := y.isLt; omega⟩ c)
      = k0_pay1 (tcIn v1 t) (ix2 (n0 := 32) (n1 := 384) y c) := by
  have h1 : (32 * t.val + y.val) / 32 = t.val := by have := y.isLt; omega
  have h2 : (32 * t.val + y.val) % 32 = y.val := by have := y.isLt; omega
  unfold tcOut
  have e1 : (⟨(32 * t.val + y.val) / 32, by have := t.isLt; have := y.isLt; omega⟩ : Fin 6) = t := Fin.ext h1
  have e2 : (⟨(32 * t.val + y.val) % 32, Nat.mod_lt _ (by decide)⟩ : Fin 32) = y := Fin.ext h2
  show k0_pay1 (tcIn v1 ⟨(32 * t.val + y.val) / 32, _⟩) (ix2 (n0 := 32) (n1 := 384) ⟨(32 * t.val + y.val) % 32, _⟩ ⟨c.val, _⟩) = _
  rw [e1, e2]

end Cert.KernelIdeal.Hand

end
-- ==== Proof.KI.TcBody.lean ====
/-
  The body of the pipelined region at one grid point.

  The body loads its whole input staging block, computes one value from it and stores that value over its whole
  output staging block. So whatever the two staging buffers are, if the input's holds `X` the output's ends holding
  the stored value of `X`, and the input's is unchanged.
-/
import proofs.«214330_g12317966205028_cont_fleet_230_29_alg».proof.Proof.KI.Base

noncomputable section

namespace Cert.KernelIdeal.Hand

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

variable {F : FTy → Type} [FloatOps F] [Named F]

local notation "𝕄" => MT nD τ sig (HIx 1) (Elt F) ℕ UU ℕ

/-! ## A whole buffer read and written through the unit rectangle at zero offsets -/

section Whole

variable {κ : Kind} {sp : Space} {s : Shape} {e : EltTy} {Val : EltTy → Type}

/-- A load of a whole buffer through the rectangle of the buffer's own sizes at zero offsets reads what the buffer's
    view reads. -/
theorem tc_readAt_zero_of_isWhole {m : Memref sig κ sp s e} (h : m.IsWhole) {off : Fin s.rank → Nat} (h0 : off = fun _ => 0)
    (inb : ∀ a, off a + s.size a ≤ s.size a) (f : m.view.ty.Contents Val) :
    m.view.readAt Val (Rect.unit off s.size inb).toLoadRect f = m.view.read Val f := by
  obtain ⟨b, rfl, rfl, rfl, hm⟩ := h; cases hm
  exact Memref.readAt_unit_zero Val b h0 inb f

/-- An unmasked store of `w` through that rectangle leaves the buffer reading `w`. -/
theorem tc_read_write_zero_of_isWhole {m : Memref sig κ sp s e} (h : m.IsWhole) {off : Fin s.rank → Nat} (h0 : off = fun _ => 0)
    (inb : ∀ a, off a + s.size a ≤ s.size a) (f : m.view.ty.Contents Val) (w : s.Idx → Val e) :
    m.view.read Val ((m.access (Rect.unit off s.size inb)).write Val f w Finset.univ) = w := by
  obtain ⟨b, rfl, rfl, rfl, hm⟩ := h; cases hm
  exact Memref.write_access_unit_zero_univ Val b h0 inb f w

end Whole

/-! ## The body at one point -/

/-- The region's body on any two whole staging buffers: the input's holding `X` and the output's holding anything, it
    ends with the input's unchanged and the output's holding the stored value of `X`. -/
theorem tc_body_run (c : Dev nD) (E : Set ℕ) (i : grid0.Coords)
    (MX : Memref sig .tc .vmem S32x15x16x384 .f32) (hX : MX.IsWhole) (MO : Memref sig .tc .vmem S32x384 .f32) (hO : MO.IsWhole)
    (X : Vec F S32x15x16x384 .f32) (Y : Vec F S32x384 .f32) {Kc : PUnit → sProp 𝕄} :
    iprop(owns (c : Thread nD τ) MX fullShare X ∗ owns (c : Thread nD τ) MO fullShare Y
        ∗ (iprop(owns (c : Thread nD τ) MX fullShare X ∗ owns (c : Thread nD τ) MO fullShare (k0_pay1 X)) -∗ Kc ⟨⟩))
      ⊢ wp frame (wpE (defs₀ (F := F)) 𝒱₀ c none) E (cc0_tc_body i MX hX MO hO) Kc := by
  have hz4 : (![0, 0, 0, 0] : Fin 4 → Nat) = fun _ => 0 := funext fun a => by fin_cases a <;> rfl
  have hz2 : (![0, 0] : Fin 2 → Nat) = fun _ => 0 := funext fun a => by fin_cases a <;> rfl
  rw [cc0_tc_body_eq_skeleton]; unfold cc0_tc_body_skel owns
  simp only [Prog.lift, Prog.bind_op, Prog.bind_ret]
  iintro ⟨⟨%f, %hf, HX⟩, ⟨%g, %hg, HO⟩, Hk⟩
  sl_steps
  iapply Hk
  isplitl [HX]
  · iexists f; isplitr; · ipureintro; exact hf
    iexact HX
  · iexists _; isplitr
    swap; · iexact HO
    ipureintro
    rw [tc_read_write_zero_of_isWhole hO hz2, tc_readAt_zero_of_isWhole hX hz4, hf]

end Cert.KernelIdeal.Hand

end
-- ==== Proof.KI.TcDat.lean ====
/-
  The proof data of the pipelined region, the body obligation at every grid point, and what the result array holds
  after the six write-backs.

  The input window's staging buffer holds, when the body runs at point `t`, the input block of that point (the fetch
  fills the whole buffer: the block lies inside the array); the output window's buffer holds anything. After the body
  the input's buffer is as it was and the output's holds the stored value of the input block. The six output blocks
  tile the result array, and block `t` of the one whole-array function `tcOut` is that stored value: so the array ends
  holding `tcOut` of the input.
-/
import proofs.«214330_g12317966205028_cont_fleet_230_29_alg».proof.Proof.KI.Base
import proofs.«214330_g12317966205028_cont_fleet_230_29_alg».proof.Proof.KI.TcOut
import proofs.«214330_g12317966205028_cont_fleet_230_29_alg».proof.Proof.KI.TcBody
import Idealize.ShloMosaic.Lib.Pipeline.Value

noncomputable section

namespace Cert.KernelIdeal.Hand

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)
open Idealize.ShloMosaic.ValueIdx

variable {F : FTy → Type} [FloatOps F] [Named F]

local notation "𝕄" => MT nD τ sig (HIx 1) (Elt F) ℕ UU ℕ

/-! ## The grid's points and the windows' geometry -/

/-- Grid point `t` as a number below six. -/
def tcPt (t : Fin cfg0.N) : Fin 6 := ⟨t.val, Nat.lt_of_lt_of_eq t.isLt N_0⟩

/-- The input window's block index at point `t` is `(2 + t, 0, 0, 0)`, and no axis of it is cut. -/
theorem tc_index_in : ∀ (t : Fin cfg0.N) (a : Fin 4), win0_0.index t a = (![2 + t.val, 0, 0, 0] : Fin 4 → Nat) a :=
  (by decide +kernel : ∀ (t : Fin grid0.N) (a : Fin 4), win0_0.index t a = (![2 + t.val, 0, 0, 0] : Fin 4 → Nat) a)
theorem tc_xsize_in : ∀ (t : Fin cfg0.N) (a : Fin 4), win0_0.xsize (grid0.coords t) a = win0_0.size a :=
  (by decide +kernel : ∀ (t : Fin grid0.N) (a : Fin 4), win0_0.xsize (grid0.coords t) a = win0_0.size a)
/-- The output window's block index at point `t` is `(t, 0)`. -/
theorem tc_index_out : ∀ (t : Fin cfg0.N) (a : Fin 2), win0_1.index t a = (![t.val, 0] : Fin 2 → Nat) a :=
  (by decide +kernel : ∀ (t : Fin grid0.N) (a : Fin 2), win0_1.index t a = (![t.val, 0] : Fin 2 → Nat) a)
/-- The output window is never fetched. -/
theorem tc_fetch_out : ∀ t : Fin cfg0.N, (cfg0.win 1).fetch t = false :=
  (by decide +kernel : ∀ t : Fin grid0.N, win0_1.fetch t = false)

/-- The fetch at point `t` fills the input's staging buffer with the input block of `t`, whatever it held. -/
theorem tc_fill_block (v1 : S256x16x16x384.Idx → Elt F .f32) (t : Fin cfg0.N) (d : S32x15x16x384.Idx → Elt F .f32) :
    win0_0.fill (grid0.coords t) d ((win0_0.blk t).view.read (Elt F) v1) = tcIn v1 (tcPt t) := by
  funext j
  have hm : win0_0.moved (grid0.coords t) j = true := (win0_0.moved_iff _ j).mpr fun a => by
    rw [tc_xsize_in t a]; exact (j a).isLt
  unfold Window.fill; rw [dif_pos hm, View.read_apply, cast_eq, tcIn_apply]
  refine congrArg v1 (funext fun a => Fin.ext ?_)
  show ((win0_0.rect t).emb _ a : Nat) = _
  rw [win0_0.rect_emb_val t _ a, tc_index_in t a]
  match a with
  | ⟨0, _⟩ => show (2 + t.val) * 32 + (j 0).val = 64 + 32 * t.val + (j 0).val; omega
  | ⟨1, _⟩ => show 0 * 15 + (j 1).val = (j 1).val; omega
  | ⟨2, _⟩ => show 0 * 16 + (j 2).val = (j 2).val; omega
  | ⟨3, _⟩ => show 0 * 384 + (j 3).val = (j 3).val; omega

/-- The result read where block `t`'s entry `y` sits: the stored value of block `t` at `y`. -/
theorem tcOut_at (v1 : S256x16x16x384.Idx → Elt F .f32) (i : S192x384.Idx) (t : Fin 6) (y : S32x384.Idx)
    (h0 : (i 0).val = 32 * t.val + (y 0).val) (h1 : (i 1).val = (y 1).val) : tcOut v1 i = k0_pay1 (tcIn v1 t) y := by
  have hy : (y 0).val < 32 := (y 0).isLt
  have e1 : (⟨(i 0).val / 32, by have h : (i 0).val < 192 := (i 0).isLt; omega⟩ : Fin 6) = t := Fin.ext (by show (i 0).val / 32 = t.val; omega)
  have e2 : ix2 (n0 := 32) (n1 := 384) ⟨(i 0).val % 32, Nat.mod_lt _ (by decide)⟩ ⟨(i 1).val, (i 1).isLt⟩ = y := by
    funext a
    match a with
    | ⟨0, _⟩ => exact Fin.ext (by show (i 0).val % 32 = (y 0).val; omega)
    | ⟨1, _⟩ => exact Fin.ext (by show (i 1).val = (y 1).val; exact h1)
  unfold tcOut; rw [e1, e2]

/-! ## The proof data -/

/-- The region's proof data on device `c`: the input array at `v1` and the result array at `v2₀` on entry; after the
    body at point `t` the input's staging buffer at the input block of `t` and the output's at its stored value; no
    invariant; the TensorCore owing throughout what it owes before its first SparseCore call, its recorded waits all
    at level zero. -/
def tcDats (v1 : S256x16x16x384.Idx → Elt F .f32) (v2₀ : S192x384.Idx → Elt F .f32) (_ : Fin 1) (c : Dev nD) :
    Dat τ (Elt F) (HIx 1) ℕ UU ℕ cfg0 c where
  A w := match w with
    | ⟨0, _⟩ => v1
    | ⟨1, _⟩ => v2₀
  after w t := match w with
    | ⟨0, _⟩ => tcIn v1 (tcPt t)
    | ⟨1, _⟩ => k0_pay1 (tcIn v1 (tcPt t))
  Φ _ := iprop(emp)
  q _ := fullShare
  owed _ := (K (F := F)).Otc c 0
  recorded _ := {p | (K (F := F)).lev (T c, p.1) p.2 ≤ 0}

variable (v1 : S256x16x16x384.Idx → Elt F .f32) (v2₀ : S192x384.Idx → Elt F .f32)

/-- What the body finds: the input's buffer just fetched, holding the input block; -/
theorem tc_before_in (c : Dev nD) (t : Fin cfg0.N) (d) : (tcDats v1 v2₀ 0 c).before (0 : Fin 2) t d = tcIn v1 (tcPt t) := by
  unfold Dat.before; rw [if_pos (fetch0_0 t)]
  exact tc_fill_block v1 t d
/-- the output's buffer at contents nothing names. -/
theorem tc_before_out (c : Dev nD) (t : Fin cfg0.N) (d) : (tcDats v1 v2₀ 0 c).before (1 : Fin 2) t d = d := by
  unfold Dat.before
  rw [if_neg (by rw [tc_fetch_out t]; exact Bool.false_ne_true)]
  by_cases h0 : t.val = 0
  · rw [if_pos h0]
  · rw [if_neg h0]; exact if_pos (flush0_1 _)

/-- The body obligation at every point. -/
theorem tc_body_obligation (c : Dev nD) :
    BodyObligationLoose (tcDats v1 v2₀ 0 c) (defs₀ (F := F)) 𝒱₀ (none : HIx 1) Set.univ := fun t => by
  rw [bigSep_W0, bigSep_W0]
  simp only
  rw [show (tcDats v1 v2₀ 0 c).Φ t.succ = (tcDats v1 v2₀ 0 c).Φ t.castSucc from rfl,
    show (tcDats v1 v2₀ 0 c).owesAt none t.succ = (tcDats v1 v2₀ 0 c).owesAt none t.castSucc from rfl]
  iintro ⟨HΦ, Ho, ⟨%d0, H0⟩, ⟨%d1, H1⟩⟩
  rw [tc_before_in, tc_before_out]
  iapply (tc_body_run (F := F) c Set.univ (grid0.coords t) _ (hstage0_0 ((cfg0.slots t 0).cast nbuf0_0)) _
    (hstage0_1 ((cfg0.slots t 1).cast nbuf0_1)) (tcIn v1 (tcPt t)) d1)
  isplitl [H0]; · iexact H0
  isplitl [H1]; · iexact H1
  iintro ⟨H0, H1⟩
  isplitl [HΦ]; · iexact HΦ
  isplitl [Ho]; · iexact Ho
  isplitl [H0]
  · -- the input window is described on the part its transfers move: what the buffer holds, cut and filled back
    iexists tcIn v1 (tcPt t)
    rw [show (tcDats v1 v2₀ 0 c).after 0 t = tcIn v1 (tcPt t) from rfl, (win0 0).fill_cut]
    iexact H0
  · iexact H1

/-! ## The result array after the six write-backs -/

/-- What point `t` writes back is block `t` of `tcOut v1`. -/
theorem tc_flushed_out (c : Dev nD) (t : Fin cfg0.N) :
    (tcDats v1 v2₀ 0 c).flushed (1 : Fin 2) t = ((cfg0.win 1).blk t).view.read (Elt F) (tcOut v1) := by
  funext y
  rw [View.read_apply, cast_eq]
  show k0_pay1 (tcIn v1 (tcPt t)) ((win0 1).xinj (grid0.coords t) y) = tcOut v1 (((cfg0.win 1).blk t).view.emb y)
  refine (tcOut_at v1 _ (tcPt t) _ ?_ ?_).symm
  · show ((win0_1.rect t).emb y 0 : Nat) = 32 * t.val + (y 0).val
    rw [win0_1.rect_emb_val t y 0, tc_index_out t 0]
    show t.val * 32 + (y 0).val = 32 * t.val + (y 0).val; omega
  · show ((win0_1.rect t).emb y 1 : Nat) = (y 1).val
    rw [win0_1.rect_emb_val t y 1, tc_index_out t 1]
    show 0 * 384 + (y 1).val = (y 1).val; omega

/-- Every entry of the result array lies in the block of the point its row belongs to. -/
theorem tc_cover_out (i : S192x384.Idx) :
    ∃ t : Fin cfg0.N, (cfg0.win 1).flush t = true ∧ i ∈ ((cfg0.win 1).blk t).view.set := by
  have hi : (i 0).val < 192 := (i 0).isLt
  have hi1 : (i 1).val < 384 := (i 1).isLt
  let t : Fin cfg0.N := ⟨(i 0).val / 32, by rw [show cfg0.N = 6 from N_0]; omega⟩
  refine ⟨t, flush0_1 t, ?_⟩
  show i ∈ ((View.whole main_v2).slice (win0_1.rect t)).set
  rw [View.set_slice_whole, Rect.mem_set_unit]
  intro a
  match a with
  | ⟨0, _⟩ =>
    show win0_1.index t 0 * 32 ≤ (i 0).val ∧ (i 0).val < win0_1.index t 0 * 32 + 32
    rw [tc_index_out t 0]; show (i 0).val / 32 * 32 ≤ (i 0).val ∧ (i 0).val < (i 0).val / 32 * 32 + 32; omega
  | ⟨1, _⟩ =>
    show win0_1.index t 1 * 384 ≤ (i 1).val ∧ (i 1).val < win0_1.index t 1 * 384 + 384
    rw [tc_index_out t 1]; show 0 * 384 ≤ (i 1).val ∧ (i 1).val < 0 * 384 + 384; omega

/-- The result array after the run: `tcOut` of the input, whatever it held on entry. -/
theorem tc_arrAt_out (c : Dev nD) : (tcDats v1 v2₀ 0 c).arrAt (1 : Fin 2) cfg0.N = tcOut v1 :=
  (tcDats v1 v2₀ 0 c).arrAt_eq_of_cover (1 : Fin 2) (tcOut v1) (fun t _ => tc_flushed_out v1 v2₀ c t) (tc_cover_out)

/-- The input array is never written. -/
theorem tc_arrAt_in (c : Dev nD) (n : ℕ) : (tcDats v1 v2₀ 0 c).arrAt (0 : Fin 2) n = v1 :=
  (tcDats v1 v2₀ 0 c).arrAt_in (0 : Fin 2) rfl n

end Cert.KernelIdeal.Hand

end
-- ==== Proof.KI.TcRegion.lean ====
/-
  The pipelined region of the TensorCore as one step of @main.

  The region is entered from the boundary between host operations with the input array at `v1`, the result array at
  anything, what the TensorCore owes the SparseCores (its start signals, all still ahead) and the staging cells' ghost
  state as the launch dealt it; it leaves the input array as it was and the result array at `tcOut v1`. The staging
  cells' waits are at the kernels' own index, below every start signal owed.
-/
import proofs.«214330_g12317966205028_cont_fleet_230_29_alg».proof.Proof.KI.Base
import proofs.«214330_g12317966205028_cont_fleet_230_29_alg».proof.Proof.KI.TcOut
import proofs.«214330_g12317966205028_cont_fleet_230_29_alg».proof.Proof.KI.TcBody
import proofs.«214330_g12317966205028_cont_fleet_230_29_alg».proof.Proof.KI.TcDat
import Idealize.ShloMosaic.Lib.Pipeline.Value

noncomputable section

namespace Cert.KernelIdeal.Hand

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)
open Idealize.ShloMosaic.ValueIdx

variable {F : FTy → Type} [FloatOps F] [Named F]

local notation "𝕄" => MT nD τ sig (HIx 1) (Elt F) ℕ UU ℕ

variable (v1 : S256x16x16x384.Idx → Elt F .f32) (v2₀ : S192x384.Idx → Elt F .f32)

/-- The reshaped input and the region's result, as locations of the device. -/
abbrev v1Loc (d : Dev nD) : Loc nD τ sig := (SparseCore.T d).loc main_v1
abbrev v2Loc (d : Dev nD) : Loc nD τ sig := (SparseCore.T d).loc main_v2

/-- The region prefetches no table. -/
abbrev tcAdm : (p : Fin 1) → (pcfgs (F := F) p).Adm := fun p => (cfgs p).toPCfg_adm

/-! ## What the TensorCore owes through the region -/

/-- Everything the TensorCore owes before its first SparseCore call is at a call's index. -/
theorem tc_Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- The TensorCore's debts as it holds them before its first SparseCore call: its recorded waits all at level zero. -/
abbrev tcOwes (c : Dev nD) : sProp 𝕄 :=
  iprop(∃ W, ⌜(K (F := F)).WBelow (T c) W (8 * 0)⌝ ∗ owes (T c) ((K (F := F)).Otc c 0) W)

theorem owesAt_of_tcOwes (c : Dev nD) (t : Fin (cfg0.N + 1)) : tcOwes (F := F) c ⊢ (tcDats v1 v2₀ 0 c).owesAt none t := by
  unfold Dat.owesAt Pipeline.owesWithin
  iintro ⟨%W, %hW, HO⟩
  iexists W; isplitr
  · ipureintro; exact fun p hp => Or.inl (hW p hp)
  · iexact HO

theorem tcOwes_of_owesAt (c : Dev nD) (t : Fin (cfg0.N + 1)) : (tcDats v1 v2₀ 0 c).owesAt none t ⊢ tcOwes (F := F) c := by
  unfold Dat.owesAt Pipeline.owesWithin
  iintro ⟨%W, %hW, HO⟩
  iexists W; isplitr
  · ipureintro
    intro p hp
    rcases hW hp with h | ⟨w, s, rfl⟩
    · exact h
    · exact Nat.le_of_eq ((K (F := F)).lev_none _)
  · iexact HO

/-! ## The arrays -/

theorem tcArrays_eq (c : Dev nD) (F' : (w : Fin cfg0.W) → Buf (Elt F) ((cfg0.win w).arr.view.loc (c.tc : Thread nD τ))) :
    (tcDats v1 v2₀ 0 c).arrays F' = iprop((v1Loc c ↦{fullShare} F' 0) ∗ (v2Loc c ↦{fullShare} F' 1)) := by
  rw [Pipeline.arrays_eq (fun _ : Fin 1 => cfg0) (tcDats v1 v2₀) 0 c arr_whole0 (fun w => (tcDats v1 v2₀ 0 c).share_full (fun _ => rfl) w) F',
    bigSep_W0]

/-! ## The region's record -/

/-- The staging cells may be waited on at the kernels' own index under everything the TensorCore then owes. -/
theorem tc_region_waits (c : Dev nD) :
    (levAts (K (F := F)).L (K (F := F)).lev : sProp 𝕄) ⊢ Pipeline.cellsWaits (Pipeline.pin (pcfgs (F := F)) tcAdm) (tcDats v1 v2₀) (none : HIx 1) 0 c :=
  Pipeline.cellsWaits_intro (Pipeline.pin (pcfgs (F := F)) tcAdm) (tcDats v1 v2₀) (none : HIx 1) 0 c fun w s t =>
    (K (F := F)).mayWait_none (.dma ((cfg0.win w).sem s)) (fun g => tc_Otc_none c 0 g)

-- the record's fields are stated over the pinned configuration, which is `cfg0` up to unfolding plain definitions
set_option backward.isDefEq.respectTransparency.types false in
/-- The region as a segment of @main: entered with the TensorCore's debts, the input array at `v1` and the result array
    at `v2₀`; left with the same debts, the input array as it was and the result array at `tcOut v1`. The kernel has no
    semaphore of its own and no invariant; nothing bypasses the region. -/
def tcReg : Pipeline.RegionSeg (pcfgs (F := F)) tcAdm (tcDats v1 v2₀) (none : HIx 1) defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := tc_body_obligation v1 v2₀ c
  hwaits c := tc_region_waits v1 v2₀ c
  pre c := iprop(tcOwes (F := F) c ∗ (v1Loc c ↦{fullShare} v1) ∗ (v2Loc c ↦{fullShare} v2₀))
  post c := iprop(tcOwes (F := F) c ∗ (v1Loc c ↦{fullShare} v1) ∗ (v2Loc c ↦{fullShare} tcOut v1))
  X _ := iprop(emp)
  Y _ := iprop(emp)
  Z _ := iprop(emp)
  hentry c := by
    rw [tcArrays_eq]
    iintro ⟨⟨HO, H1, H2⟩, -, -⟩
    imodintro
    isplitl [H1 H2]
    · isplitl [H1]; · iexact H1
      iexact H2
    isplitr
    · unfold Pipeline.prefHeld; rw [show (Finset.univ : Finset (Fin 0)) = ∅ from rfl, BI.bigSep_empty]; iempintro
    isplitl [HO]
    · iapply (owesAt_of_tcOwes v1 v2₀ c 0); iexact HO
    isplitr <;> iempintro
  hin c := by
    rw [show (tcDats v1 v2₀ 0 c).Φ 0 = iprop(emp) from rfl, scopedRest0_eq]
    iintro -; iempintro
  hout c := by
    rw [show (tcDats v1 v2₀ 0 c).Φ (Fin.last _) = iprop(emp) from rfl, scopedRest0_eq, Pipeline.ownSems0_none]
    iintro -
    isplitr; · iempintro
    isplitr <;> iempintro
  hexit c := by
    rw [tcArrays_eq, tc_arrAt_in, tc_arrAt_out]
    iintro ⟨⟨H1, H2⟩, HO, -, -⟩
    imodintro
    isplitl [HO]
    · iapply (tcOwes_of_owesAt v1 v2₀ c (Fin.last _)); iexact HO
    isplitl [H1]; · iexact H1
    iexact H2

theorem tcReg_pre (c : Dev nD) :
    (tcReg v1 v2₀).pre c = iprop(tcOwes (F := F) c ∗ (v1Loc c ↦{fullShare} v1) ∗ (v2Loc c ↦{fullShare} v2₀)) := rfl
theorem tcReg_post (c : Dev nD) :
    (tcReg v1 v2₀).post c = iprop(tcOwes (F := F) c ∗ (v1Loc c ↦{fullShare} v1) ∗ (v2Loc c ↦{fullShare} tcOut v1)) := rfl

/-! ## The launch's part: the staging cells' ghost state -/

/-- What the launch element must provide device `d` for the region: its staging cells' launch ghost state and the duty
    tokens of the pipeline's transfers. -/
def regionGhost (d : Dev nD) : sProp 𝕄 :=
  iprop(Pipeline.cellsGhost (Pipeline.pin (pcfgs (F := F)) tcAdm) EP 0 d ∗ Pipeline.toksInit (Pipeline.pin (pcfgs (F := F)) tcAdm) EP 0 d)

/-- The staging component's launch element: the rounds library's at the staging cells and the pipeline's transfers. -/
def uP₀ : UP := initOf (Pipeline.cells (nD := nD) (τ := τ) cfgs cellOf_inj) (Pipeline.launchToks (nD := nD) (τ := τ) cfgs cellOf_inj)

/-- A conjunction over the one pipeline is its one conjunct. -/
theorem tc_bigSep_fin1 (Ψ : Fin 1 → sProp 𝕄) : bigSep Finset.univ Ψ = Ψ 0 := by
  rw [show (Finset.univ : Finset (Fin 1)) = {0} from by decide]; exact bigSep_singleton

/-- Funding: the launch element yields every device's staging ghost state, by a plain update. -/
theorem regionGhost_intro :
    (BI.own (EP (F := F) uP₀) : sProp 𝕄) ⊢ |==> bigSep Finset.univ fun d : Dev nD => regionGhost (F := F) d := by
  have h := Pipeline.fund_ghost (nD := nD) (τ := τ) (Ix := HIx 1) (Val := Elt F) (Name := ℕ) (U := UU) (Lvl := ℕ) cfgs (EP (F := F)) cellOf_inj
  simp only [tc_bigSep_fin1] at h
  unfold regionGhost uP₀
  simp only [tc_bigSep_fin1]
  exact h

/-! ## The region as a step of @main -/

/-- The region call under the pipelines' body table is the region call under the whole program's: the SparseCore
    dispatch labels are added beside the program's own, and a call of a label of the program's runs the same body. -/
theorem tc_lift_region (d : Dev nD) (Φ : PUnit → sProp 𝕄) :
    wp frame (wpE (D (F := F)) 𝒱 (SparseCore.T d) none) Set.univ
        (.op (.customCall (Pipeline.entry 0) ()) fun _ => .ret ⟨⟩) Φ
      ⊢ wp frame (wpE ((K (F := F)).defs (D (F := F))) 𝒱 (SparseCore.T d) none) Set.univ
          (.op (.customCall (SparseCore.inner (Pipeline.entry 0)) ()) fun _ => .ret ⟨⟩) Φ :=
  (K (F := F)).wp_liftProg (D (F := F)) 𝒱 (SparseCore.T d) Set.univ none _ Φ

set_option backward.isDefEq.respectTransparency.types false in
/-- The region call on the TensorCore of device `d`, under the whole program's body table: from the handshakes'
    records, the TensorCore's state before its first SparseCore call, the boundary, the two arrays and the staging
    ghost state, it runs to the same state, the input array as it was and the result array at `tcOut v1`. -/
theorem tc_region (P : (K (F := F)).Pay (nD := nD) (Val := Elt F) (Name := ℕ) (U := UU)) (κ : GSem nD τ sig → ℕ) (d : Dev nD)
    {Φ : PUnit → sProp 𝕄} :
    iprop((K (F := F)).ctx EH P κ ∗ (K (F := F)).tcSt EH d 0 ∗ boundary (SparseCore.T d) ∗ (v1Loc d ↦{fullShare} v1) ∗ (v2Loc d ↦{fullShare} v2₀)
        ∗ regionGhost (F := F) d
        ∗ (iprop((K (F := F)).tcSt EH d 0 ∗ boundary (SparseCore.T d) ∗ (v1Loc d ↦{fullShare} v1) ∗ (v2Loc d ↦{fullShare} tcOut v1)) -∗ Φ ⟨⟩))
      ⊢ wp frame (wpE ((K (F := F)).defs (D (F := F))) 𝒱 (SparseCore.T d) none) Set.univ
          (.op (.customCall (SparseCore.inner (Pipeline.entry 0)) ()) fun _ => .ret ⟨⟩) Φ := by
  refine .trans ?_ (tc_lift_region d Φ)
  have hreg := Pipeline.RegionSeg.wp (pcfgs (F := F)) tcAdm (tcDats v1 v2₀) (none : HIx 1) cellOf_inj EP defs₀ 𝒱₀ (K (F := F)).L (K (F := F)).lev
    (tcReg v1 v2₀) d none (fun _ h => nomatch h) (fun _ => .ret ⟨⟩) Φ
  rw [tcReg_pre, tcReg_post] at hreg
  unfold SparseCore.Cfg.tcSt regionGhost
  iintro ⟨#Hctx, ⟨HO, Hrest⟩, Hb, H1, H2, ⟨Hg, Ht⟩, Hk⟩
  ihave Hlev := (SparseCore.Cfg.ctx_levAts κ) $$ Hctx
  iapply hreg
  isplitl [Hk Hrest]
  · iintro ⟨Hb, HO, H1, H2⟩
    iapply (le_wp_ret _ _)
    iapply Hk
    isplitl [HO Hrest]
    · isplitl [HO]; · iexact HO
      iexact Hrest
    isplitl [Hb]; · iexact Hb
    isplitl [H1]; · iexact H1
    iexact H2
  isplitl [Hb]; · iexact Hb
  isplitl [HO H1 H2]
  · isplitl [HO]; · iexact HO
    isplitl [H1]; · iexact H1
    iexact H2
  isplitl [Hlev]; · iexact Hlev
  isplitl [Hg]; · iexact Hg
  iexact Ht

end Cert.KernelIdeal.Hand

end
-- ==== Proof.KI.ScOut.lean ====
/-
  The flat result of the vector-subcore kernel as ONE function of the transposed input.

  Subcore `wid = 2·subcore + core` sums the interiors of planes `2·wid` and `2·wid + 1`; a plane is brought in as
  four groups of rows (0…3, 4…7, 8…11, 12…14), each into its own staging buffer, and summed in four phases over 24
  groups of 16 channels: a phase adds the lane vectors of its rows at columns 1…14 — and, after the first, the running
  vector — pairwise in a fixed tree order; the last phase multiplies by the constant. `ph0 … ph3` are the phases'
  stored vectors as functions of the staging buffer's contents, the running vector and the trip; `planeVal` composes
  them over the four row groups of one plane; `scOut` places the planes' values in the flat result.
-/
import proofs.«214330_g12317966205028_cont_fleet_230_29_alg».proof.Proof.KI.Base

noncomputable section

namespace Cert.KernelIdeal.Hand

open Cert.KernelIdeal Cert.KernelIdeal.Gen
open Idealize.ShloMosaic

variable {F : FTy → Type} [FloatOps F] [Named F]

/-! ## Lane vectors of a staging buffer -/

/-- The 16 consecutive channels from `off` of a 4 × 16 × 384 buffer's contents: what a load of one lane vector reads. -/
def ld4 (B : S4x16x384.Idx → Elt F .f32) (off : Fin 3 → Nat) (h : ∀ a, off a + S1x1x16.size a ≤ S4x16x384.size a) : Vec F S1x1x16 .f32 :=
  fun j => B ((Rect.unit (s := S4x16x384) off S1x1x16.size h).toLoadRect.idx j)
/-- The same of a 3 × 16 × 384 buffer's contents. -/
def ld3 (B : S3x16x384.Idx → Elt F .f32) (off : Fin 3 → Nat) (h : ∀ a, off a + S1x1x16.size a ≤ S3x16x384.size a) : Vec F S1x1x16 .f32 :=
  fun j => B ((Rect.unit (s := S3x16x384) off S1x1x16.size h).toLoadRect.idx j)

/-! ## The four phases of one trip -/

/-- Phase 0 of trip `k`: the 56 lane vectors of rows 0…3, columns 1…14 of the staging buffer's contents `B` at channels `16 k … 16 k + 15`, added pairwise in the program's order. -/
def ph0 (B : S4x16x384.Idx → Elt F .f32) (k : Fin k1_t2_loop.trips) : FVec F S16 .f32 :=
  have c1 : FVec F S16 .f32 := k1_pay1 (ld4 B (k1_off6 k) (k1_off6_inb k))
  have c2 : FVec F S16 .f32 := k1_pay2 (ld4 B (k1_off7 k) (k1_off7_inb k))
  have c3 : FVec F S16 .f32 := k1_pay3 (ld4 B (k1_off8 k) (k1_off8_inb k))
  have c4 : FVec F S16 .f32 := k1_pay4 (ld4 B (k1_off9 k) (k1_off9_inb k))
  have c5 : FVec F S16 .f32 := k1_pay5 (ld4 B (k1_off10 k) (k1_off10_inb k))
  have c6 : FVec F S16 .f32 := k1_pay6 (ld4 B (k1_off11 k) (k1_off11_inb k))
  have c7 : FVec F S16 .f32 := k1_pay7 (ld4 B (k1_off12 k) (k1_off12_inb k))
  have c8 : FVec F S16 .f32 := k1_pay8 (ld4 B (k1_off13 k) (k1_off13_inb k))
  have c9 : FVec F S16 .f32 := k1_pay9 (ld4 B (k1_off14 k) (k1_off14_inb k))
  have c10 : FVec F S16 .f32 := k1_pay10 (ld4 B (k1_off15 k) (k1_off15_inb k))
  have c11 : FVec F S16 .f32 := k1_pay11 (ld4 B (k1_off16 k) (k1_off16_inb k))
  have c12 : FVec F S16 .f32 := k1_pay12 (ld4 B (k1_off17 k) (k1_off17_inb k))
  have c13 : FVec F S16 .f32 := k1_pay13 (ld4 B (k1_off18 k) (k1_off18_inb k))
  have c14 : FVec F S16 .f32 := k1_pay14 (ld4 B (k1_off19 k) (k1_off19_inb k))
  have c15 : FVec F S16 .f32 := k1_pay15 (ld4 B (k1_off20 k) (k1_off20_inb k))
  have c16 : FVec F S16 .f32 := k1_pay16 (ld4 B (k1_off21 k) (k1_off21_inb k))
  have c17 : FVec F S16 .f32 := k1_pay17 (ld4 B (k1_off22 k) (k1_off22_inb k))
  have c18 : FVec F S16 .f32 := k1_pay18 (ld4 B (k1_off23 k) (k1_off23_inb k))
  have c19 : FVec F S16 .f32 := k1_pay19 (ld4 B (k1_off24 k) (k1_off24_inb k))
  have c20 : FVec F S16 .f32 := k1_pay20 (ld4 B (k1_off25 k) (k1_off25_inb k))
  have c21 : FVec F S16 .f32 := k1_pay21 (ld4 B (k1_off26 k) (k1_off26_inb k))
  have c22 : FVec F S16 .f32 := k1_pay22 (ld4 B (k1_off27 k) (k1_off27_inb k))
  have c23 : FVec F S16 .f32 := k1_pay23 (ld4 B (k1_off28 k) (k1_off28_inb k))
  have c24 : FVec F S16 .f32 := k1_pay24 (ld4 B (k1_off29 k) (k1_off29_inb k))
  have c25 : FVec F S16 .f32 := k1_pay25 (ld4 B (k1_off30 k) (k1_off30_inb k))
  have c26 : FVec F S16 .f32 := k1_pay26 (ld4 B (k1_off31 k) (k1_off31_inb k))
  have c27 : FVec F S16 .f32 := k1_pay27 (ld4 B (k1_off32 k) (k1_off32_inb k))
  have c28 : FVec F S16 .f32 := k1_pay28 (ld4 B (k1_off33 k) (k1_off33_inb k))
  have c29 : FVec F S16 .f32 := k1_pay29 (ld4 B (k1_off34 k) (k1_off34_inb k))
  have c30 : FVec F S16 .f32 := k1_pay30 (ld4 B (k1_off35 k) (k1_off35_inb k))
  have c31 : FVec F S16 .f32 := k1_pay31 (ld4 B (k1_off36 k) (k1_off36_inb k))
  have c32 : FVec F S16 .f32 := k1_pay32 (ld4 B (k1_off37 k) (k1_off37_inb k))
  have c33 : FVec F S16 .f32 := k1_pay33 (ld4 B (k1_off38 k) (k1_off38_inb k))
  have c34 : FVec F S16 .f32 := k1_pay34 (ld4 B (k1_off39 k) (k1_off39_inb k))
  have c35 : FVec F S16 .f32 := k1_pay35 (ld4 B (k1_off40 k) (k1_off40_inb k))
  have c36 : FVec F S16 .f32 := k1_pay36 (ld4 B (k1_off41 k) (k1_off41_inb k))
  have c37 : FVec F S16 .f32 := k1_pay37 (ld4 B (k1_off42 k) (k1_off42_inb k))
  have c38 : FVec F S16 .f32 := k1_pay38 (ld4 B (k1_off43 k) (k1_off43_inb k))
  have c39 : FVec F S16 .f32 := k1_pay39 (ld4 B (k1_off44 k) (k1_off44_inb k))
  have c40 : FVec F S16 .f32 := k1_pay40 (ld4 B (k1_off45 k) (k1_off45_inb k))
  have c41 : FVec F S16 .f32 := k1_pay41 (ld4 B (k1_off46 k) (k1_off46_inb k))
  have c42 : FVec F S16 .f32 := k1_pay42 (ld4 B (k1_off47 k) (k1_off47_inb k))
  have c43 : FVec F S16 .f32 := k1_pay43 (ld4 B (k1_off48 k) (k1_off48_inb k))
  have c44 : FVec F S16 .f32 := k1_pay44 (ld4 B (k1_off49 k) (k1_off49_inb k))
  have c45 : FVec F S16 .f32 := k1_pay45 (ld4 B (k1_off50 k) (k1_off50_inb k))
  have c46 : FVec F S16 .f32 := k1_pay46 (ld4 B (k1_off51 k) (k1_off51_inb k))
  have c47 : FVec F S16 .f32 := k1_pay47 (ld4 B (k1_off52 k) (k1_off52_inb k))
  have c48 : FVec F S16 .f32 := k1_pay48 (ld4 B (k1_off53 k) (k1_off53_inb k))
  have c49 : FVec F S16 .f32 := k1_pay49 (ld4 B (k1_off54 k) (k1_off54_inb k))
  have c50 : FVec F S16 .f32 := k1_pay50 (ld4 B (k1_off55 k) (k1_off55_inb k))
  have c51 : FVec F S16 .f32 := k1_pay51 (ld4 B (k1_off56 k) (k1_off56_inb k))
  have c52 : FVec F S16 .f32 := k1_pay52 (ld4 B (k1_off57 k) (k1_off57_inb k))
  have c53 : FVec F S16 .f32 := k1_pay53 (ld4 B (k1_off58 k) (k1_off58_inb k))
  have c54 : FVec F S16 .f32 := k1_pay54 (ld4 B (k1_off59 k) (k1_off59_inb k))
  have c55 : FVec F S16 .f32 := k1_pay55 (ld4 B (k1_off60 k) (k1_off60_inb k))
  have c56 : FVec F S16 .f32 := k1_pay56 (ld4 B (k1_off61 k) (k1_off61_inb k))
  have s1 : FVec F S16 .f32 := k1_pay57 c1 c2
  have s2 : FVec F S16 .f32 := k1_pay58 c3 c4
  have s3 : FVec F S16 .f32 := k1_pay59 c5 c6
  have s4 : FVec F S16 .f32 := k1_pay60 c7 c8
  have s5 : FVec F S16 .f32 := k1_pay61 c9 c10
  have s6 : FVec F S16 .f32 := k1_pay62 c11 c12
  have s7 : FVec F S16 .f32 := k1_pay63 c13 c14
  have s8 : FVec F S16 .f32 := k1_pay64 c15 c16
  have s9 : FVec F S16 .f32 := k1_pay65 c17 c18
  have s10 : FVec F S16 .f32 := k1_pay66 c19 c20
  have s11 : FVec F S16 .f32 := k1_pay67 c21 c22
  have s12 : FVec F S16 .f32 := k1_pay68 c23 c24
  have s13 : FVec F S16 .f32 := k1_pay69 c25 c26
  have s14 : FVec F S16 .f32 := k1_pay70 c27 c28
  have s15 : FVec F S16 .f32 := k1_pay71 c29 c30
  have s16 : FVec F S16 .f32 := k1_pay72 c31 c32
  have s17 : FVec F S16 .f32 := k1_pay73 c33 c34
  have s18 : FVec F S16 .f32 := k1_pay74 c35 c36
  have s19 : FVec F S16 .f32 := k1_pay75 c37 c38
  have s20 : FVec F S16 .f32 := k1_pay76 c39 c40
  have s21 : FVec F S16 .f32 := k1_pay77 c41 c42
  have s22 : FVec F S16 .f32 := k1_pay78 c43 c44
  have s23 : FVec F S16 .f32 := k1_pay79 c45 c46
  have s24 : FVec F S16 .f32 := k1_pay80 c47 c48
  have s25 : FVec F S16 .f32 := k1_pay81 c49 c50
  have s26 : FVec F S16 .f32 := k1_pay82 c51 c52
  have w : FVec F S16 .f32 := k1_pay295 s1 s2 s3 s4 s5 s6 s7 s8 s9 s10 s11 s12 s13 s14 s15 s16
  k1_pay296 c53 c54 c55 c56 s17 s18 s19 s20 s21 s22 s23 s24 s25 s26 w

/-- Phase 1 of trip `k`: the 56 lane vectors of the second staging buffer's contents `B` (rows 4…7) and the accumulator's vector `a`, added pairwise in the program's order. -/
def ph1 (B : S4x16x384.Idx → Elt F .f32) (a : Vec F S16 .f32) (k : Fin k1_t3_loop.trips) : FVec F S16 .f32 :=
  have c1 : FVec F S16 .f32 := k1_pay83 (ld4 B (k1_off65 k) (k1_off65_inb k))
  have c2 : FVec F S16 .f32 := k1_pay84 (ld4 B (k1_off66 k) (k1_off66_inb k))
  have c3 : FVec F S16 .f32 := k1_pay85 (ld4 B (k1_off67 k) (k1_off67_inb k))
  have c4 : FVec F S16 .f32 := k1_pay86 (ld4 B (k1_off68 k) (k1_off68_inb k))
  have c5 : FVec F S16 .f32 := k1_pay87 (ld4 B (k1_off69 k) (k1_off69_inb k))
  have c6 : FVec F S16 .f32 := k1_pay88 (ld4 B (k1_off70 k) (k1_off70_inb k))
  have c7 : FVec F S16 .f32 := k1_pay89 (ld4 B (k1_off71 k) (k1_off71_inb k))
  have c8 : FVec F S16 .f32 := k1_pay90 (ld4 B (k1_off72 k) (k1_off72_inb k))
  have c9 : FVec F S16 .f32 := k1_pay91 (ld4 B (k1_off73 k) (k1_off73_inb k))
  have c10 : FVec F S16 .f32 := k1_pay92 (ld4 B (k1_off74 k) (k1_off74_inb k))
  have c11 : FVec F S16 .f32 := k1_pay93 (ld4 B (k1_off75 k) (k1_off75_inb k))
  have c12 : FVec F S16 .f32 := k1_pay94 (ld4 B (k1_off76 k) (k1_off76_inb k))
  have c13 : FVec F S16 .f32 := k1_pay95 (ld4 B (k1_off77 k) (k1_off77_inb k))
  have c14 : FVec F S16 .f32 := k1_pay96 (ld4 B (k1_off78 k) (k1_off78_inb k))
  have c15 : FVec F S16 .f32 := k1_pay97 (ld4 B (k1_off79 k) (k1_off79_inb k))
  have c16 : FVec F S16 .f32 := k1_pay98 (ld4 B (k1_off80 k) (k1_off80_inb k))
  have c17 : FVec F S16 .f32 := k1_pay99 (ld4 B (k1_off81 k) (k1_off81_inb k))
  have c18 : FVec F S16 .f32 := k1_pay100 (ld4 B (k1_off82 k) (k1_off82_inb k))
  have c19 : FVec F S16 .f32 := k1_pay101 (ld4 B (k1_off83 k) (k1_off83_inb k))
  have c20 : FVec F S16 .f32 := k1_pay102 (ld4 B (k1_off84 k) (k1_off84_inb k))
  have c21 : FVec F S16 .f32 := k1_pay103 (ld4 B (k1_off85 k) (k1_off85_inb k))
  have c22 : FVec F S16 .f32 := k1_pay104 (ld4 B (k1_off86 k) (k1_off86_inb k))
  have c23 : FVec F S16 .f32 := k1_pay105 (ld4 B (k1_off87 k) (k1_off87_inb k))
  have c24 : FVec F S16 .f32 := k1_pay106 (ld4 B (k1_off88 k) (k1_off88_inb k))
  have c25 : FVec F S16 .f32 := k1_pay107 (ld4 B (k1_off89 k) (k1_off89_inb k))
  have c26 : FVec F S16 .f32 := k1_pay108 (ld4 B (k1_off90 k) (k1_off90_inb k))
  have c27 : FVec F S16 .f32 := k1_pay109 (ld4 B (k1_off91 k) (k1_off91_inb k))
  have c28 : FVec F S16 .f32 := k1_pay110 (ld4 B (k1_off92 k) (k1_off92_inb k))
  have c29 : FVec F S16 .f32 := k1_pay111 (ld4 B (k1_off93 k) (k1_off93_inb k))
  have c30 : FVec F S16 .f32 := k1_pay112 (ld4 B (k1_off94 k) (k1_off94_inb k))
  have c31 : FVec F S16 .f32 := k1_pay113 (ld4 B (k1_off95 k) (k1_off95_inb k))
  have c32 : FVec F S16 .f32 := k1_pay114 (ld4 B (k1_off96 k) (k1_off96_inb k))
  have c33 : FVec F S16 .f32 := k1_pay115 (ld4 B (k1_off97 k) (k1_off97_inb k))
  have c34 : FVec F S16 .f32 := k1_pay116 (ld4 B (k1_off98 k) (k1_off98_inb k))
  have c35 : FVec F S16 .f32 := k1_pay117 (ld4 B (k1_off99 k) (k1_off99_inb k))
  have c36 : FVec F S16 .f32 := k1_pay118 (ld4 B (k1_off100 k) (k1_off100_inb k))
  have c37 : FVec F S16 .f32 := k1_pay119 (ld4 B (k1_off101 k) (k1_off101_inb k))
  have c38 : FVec F S16 .f32 := k1_pay120 (ld4 B (k1_off102 k) (k1_off102_inb k))
  have c39 : FVec F S16 .f32 := k1_pay121 (ld4 B (k1_off103 k) (k1_off103_inb k))
  have c40 : FVec F S16 .f32 := k1_pay122 (ld4 B (k1_off104 k) (k1_off104_inb k))
  have c41 : FVec F S16 .f32 := k1_pay123 (ld4 B (k1_off105 k) (k1_off105_inb k))
  have c42 : FVec F S16 .f32 := k1_pay124 (ld4 B (k1_off106 k) (k1_off106_inb k))
  have c43 : FVec F S16 .f32 := k1_pay125 (ld4 B (k1_off107 k) (k1_off107_inb k))
  have c44 : FVec F S16 .f32 := k1_pay126 (ld4 B (k1_off108 k) (k1_off108_inb k))
  have c45 : FVec F S16 .f32 := k1_pay127 (ld4 B (k1_off109 k) (k1_off109_inb k))
  have c46 : FVec F S16 .f32 := k1_pay128 (ld4 B (k1_off110 k) (k1_off110_inb k))
  have c47 : FVec F S16 .f32 := k1_pay129 (ld4 B (k1_off111 k) (k1_off111_inb k))
  have c48 : FVec F S16 .f32 := k1_pay130 (ld4 B (k1_off112 k) (k1_off112_inb k))
  have c49 : FVec F S16 .f32 := k1_pay131 (ld4 B (k1_off113 k) (k1_off113_inb k))
  have c50 : FVec F S16 .f32 := k1_pay132 (ld4 B (k1_off114 k) (k1_off114_inb k))
  have c51 : FVec F S16 .f32 := k1_pay133 (ld4 B (k1_off115 k) (k1_off115_inb k))
  have c52 : FVec F S16 .f32 := k1_pay134 (ld4 B (k1_off116 k) (k1_off116_inb k))
  have c53 : FVec F S16 .f32 := k1_pay135 (ld4 B (k1_off117 k) (k1_off117_inb k))
  have c54 : FVec F S16 .f32 := k1_pay136 (ld4 B (k1_off118 k) (k1_off118_inb k))
  have c55 : FVec F S16 .f32 := k1_pay137 (ld4 B (k1_off119 k) (k1_off119_inb k))
  have c56 : FVec F S16 .f32 := k1_pay138 (ld4 B (k1_off120 k) (k1_off120_inb k))
  have a' : FVec F S16 .f32 := k1_pay139 a
  have s1 : FVec F S16 .f32 := k1_pay140 c1 c2
  have s2 : FVec F S16 .f32 := k1_pay141 c3 c4
  have s3 : FVec F S16 .f32 := k1_pay142 c5 c6
  have s4 : FVec F S16 .f32 := k1_pay143 c7 c8
  have s5 : FVec F S16 .f32 := k1_pay144 c9 c10
  have s6 : FVec F S16 .f32 := k1_pay145 c11 c12
  have s7 : FVec F S16 .f32 := k1_pay146 c13 c14
  have s8 : FVec F S16 .f32 := k1_pay147 c15 c16
  have s9 : FVec F S16 .f32 := k1_pay148 c17 c18
  have s10 : FVec F S16 .f32 := k1_pay149 c19 c20
  have s11 : FVec F S16 .f32 := k1_pay150 c21 c22
  have s12 : FVec F S16 .f32 := k1_pay151 c23 c24
  have s13 : FVec F S16 .f32 := k1_pay152 c25 c26
  have s14 : FVec F S16 .f32 := k1_pay153 c27 c28
  have s15 : FVec F S16 .f32 := k1_pay154 c29 c30
  have s16 : FVec F S16 .f32 := k1_pay155 c31 c32
  have s17 : FVec F S16 .f32 := k1_pay156 c33 c34
  have s18 : FVec F S16 .f32 := k1_pay157 c35 c36
  have s19 : FVec F S16 .f32 := k1_pay158 c37 c38
  have s20 : FVec F S16 .f32 := k1_pay159 c39 c40
  have s21 : FVec F S16 .f32 := k1_pay160 c41 c42
  have s22 : FVec F S16 .f32 := k1_pay161 c43 c44
  have s23 : FVec F S16 .f32 := k1_pay162 c45 c46
  have u : FVec F S16 .f32 := k1_pay297 c47 c48 s17 s18 s19 s20 s21 s22 s23
  have w : FVec F S16 .f32 := k1_pay298 s1 s2 s3 s4 s5 s6 s7 s8 s9 s10 s11 s12 s13 s14 s15 s16
  k1_pay299 c49 c50 c51 c52 c53 c54 c55 c56 a' u w

/-- Phase 2 of trip `k`: the same over the third staging buffer's contents (rows 8…11). -/
def ph2 (B : S4x16x384.Idx → Elt F .f32) (a : Vec F S16 .f32) (k : Fin k1_t4_loop.trips) : FVec F S16 .f32 :=
  have c1 : FVec F S16 .f32 := k1_pay163 (ld4 B (k1_off124 k) (k1_off124_inb k))
  have c2 : FVec F S16 .f32 := k1_pay164 (ld4 B (k1_off125 k) (k1_off125_inb k))
  have c3 : FVec F S16 .f32 := k1_pay165 (ld4 B (k1_off126 k) (k1_off126_inb k))
  have c4 : FVec F S16 .f32 := k1_pay166 (ld4 B (k1_off127 k) (k1_off127_inb k))
  have c5 : FVec F S16 .f32 := k1_pay167 (ld4 B (k1_off128 k) (k1_off128_inb k))
  have c6 : FVec F S16 .f32 := k1_pay168 (ld4 B (k1_off129 k) (k1_off129_inb k))
  have c7 : FVec F S16 .f32 := k1_pay169 (ld4 B (k1_off130 k) (k1_off130_inb k))
  have c8 : FVec F S16 .f32 := k1_pay170 (ld4 B (k1_off131 k) (k1_off131_inb k))
  have c9 : FVec F S16 .f32 := k1_pay171 (ld4 B (k1_off132 k) (k1_off132_inb k))
  have c10 : FVec F S16 .f32 := k1_pay172 (ld4 B (k1_off133 k) (k1_off133_inb k))
  have c11 : FVec F S16 .f32 := k1_pay173 (ld4 B (k1_off134 k) (k1_off134_inb k))
  have c12 : FVec F S16 .f32 := k1_pay174 (ld4 B (k1_off135 k) (k1_off135_inb k))
  have c13 : FVec F S16 .f32 := k1_pay175 (ld4 B (k1_off136 k) (k1_off136_inb k))
  have c14 : FVec F S16 .f32 := k1_pay176 (ld4 B (k1_off137 k) (k1_off137_inb k))
  have c15 : FVec F S16 .f32 := k1_pay177 (ld4 B (k1_off138 k) (k1_off138_inb k))
  have c16 : FVec F S16 .f32 := k1_pay178 (ld4 B (k1_off139 k) (k1_off139_inb k))
  have c17 : FVec F S16 .f32 := k1_pay179 (ld4 B (k1_off140 k) (k1_off140_inb k))
  have c18 : FVec F S16 .f32 := k1_pay180 (ld4 B (k1_off141 k) (k1_off141_inb k))
  have c19 : FVec F S16 .f32 := k1_pay181 (ld4 B (k1_off142 k) (k1_off142_inb k))
  have c20 : FVec F S16 .f32 := k1_pay182 (ld4 B (k1_off143 k) (k1_off143_inb k))
  have c21 : FVec F S16 .f32 := k1_pay183 (ld4 B (k1_off144 k) (k1_off144_inb k))
  have c22 : FVec F S16 .f32 := k1_pay184 (ld4 B (k1_off145 k) (k1_off145_inb k))
  have c23 : FVec F S16 .f32 := k1_pay185 (ld4 B (k1_off146 k) (k1_off146_inb k))
  have c24 : FVec F S16 .f32 := k1_pay186 (ld4 B (k1_off147 k) (k1_off147_inb k))
  have c25 : FVec F S16 .f32 := k1_pay187 (ld4 B (k1_off148 k) (k1_off148_inb k))
  have c26 : FVec F S16 .f32 := k1_pay188 (ld4 B (k1_off149 k) (k1_off149_inb k))
  have c27 : FVec F S16 .f32 := k1_pay189 (ld4 B (k1_off150 k) (k1_off150_inb k))
  have c28 : FVec F S16 .f32 := k1_pay190 (ld4 B (k1_off151 k) (k1_off151_inb k))
  have c29 : FVec F S16 .f32 := k1_pay191 (ld4 B (k1_off152 k) (k1_off152_inb k))
  have c30 : FVec F S16 .f32 := k1_pay192 (ld4 B (k1_off153 k) (k1_off153_inb k))
  have c31 : FVec F S16 .f32 := k1_pay193 (ld4 B (k1_off154 k) (k1_off154_inb k))
  have c32 : FVec F S16 .f32 := k1_pay194 (ld4 B (k1_off155 k) (k1_off155_inb k))
  have c33 : FVec F S16 .f32 := k1_pay195 (ld4 B (k1_off156 k) (k1_off156_inb k))
  have c34 : FVec F S16 .f32 := k1_pay196 (ld4 B (k1_off157 k) (k1_off157_inb k))
  have c35 : FVec F S16 .f32 := k1_pay197 (ld4 B (k1_off158 k) (k1_off158_inb k))
  have c36 : FVec F S16 .f32 := k1_pay198 (ld4 B (k1_off159 k) (k1_off159_inb k))
  have c37 : FVec F S16 .f32 := k1_pay199 (ld4 B (k1_off160 k) (k1_off160_inb k))
  have c38 : FVec F S16 .f32 := k1_pay200 (ld4 B (k1_off161 k) (k1_off161_inb k))
  have c39 : FVec F S16 .f32 := k1_pay201 (ld4 B (k1_off162 k) (k1_off162_inb k))
  have c40 : FVec F S16 .f32 := k1_pay202 (ld4 B (k1_off163 k) (k1_off163_inb k))
  have c41 : FVec F S16 .f32 := k1_pay203 (ld4 B (k1_off164 k) (k1_off164_inb k))
  have c42 : FVec F S16 .f32 := k1_pay204 (ld4 B (k1_off165 k) (k1_off165_inb k))
  have c43 : FVec F S16 .f32 := k1_pay205 (ld4 B (k1_off166 k) (k1_off166_inb k))
  have c44 : FVec F S16 .f32 := k1_pay206 (ld4 B (k1_off167 k) (k1_off167_inb k))
  have c45 : FVec F S16 .f32 := k1_pay207 (ld4 B (k1_off168 k) (k1_off168_inb k))
  have c46 : FVec F S16 .f32 := k1_pay208 (ld4 B (k1_off169 k) (k1_off169_inb k))
  have c47 : FVec F S16 .f32 := k1_pay209 (ld4 B (k1_off170 k) (k1_off170_inb k))
  have c48 : FVec F S16 .f32 := k1_pay210 (ld4 B (k1_off171 k) (k1_off171_inb k))
  have c49 : FVec F S16 .f32 := k1_pay211 (ld4 B (k1_off172 k) (k1_off172_inb k))
  have c50 : FVec F S16 .f32 := k1_pay212 (ld4 B (k1_off173 k) (k1_off173_inb k))
  have c51 : FVec F S16 .f32 := k1_pay213 (ld4 B (k1_off174 k) (k1_off174_inb k))
  have c52 : FVec F S16 .f32 := k1_pay214 (ld4 B (k1_off175 k) (k1_off175_inb k))
  have c53 : FVec F S16 .f32 := k1_pay215 (ld4 B (k1_off176 k) (k1_off176_inb k))
  have c54 : FVec F S16 .f32 := k1_pay216 (ld4 B (k1_off177 k) (k1_off177_inb k))
  have c55 : FVec F S16 .f32 := k1_pay217 (ld4 B (k1_off178 k) (k1_off178_inb k))
  have c56 : FVec F S16 .f32 := k1_pay218 (ld4 B (k1_off179 k) (k1_off179_inb k))
  have a' : FVec F S16 .f32 := k1_pay219 a
  have s1 : FVec F S16 .f32 := k1_pay220 c1 c2
  have s2 : FVec F S16 .f32 := k1_pay221 c3 c4
  have s3 : FVec F S16 .f32 := k1_pay222 c5 c6
  have s4 : FVec F S16 .f32 := k1_pay223 c7 c8
  have s5 : FVec F S16 .f32 := k1_pay224 c9 c10
  have s6 : FVec F S16 .f32 := k1_pay225 c11 c12
  have s7 : FVec F S16 .f32 := k1_pay226 c13 c14
  have s8 : FVec F S16 .f32 := k1_pay227 c15 c16
  have s9 : FVec F S16 .f32 := k1_pay228 c17 c18
  have s10 : FVec F S16 .f32 := k1_pay229 c19 c20
  have s11 : FVec F S16 .f32 := k1_pay230 c21 c22
  have s12 : FVec F S16 .f32 := k1_pay231 c23 c24
  have s13 : FVec F S16 .f32 := k1_pay232 c25 c26
  have s14 : FVec F S16 .f32 := k1_pay233 c27 c28
  have s15 : FVec F S16 .f32 := k1_pay234 c29 c30
  have s16 : FVec F S16 .f32 := k1_pay235 c31 c32
  have s17 : FVec F S16 .f32 := k1_pay236 c33 c34
  have s18 : FVec F S16 .f32 := k1_pay237 c35 c36
  have s19 : FVec F S16 .f32 := k1_pay238 c37 c38
  have s20 : FVec F S16 .f32 := k1_pay239 c39 c40
  have s21 : FVec F S16 .f32 := k1_pay240 c41 c42
  have s22 : FVec F S16 .f32 := k1_pay241 c43 c44
  have s23 : FVec F S16 .f32 := k1_pay242 c45 c46
  have u : FVec F S16 .f32 := k1_pay300 c47 c48 s17 s18 s19 s20 s21 s22 s23
  have w : FVec F S16 .f32 := k1_pay301 s1 s2 s3 s4 s5 s6 s7 s8 s9 s10 s11 s12 s13 s14 s15 s16
  k1_pay302 c49 c50 c51 c52 c53 c54 c55 c56 a' u w

/-- Phase 3 of trip `k`: the 42 lane vectors of the last staging buffer's contents `B` (rows 12…14) and the accumulator's vector `a`, added pairwise in the program's order, times the constant. -/
def ph3 (B : S3x16x384.Idx → Elt F .f32) (a : Vec F S16 .f32) (k : Fin k1_t5_loop.trips) : FVec F S16 .f32 :=
  have c1 : FVec F S16 .f32 := k1_pay243 (ld3 B (k1_off183 k) (k1_off183_inb k))
  have c2 : FVec F S16 .f32 := k1_pay244 (ld3 B (k1_off184 k) (k1_off184_inb k))
  have c3 : FVec F S16 .f32 := k1_pay245 (ld3 B (k1_off185 k) (k1_off185_inb k))
  have c4 : FVec F S16 .f32 := k1_pay246 (ld3 B (k1_off186 k) (k1_off186_inb k))
  have c5 : FVec F S16 .f32 := k1_pay247 (ld3 B (k1_off187 k) (k1_off187_inb k))
  have c6 : FVec F S16 .f32 := k1_pay248 (ld3 B (k1_off188 k) (k1_off188_inb k))
  have c7 : FVec F S16 .f32 := k1_pay249 (ld3 B (k1_off189 k) (k1_off189_inb k))
  have c8 : FVec F S16 .f32 := k1_pay250 (ld3 B (k1_off190 k) (k1_off190_inb k))
  have c9 : FVec F S16 .f32 := k1_pay251 (ld3 B (k1_off191 k) (k1_off191_inb k))
  have c10 : FVec F S16 .f32 := k1_pay252 (ld3 B (k1_off192 k) (k1_off192_inb k))
  have c11 : FVec F S16 .f32 := k1_pay253 (ld3 B (k1_off193 k) (k1_off193_inb k))
  have c12 : FVec F S16 .f32 := k1_pay254 (ld3 B (k1_off194 k) (k1_off194_inb k))
  have c13 : FVec F S16 .f32 := k1_pay255 (ld3 B (k1_off195 k) (k1_off195_inb k))
  have c14 : FVec F S16 .f32 := k1_pay256 (ld3 B (k1_off196 k) (k1_off196_inb k))
  have c15 : FVec F S16 .f32 := k1_pay257 (ld3 B (k1_off197 k) (k1_off197_inb k))
  have c16 : FVec F S16 .f32 := k1_pay258 (ld3 B (k1_off198 k) (k1_off198_inb k))
  have c17 : FVec F S16 .f32 := k1_pay259 (ld3 B (k1_off199 k) (k1_off199_inb k))
  have c18 : FVec F S16 .f32 := k1_pay260 (ld3 B (k1_off200 k) (k1_off200_inb k))
  have c19 : FVec F S16 .f32 := k1_pay261 (ld3 B (k1_off201 k) (k1_off201_inb k))
  have c20 : FVec F S16 .f32 := k1_pay262 (ld3 B (k1_off202 k) (k1_off202_inb k))
  have c21 : FVec F S16 .f32 := k1_pay263 (ld3 B (k1_off203 k) (k1_off203_inb k))
  have c22 : FVec F S16 .f32 := k1_pay264 (ld3 B (k1_off204 k) (k1_off204_inb k))
  have c23 : FVec F S16 .f32 := k1_pay265 (ld3 B (k1_off205 k) (k1_off205_inb k))
  have c24 : FVec F S16 .f32 := k1_pay266 (ld3 B (k1_off206 k) (k1_off206_inb k))
  have c25 : FVec F S16 .f32 := k1_pay267 (ld3 B (k1_off207 k) (k1_off207_inb k))
  have c26 : FVec F S16 .f32 := k1_pay268 (ld3 B (k1_off208 k) (k1_off208_inb k))
  have c27 : FVec F S16 .f32 := k1_pay269 (ld3 B (k1_off209 k) (k1_off209_inb k))
  have c28 : FVec F S16 .f32 := k1_pay270 (ld3 B (k1_off210 k) (k1_off210_inb k))
  have c29 : FVec F S16 .f32 := k1_pay271 (ld3 B (k1_off211 k) (k1_off211_inb k))
  have c30 : FVec F S16 .f32 := k1_pay272 (ld3 B (k1_off212 k) (k1_off212_inb k))
  have c31 : FVec F S16 .f32 := k1_pay273 (ld3 B (k1_off213 k) (k1_off213_inb k))
  have c32 : FVec F S16 .f32 := k1_pay274 (ld3 B (k1_off214 k) (k1_off214_inb k))
  have c33 : FVec F S16 .f32 := k1_pay275 (ld3 B (k1_off215 k) (k1_off215_inb k))
  have c34 : FVec F S16 .f32 := k1_pay276 (ld3 B (k1_off216 k) (k1_off216_inb k))
  have c35 : FVec F S16 .f32 := k1_pay277 (ld3 B (k1_off217 k) (k1_off217_inb k))
  have c36 : FVec F S16 .f32 := k1_pay278 (ld3 B (k1_off218 k) (k1_off218_inb k))
  have c37 : FVec F S16 .f32 := k1_pay279 (ld3 B (k1_off219 k) (k1_off219_inb k))
  have c38 : FVec F S16 .f32 := k1_pay280 (ld3 B (k1_off220 k) (k1_off220_inb k))
  have r39 : Vec F S1x1x16 .f32 := ld3 B (k1_off221 k) (k1_off221_inb k)
  have r40 : Vec F S1x1x16 .f32 := ld3 B (k1_off222 k) (k1_off222_inb k)
  have r41 : Vec F S1x1x16 .f32 := ld3 B (k1_off223 k) (k1_off223_inb k)
  have r42 : Vec F S1x1x16 .f32 := ld3 B (k1_off224 k) (k1_off224_inb k)
  have a' : FVec F S16 .f32 := k1_pay281 a
  have t1 : FVec F S16 .f32 := k1_pay282 c33 c34
  have t2 : FVec F S16 .f32 := k1_pay283 c35 c36
  have t3 : FVec F S16 .f32 := k1_pay284 c37 c38
  have t4 : FVec F S16 .f32 := k1_pay285 r39 r40
  have t5 : FVec F S16 .f32 := k1_pay286 r41 r42
  have q1 : FVec F S16 .f32 := k1_pay287 c1 c2 c3 c4
  have q2 : FVec F S16 .f32 := k1_pay288 c5 c6 c7 c8
  have q3 : FVec F S16 .f32 := k1_pay289 c9 c10 c11 c12
  have q4 : FVec F S16 .f32 := k1_pay290 c13 c14 c15 c16
  have q5 : FVec F S16 .f32 := k1_pay291 c17 c18 c19 c20
  have q6 : FVec F S16 .f32 := k1_pay292 c21 c22 c23 c24
  have q7 : FVec F S16 .f32 := k1_pay293 c25 c26 c27 c28
  have q8 : FVec F S16 .f32 := k1_pay294 c29 c30 c31 c32
  k1_pay303 a' t1 t2 t3 t4 t5 q1 q2 q3 q4 q5 q6 q7 q8

/-! ## One plane, and the flat result -/

theorem trips_t1 : k1_t1_loop.trips = 2 := by decide
theorem trips_t2 : k1_t2_loop.trips = 24 := by decide
theorem trips_t3 : k1_t3_loop.trips = 24 := by decide
theorem trips_t4 : k1_t4_loop.trips = 24 := by decide
theorem trips_t5 : k1_t5_loop.trips = 24 := by decide

/-- The contents of the four staging buffers while plane `pi` of the subcore at `L` is summed: the plane's rows 0…3,
    4…7, 8…11 and 12…14, read off the transposed input through the program's own slices. -/
def chunk0 (xt : S8x32x16x16x384.Idx → Elt F .f32) (L : grid1.Coords) (pi : Fin k1_t1_loop.trips) : S4x16x384.Idx → Elt F .f32 :=
  (((xtV).slice (Rect.unit (s := S8x32x16x16x384) (k1_off5 L pi) S1x1x4x16x384.size (k1_off5_inb L pi)) (fun _ => rfl)).squeeze S4x16x384 squeezes_S1x1x4x16x384_S4x16x384).view.read (Elt F) xt
def chunk1 (xt : S8x32x16x16x384.Idx → Elt F .f32) (L : grid1.Coords) (pi : Fin k1_t1_loop.trips) : S4x16x384.Idx → Elt F .f32 :=
  (((xtV).slice (Rect.unit (s := S8x32x16x16x384) (k1_off64 L pi) S1x1x4x16x384.size (k1_off64_inb L pi)) (fun _ => rfl)).squeeze S4x16x384 squeezes_S1x1x4x16x384_S4x16x384).view.read (Elt F) xt
def chunk2 (xt : S8x32x16x16x384.Idx → Elt F .f32) (L : grid1.Coords) (pi : Fin k1_t1_loop.trips) : S4x16x384.Idx → Elt F .f32 :=
  (((xtV).slice (Rect.unit (s := S8x32x16x16x384) (k1_off123 L pi) S1x1x4x16x384.size (k1_off123_inb L pi)) (fun _ => rfl)).squeeze S4x16x384 squeezes_S1x1x4x16x384_S4x16x384).view.read (Elt F) xt
def chunk3 (xt : S8x32x16x16x384.Idx → Elt F .f32) (L : grid1.Coords) (pi : Fin k1_t1_loop.trips) : S3x16x384.Idx → Elt F .f32 :=
  (((xtV).slice (Rect.unit (s := S8x32x16x16x384) (k1_off182 L pi) S1x1x3x16x384.size (k1_off182_inb L pi)) (fun _ => rfl)).squeeze S3x16x384 squeezes_S1x1x3x16x384_S3x16x384).view.read (Elt F) xt

/-- The vector stored for channels `16 k … 16 k + 15` of plane `pi` of the subcore at `L`: the four phases in turn,
    each over its row group, the running vector handed on. -/
def planeVal (xt : S8x32x16x16x384.Idx → Elt F .f32) (L : grid1.Coords) (pi : Fin k1_t1_loop.trips) (k : Fin 24) : FVec F S16 .f32 :=
  ph3 (chunk3 xt L pi)
    (ph2 (chunk2 xt L pi)
      (ph1 (chunk1 xt L pi) (ph0 (chunk0 xt L pi) (Fin.cast trips_t2.symm k)) (Fin.cast trips_t3.symm k))
      (Fin.cast trips_t4.symm k))
    (Fin.cast trips_t5.symm k)

theorem lt_of_idx (j : S24576.Idx) : (j 0).val < 24576 := (j 0).isLt

/-- The flat result once every subcore has finished: entry `768·wid + 384·pi + 16·k + lane` is lane `lane` of the
    vector stored for trip `k` of plane `pi` on subcore `wid = 2·subcore + core`. -/
def scOut (xt : S8x32x16x16x384.Idx → Elt F .f32) : S24576.Idx → Elt F .f32 := fun j =>
  planeVal xt
    (coordsV ⟨(j 0).val / 768 % 2, by show _ < 2; omega⟩ ⟨(j 0).val / 1536, by have := lt_of_idx j; show _ < 16; omega⟩)
    ⟨(j 0).val / 384 % 2, by rw [trips_t1]; omega⟩
    ⟨(j 0).val % 384 / 16, by omega⟩
    (fun a => ⟨(j 0).val % 16, by rw [Subsingleton.elim a 0]; show _ < 16; omega⟩)

end Cert.KernelIdeal.Hand

end
-- ==== Proof.KI.AccRel.lean ====
/-
  The accumulator's contents through one phase's 24 trips, as a relation between what it held when the phase began
  and what it holds after `n` trips: the 16-entry groups of the trips done hold the phase's vectors, every other
  entry is as before. One trip's store extends the relation by one group; a load of the group the trip is about to
  write reads what the phase began with.
-/
import proofs.«214330_g12317966205028_cont_fleet_230_29_alg».proof.Proof.KI.ScOut

noncomputable section

namespace Cert.KernelIdeal.Hand

open Cert.KernelIdeal Cert.KernelIdeal.Gen
open Idealize.ShloMosaic

variable {F : FTy → Type} [FloatOps F] [Named F]

/-- Entry `384 p + 16 k + l` of the accumulator: lane `l` of trip `k` of plane `p`. -/
def accIdx (p : Fin 2) (k : Fin 24) (l : Fin 16) : S768.Idx :=
  fun a => ⟨384 * p.val + 16 * k.val + l.val, by rw [Subsingleton.elim a 0]; show _ < 768; omega⟩

/-- Lane `l` as an index of a 16-lane vector. -/
def lane16 (l : Fin 16) : S16.Idx := fun a => ⟨l.val, by rw [Subsingleton.elim a 0]; exact l.isLt⟩

omit [FloatOps F] [Named F] in
theorem lane16_zero (j : S16.Idx) : lane16 (j 0) = j := by
  funext a; rw [Subsingleton.elim a 0]; rfl

omit [FloatOps F] [Named F] in
theorem accIdx_val (p : Fin 2) (k : Fin 24) (l : Fin 16) : ((accIdx p k l) 0).val = 384 * p.val + 16 * k.val + l.val := rfl

/-- After `n` trips of a phase over plane `p`: the groups of the trips done hold `g`, the other entries what `A` held. -/
def AccRel (p : Fin 2) (g : Fin 24 → Fin 16 → Elt F .f32) (A A' : S768.Idx → Elt F .f32) (n : ℕ) : Prop :=
  (∀ (k : Fin 24) (l : Fin 16), k.val < n → A' (accIdx p k l) = g k l) ∧
  (∀ x : S768.Idx, ¬(384 * p.val ≤ (x 0).val ∧ (x 0).val < 384 * p.val + 16 * n) → A' x = A x)

omit [FloatOps F] [Named F] in
theorem AccRel.zero (p : Fin 2) (g : Fin 24 → Fin 16 → Elt F .f32) (A : S768.Idx → Elt F .f32) : AccRel p g A A 0 :=
  ⟨fun _ _ h => absurd h (Nat.not_lt_zero _), fun _ _ => rfl⟩

omit [FloatOps F] [Named F] in
/-- The group a unit rectangle of 16 entries at `384 p + 16 n` covers. -/
theorem mem_group {p : Fin 2} {n : ℕ} {off : Fin 1 → Nat} (hoff : off = ![384 * p.val + 16 * n])
    (inb : ∀ a, off a + S16.size a ≤ S768.size a) (x : S768.Idx) :
    x ∈ (Rect.unit (s := S768) off S16.size inb).set ↔ 384 * p.val + 16 * n ≤ (x 0).val ∧ (x 0).val < 384 * p.val + 16 * n + 16 := by
  rw [Rect.mem_set_unit]
  subst hoff
  constructor
  · intro h; exact h 0
  · intro h a; rw [Subsingleton.elim a 0]; exact h

omit [FloatOps F] [Named F] in
theorem emb_group {p : Fin 2} {k : Fin 24} {off : Fin 1 → Nat} (hoff : off = ![384 * p.val + 16 * k.val])
    (inb : ∀ a, off a + S16.size a ≤ S768.size a) (j : S16.Idx) :
    (Rect.unit (s := S768) off S16.size inb).emb j = accIdx p k (j 0) := by
  subst hoff
  funext a
  rw [Subsingleton.elim a 0]
  apply Fin.ext
  rw [Rect.emb_apply]
  show (384 * p.val + 16 * k.val) + 1 * (j 0).val = 384 * p.val + 16 * k.val + (j 0).val
  omega

omit [FloatOps F] [Named F] in
/-- One trip's store: the relation at `n` becomes the relation at `n + 1`. -/
theorem AccRel.step {p : Fin 2} {g : Fin 24 → Fin 16 → Elt F .f32} {A A' : S768.Idx → Elt F .f32} {n : ℕ} (hn : n < 24)
    (h : AccRel p g A A' n) {off : Fin 1 → Nat} (hoff : off = ![384 * p.val + 16 * n]) (inb : ∀ a, off a + S16.size a ≤ S768.size a)
    (w : S16.Idx → Elt F .f32) (hw : ∀ j : S16.Idx, w j = g ⟨n, hn⟩ (j 0)) :
    AccRel p g A ((acc).view.writes (Elt F) A' [⟨Rect.unit (s := S768) off S16.size inb, w⟩]) (n + 1) := by
  rw [View.writes_singleton]
  refine ⟨fun k l hk => ?_, fun x hx => ?_⟩
  · by_cases hkn : k.val = n
    · have hk' : k = ⟨n, hn⟩ := Fin.ext hkn
      subst hk'
      have e := emb_group (p := p) (k := ⟨n, hn⟩) hoff inb (lane16 l)
      rw [show accIdx p ⟨n, hn⟩ l = accIdx p ⟨n, hn⟩ ((lane16 l) 0) from rfl, ← e]
      refine (View.read_slice_write_emb (v := (acc).view) (Rect.unit (s := S768) off S16.size inb) A' w (Finset.mem_univ (lane16 l))).trans ?_
      exact hw _
    · have hlt : k.val < n := by omega
      refine (View.read_slice_write_of_not_mem (v := (acc).view) (Rect.unit (s := S768) off S16.size inb) A' w Finset.univ
        (y := accIdx p k l) ?_).trans (h.1 k l hlt)
      rw [Rect.map_emb_univ, mem_group hoff inb, accIdx_val]
      have := l.isLt
      omega
  · refine (View.read_slice_write_of_not_mem (v := (acc).view) (Rect.unit (s := S768) off S16.size inb) A' w Finset.univ
      (y := x) ?_).trans (h.2 x (fun hh => hx ⟨hh.1, by omega⟩))
    rw [Rect.map_emb_univ, mem_group hoff inb]
    intro hh
    exact hx ⟨by omega, by omega⟩

omit [FloatOps F] [Named F] in
/-- A load of the group trip `k` is about to write, `k` trips into the phase: what the phase began with. -/
theorem AccRel.readAt {p : Fin 2} {g : Fin 24 → Fin 16 → Elt F .f32} {A A' : S768.Idx → Elt F .f32} {k : Fin 24}
    (h : AccRel p g A A' k.val) {off : Fin 1 → Nat} (hoff : off = ![384 * p.val + 16 * k.val]) (inb : ∀ a, off a + S16.size a ≤ S768.size a) :
    (acc).view.readAt (Elt F) (Rect.unit (s := S768) off S16.size inb).toLoadRect A' = fun j => A (accIdx p k (j 0)) := by
  funext (j : S16.Idx)
  have e := emb_group (p := p) (k := k) hoff inb j
  show A' ((Rect.unit (s := S768) off S16.size inb).emb j) = _
  rw [e]
  refine h.2 _ ?_
  have hv := accIdx_val p k (j 0)
  have := (j 0).isLt
  omega

end Cert.KernelIdeal.Hand

end
-- ==== Proof.KI.Inner.lean ====
/-
  The four inner loops of the vector-subcore kernel: one trip of each phase, from the loop's invariant at trip `k` to
  the invariant at `k + 1`. A trip loads the lane vectors of its staging buffer (and, after the first phase, the
  accumulator's group), adds them in the program's order and stores the group; the invariant holds the staging buffer
  unchanged and the accumulator related to what the phase began with.
-/
import proofs.«214330_g12317966205028_cont_fleet_230_29_alg».proof.Proof.KI.AccRel

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The inner loops -/

/-- Plane `pi` as a number below 2. -/
abbrev P (pi : Fin k1_t1_loop.trips) : Fin 2 := Fin.cast trips_t1 pi

/-- Phase 0's vectors over the staging contents `B`, by trip and lane. -/
def g0 (B : S4x16x384.Idx → Elt F .f32) : Fin 24 → Fin 16 → Elt F .f32 :=
  fun k l => ph0 B (Fin.cast trips_t2.symm k) (lane16 l)

/-- Before trip `k` of phase 0 on plane `pi`: the first staging buffer at `B`, the accumulator `k` groups into the phase. -/
def inv0 (d : Dev nD) (L : grid1.Coords) (pi : Fin k1_t1_loop.trips) (B : Buf (Elt F) ((b0).view.loc (V d (cV L) (jV L))))
    (A : Buf (Elt F) ((acc).view.loc (V d (cV L) (jV L)))) (k : Nat) (_ : Unit) : sProp 𝕄 :=
  iprop(((b0).view.loc (V d (cV L) (jV L)) ↦{fullShare} B)
    ∗ ∃ A', ((acc).view.loc (V d (cV L) (jV L)) ↦{fullShare} A') ∗ ⌜AccRel (P pi) (g0 B) A A' k⌝)

theorem region0 (d : Dev nD) (L : grid1.Coords) (pi : Fin k1_t1_loop.trips) (v2 v102 : BitVec 32)
    (B : Buf (Elt F) ((b0).view.loc (V d (cV L) (jV L)))) (A : Buf (Elt F) ((acc).view.loc (V d (cV L) (jV L))))
    (k : Fin k1_t2_loop.trips) (s : Unit) :
    inv0 d L pi B A k.val s
      ⊢ wp frame (wpE (defs₀ (F := F)) 𝒱₀ (V d (cV L) (jV L)) none) Set.univ
          (k1_t2_body (F := F) L xtV (Memref.isWhole_whole _) oV (Memref.isWhole_whole _) b0 (Memref.isWhole_whole _) b1 (Memref.isWhole_whole _)
            b2 (Memref.isWhole_whole _) b3 (Memref.isWhole_whole _) acc (Memref.isWhole_whole _) cc1_scratch5 cc1_scratch6 cc1_scratch7 cc1_scratch8 cc1_scoped0 v2 pi v102 k s)
          (inv0 d L pi B A (k.val + 1)) := by
  unfold inv0 k1_t2_body
  iintro ⟨HB, %A', HA, %hrel⟩
  sl_exec
  sl_step
  isplitl [HB]; · iexact HB
  iexists _
  isplitl [HA]; · iexact HA
  ipureintro
  have hn : k.val < 24 := trips_t2 ▸ k.isLt
  refine AccRel.step hn hrel (k1_off62_eq pi k) _ _ (fun j => ?_)
  have e1 : Fin.cast trips_t2.symm ⟨k.val, hn⟩ = k := Fin.ext rfl
  show _ = ph0 B (Fin.cast trips_t2.symm ⟨k.val, hn⟩) (lane16 (j 0))
  rw [e1, lane16_zero]
  rfl

/-- Phase 1's vectors over the staging contents `B` and the previous phase's vectors `gp`, by trip and lane. -/
def g1 (B : S4x16x384.Idx → Elt F .f32) (gp : Fin 24 → Fin 16 → Elt F .f32) : Fin 24 → Fin 16 → Elt F .f32 :=
  fun k l => ph1 B (fun j => gp k (j 0)) (Fin.cast trips_t3.symm k) (lane16 l)

/-- Before trip `k` of phase 1 on plane `pi`: its staging buffer at `B`, the accumulator `k` groups into the phase. -/
def inv1 (d : Dev nD) (L : grid1.Coords) (pi : Fin k1_t1_loop.trips) (B : Buf (Elt F) ((b1).view.loc (V d (cV L) (jV L))))
    (A : Buf (Elt F) ((acc).view.loc (V d (cV L) (jV L)))) (gp : Fin 24 → Fin 16 → Elt F .f32) (k : Nat) (_ : Unit) : sProp 𝕄 :=
  iprop(((b1).view.loc (V d (cV L) (jV L)) ↦{fullShare} B)
    ∗ ∃ A', ((acc).view.loc (V d (cV L) (jV L)) ↦{fullShare} A') ∗ ⌜AccRel (P pi) (g1 B gp) A A' k⌝)

theorem region1 (d : Dev nD) (L : grid1.Coords) (pi : Fin k1_t1_loop.trips) (v2 v102 : BitVec 32)
    (B : Buf (Elt F) ((b1).view.loc (V d (cV L) (jV L)))) (A : Buf (Elt F) ((acc).view.loc (V d (cV L) (jV L))))
    (gp : Fin 24 → Fin 16 → Elt F .f32) (hprev : ∀ k l, A (accIdx (P pi) k l) = gp k l)
    (k : Fin k1_t3_loop.trips) (s : Unit) :
    inv1 d L pi B A gp k.val s
      ⊢ wp frame (wpE (defs₀ (F := F)) 𝒱₀ (V d (cV L) (jV L)) none) Set.univ
          (k1_t3_body (F := F) L xtV (Memref.isWhole_whole _) oV (Memref.isWhole_whole _) b0 (Memref.isWhole_whole _) b1 (Memref.isWhole_whole _)
            b2 (Memref.isWhole_whole _) b3 (Memref.isWhole_whole _) acc (Memref.isWhole_whole _) cc1_scratch5 cc1_scratch6 cc1_scratch7 cc1_scratch8 cc1_scoped0 v2 pi v102 k s)
          (inv1 d L pi B A gp (k.val + 1)) := by
  unfold inv1 k1_t3_body
  iintro ⟨HB, %A', HA, %hrel⟩
  sl_exec
  sl_step
  isplitl [HB]; · iexact HB
  iexists _
  isplitl [HA]; · iexact HA
  ipureintro
  have hn : k.val < 24 := trips_t3 ▸ k.isLt
  refine AccRel.step hn hrel (k1_off121_eq pi k) _ _ (fun j => ?_)
  have e1 : Fin.cast trips_t3.symm ⟨k.val, hn⟩ = k := Fin.ext rfl
  have hread := AccRel.readAt (k := ⟨k.val, hn⟩) hrel (k1_off121_eq pi k) (k1_off121_inb pi k)
  have e2 : (fun j' : S16.Idx => gp ⟨k.val, hn⟩ (j' 0))
      = (acc).view.readAt (Elt F) (Rect.unit (s := S768) (k1_off121 pi k) S16.size (k1_off121_inb pi k)).toLoadRect A' := by
    rw [hread]; funext j'; exact (hprev _ _).symm
  show _ = ph1 B (fun j' : S16.Idx => gp ⟨k.val, hn⟩ (j' 0)) (Fin.cast trips_t3.symm ⟨k.val, hn⟩) (lane16 (j 0))
  rw [e2, e1, lane16_zero]
  rfl

/-- Phase 2's vectors over the staging contents `B` and the previous phase's vectors `gp`, by trip and lane. -/
def g2 (B : S4x16x384.Idx → Elt F .f32) (gp : Fin 24 → Fin 16 → Elt F .f32) : Fin 24 → Fin 16 → Elt F .f32 :=
  fun k l => ph2 B (fun j => gp k (j 0)) (Fin.cast trips_t4.symm k) (lane16 l)

/-- Before trip `k` of phase 2 on plane `pi`: its staging buffer at `B`, the accumulator `k` groups into the phase. -/
def inv2 (d : Dev nD) (L : grid1.Coords) (pi : Fin k1_t1_loop.trips) (B : Buf (Elt F) ((b2).view.loc (V d (cV L) (jV L))))
    (A : Buf (Elt F) ((acc).view.loc (V d (cV L) (jV L)))) (gp : Fin 24 → Fin 16 → Elt F .f32) (k : Nat) (_ : Unit) : sProp 𝕄 :=
  iprop(((b2).view.loc (V d (cV L) (jV L)) ↦{fullShare} B)
    ∗ ∃ A', ((acc).view.loc (V d (cV L) (jV L)) ↦{fullShare} A') ∗ ⌜AccRel (P pi) (g2 B gp) A A' k⌝)

theorem region2 (d : Dev nD) (L : grid1.Coords) (pi : Fin k1_t1_loop.trips) (v2 v102 v200 v201 : BitVec 32) (v202 v203 : BitVec 1)
    (B : Buf (Elt F) ((b2).view.loc (V d (cV L) (jV L)))) (A : Buf (Elt F) ((acc).view.loc (V d (cV L) (jV L))))
    (gp : Fin 24 → Fin 16 → Elt F .f32) (hprev : ∀ k l, A (accIdx (P pi) k l) = gp k l)
    (k : Fin k1_t4_loop.trips) (s : Unit) :
    inv2 d L pi B A gp k.val s
      ⊢ wp frame (wpE (defs₀ (F := F)) 𝒱₀ (V d (cV L) (jV L)) none) Set.univ
          (k1_t4_body (F := F) L xtV (Memref.isWhole_whole _) oV (Memref.isWhole_whole _) b0 (Memref.isWhole_whole _) b1 (Memref.isWhole_whole _)
            b2 (Memref.isWhole_whole _) b3 (Memref.isWhole_whole _) acc (Memref.isWhole_whole _) cc1_scratch5 cc1_scratch6 cc1_scratch7 cc1_scratch8 cc1_scoped0 v2 pi v102 v200 v201 v202 v203 k s)
          (inv2 d L pi B A gp (k.val + 1)) := by
  unfold inv2 k1_t4_body
  iintro ⟨HB, %A', HA, %hrel⟩
  sl_exec
  sl_step
  isplitl [HB]; · iexact HB
  iexists _
  isplitl [HA]; · iexact HA
  ipureintro
  have hn : k.val < 24 := trips_t4 ▸ k.isLt
  refine AccRel.step hn hrel (k1_off180_eq pi k) _ _ (fun j => ?_)
  have e1 : Fin.cast trips_t4.symm ⟨k.val, hn⟩ = k := Fin.ext rfl
  have hread := AccRel.readAt (k := ⟨k.val, hn⟩) hrel (k1_off180_eq pi k) (k1_off180_inb pi k)
  have e2 : (fun j' : S16.Idx => gp ⟨k.val, hn⟩ (j' 0))
      = (acc).view.readAt (Elt F) (Rect.unit (s := S768) (k1_off180 pi k) S16.size (k1_off180_inb pi k)).toLoadRect A' := by
    rw [hread]; funext j'; exact (hprev _ _).symm
  show _ = ph2 B (fun j' : S16.Idx => gp ⟨k.val, hn⟩ (j' 0)) (Fin.cast trips_t4.symm ⟨k.val, hn⟩) (lane16 (j 0))
  rw [e2, e1, lane16_zero]
  rfl

/-- Phase 3's vectors over the staging contents `B` and the previous phase's vectors `gp`, by trip and lane. -/
def g3 (B : S3x16x384.Idx → Elt F .f32) (gp : Fin 24 → Fin 16 → Elt F .f32) : Fin 24 → Fin 16 → Elt F .f32 :=
  fun k l => ph3 B (fun j => gp k (j 0)) (Fin.cast trips_t5.symm k) (lane16 l)

/-- Before trip `k` of phase 3 on plane `pi`: its staging buffer at `B`, the accumulator `k` groups into the phase. -/
def inv3 (d : Dev nD) (L : grid1.Coords) (pi : Fin k1_t1_loop.trips) (B : Buf (Elt F) ((b3).view.loc (V d (cV L) (jV L))))
    (A : Buf (Elt F) ((acc).view.loc (V d (cV L) (jV L)))) (gp : Fin 24 → Fin 16 → Elt F .f32) (k : Nat) (_ : Unit) : sProp 𝕄 :=
  iprop(((b3).view.loc (V d (cV L) (jV L)) ↦{fullShare} B)
    ∗ ∃ A', ((acc).view.loc (V d (cV L) (jV L)) ↦{fullShare} A') ∗ ⌜AccRel (P pi) (g3 B gp) A A' k⌝)

theorem region3 (d : Dev nD) (L : grid1.Coords) (pi : Fin k1_t1_loop.trips) (v2 v67 c32 v68 v70 v102 : BitVec 32)
    (B : Buf (Elt F) ((b3).view.loc (V d (cV L) (jV L)))) (A : Buf (Elt F) ((acc).view.loc (V d (cV L) (jV L))))
    (gp : Fin 24 → Fin 16 → Elt F .f32) (hprev : ∀ k l, A (accIdx (P pi) k l) = gp k l)
    (k : Fin k1_t5_loop.trips) (s : Unit) :
    inv3 d L pi B A gp k.val s
      ⊢ wp frame (wpE (defs₀ (F := F)) 𝒱₀ (V d (cV L) (jV L)) none) Set.univ
          (k1_t5_body (F := F) L xtV (Memref.isWhole_whole _) oV (Memref.isWhole_whole _) b0 (Memref.isWhole_whole _) b1 (Memref.isWhole_whole _)
            b2 (Memref.isWhole_whole _) b3 (Memref.isWhole_whole _) acc (Memref.isWhole_whole _) cc1_scratch5 cc1_scratch6 cc1_scratch7 cc1_scratch8 cc1_scoped0 v2 v67 c32 v68 v70 pi v102 k s)
          (inv3 d L pi B A gp (k.val + 1)) := by
  unfold inv3 k1_t5_body
  iintro ⟨HB, %A', HA, %hrel⟩
  sl_exec
  sl_step
  isplitl [HB]; · iexact HB
  iexists _
  isplitl [HA]; · iexact HA
  ipureintro
  have hn : k.val < 24 := trips_t5 ▸ k.isLt
  refine AccRel.step hn hrel (k1_off225_eq pi k) _ _ (fun j => ?_)
  have e1 : Fin.cast trips_t5.symm ⟨k.val, hn⟩ = k := Fin.ext rfl
  have hread := AccRel.readAt (k := ⟨k.val, hn⟩) hrel (k1_off225_eq pi k) (k1_off225_inb pi k)
  have e2 : (fun j' : S16.Idx => gp ⟨k.val, hn⟩ (j' 0))
      = (acc).view.readAt (Elt F) (Rect.unit (s := S768) (k1_off225 pi k) S16.size (k1_off225_inb pi k)).toLoadRect A' := by
    rw [hread]; funext j'; exact (hprev _ _).symm
  show _ = ph3 B (fun j' : S16.Idx => gp ⟨k.val, hn⟩ (j' 0)) (Fin.cast trips_t5.symm ⟨k.val, hn⟩) (lane16 (j 0))
  rw [e2, e1, lane16_zero]
  rfl

end Cert.KernelIdeal.Hand

end
-- ==== Proof.KI.Own.lean ====
/-
  A vector subcore's own DMA semaphores and scratch buffers, taken out of the families the launch hands it.
-/
import proofs.«214330_g12317966205028_cont_fleet_230_29_alg».proof.Proof.KI.Base

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The subcore's own semaphores and scratch buffers -/

section Tile

variable (d : Dev nD) (L : grid1.Coords)

/-- The DMA semaphore `sm` of the subcore at `L`, as a cell. -/
abbrev cellV (sm : DmaSems sig S_) : GSem nD τ sig := (V d (cV L) (jV L), .dma sm.sem)

omit [FloatOps F] [Named F] in
theorem cellV_mem (sm : DmaSems sig S_) (h : (SemLoc.dma sm.sem : SemLoc sig).isScoped .scVector = true) :
    cellV d L sm ∈ ownCells (V d (cV L) (jV L)) := (mem_ownCells (g := cellV d L sm)).mpr ⟨rfl, h⟩

omit [FloatOps F] [Named F] in
theorem cellV_ne {a b : DmaSems sig S_} (h : (SemLoc.dma a.sem : SemLoc sig) ≠ SemLoc.dma b.sem) : cellV d L a ≠ cellV d L b :=
  fun e => h (congrArg Prod.snd e)

omit [FloatOps F] [Named F] in
theorem ownSems0_V :
    (ownSems0 (V d (cV L) (jV L)) : sProp 𝕄)
      = iprop(semVal (cellV d L cc1_scratch5) 0 ∗ semVal (cellV d L cc1_scratch6) 0 ∗ semVal (cellV d L cc1_scratch7) 0
          ∗ semVal (cellV d L cc1_scratch8) 0 ∗ semVal (cellV d L cc1_scoped0) 0
          ∗ bigSep (((((ownCells (V d (cV L) (jV L))).erase (cellV d L cc1_scratch5)).erase (cellV d L cc1_scratch6)).erase (cellV d L cc1_scratch7)).erase
              (cellV d L cc1_scratch8) |>.erase (cellV d L cc1_scoped0)) fun g => semVal g 0) := by
  unfold SparseCore.Cfg.ownSems0
  rw [SparseCore.bigSep_erase' (cellV_mem d L cc1_scratch5 (by decide)),
    SparseCore.bigSep_erase' (Finset.mem_erase.mpr ⟨cellV_ne d L (by decide), cellV_mem d L cc1_scratch6 (by decide)⟩),
    SparseCore.bigSep_erase' (Finset.mem_erase.mpr ⟨cellV_ne d L (by decide), Finset.mem_erase.mpr ⟨cellV_ne d L (by decide), cellV_mem d L cc1_scratch7 (by decide)⟩⟩),
    SparseCore.bigSep_erase' (Finset.mem_erase.mpr ⟨cellV_ne d L (by decide), Finset.mem_erase.mpr ⟨cellV_ne d L (by decide),
      Finset.mem_erase.mpr ⟨cellV_ne d L (by decide), cellV_mem d L cc1_scratch8 (by decide)⟩⟩⟩),
    SparseCore.bigSep_erase' (Finset.mem_erase.mpr ⟨cellV_ne d L (by decide), Finset.mem_erase.mpr ⟨cellV_ne d L (by decide),
      Finset.mem_erase.mpr ⟨cellV_ne d L (by decide), Finset.mem_erase.mpr ⟨cellV_ne d L (by decide), cellV_mem d L cc1_scoped0 (by decide)⟩⟩⟩⟩)]

/-- Scratch buffer `b` of the subcore at `L`, as a buffer of the device. -/
abbrev refV (b : Ref sig .scVector) : DevRef τ sig := (Proc.scVector (cV L) (jV L)).devRef b

omit [FloatOps F] [Named F] in
theorem refV_mem (b : Ref sig .scVector) (h : (refV L b).owner = .proc (Proc.scVector (cV L) (jV L))) :
    refV L b ∈ ownRefs (τ := τ) (.scVector (cV L) (jV L)) := SparseCore.Cfg.mem_ownRefs_of_owner h

omit [FloatOps F] [Named F] in
theorem refV_ne {a b : Ref sig .scVector} (h : a ≠ b) : refV L a ≠ refV L b :=
  fun e => h (Proc.devRef_injective _ e)

omit [FloatOps F] [Named F] in
/-- The five scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ (∃ f, (V d (cV L) (jV L)).loc cc1_scratch4 ↦{fullShare} f)
          ∗ bigSep (((((ownRefs (τ := τ) (.scVector (cV L) (jV L))).erase (refV L cc1_scratch0)).erase (refV L cc1_scratch1)).erase (refV L cc1_scratch2)).erase
              (refV L cc1_scratch3) |>.erase (refV L cc1_scratch4)) fun b => iprop(∃ f, ((d, b) : Loc nD τ sig) ↦{fullShare} f)) := by
  unfold SparseCore.Cfg.ownBufs
  refine (SparseCore.bigSep_erase' (refV_mem L cc1_scratch0 rfl)).trans ?_
  rw [SparseCore.bigSep_erase' (Finset.mem_erase.mpr ⟨refV_ne L (by decide), refV_mem L cc1_scratch1 rfl⟩),
    SparseCore.bigSep_erase' (Finset.mem_erase.mpr ⟨refV_ne L (by decide), Finset.mem_erase.mpr ⟨refV_ne L (by decide), refV_mem L cc1_scratch2 rfl⟩⟩),
    SparseCore.bigSep_erase' (Finset.mem_erase.mpr ⟨refV_ne L (by decide), Finset.mem_erase.mpr ⟨refV_ne L (by decide),
      Finset.mem_erase.mpr ⟨refV_ne L (by decide), refV_mem L cc1_scratch3 rfl⟩⟩⟩),
    SparseCore.bigSep_erase' (Finset.mem_erase.mpr ⟨refV_ne L (by decide), Finset.mem_erase.mpr ⟨refV_ne L (by decide),
      Finset.mem_erase.mpr ⟨refV_ne L (by decide), Finset.mem_erase.mpr ⟨refV_ne L (by decide), refV_mem L cc1_scratch4 rfl⟩⟩⟩⟩)]

end Tile

end Cert.KernelIdeal.Hand

end
-- ==== Proof.KI.Outer.lean ====
/-
  The outer loop of the vector-subcore kernel: one plane per trip. Before plane `n` the plane's first three row
  groups are in flight into the first three staging buffers (started by the prologue or by the trip before); the trip
  starts the fourth group, and per phase waits for the phase's group, runs the phase's inner loop and — if another
  plane follows — starts that plane's group into the buffer just consumed. The input is read under one share per DMA
  semaphore, so that up to four transfers read it at once. The invariant carries the flights, the accumulator with the
  planes done so far at their values, and what the subcore owes.
-/
import proofs.«214330_g12317966205028_cont_fleet_230_29_alg».proof.Proof.KI.Inner
import proofs.«214330_g12317966205028_cont_fleet_230_29_alg».proof.Proof.KI.Own

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile2

variable (d : Dev nD) (L : grid1.Coords)

omit [FloatOps F] [Named F] in
/-- The transposed input as the subcore's memref addresses it is the device's array. -/
theorem pts_xt (q : PosShare TreeShare) (f : Buf (Elt F) (xtLoc d)) :
    ((xtV).view.loc (V d (cV L) (jV L)) ↦{q} f : sProp 𝕄) = xtLoc d ↦{q} f := by
  simp only [Memref.view_whole, View.set_whole]
omit [FloatOps F] [Named F] in
/-- The subcore's 768 entries of the flat result, as its slice addresses them. -/
theorem pts_o (f : Buf (Elt F) (oLoc d)) :
    ((oSlice L).view.loc (V d (cV L) (jV L)) ↦[(oSlice L).view.set]{fullShare} f : sProp 𝕄) = oLoc d ↦[oSet L]{fullShare} f := rfl
omit [FloatOps F] [Named F] in
theorem pts_b (b : Ref sig .scVector) (f : Buf (Elt F) ((V d (cV L) (jV L)).loc b)) :
    ((Memref.whole b : Memref sig .scVector _ _ _).view.loc (V d (cV L) (jV L)) ↦{fullShare} f : sProp 𝕄) = (V d (cV L) (jV L)).loc b ↦{fullShare} f := rfl

omit [FloatOps F] [Named F] in
/-- The input's share as the remainder and eight read tokens, numbered as the DMA semaphores are. -/
theorem xt_toks (q : PosShare TreeShare) (f : Buf (Elt F) (xtLoc d)) :
    ((xtV).view.loc (V d (cV L) (jV L)) ↦{q} f : sProp 𝕄)
      ⊣⊢ iprop(((xtV).view.loc (V d (cV L) (jV L)) ↦{Transfers.shareDrop q 8} f)
          ∗ ((xtV).view.loc (V d (cV L) (jV L)) ↦{Transfers.shareTokN q 7} f) ∗ ((xtV).view.loc (V d (cV L) (jV L)) ↦{Transfers.shareTokN q 6} f)
          ∗ ((xtV).view.loc (V d (cV L) (jV L)) ↦{Transfers.shareTokN q 5} f) ∗ ((xtV).view.loc (V d (cV L) (jV L)) ↦{Transfers.shareTokN q 4} f)
          ∗ ((xtV).view.loc (V d (cV L) (jV L)) ↦{Transfers.shareTokN q 3} f) ∗ ((xtV).view.loc (V d (cV L) (jV L)) ↦{Transfers.shareTokN q 2} f)
          ∗ ((xtV).view.loc (V d (cV L) (jV L)) ↦{Transfers.shareTokN q 1} f) ∗ ((xtV).view.loc (V d (cV L) (jV L)) ↦{Transfers.shareTokN q 0} f) ∗ emp) := by
  have hs : ∀ (k : ℕ) (A : ℕ → sProp 𝕄), bigSep (Finset.range (k + 1)) A = iprop(A k ∗ bigSep (Finset.range k) A) := fun k A => by
    rw [Finset.range_add_one, BI.bigSep_insert Finset.notMem_range_self]; rfl
  have h := Transfers.pointsTo_toks_range (Ix := HIx 1) (Name := ℕ) (U := UU) (Lvl := ℕ) (ℓ := (xtV).view.loc (V d (cV L) (jV L))) (S := Finset.univ) (f := f) q 8
  rw [hs 7, hs 6, hs 5, hs 4, hs 3, hs 2, hs 1, hs 0, Finset.range_zero, BI.bigSep_empty] at h
  exact h

end Tile2

/-! ## The plane chunks in flight -/

/-- Four rows of a plane of the transposed input, as the program slices and squeezes them. -/
abbrev src4 (off : Fin 5 → Nat) (h : ∀ a, off a + S1x1x4x16x384.size a ≤ S8x32x16x16x384.size a) : Memref sig .scVector .hbm S4x16x384 .f32 :=
  ((xtV).slice (Rect.unit (s := S8x32x16x16x384) off S1x1x4x16x384.size h) (fun _ => rfl)).squeeze S4x16x384 squeezes_S1x1x4x16x384_S4x16x384
/-- Three rows of a plane likewise. -/
abbrev src3 (off : Fin 5 → Nat) (h : ∀ a, off a + S1x1x3x16x384.size a ≤ S8x32x16x16x384.size a) : Memref sig .scVector .hbm S3x16x384 .f32 :=
  ((xtV).slice (Rect.unit (s := S8x32x16x16x384) off S1x1x3x16x384.size h) (fun _ => rfl)).squeeze S3x16x384 squeezes_S1x1x3x16x384_S3x16x384

omit [FloatOps F] [Named F] in
theorem src4_congr {off off' : Fin 5 → Nat} (e : off = off') (h h') : src4 off h = src4 off' h' := by subst e; rfl
omit [FloatOps F] [Named F] in
theorem src3_congr {off off' : Fin 5 → Nat} (e : off = off') (h h') : src3 off h = src3 off' h' := by subst e; rfl

/-- The offsets of the chunks the prologue and a trip start are those the waits name. -/
theorem off1_eq : ∀ L : grid1.Coords, k1_off1 L = k1_off5 L ⟨0, by decide⟩ := by decide +kernel
theorem off2_eq : ∀ L : grid1.Coords, k1_off2 L = k1_off64 L ⟨0, by decide⟩ := by decide +kernel
theorem off3_eq : ∀ L : grid1.Coords, k1_off3 L = k1_off123 L ⟨0, by decide⟩ := by decide +kernel
theorem off63_eq : ∀ L : grid1.Coords, k1_off63 L ⟨0, by decide⟩ = k1_off5 L ⟨1, by decide⟩ := by decide +kernel
theorem off122_eq : ∀ L : grid1.Coords, k1_off122 L ⟨0, by decide⟩ = k1_off64 L ⟨1, by decide⟩ := by decide +kernel
theorem off181_eq : ∀ L : grid1.Coords, k1_off181 L ⟨0, by decide⟩ = k1_off123 L ⟨1, by decide⟩ := by decide +kernel
theorem off4_eq : ∀ (L : grid1.Coords) (pi : Fin k1_t1_loop.trips), k1_off4 L pi = k1_off182 L pi := by decide +kernel

section Outer

variable (d : Dev nD) (L : grid1.Coords) (q : PosShare TreeShare) (xt : Buf (Elt F) (xtLoc d))

/-- What a chunk's transfer delivers: the staging buffer at the chunk's rows `B`, and the rows' read share. -/
def D4 (m : Memref sig .scVector .vmem S4x16x384 .f32) (B : Buf (Elt F) (m.view.loc (V d (cV L) (jV L)))) (i : ℕ) (off : Fin 5 → Nat)
    (h : ∀ a, off a + S1x1x4x16x384.size a ≤ S8x32x16x16x384.size a) : sProp 𝕄 :=
  iprop((m.view.loc (V d (cV L) (jV L)) ↦{fullShare} B)
    ∗ ((xtV).view.loc (V d (cV L) (jV L)) ↦[(src4 off h).view.set]{Transfers.shareTokN q i} xt))

/-- A chunk in flight on DMA semaphore `i` into `m`: the transfer, and what is left of the semaphore's read token. -/
def Fly4 (m : Memref sig .scVector .vmem S4x16x384 .f32) (B : Buf (Elt F) (m.view.loc (V d (cV L) (jV L)))) (i : ℕ) (hi : i < 9) (off : Fin 5 → Nat)
    (h : ∀ a, off a + S1x1x4x16x384.size a ≤ S8x32x16x16x384.size a) : sProp 𝕄 :=
  iprop(Transfers.Flight (countersEmb (U := UU)) (V d (cV L) (jV L)) (SemLoc.dma (sig := sig) ⟨i, hi⟩) default 786432 (D4 d L q xt m B i off h)
    ∗ ((xtV).view.loc (V d (cV L) (jV L)) ↦[Finset.univ \ (src4 off h).view.set]{Transfers.shareTokN q i} xt))

/-- A transfer just issued, restated at another name of the same offsets and at the contents it lands. -/
theorem fly4_of (m : Memref sig .scVector .vmem S4x16x384 .f32) (i : ℕ) (hi : i < 9) {off off' : Fin 5 → Nat} (e : off = off') (h h')
    (f0 B : Buf (Elt F) (m.view.loc (V d (cV L) (jV L)))) (w : S4x16x384.Idx → Elt F .f32) (hw : w = ReadAs.same.apply ((src4 off h).view.read (Elt F) xt))
    (hB : View.write (Elt F) m.view f0 (ReadAs.same.apply ((src4 off' h').view.read (Elt F) xt)) Finset.univ = B) :
    iprop(Transfers.Flight (countersEmb (U := UU)) (V d (cV L) (jV L)) (SemLoc.dma (sig := sig) ⟨i, hi⟩) default 786432
        iprop((m.view.loc (V d (cV L) (jV L)) ↦{fullShare} View.write (Elt F) m.view f0 w Finset.univ)
          ∗ ((xtV).view.loc (V d (cV L) (jV L)) ↦[(src4 off h).view.set]{Transfers.shareTokN q i} xt))
      ∗ ((xtV).view.loc (V d (cV L) (jV L)) ↦[Finset.univ \ (src4 off h).view.set]{Transfers.shareTokN q i} xt))
    ⊢ Fly4 d L q xt m B i hi off' h' := by
  subst e hw
  unfold Fly4 D4
  rw [hB]

end Outer

section Outer2

variable (d : Dev nD) (L : grid1.Coords) (q : PosShare TreeShare) (xt : Buf (Elt F) (xtLoc d))

/-- The planes below `n` are summed: their entries of the accumulator hold the planes' values. -/
def PlanesDone (n : ℕ) (A : S768.Idx → Elt F .f32) : Prop :=
  ∀ p : Fin 2, p.val < n → ∀ (k : Fin 24) (l : Fin 16), A (accIdx p k l) = planeVal xt L (Fin.cast trips_t1.symm p) k (lane16 l)

/-- Before plane `p`: its first three chunks are in flight into the first three staging buffers. -/
def Pend (p : Fin k1_t1_loop.trips) : sProp 𝕄 :=
  iprop(Fly4 d L q xt b0 (chunk0 xt L p) 4 (by decide) (k1_off5 L p) (k1_off5_inb L p)
    ∗ Fly4 d L q xt b1 (chunk1 xt L p) 5 (by decide) (k1_off64 L p) (k1_off64_inb L p)
    ∗ Fly4 d L q xt b2 (chunk2 xt L p) 6 (by decide) (k1_off123 L p) (k1_off123_inb L p))

/-- After the last plane: nothing in flight. -/
def Idle : sProp 𝕄 :=
  iprop((∃ f, (b0).view.loc (V d (cV L) (jV L)) ↦{fullShare} f) ∗ (∃ f, (b1).view.loc (V d (cV L) (jV L)) ↦{fullShare} f) ∗ (∃ f, (b2).view.loc (V d (cV L) (jV L)) ↦{fullShare} f)
    ∗ semVal (cellV d L cc1_scratch5) 0 ∗ semVal (cellV d L cc1_scratch6) 0 ∗ semVal (cellV d L cc1_scratch7) 0
    ∗ ((xtV).view.loc (V d (cV L) (jV L)) ↦{Transfers.shareTokN q 4} xt) ∗ ((xtV).view.loc (V d (cV L) (jV L)) ↦{Transfers.shareTokN q 5} xt) ∗ ((xtV).view.loc (V d (cV L) (jV L)) ↦{Transfers.shareTokN q 6} xt))

/-- The first three staging buffers and their semaphores before plane `n`. -/
def Stage (n : ℕ) : sProp 𝕄 := if h : n < 2 then Pend d L q xt ⟨n, trips_t1 ▸ h⟩ else Idle d L q xt

/-- The outer loop's invariant before plane `n`. -/
def outerInv (O : CellTallies nD τ sig (HIx 1)) (W : Waits sig (HIx 1)) (n : ℕ) (_ : Unit) : sProp 𝕄 :=
  iprop(Transfers.MayWaits (V d (cV L) (jV L)) (none : HIx 1) O
    ∗ Stage d L q xt n
    ∗ (∃ f, (b3).view.loc (V d (cV L) (jV L)) ↦{fullShare} f) ∗ semVal (cellV d L cc1_scratch8) 0 ∗ ((xtV).view.loc (V d (cV L) (jV L)) ↦{Transfers.shareTokN q 7} xt)
    ∗ (∃ A, ((acc).view.loc (V d (cV L) (jV L)) ↦{fullShare} A) ∗ ⌜PlanesDone d L xt n A⌝)
    ∗ ∃ W', ⌜∀ p ∈ W', p ∈ W ∨ p.2 = none⌝ ∗ owes (V d (cV L) (jV L)) O W')

end Outer2

/-- The two planes. -/
abbrev p0 : Fin k1_t1_loop.trips := ⟨0, by decide⟩
abbrev p1 : Fin k1_t1_loop.trips := ⟨1, by decide⟩

section Planes

variable (d : Dev nD) (L : grid1.Coords) (xt : Buf (Elt F) (xtLoc d))

theorem read_src3_congr {off off' : Fin 5 → Nat} (e : off = off') (h h') :
    (src3 off h).view.read (Elt F) xt = (src3 off' h').view.read (Elt F) xt := by subst e; rfl

/-- The last staging buffer once its chunk has landed holds the plane's rows 12…14 as the wait names them. -/
theorem chunk3_of (pi : Fin k1_t1_loop.trips) (h : ∀ a, (k1_off4 L pi) a + S1x1x3x16x384.size a ≤ S8x32x16x16x384.size a)
    (f3 : Buf (Elt F) ((b3).view.loc (V d (cV L) (jV L)))) (w : S3x16x384.Idx → Elt F .f32) (hw : w = ReadAs.same.apply ((src3 (k1_off4 L pi) h).view.read (Elt F) xt)) :
    View.write (Elt F) (b3).view f3 w Finset.univ = chunk3 xt L pi := by
  subst hw
  refine (View.write_whole_univ _ _ _).trans ?_
  exact read_src3_congr d xt (off4_eq L pi) h (k1_off182_inb L pi)

/-- The four phases over plane `pi`'s chunks give the plane's value. -/
theorem gchain_eq (pi : Fin k1_t1_loop.trips) (k : Fin 24) (l : Fin 16) :
    g3 (chunk3 xt L pi) (g2 (chunk2 xt L pi) (g1 (chunk1 xt L pi) (g0 (chunk0 xt L pi)))) k l = planeVal xt L pi k (lane16 l) := by
  unfold g3 g2 g1 g0 planeVal
  simp only [lane16_zero]

/-- One plane's four phases extend the planes done by one. -/
theorem planes_step (pi : Fin k1_t1_loop.trips) {A0 A1 A2 A3 A4 : S768.Idx → Elt F .f32}
    (h0 : AccRel (P pi) (g0 (chunk0 xt L pi)) A0 A1 k1_t2_loop.trips)
    (h1 : AccRel (P pi) (g1 (chunk1 xt L pi) (g0 (chunk0 xt L pi))) A1 A2 k1_t3_loop.trips)
    (h2 : AccRel (P pi) (g2 (chunk2 xt L pi) (g1 (chunk1 xt L pi) (g0 (chunk0 xt L pi)))) A2 A3 k1_t4_loop.trips)
    (h3 : AccRel (P pi) (g3 (chunk3 xt L pi) (g2 (chunk2 xt L pi) (g1 (chunk1 xt L pi) (g0 (chunk0 xt L pi))))) A3 A4 k1_t5_loop.trips)
    (hA : PlanesDone d L xt pi.val A0) : PlanesDone d L xt (pi.val + 1) A4 := by
  rw [trips_t2] at h0; rw [trips_t3] at h1; rw [trips_t4] at h2; rw [trips_t5] at h3
  intro p hp k l
  by_cases hpp : p = P pi
  · subst hpp
    rw [h3.1 k l k.isLt, gchain_eq]
    rfl
  · have hlt : p.val < pi.val := by
      have : p.val ≠ pi.val := fun e => hpp (Fin.ext e)
      omega
    have hx : ¬(384 * (P pi).val ≤ ((accIdx p k l) 0).val ∧ ((accIdx p k l) 0).val < 384 * (P pi).val + 16 * 24) := by
      rw [accIdx_val]
      have := k.isLt; have := l.isLt
      show ¬(384 * pi.val ≤ _ ∧ _ < 384 * pi.val + 16 * 24)
      omega
    rw [h3.2 _ hx, h2.2 _ hx, h1.2 _ hx, h0.2 _ hx]
    exact hA p hlt k l

end Planes

set_option maxHeartbeats 2000000 in
theorem trip_first (d : Dev nD) (L : grid1.Coords) (q : PosShare TreeShare) (xt : Buf (Elt F) (xtLoc d))
    (O : CellTallies nD τ sig (HIx 1)) (W : Waits sig (HIx 1)) (v2 v67 c32 v68 v70 : BitVec 32) (s : Unit) :
    outerInv d L q xt O W 0 s
      ⊢ wp frame (wpE (defs₀ (F := F)) 𝒱₀ (V d (cV L) (jV L)) none) Set.univ
          (k1_t1_body (F := F) L xtV (Memref.isWhole_whole _) oV (Memref.isWhole_whole _) b0 (Memref.isWhole_whole _) b1 (Memref.isWhole_whole _)
            b2 (Memref.isWhole_whole _) b3 (Memref.isWhole_whole _) acc (Memref.isWhole_whole _) cc1_scratch5 cc1_scratch6 cc1_scratch7 cc1_scratch8 cc1_scoped0 v2 v67 c32 v68 v70 p0 s)
          (outerInv d L q xt O W 1) := by
  have k1_h1 : k1_cond1 p0 = 1#1 := by decide
  have k1_h2 : k1_cond2 p0 = 1#1 := by decide
  have k1_h3 : k1_cond3 p0 = 1#1 := by decide
  have k1_h4 : k1_cond4 p0 = 1#1 := by decide
  unfold outerInv k1_t1_body
  rw [show Stage d L q xt 0 = Pend d L q xt p0 from dif_pos (by decide)]
  unfold Pend Fly4 D4
  iintro ⟨#Hmw, ⟨⟨Hs0, Hr0⟩, ⟨Hs1, Hr1⟩, ⟨Hs2, Hr2⟩⟩, ⟨%f3, Hb3⟩, Hs3, Ht7, ⟨%A, Hacc, %hA⟩, %W', %hW', HO⟩
  sl_exec
  -- phase 0
  sl_for (inv0 d L p0 (chunk0 xt L p0) A) $$ [Hs0_dst Hacc]
  · exact fun k s => region0 d L p0 v2 _ _ _ k s
  · unfold inv0
    isplitl [Hs0_dst]; · iexact Hs0_dst
    iexists A; isplitl [Hacc]; · iexact Hacc
    ipureintro; exact AccRel.zero _ _ _
  iintro %_ HI
  unfold inv0
  icases HI with ⟨Hb0, %A1, Hacc, %hr0⟩
  sl_exec
  -- phase 1
  sl_for (inv1 d L p0 (chunk1 xt L p0) A1 (g0 (chunk0 xt L p0))) $$ [Hs1_dst Hacc]
  · exact fun k s => region1 d L p0 v2 _ _ _ _ (fun k l => hr0.1 k l (lt_of_lt_of_eq k.isLt trips_t2.symm)) k s
  · unfold inv1
    isplitl [Hs1_dst]; · iexact Hs1_dst
    iexists A1; isplitl [Hacc]; · iexact Hacc
    ipureintro; exact AccRel.zero _ _ _
  iintro %_ HI
  unfold inv1
  icases HI with ⟨Hb1, %A2, Hacc, %hr1⟩
  sl_exec
  -- phase 2
  sl_for (inv2 d L p0 (chunk2 xt L p0) A2 (g1 (chunk1 xt L p0) (g0 (chunk0 xt L p0)))) $$ [Hs2_dst Hacc]
  · exact fun k s => region2 d L p0 v2 _ 0#32 0#32 0#1 0#1 _ _ _ (fun k l => hr1.1 k l (lt_of_lt_of_eq k.isLt trips_t3.symm)) k s
  · unfold inv2
    isplitl [Hs2_dst]; · iexact Hs2_dst
    iexists A2; isplitl [Hacc]; · iexact Hacc
    ipureintro; exact AccRel.zero _ _ _
  iintro %_ HI
  unfold inv2
  icases HI with ⟨Hb2, %A3, Hacc, %hr2⟩
  sl_exec
  -- phase 3: the last staging buffer at the plane's rows 12…14
  ihave Hb3c := (Entails.of_eq (congrArg (fun B => ((b3).view.loc (V d (cV L) (jV L)) ↦{fullShare} B : sProp 𝕄)) (chunk3_of d L xt p0 (k1_off4_inb L p0 k1_h1) f3 (trip_first.sl.dma0 d L xt k1_h1) rfl))) $$ Hb3
  sl_for (inv3 d L p0 (chunk3 xt L p0) A3 (g2 (chunk2 xt L p0) (g1 (chunk1 xt L p0) (g0 (chunk0 xt L p0))))) $$ [Hb3c Hacc]
  · exact fun k s => region3 d L p0 v2 v67 c32 v68 v70 _ _ _ _ (fun k l => hr2.1 k l (lt_of_lt_of_eq k.isLt trips_t4.symm)) k s
  · unfold inv3
    isplitl [Hb3c]; · iexact Hb3c
    iexists A3; isplitl [Hacc]; · iexact Hacc
    ipureintro; exact AccRel.zero _ _ _
  iintro %_ HI
  unfold inv3
  icases HI with ⟨Hb3, %A4, Hacc, %hr3⟩
  sl_exec
  sl_step
  have hA4 : PlanesDone d L xt (p0.val + 1) A4 := planes_step d L xt p0 hr0 hr1 hr2 hr3 hA
  rw [show Stage d L q xt 1 = Pend d L q xt p1 from dif_pos (by decide)]
  unfold Pend
  isplitr; · iexact Hmw
  isplitl [Hs0 Hr0 Hs1 Hr1 Hs2 Hr2]
  · isplitl [Hs0 Hr0]
    · iapply (fly4_of d L q xt b0 4 (by decide) (off63_eq L) (k1_off63_inb L p0 k1_h2) _ _ _ (trip_first.sl.dma0_1 d L xt k1_h2) rfl (View.write_whole_univ _ _ _))
      isplitl [Hs0]; · iexact Hs0
      iexact Hr0
    isplitl [Hs1 Hr1]
    · iapply (fly4_of d L q xt b1 5 (by decide) (off122_eq L) (k1_off122_inb L p0 k1_h3) _ _ _ (trip_first.sl.dma0_2 d L xt k1_h3) rfl (View.write_whole_univ _ _ _))
      isplitl [Hs1]; · iexact Hs1
      iexact Hr1
    · iapply (fly4_of d L q xt b2 6 (by decide) (off181_eq L) (k1_off181_inb L p0 k1_h4) _ _ _ (trip_first.sl.dma0_3 d L xt k1_h4) rfl (View.write_whole_univ _ _ _))
      isplitl [Hs2]; · iexact Hs2
      iexact Hr2
  isplitl [Hb3]; · iexists _; iexact Hb3
  isplitl [Hs3]; · iexact Hs3
  isplitl [Ht7]; · iexact Ht7
  isplitl [Hacc]
  · iexists A4; isplitl [Hacc]; · iexact Hacc
    ipureintro; exact hA4
  iexists (insert (SemLoc.dma (sig := sig) ⟨7, by decide⟩, (default : HIx 1)) (insert (SemLoc.dma (sig := sig) ⟨6, by decide⟩, (default : HIx 1))
    (insert (SemLoc.dma (sig := sig) ⟨5, by decide⟩, (default : HIx 1)) (insert (SemLoc.dma (sig := sig) ⟨4, by decide⟩, (default : HIx 1)) W'))))
  isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

set_option maxHeartbeats 2000000 in
theorem trip_last (d : Dev nD) (L : grid1.Coords) (q : PosShare TreeShare) (xt : Buf (Elt F) (xtLoc d))
    (O : CellTallies nD τ sig (HIx 1)) (W : Waits sig (HIx 1)) (v2 v67 c32 v68 v70 : BitVec 32) (s : Unit) :
    outerInv d L q xt O W 1 s
      ⊢ wp frame (wpE (defs₀ (F := F)) 𝒱₀ (V d (cV L) (jV L)) none) Set.univ
          (k1_t1_body (F := F) L xtV (Memref.isWhole_whole _) oV (Memref.isWhole_whole _) b0 (Memref.isWhole_whole _) b1 (Memref.isWhole_whole _)
            b2 (Memref.isWhole_whole _) b3 (Memref.isWhole_whole _) acc (Memref.isWhole_whole _) cc1_scratch5 cc1_scratch6 cc1_scratch7 cc1_scratch8 cc1_scoped0 v2 v67 c32 v68 v70 p1 s)
          (outerInv d L q xt O W 2) := by
  have k1_h1 : k1_cond1 p1 = 1#1 := by decide
  have k1_h2 : ¬ k1_cond2 p1 = 1#1 := by decide
  have k1_h3 : ¬ k1_cond3 p1 = 1#1 := by decide
  have k1_h4 : ¬ k1_cond4 p1 = 1#1 := by decide
  unfold outerInv k1_t1_body
  rw [show Stage d L q xt 1 = Pend d L q xt p1 from dif_pos (by decide)]
  unfold Pend Fly4 D4
  iintro ⟨#Hmw, ⟨⟨Hs0, Hr0⟩, ⟨Hs1, Hr1⟩, ⟨Hs2, Hr2⟩⟩, ⟨%f3, Hb3⟩, Hs3, Ht7, ⟨%A, Hacc, %hA⟩, %W', %hW', HO⟩
  sl_exec
  -- phase 0
  sl_for (inv0 d L p1 (chunk0 xt L p1) A) $$ [Hs0_dst Hacc]
  · exact fun k s => region0 d L p1 v2 _ _ _ k s
  · unfold inv0
    isplitl [Hs0_dst]; · iexact Hs0_dst
    iexists A; isplitl [Hacc]; · iexact Hacc
    ipureintro; exact AccRel.zero _ _ _
  iintro %_ HI
  unfold inv0
  icases HI with ⟨Hb0, %A1, Hacc, %hr0⟩
  sl_exec
  -- phase 1
  sl_for (inv1 d L p1 (chunk1 xt L p1) A1 (g0 (chunk0 xt L p1))) $$ [Hs1_dst Hacc]
  · exact fun k s => region1 d L p1 v2 _ _ _ _ (fun k l => hr0.1 k l (lt_of_lt_of_eq k.isLt trips_t2.symm)) k s
  · unfold inv1
    isplitl [Hs1_dst]; · iexact Hs1_dst
    iexists A1; isplitl [Hacc]; · iexact Hacc
    ipureintro; exact AccRel.zero _ _ _
  iintro %_ HI
  unfold inv1
  icases HI with ⟨Hb1, %A2, Hacc, %hr1⟩
  sl_exec
  -- phase 2
  sl_for (inv2 d L p1 (chunk2 xt L p1) A2 (g1 (chunk1 xt L p1) (g0 (chunk0 xt L p1)))) $$ [Hs2_dst Hacc]
  · exact fun k s => region2 d L p1 v2 _ 0#32 0#32 0#1 0#1 _ _ _ (fun k l => hr1.1 k l (lt_of_lt_of_eq k.isLt trips_t3.symm)) k s
  · unfold inv2
    isplitl [Hs2_dst]; · iexact Hs2_dst
    iexists A2; isplitl [Hacc]; · iexact Hacc
    ipureintro; exact AccRel.zero _ _ _
  iintro %_ HI
  unfold inv2
  icases HI with ⟨Hb2, %A3, Hacc, %hr2⟩
  sl_exec
  -- phase 3: the last staging buffer at the plane's rows 12…14
  ihave Hb3c := (Entails.of_eq (congrArg (fun B => ((b3).view.loc (V d (cV L) (jV L)) ↦{fullShare} B : sProp 𝕄)) (chunk3_of d L xt p1 (k1_off4_inb L p1 k1_h1) f3 (trip_last.sl.dma0 d L xt k1_h1) rfl))) $$ Hb3
  sl_for (inv3 d L p1 (chunk3 xt L p1) A3 (g2 (chunk2 xt L p1) (g1 (chunk1 xt L p1) (g0 (chunk0 xt L p1))))) $$ [Hb3c Hacc]
  · exact fun k s => region3 d L p1 v2 v67 c32 v68 v70 _ _ _ _ (fun k l => hr2.1 k l (lt_of_lt_of_eq k.isLt trips_t4.symm)) k s
  · unfold inv3
    isplitl [Hb3c]; · iexact Hb3c
    iexists A3; isplitl [Hacc]; · iexact Hacc
    ipureintro; exact AccRel.zero _ _ _
  iintro %_ HI
  unfold inv3
  icases HI with ⟨Hb3, %A4, Hacc, %hr3⟩
  sl_exec
  sl_step
  have hA4 : PlanesDone d L xt (p1.val + 1) A4 := planes_step d L xt p1 hr0 hr1 hr2 hr3 hA
  rw [show Stage d L q xt 2 = Idle d L q xt from dif_neg (by decide)]
  unfold Idle
  isplitr; · iexact Hmw
  isplitl [Hb0 Hb1 Hb2 Hs0 Hs1 Hs2 Hr0 Hr1 Hr2]
  · isplitl [Hb0]; · iexists _; iexact Hb0
    isplitl [Hb1]; · iexists _; iexact Hb1
    isplitl [Hb2]; · iexists _; iexact Hb2
    isplitl [Hs0]; · iexact Hs0
    isplitl [Hs1]; · iexact Hs1
    isplitl [Hs2]; · iexact Hs2
    isplitl [Hr0]; · iexact Hr0
    isplitl [Hr1]; · iexact Hr1
    iexact Hr2
  isplitl [Hb3]; · iexists _; iexact Hb3
  isplitl [Hs3]; · iexact Hs3
  isplitl [Ht7]; · iexact Ht7
  isplitl [Hacc]
  · iexists A4; isplitl [Hacc]; · iexact Hacc
    ipureintro; exact hA4
  iexists (insert (SemLoc.dma (sig := sig) ⟨7, by decide⟩, (default : HIx 1)) (insert (SemLoc.dma (sig := sig) ⟨6, by decide⟩, (default : HIx 1))
    (insert (SemLoc.dma (sig := sig) ⟨5, by decide⟩, (default : HIx 1)) (insert (SemLoc.dma (sig := sig) ⟨4, by decide⟩, (default : HIx 1)) W'))))
  isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

/-- One plane, at either trip of the outer loop. -/
theorem outer_region (d : Dev nD) (L : grid1.Coords) (q : PosShare TreeShare) (xt : Buf (Elt F) (xtLoc d))
    (O : CellTallies nD τ sig (HIx 1)) (W : Waits sig (HIx 1)) (v2 v67 c32 v68 v70 : BitVec 32) (pi : Fin k1_t1_loop.trips) (s : Unit) :
    outerInv d L q xt O W pi.val s
      ⊢ wp frame (wpE (defs₀ (F := F)) 𝒱₀ (V d (cV L) (jV L)) none) Set.univ
          (k1_t1_body (F := F) L xtV (Memref.isWhole_whole _) oV (Memref.isWhole_whole _) b0 (Memref.isWhole_whole _) b1 (Memref.isWhole_whole _)
            b2 (Memref.isWhole_whole _) b3 (Memref.isWhole_whole _) acc (Memref.isWhole_whole _) cc1_scratch5 cc1_scratch6 cc1_scratch7 cc1_scratch8 cc1_scoped0 v2 v67 c32 v68 v70 pi s)
          (outerInv d L q xt O W (pi.val + 1)) := by
  obtain ⟨n, hn⟩ := pi
  have hn2 : n < 2 := trips_t1 ▸ hn
  interval_cases n
  · exact trip_first d L q xt O W v2 v67 c32 v68 v70 s
  · exact trip_last d L q xt O W v2 v67 c32 v68 v70 s

end Cert.KernelIdeal.Hand

end
-- ==== Proof.KI.TileBody.lean ====
/-
  One vector subcore's task: from a read share of the transposed input, its own 768 entries of the flat result, its
  scratch buffers and DMA semaphores, the kernel runs and leaves those entries at the flat result's function `scOut`.
  The prologue starts the first plane's first three row groups; the outer loop sums the two planes (its invariant and
  trips are the outer-loop module's); the accumulator is copied out and the copy awaited.
-/
import proofs.«214330_g12317966205028_cont_fleet_230_29_alg».proof.Proof.KI.Outer

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The flat result -/

section Final

variable (d : Dev nD) (L : grid1.Coords) (xt : Buf (Elt F) (xtLoc d))

omit [FloatOps F] [Named F] in
/-- Entry `x` of the subcore's slice is entry `768·wid + x` of the flat result. -/
theorem oEmb_val (x : S768.Idx) : (((oSlice L).view.emb x) 0).val = 1536 * (L 1).val + 768 * (L 0).val + (x 0).val := by
  have e : (oSlice L).view.emb x = (oRect L).emb x := rfl
  rw [e, Rect.emb_apply]
  show k1_off226 L 0 + 1 * (x 0).val = _
  rw [k1_off226_eq]
  simp

/-- With both planes done, the flat result's function at an entry of the subcore's slice is the accumulator's entry. -/
theorem scOut_emb (A : S768.Idx → Elt F .f32) (hA : PlanesDone d L xt 2 A) (x : S768.Idx) :
    scOut xt ((oSlice L).view.emb x) = A x := by
  have hv := oEmb_val L x
  have h0 : (L 0).val < 2 := (L 0).isLt
  have h1 : (L 1).val < 16 := (L 1).isLt
  have hx : (x 0).val < 768 := (x 0).isLt
  have hx' : x = accIdx ⟨(x 0).val / 384, by omega⟩ ⟨(x 0).val % 384 / 16, by omega⟩ ⟨(x 0).val % 16, by omega⟩ := by
    funext a; rw [Subsingleton.elim a 0]; apply Fin.ext
    show (x 0).val = 384 * ((x 0).val / 384) + 16 * ((x 0).val % 384 / 16) + (x 0).val % 16
    omega
  conv_rhs => rw [hx']
  rw [hA ⟨(x 0).val / 384, by omega⟩ (by show (x 0).val / 384 < 2; omega)]
  unfold scOut
  congr 1
  · funext a
    match a with
    | ⟨0, _⟩ => apply Fin.ext; show ((oSlice L).view.emb x 0).val / 768 % 2 = (L 0).val; omega
    | ⟨1, _⟩ => apply Fin.ext; show ((oSlice L).view.emb x 0).val / 1536 = (L 1).val; omega
    | ⟨n + 2, h⟩ => exact absurd h (Nat.not_lt.2 (Nat.le_add_left _ _))
  · apply Fin.ext; show ((oSlice L).view.emb x 0).val / 384 % 2 = (x 0).val / 384; omega
  · apply Fin.ext; show ((oSlice L).view.emb x 0).val % 384 / 16 = (x 0).val % 384 / 16; omega
  · funext a; rw [Subsingleton.elim a 0]; apply Fin.ext
    show ((oSlice L).view.emb x 0).val % 16 = (x 0).val % 16; omega

end Final

section Final2

variable (d : Dev nD) (L : grid1.Coords) (xt : Buf (Elt F) (xtLoc d))

set_option maxHeartbeats 2000000 in
/-- The subcore's entries of the flat result after the copy out of the accumulator hold the flat result's function. -/
theorem o_final (A : S768.Idx → Elt F .f32) (hA : PlanesDone d L xt 2 A) (o₀ : Buf (Elt F) (oLoc d))
    (w : S768.Idx → Elt F .f32) (hw : w = A) :
    ((oSlice L).view.loc (V d (cV L) (jV L)) ↦[(oSlice L).view.set]{fullShare}
        (oSlice L).view.writes (Elt F) o₀ [⟨Rect.whole S768, w⟩] : sProp 𝕄)
      = (oLoc d ↦[oSet L]{fullShare} scOut xt) := by
  subst hw
  rw [pts_o]
  refine pointsTo_congr (fun i hi => ?_)
  obtain ⟨x, -, rfl⟩ := Finset.mem_map.mp hi
  rw [scOut_emb d L xt w hA x]
  have h1 := View.read_writes_cons_emb (v := (oSlice L).view) (f := o₀) (Rect.whole S768) w [] x
  rw [Rect.emb_whole_apply] at h1
  exact h1

end Final2

set_option maxHeartbeats 2000000 in
theorem tile_body (hF : (K (F := F)).Facts) (d : Dev nD) (L : grid1.Coords) (q : PosShare TreeShare)
    (xt : Buf (Elt F) (xtLoc d)) (o₀ : Buf (Elt F) (oLoc d))
    (O : CellTallies nD τ sig (HIx 1)) (W : Waits sig (HIx 1)) (hO : ∀ g, O g none = 0) :
    iprop(levAts (K (F := F)).L (K (F := F)).lev
        ∗ ((xtLoc d ↦{q} xt : sProp 𝕄))
        ∗ (oLoc d ↦[oSet L]{fullShare} o₀)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop((xtLoc d ↦{q} xt) ∗ (oLoc d ↦[oSet L]{fullShare} scOut xt)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [tileProg, cc1_sc_kernel_eq_skeleton]; unfold cc1_sc_kernel_skel
  rw [(K (F := F)).scopedBufs_V hF d (cV L) (jV L), SparseCore.Cfg.scopedSems0_V (Val := Elt F) d (cV L) (jV L), ownSems0_V, ownBufs_V]
  iintro ⟨#Hlv, Hxt, Ho, ⟨⟨%f0, Hb0⟩, ⟨%f1, Hb1⟩, ⟨%f2, Hb2⟩, ⟨%f3, Hb3⟩, ⟨%fa, Hacc⟩, Hbufs⟩, ⟨Hs0, Hs1, Hs2, Hs3, Hs4, Hsems⟩, HO⟩
  ihave Hmw := ((K (F := F)).mayWaits_none (thr := (V d (cV L) (jV L))) hO) $$ Hlv
  -- the input under one read share per DMA semaphore; the arrays and scratch buffers as the subcore's memrefs address them
  ihave Hxt' := (Entails.of_eq (pts_xt (F := F) d L q xt).symm) $$ Hxt
  ihave Hxt'' := (xt_toks (F := F) d L q xt).1 $$ Hxt'
  icases Hxt'' with ⟨Hxr, Ht7, Ht6, Ht5, Ht4, Htlow⟩
  ihave Ho' := (Entails.of_eq (pts_o (F := F) d L o₀).symm) $$ Ho
  ihave Hb0' := (Entails.of_eq (pts_b (F := F) d L cc1_scratch0 f0).symm) $$ Hb0
  ihave Hb1' := (Entails.of_eq (pts_b (F := F) d L cc1_scratch1 f1).symm) $$ Hb1
  ihave Hb2' := (Entails.of_eq (pts_b (F := F) d L cc1_scratch2 f2).symm) $$ Hb2
  ihave Hb3' := (Entails.of_eq (pts_b (F := F) d L cc1_scratch3 f3).symm) $$ Hb3
  ihave Hacc' := (Entails.of_eq (pts_b (F := F) d L cc1_scratch4 fa).symm) $$ Hacc
  -- the prologue: the first plane's first three row groups started
  sl_exec
  ihave HF0 := (fly4_of d L q xt b0 4 (by decide) (off1_eq L) (k1_off1_inb L) (k1_off5_inb L p0) _ (chunk0 xt L p0) (tile_body.sl.dma0 d L xt) rfl (View.write_whole_univ _ _ _)) $$ [Hs0 Ht4]
  · isplitl [Hs0]; · iexact Hs0
    iexact Ht4
  ihave HF1 := (fly4_of d L q xt b1 5 (by decide) (off2_eq L) (k1_off2_inb L) (k1_off64_inb L p0) _ (chunk1 xt L p0) (tile_body.sl.dma0_1 d L xt) rfl (View.write_whole_univ _ _ _)) $$ [Hs1 Ht5]
  · isplitl [Hs1]; · iexact Hs1
    iexact Ht5
  ihave HF2 := (fly4_of d L q xt b2 6 (by decide) (off3_eq L) (k1_off3_inb L) (k1_off123_inb L p0) _ (chunk2 xt L p0) (tile_body.sl.dma0_2 d L xt) rfl (View.write_whole_univ _ _ _)) $$ [Hs2 Ht6]
  · isplitl [Hs2]; · iexact Hs2
    iexact Ht6
  -- the two planes
  sl_for (outerInv d L q xt O W) $$ [Hmw HF0 HF1 HF2 Hb3' Hs3 Ht7 Hacc' HO]
  · exact fun pi s => outer_region d L q xt O W _ _ _ _ _ pi s
  · unfold outerInv
    rw [show Stage d L q xt 0 = Pend d L q xt p0 from dif_pos (by decide)]
    unfold Pend
    isplitr; · iexact Hmw
    isplitl [HF0 HF1 HF2]
    · isplitl [HF0]; · iexact HF0
      isplitl [HF1]; · iexact HF1
      iexact HF2
    isplitl [Hb3']; · iexists _; iexact Hb3'
    isplitl [Hs3]; · iexact Hs3
    isplitl [Ht7]; · iexact Ht7
    isplitl [Hacc']
    · iexists fa; isplitl [Hacc']; · iexact Hacc'
      ipureintro; intro p hp; exact absurd hp (Nat.not_lt_zero _)
    iexists W; isplitr
    · ipureintro; exact fun p hp => .inl hp
    · iexact HO
  iintro %_ HI
  unfold outerInv
  rw [show Stage d L q xt k1_t1_loop.trips = Idle d L q xt from dif_neg (by decide)]
  unfold Idle
  icases HI with ⟨-, ⟨⟨%g0, Hb0⟩, ⟨%g1, Hb1⟩, ⟨%g2, Hb2⟩, Hs0, Hs1, Hs2, Ht4, Ht5, Ht6⟩, ⟨%g3, Hb3⟩, Hs3, Ht7, ⟨%A, Hacc, %hA⟩, %W', %hW', HO⟩
  have hA2 : PlanesDone d L xt 2 A := by
    have h := hA
    rwa [show Scf.trips k1_t1_loop.lb k1_t1_loop.ub k1_t1_loop.st = 2 from trips_t1] at h
  -- the accumulator copied out to the subcore's entries of the flat result, and the copy awaited
  sl_exec
  sl_step
  -- the input's shares joined; the result's entries at the flat result's function; the scratch and semaphores handed back
  isplitl [Hxr Ht7 Ht6 Ht5 Ht4 Htlow]
  · iapply (Entails.of_eq (pts_xt (F := F) d L q xt))
    iapply (xt_toks (F := F) d L q xt).2
    isplitl [Hxr]; · iexact Hxr
    isplitl [Ht7]; · iexact Ht7
    isplitl [Ht6]; · iexact Ht6
    isplitl [Ht5]; · iexact Ht5
    isplitl [Ht4]; · iexact Ht4
    iexact Htlow
  isplitl [Ho']
  · iapply (Entails.of_eq (o_final (F := F) d L xt A hA2 o₀ (tile_body.sl.dma0_3 d L A) rfl))
    iexact Ho'
  isplitl [Hb0 Hb1 Hb2 Hb3 Hacc Hbufs]
  · isplitl [Hb0]; · iexists _; iexact Hb0
    isplitl [Hb1]; · iexists _; iexact Hb1
    isplitl [Hb2]; · iexists _; iexact Hb2
    isplitl [Hb3]; · iexists _; iexact Hb3
    isplitl [Hacc]; · iexists _; iexact Hacc
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists (insert (SemLoc.dma (sig := sig) ⟨8, by decide⟩, (default : HIx 1)) W')
  isplitr
  · ipureintro; intro p hp
    rcases Finset.mem_insert.mp hp with rfl | hp
    · exact .inr rfl
    · exact hW' p hp
  · iexact HO

end Cert.KernelIdeal.Hand

end
-- ==== Proof.KI.Run.lean ====
/-
  The program's run, with every part in place: the launch, the pipelined region with its funded staging cells, and the
  subcore's task. Every weakly fair execution of the 35 threads ends, faults nowhere, leaves the input unchanged and the
  result array at the host operations' value of the two kernels' outputs.
-/
import proofs.«214330_g12317966205028_cont_fleet_230_29_alg».proof.Proof.KI.Launch
import proofs.«214330_g12317966205028_cont_fleet_230_29_alg».proof.Proof.KI.TcRegion
import proofs.«214330_g12317966205028_cont_fleet_230_29_alg».proof.Proof.KI.TileBody

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareDrop shareTokN shareTok)

variable {F : FTy → Type} [FloatOps F] [Named F]

local notation "𝕄" => MT nD τ sig (HIx 1) (Elt F) ℕ UU ℕ

/-- The staging cells' launch element funds every device's region ghost state (a plain update, read as a mask-changing one). -/
theorem regionGhost_fund : (BI.own (EP (F := F) uP₀) : sProp 𝕄) ⊢ |={Set.univ}=> bigSep Finset.univ fun d : Dev nD => regionGhost (F := F) d := by
  iintro H
  imod (regionGhost_intro (F := F)) $$ H with HG
  imodintro
  iexact HG

section Run

variable (m : (ℓ : Loc nD τ sig) → Buf (Elt F) ℓ) (ρ : Dev nD → PrngReg)

/-- The run: the result at `kernelOut scOut tcOut` of the input, the input unchanged, on every device. -/
theorem run [∀ e, Nonempty (Elt F e)] :
    θ_run (Cert.KernelIdeal.defs (F := F)) (Cert.KernelIdeal.threads (F := F)) ⟨m, fun _ => 0, ρ⟩ (QC m scOut tcOut) :=
  run_main m ρ scOut tcOut uP₀ (fun d => regionGhost (F := F) d) regionGhost_fund
    (fun κ d v1 v2 _ => tc_region v1 v2 (PP m scOut tcOut) κ d)
    (fun d L q O W hO => tile_body (facts (F := F)) d L q (xtAt m tcOut d) (oBefore m tcOut d) O W hO)

end Run

end Cert.KernelIdeal.Hand

end
-- ==== Proof.KI.ValueScLeaf.lean ====
/-
  Reading one lane of the vector-subcore kernel's loads, and the bookkeeping for its sums.

  A load of 16 consecutive channels at (row, column, 16 k) of a staging buffer, reshaped to a vector of 16, has at
  lane l the buffer's entry (row, column, 16 k + l). Entries are named by natural numbers (`cell4`, `cell3` for the
  4-row and 3-row staging buffers, `cellx` for a plane of the transposed input), zero outside the array, so that a sum
  over rows and kept columns written out term by term has literal numbers for its terms' coordinates and two such sums
  are compared up to the order and grouping of their terms.
-/
import proofs.«214330_g12317966205028_cont_fleet_230_29_alg».proof.Proof.KI.ScOut
import proofs.«214330_g12317966205028_cont_fleet_230_29_alg».proof.Proof.Spec
import Idealize.ShloMosaic.Lib.ValueIdx
import Idealize.ShloMosaic.Lib.ValueLayout

noncomputable section

open scoped BigOperators

namespace Cert.KernelIdeal.HandValue

open Cert.KernelIdeal Cert.KernelIdeal.Gen Cert.KernelIdeal.Hand Idealize.ShloMosaic Idealize.ShloMosaic.ValueIdx

/-- Entry (r, c, z) of a 4 × 16 × 384 array, zero when r or c is out of range. -/
def cell4 (B : S4x16x384.Idx → EReal) (z : Fin 384) (r c : ℕ) : EReal :=
  if h : r < 4 ∧ c < 16 then B (ix3 ⟨r, h.1⟩ ⟨c, h.2⟩ z) else 0

/-- Entry (r, c, z) of a 3 × 16 × 384 array, zero when r or c is out of range. -/
def cell3 (B : S3x16x384.Idx → EReal) (z : Fin 384) (r c : ℕ) : EReal :=
  if h : r < 3 ∧ c < 16 then B (ix3 ⟨r, h.1⟩ ⟨c, h.2⟩ z) else 0

/-- Entry (b, t, r, c, z) of the transposed input, zero when r or c is out of range. -/
def cellx (xt : S8x32x16x16x384.Idx → EReal) (b : Fin 8) (t : Fin 32) (z : Fin 384) (r c : ℕ) : EReal :=
  if h : r < 16 ∧ c < 16 then xt (ix5 b t ⟨r, h.1⟩ ⟨c, h.2⟩ z) else 0

/-- Lane l of the 16 channels loaded at (r, c, w) of a 4-row staging buffer is its entry (r, c, w + l). -/
theorem ld4_lane (B : S4x16x384.Idx → EReal) (off : Fin 3 → Nat) (h : ∀ a, off a + S1x1x16.size a ≤ S4x16x384.size a)
    (r c w : ℕ) (z : Fin 384) (lane : Fin 16) (hoff : off = ![r, c, w]) (hz : w + lane.val = z.val) :
    shapeCast S16 (ld4 (F := Ideal) B off h) shapeCasts_S1x1x16_S16 (ix1 lane) = cell4 B z r c := by
  subst hoff
  have hr : r + 1 ≤ 4 := h 0
  have hc : c + 1 ≤ 16 := h 1
  unfold cell4
  rw [dif_pos ⟨by omega, by omega⟩, shapeCast_apply _ _ _ (ix3 (0 : Fin 1) (0 : Fin 1) lane) (by
    rw [Shape.rowMajor_val_three, Shape.rowMajor_val_one]
    show (0 * 1 + 0) * 16 + lane.val = lane.val
    omega)]
  unfold ld4
  refine congrArg B (funext fun a => Fin.ext ?_)
  rw [LoadRect.idx_apply]
  match a with
  | ⟨0, _⟩ => show r + 1 * 0 = r; omega
  | ⟨1, _⟩ => show c + 1 * 0 = c; omega
  | ⟨2, _⟩ => show w + 1 * lane.val = z.val; omega

/-- The same for the 3-row staging buffer. -/
theorem ld3_lane (B : S3x16x384.Idx → EReal) (off : Fin 3 → Nat) (h : ∀ a, off a + S1x1x16.size a ≤ S3x16x384.size a)
    (r c w : ℕ) (z : Fin 384) (lane : Fin 16) (hoff : off = ![r, c, w]) (hz : w + lane.val = z.val) :
    shapeCast S16 (ld3 (F := Ideal) B off h) shapeCasts_S1x1x16_S16 (ix1 lane) = cell3 B z r c := by
  subst hoff
  have hr : r + 1 ≤ 3 := h 0
  have hc : c + 1 ≤ 16 := h 1
  unfold cell3
  rw [dif_pos ⟨by omega, by omega⟩, shapeCast_apply _ _ _ (ix3 (0 : Fin 1) (0 : Fin 1) lane) (by
    rw [Shape.rowMajor_val_three, Shape.rowMajor_val_one]
    show (0 * 1 + 0) * 16 + lane.val = lane.val
    omega)]
  unfold ld3
  refine congrArg B (funext fun a => Fin.ext ?_)
  rw [LoadRect.idx_apply]
  match a with
  | ⟨0, _⟩ => show r + 1 * 0 = r; omega
  | ⟨1, _⟩ => show c + 1 * 0 = c; omega
  | ⟨2, _⟩ => show w + 1 * lane.val = z.val; omega

/-- A reshape to the same shape reads the same entry. -/
theorem shapeCast_same_apply {α : Type} {s : Shape} (x : s.Idx → α) (h : s.ShapeCasts s) (j : s.Idx) :
    shapeCast s x h j = x j := by
  unfold shapeCast
  rw [Shape.reshapeEquiv_self]

/-- The 15 rows as the four row groups 0…3, 4…7, 8…11, 12…14. -/
theorem sum_rows {M : Type*} [AddCommMonoid M] (g : ℕ → M) :
    ∑ r : Fin 15, g r.val
      = (∑ r : Fin 4, g r.val) + (∑ r : Fin 4, g (4 + r.val)) + (∑ r : Fin 4, g (8 + r.val)) + ∑ r : Fin 3, g (12 + r.val) := by
  simp only [Fin.sum_univ_succ, Fin.sum_univ_zero, Fin.val_succ, Fin.val_zero, Nat.reduceAdd, add_zero]
  ac_rfl

end Cert.KernelIdeal.HandValue

end
-- ==== Proof.KI.ValueScPh0.lean ====
/-
  The first phase of one trip of the vector-subcore kernel, at one lane: the 56 loaded lane vectors of rows 0…3 and
  columns 1…14 of the staging buffer, added pairwise in a fixed tree, are at lane l the sum over those rows and columns
  of the buffer's entries at channel 16 k + l. Addition on the extended reals is commutative and associative, so the
  tree's order does not matter.
-/
import proofs.«214330_g12317966205028_cont_fleet_230_29_alg».proof.Proof.KI.ValueScLeaf

noncomputable section

open scoped BigOperators

namespace Cert.KernelIdeal.HandValue

open Cert.KernelIdeal Cert.KernelIdeal.Gen Cert.KernelIdeal.Hand Idealize.ShloMosaic Idealize.ShloMosaic.ValueIdx

set_option maxRecDepth 4096 in
set_option maxHeartbeats 1000000 in
/-- Phase 0 at lane l: the sum of rows 0…3, columns 1…14 at channel z = 16 k + l. -/
theorem ph0_apply (B : S4x16x384.Idx → EReal) (k : Fin k1_t2_loop.trips) (lane : Fin 16) (z : Fin 384)
    (hz : 16 * k.val + lane.val = z.val) :
    ph0 (F := Ideal) B k (ix1 lane) = ∑ r : Fin 4, ∑ q : Fin 14, cell4 B z r.val (q.val + 1) := by
  have e6 := ld4_lane B _ (k1_off6_inb k) 0 1 _ z lane (k1_off6_eq k) hz
  have e7 := ld4_lane B _ (k1_off7_inb k) 0 2 _ z lane (k1_off7_eq k) hz
  have e8 := ld4_lane B _ (k1_off8_inb k) 0 3 _ z lane (k1_off8_eq k) hz
  have e9 := ld4_lane B _ (k1_off9_inb k) 0 4 _ z lane (k1_off9_eq k) hz
  have e10 := ld4_lane B _ (k1_off10_inb k) 0 5 _ z lane (k1_off10_eq k) hz
  have e11 := ld4_lane B _ (k1_off11_inb k) 0 6 _ z lane (k1_off11_eq k) hz
  have e12 := ld4_lane B _ (k1_off12_inb k) 0 7 _ z lane (k1_off12_eq k) hz
  have e13 := ld4_lane B _ (k1_off13_inb k) 0 8 _ z lane (k1_off13_eq k) hz
  have e14 := ld4_lane B _ (k1_off14_inb k) 0 9 _ z lane (k1_off14_eq k) hz
  have e15 := ld4_lane B _ (k1_off15_inb k) 0 10 _ z lane (k1_off15_eq k) hz
  have e16 := ld4_lane B _ (k1_off16_inb k) 0 11 _ z lane (k1_off16_eq k) hz
  have e17 := ld4_lane B _ (k1_off17_inb k) 0 12 _ z lane (k1_off17_eq k) hz
  have e18 := ld4_lane B _ (k1_off18_inb k) 0 13 _ z lane (k1_off18_eq k) hz
  have e19 := ld4_lane B _ (k1_off19_inb k) 0 14 _ z lane (k1_off19_eq k) hz
  have e20 := ld4_lane B _ (k1_off20_inb k) 1 1 _ z lane (k1_off20_eq k) hz
  have e21 := ld4_lane B _ (k1_off21_inb k) 1 2 _ z lane (k1_off21_eq k) hz
  have e22 := ld4_lane B _ (k1_off22_inb k) 1 3 _ z lane (k1_off22_eq k) hz
  have e23 := ld4_lane B _ (k1_off23_inb k) 1 4 _ z lane (k1_off23_eq k) hz
  have e24 := ld4_lane B _ (k1_off24_inb k) 1 5 _ z lane (k1_off24_eq k) hz
  have e25 := ld4_lane B _ (k1_off25_inb k) 1 6 _ z lane (k1_off25_eq k) hz
  have e26 := ld4_lane B _ (k1_off26_inb k) 1 7 _ z lane (k1_off26_eq k) hz
  have e27 := ld4_lane B _ (k1_off27_inb k) 1 8 _ z lane (k1_off27_eq k) hz
  have e28 := ld4_lane B _ (k1_off28_inb k) 1 9 _ z lane (k1_off28_eq k) hz
  have e29 := ld4_lane B _ (k1_off29_inb k) 1 10 _ z lane (k1_off29_eq k) hz
  have e30 := ld4_lane B _ (k1_off30_inb k) 1 11 _ z lane (k1_off30_eq k) hz
  have e31 := ld4_lane B _ (k1_off31_inb k) 1 12 _ z lane (k1_off31_eq k) hz
  have e32 := ld4_lane B _ (k1_off32_inb k) 1 13 _ z lane (k1_off32_eq k) hz
  have e33 := ld4_lane B _ (k1_off33_inb k) 1 14 _ z lane (k1_off33_eq k) hz
  have e34 := ld4_lane B _ (k1_off34_inb k) 2 1 _ z lane (k1_off34_eq k) hz
  have e35 := ld4_lane B _ (k1_off35_inb k) 2 2 _ z lane (k1_off35_eq k) hz
  have e36 := ld4_lane B _ (k1_off36_inb k) 2 3 _ z lane (k1_off36_eq k) hz
  have e37 := ld4_lane B _ (k1_off37_inb k) 2 4 _ z lane (k1_off37_eq k) hz
  have e38 := ld4_lane B _ (k1_off38_inb k) 2 5 _ z lane (k1_off38_eq k) hz
  have e39 := ld4_lane B _ (k1_off39_inb k) 2 6 _ z lane (k1_off39_eq k) hz
  have e40 := ld4_lane B _ (k1_off40_inb k) 2 7 _ z lane (k1_off40_eq k) hz
  have e41 := ld4_lane B _ (k1_off41_inb k) 2 8 _ z lane (k1_off41_eq k) hz
  have e42 := ld4_lane B _ (k1_off42_inb k) 2 9 _ z lane (k1_off42_eq k) hz
  have e43 := ld4_lane B _ (k1_off43_inb k) 2 10 _ z lane (k1_off43_eq k) hz
  have e44 := ld4_lane B _ (k1_off44_inb k) 2 11 _ z lane (k1_off44_eq k) hz
  have e45 := ld4_lane B _ (k1_off45_inb k) 2 12 _ z lane (k1_off45_eq k) hz
  have e46 := ld4_lane B _ (k1_off46_inb k) 2 13 _ z lane (k1_off46_eq k) hz
  have e47 := ld4_lane B _ (k1_off47_inb k) 2 14 _ z lane (k1_off47_eq k) hz
  have e48 := ld4_lane B _ (k1_off48_inb k) 3 1 _ z lane (k1_off48_eq k) hz
  have e49 := ld4_lane B _ (k1_off49_inb k) 3 2 _ z lane (k1_off49_eq k) hz
  have e50 := ld4_lane B _ (k1_off50_inb k) 3 3 _ z lane (k1_off50_eq k) hz
  have e51 := ld4_lane B _ (k1_off51_inb k) 3 4 _ z lane (k1_off51_eq k) hz
  have e52 := ld4_lane B _ (k1_off52_inb k) 3 5 _ z lane (k1_off52_eq k) hz
  have e53 := ld4_lane B _ (k1_off53_inb k) 3 6 _ z lane (k1_off53_eq k) hz
  have e54 := ld4_lane B _ (k1_off54_inb k) 3 7 _ z lane (k1_off54_eq k) hz
  have e55 := ld4_lane B _ (k1_off55_inb k) 3 8 _ z lane (k1_off55_eq k) hz
  have e56 := ld4_lane B _ (k1_off56_inb k) 3 9 _ z lane (k1_off56_eq k) hz
  have e57 := ld4_lane B _ (k1_off57_inb k) 3 10 _ z lane (k1_off57_eq k) hz
  have e58 := ld4_lane B _ (k1_off58_inb k) 3 11 _ z lane (k1_off58_eq k) hz
  have e59 := ld4_lane B _ (k1_off59_inb k) 3 12 _ z lane (k1_off59_eq k) hz
  have e60 := ld4_lane B _ (k1_off60_inb k) 3 13 _ z lane (k1_off60_eq k) hz
  have e61 := ld4_lane B _ (k1_off61_inb k) 3 14 _ z lane (k1_off61_eq k) hz
  simp only [ph0,
    k1_pay1, k1_pay2, k1_pay3, k1_pay4, k1_pay5, k1_pay6, k1_pay7, k1_pay8, k1_pay9, k1_pay10, k1_pay11, k1_pay12,
    k1_pay13, k1_pay14, k1_pay15, k1_pay16, k1_pay17, k1_pay18, k1_pay19, k1_pay20, k1_pay21, k1_pay22, k1_pay23, k1_pay24,
    k1_pay25, k1_pay26, k1_pay27, k1_pay28, k1_pay29, k1_pay30, k1_pay31, k1_pay32, k1_pay33, k1_pay34, k1_pay35, k1_pay36,
    k1_pay37, k1_pay38, k1_pay39, k1_pay40, k1_pay41, k1_pay42, k1_pay43, k1_pay44, k1_pay45, k1_pay46, k1_pay47, k1_pay48,
    k1_pay49, k1_pay50, k1_pay51, k1_pay52, k1_pay53, k1_pay54, k1_pay55, k1_pay56, k1_pay57, k1_pay58, k1_pay59, k1_pay60,
    k1_pay61, k1_pay62, k1_pay63, k1_pay64, k1_pay65, k1_pay66, k1_pay67, k1_pay68, k1_pay69, k1_pay70, k1_pay71, k1_pay72,
    k1_pay73, k1_pay74, k1_pay75, k1_pay76, k1_pay77, k1_pay78, k1_pay79, k1_pay80, k1_pay81, k1_pay82, k1_pay295, k1_pay296,
    addf_apply, shapeCast_same_apply,
    e6, e7, e8, e9, e10, e11, e12, e13, e14, e15, e16, e17, e18, e19, e20, e21, e22, e23, e24, e25,
    e26, e27, e28, e29, e30, e31, e32, e33, e34, e35, e36, e37, e38, e39, e40, e41, e42, e43, e44, e45,
    e46, e47, e48, e49, e50, e51, e52, e53, e54, e55, e56, e57, e58, e59, e60, e61]
  simp only [Fin.sum_univ_succ, Fin.sum_univ_zero, Fin.val_succ, Fin.val_zero, Nat.reduceAdd, add_zero]
  ac_rfl

end Cert.KernelIdeal.HandValue

end
-- ==== Proof.KI.ValueScPh1.lean ====
/-
  The second phase of one trip of the vector-subcore kernel, at one lane: the running vector and the 56 loaded lane
  vectors of the second staging buffer (rows 4…7 of the plane), columns 1…14, added in a fixed tree, are at lane l the
  running value plus the sum over those rows and columns of the buffer's entries at channel 16 k + l.
-/
import proofs.«214330_g12317966205028_cont_fleet_230_29_alg».proof.Proof.KI.ValueScLeaf

noncomputable section

open scoped BigOperators

namespace Cert.KernelIdeal.HandValue

open Cert.KernelIdeal Cert.KernelIdeal.Gen Cert.KernelIdeal.Hand Idealize.ShloMosaic Idealize.ShloMosaic.ValueIdx

set_option maxRecDepth 4096 in
set_option maxHeartbeats 1000000 in
/-- Phase 1 at lane l: the running value plus the sum of the buffer's rows 0…3, columns 1…14 at channel z = 16 k + l. -/
theorem ph1_apply (B : S4x16x384.Idx → EReal) (a : Vec Ideal S16 .f32) (k : Fin k1_t3_loop.trips) (lane : Fin 16) (z : Fin 384)
    (hz : 16 * k.val + lane.val = z.val) :
    ph1 (F := Ideal) B a k (ix1 lane) = a (ix1 lane) + ∑ r : Fin 4, ∑ q : Fin 14, cell4 B z r.val (q.val + 1) := by
  have e65 := ld4_lane B _ (k1_off65_inb k) 0 1 _ z lane (k1_off65_eq k) hz
  have e66 := ld4_lane B _ (k1_off66_inb k) 0 2 _ z lane (k1_off66_eq k) hz
  have e67 := ld4_lane B _ (k1_off67_inb k) 0 3 _ z lane (k1_off67_eq k) hz
  have e68 := ld4_lane B _ (k1_off68_inb k) 0 4 _ z lane (k1_off68_eq k) hz
  have e69 := ld4_lane B _ (k1_off69_inb k) 0 5 _ z lane (k1_off69_eq k) hz
  have e70 := ld4_lane B _ (k1_off70_inb k) 0 6 _ z lane (k1_off70_eq k) hz
  have e71 := ld4_lane B _ (k1_off71_inb k) 0 7 _ z lane (k1_off71_eq k) hz
  have e72 := ld4_lane B _ (k1_off72_inb k) 0 8 _ z lane (k1_off72_eq k) hz
  have e73 := ld4_lane B _ (k1_off73_inb k) 0 9 _ z lane (k1_off73_eq k) hz
  have e74 := ld4_lane B _ (k1_off74_inb k) 0 10 _ z lane (k1_off74_eq k) hz
  have e75 := ld4_lane B _ (k1_off75_inb k) 0 11 _ z lane (k1_off75_eq k) hz
  have e76 := ld4_lane B _ (k1_off76_inb k) 0 12 _ z lane (k1_off76_eq k) hz
  have e77 := ld4_lane B _ (k1_off77_inb k) 0 13 _ z lane (k1_off77_eq k) hz
  have e78 := ld4_lane B _ (k1_off78_inb k) 0 14 _ z lane (k1_off78_eq k) hz
  have e79 := ld4_lane B _ (k1_off79_inb k) 1 1 _ z lane (k1_off79_eq k) hz
  have e80 := ld4_lane B _ (k1_off80_inb k) 1 2 _ z lane (k1_off80_eq k) hz
  have e81 := ld4_lane B _ (k1_off81_inb k) 1 3 _ z lane (k1_off81_eq k) hz
  have e82 := ld4_lane B _ (k1_off82_inb k) 1 4 _ z lane (k1_off82_eq k) hz
  have e83 := ld4_lane B _ (k1_off83_inb k) 1 5 _ z lane (k1_off83_eq k) hz
  have e84 := ld4_lane B _ (k1_off84_inb k) 1 6 _ z lane (k1_off84_eq k) hz
  have e85 := ld4_lane B _ (k1_off85_inb k) 1 7 _ z lane (k1_off85_eq k) hz
  have e86 := ld4_lane B _ (k1_off86_inb k) 1 8 _ z lane (k1_off86_eq k) hz
  have e87 := ld4_lane B _ (k1_off87_inb k) 1 9 _ z lane (k1_off87_eq k) hz
  have e88 := ld4_lane B _ (k1_off88_inb k) 1 10 _ z lane (k1_off88_eq k) hz
  have e89 := ld4_lane B _ (k1_off89_inb k) 1 11 _ z lane (k1_off89_eq k) hz
  have e90 := ld4_lane B _ (k1_off90_inb k) 1 12 _ z lane (k1_off90_eq k) hz
  have e91 := ld4_lane B _ (k1_off91_inb k) 1 13 _ z lane (k1_off91_eq k) hz
  have e92 := ld4_lane B _ (k1_off92_inb k) 1 14 _ z lane (k1_off92_eq k) hz
  have e93 := ld4_lane B _ (k1_off93_inb k) 2 1 _ z lane (k1_off93_eq k) hz
  have e94 := ld4_lane B _ (k1_off94_inb k) 2 2 _ z lane (k1_off94_eq k) hz
  have e95 := ld4_lane B _ (k1_off95_inb k) 2 3 _ z lane (k1_off95_eq k) hz
  have e96 := ld4_lane B _ (k1_off96_inb k) 2 4 _ z lane (k1_off96_eq k) hz
  have e97 := ld4_lane B _ (k1_off97_inb k) 2 5 _ z lane (k1_off97_eq k) hz
  have e98 := ld4_lane B _ (k1_off98_inb k) 2 6 _ z lane (k1_off98_eq k) hz
  have e99 := ld4_lane B _ (k1_off99_inb k) 2 7 _ z lane (k1_off99_eq k) hz
  have e100 := ld4_lane B _ (k1_off100_inb k) 2 8 _ z lane (k1_off100_eq k) hz
  have e101 := ld4_lane B _ (k1_off101_inb k) 2 9 _ z lane (k1_off101_eq k) hz
  have e102 := ld4_lane B _ (k1_off102_inb k) 2 10 _ z lane (k1_off102_eq k) hz
  have e103 := ld4_lane B _ (k1_off103_inb k) 2 11 _ z lane (k1_off103_eq k) hz
  have e104 := ld4_lane B _ (k1_off104_inb k) 2 12 _ z lane (k1_off104_eq k) hz
  have e105 := ld4_lane B _ (k1_off105_inb k) 2 13 _ z lane (k1_off105_eq k) hz
  have e106 := ld4_lane B _ (k1_off106_inb k) 2 14 _ z lane (k1_off106_eq k) hz
  have e107 := ld4_lane B _ (k1_off107_inb k) 3 1 _ z lane (k1_off107_eq k) hz
  have e108 := ld4_lane B _ (k1_off108_inb k) 3 2 _ z lane (k1_off108_eq k) hz
  have e109 := ld4_lane B _ (k1_off109_inb k) 3 3 _ z lane (k1_off109_eq k) hz
  have e110 := ld4_lane B _ (k1_off110_inb k) 3 4 _ z lane (k1_off110_eq k) hz
  have e111 := ld4_lane B _ (k1_off111_inb k) 3 5 _ z lane (k1_off111_eq k) hz
  have e112 := ld4_lane B _ (k1_off112_inb k) 3 6 _ z lane (k1_off112_eq k) hz
  have e113 := ld4_lane B _ (k1_off113_inb k) 3 7 _ z lane (k1_off113_eq k) hz
  have e114 := ld4_lane B _ (k1_off114_inb k) 3 8 _ z lane (k1_off114_eq k) hz
  have e115 := ld4_lane B _ (k1_off115_inb k) 3 9 _ z lane (k1_off115_eq k) hz
  have e116 := ld4_lane B _ (k1_off116_inb k) 3 10 _ z lane (k1_off116_eq k) hz
  have e117 := ld4_lane B _ (k1_off117_inb k) 3 11 _ z lane (k1_off117_eq k) hz
  have e118 := ld4_lane B _ (k1_off118_inb k) 3 12 _ z lane (k1_off118_eq k) hz
  have e119 := ld4_lane B _ (k1_off119_inb k) 3 13 _ z lane (k1_off119_eq k) hz
  have e120 := ld4_lane B _ (k1_off120_inb k) 3 14 _ z lane (k1_off120_eq k) hz
  simp only [ph1,
    k1_pay83, k1_pay84, k1_pay85, k1_pay86, k1_pay87, k1_pay88, k1_pay89, k1_pay90, k1_pay91, k1_pay92, k1_pay93, k1_pay94,
    k1_pay95, k1_pay96, k1_pay97, k1_pay98, k1_pay99, k1_pay100, k1_pay101, k1_pay102, k1_pay103, k1_pay104, k1_pay105, k1_pay106,
    k1_pay107, k1_pay108, k1_pay109, k1_pay110, k1_pay111, k1_pay112, k1_pay113, k1_pay114, k1_pay115, k1_pay116, k1_pay117, k1_pay118,
    k1_pay119, k1_pay120, k1_pay121, k1_pay122, k1_pay123, k1_pay124, k1_pay125, k1_pay126, k1_pay127, k1_pay128, k1_pay129, k1_pay130,
    k1_pay131, k1_pay132, k1_pay133, k1_pay134, k1_pay135, k1_pay136, k1_pay137, k1_pay138, k1_pay139, k1_pay140, k1_pay141, k1_pay142,
    k1_pay143, k1_pay144, k1_pay145, k1_pay146, k1_pay147, k1_pay148, k1_pay149, k1_pay150, k1_pay151, k1_pay152, k1_pay153, k1_pay154,
    k1_pay155, k1_pay156, k1_pay157, k1_pay158, k1_pay159, k1_pay160, k1_pay161, k1_pay162, k1_pay297, k1_pay298, k1_pay299,
    addf_apply, shapeCast_same_apply,
    e65, e66, e67, e68, e69, e70, e71, e72, e73, e74, e75, e76, e77, e78, e79, e80, e81, e82, e83, e84,
    e85, e86, e87, e88, e89, e90, e91, e92, e93, e94, e95, e96, e97, e98, e99, e100, e101, e102, e103, e104,
    e105, e106, e107, e108, e109, e110, e111, e112, e113, e114, e115, e116, e117, e118, e119, e120]
  simp only [Fin.sum_univ_succ, Fin.sum_univ_zero, Fin.val_succ, Fin.val_zero, Nat.reduceAdd, add_zero]
  ac_rfl

end Cert.KernelIdeal.HandValue

end
-- ==== Proof.KI.ValueScPh2.lean ====
/-
  The third phase of one trip of the vector-subcore kernel, at one lane: as the second, over the third staging buffer
  (rows 8…11 of the plane).
-/
import proofs.«214330_g12317966205028_cont_fleet_230_29_alg».proof.Proof.KI.ValueScLeaf

noncomputable section

open scoped BigOperators

namespace Cert.KernelIdeal.HandValue

open Cert.KernelIdeal Cert.KernelIdeal.Gen Cert.KernelIdeal.Hand Idealize.ShloMosaic Idealize.ShloMosaic.ValueIdx

set_option maxRecDepth 4096 in
set_option maxHeartbeats 1000000 in
/-- Phase 2 at lane l: the running value plus the sum of the buffer's rows 0…3, columns 1…14 at channel z = 16 k + l. -/
theorem ph2_apply (B : S4x16x384.Idx → EReal) (a : Vec Ideal S16 .f32) (k : Fin k1_t4_loop.trips) (lane : Fin 16) (z : Fin 384)
    (hz : 16 * k.val + lane.val = z.val) :
    ph2 (F := Ideal) B a k (ix1 lane) = a (ix1 lane) + ∑ r : Fin 4, ∑ q : Fin 14, cell4 B z r.val (q.val + 1) := by
  have e124 := ld4_lane B _ (k1_off124_inb k) 0 1 _ z lane (k1_off124_eq k) hz
  have e125 := ld4_lane B _ (k1_off125_inb k) 0 2 _ z lane (k1_off125_eq k) hz
  have e126 := ld4_lane B _ (k1_off126_inb k) 0 3 _ z lane (k1_off126_eq k) hz
  have e127 := ld4_lane B _ (k1_off127_inb k) 0 4 _ z lane (k1_off127_eq k) hz
  have e128 := ld4_lane B _ (k1_off128_inb k) 0 5 _ z lane (k1_off128_eq k) hz
  have e129 := ld4_lane B _ (k1_off129_inb k) 0 6 _ z lane (k1_off129_eq k) hz
  have e130 := ld4_lane B _ (k1_off130_inb k) 0 7 _ z lane (k1_off130_eq k) hz
  have e131 := ld4_lane B _ (k1_off131_inb k) 0 8 _ z lane (k1_off131_eq k) hz
  have e132 := ld4_lane B _ (k1_off132_inb k) 0 9 _ z lane (k1_off132_eq k) hz
  have e133 := ld4_lane B _ (k1_off133_inb k) 0 10 _ z lane (k1_off133_eq k) hz
  have e134 := ld4_lane B _ (k1_off134_inb k) 0 11 _ z lane (k1_off134_eq k) hz
  have e135 := ld4_lane B _ (k1_off135_inb k) 0 12 _ z lane (k1_off135_eq k) hz
  have e136 := ld4_lane B _ (k1_off136_inb k) 0 13 _ z lane (k1_off136_eq k) hz
  have e137 := ld4_lane B _ (k1_off137_inb k) 0 14 _ z lane (k1_off137_eq k) hz
  have e138 := ld4_lane B _ (k1_off138_inb k) 1 1 _ z lane (k1_off138_eq k) hz
  have e139 := ld4_lane B _ (k1_off139_inb k) 1 2 _ z lane (k1_off139_eq k) hz
  have e140 := ld4_lane B _ (k1_off140_inb k) 1 3 _ z lane (k1_off140_eq k) hz
  have e141 := ld4_lane B _ (k1_off141_inb k) 1 4 _ z lane (k1_off141_eq k) hz
  have e142 := ld4_lane B _ (k1_off142_inb k) 1 5 _ z lane (k1_off142_eq k) hz
  have e143 := ld4_lane B _ (k1_off143_inb k) 1 6 _ z lane (k1_off143_eq k) hz
  have e144 := ld4_lane B _ (k1_off144_inb k) 1 7 _ z lane (k1_off144_eq k) hz
  have e145 := ld4_lane B _ (k1_off145_inb k) 1 8 _ z lane (k1_off145_eq k) hz
  have e146 := ld4_lane B _ (k1_off146_inb k) 1 9 _ z lane (k1_off146_eq k) hz
  have e147 := ld4_lane B _ (k1_off147_inb k) 1 10 _ z lane (k1_off147_eq k) hz
  have e148 := ld4_lane B _ (k1_off148_inb k) 1 11 _ z lane (k1_off148_eq k) hz
  have e149 := ld4_lane B _ (k1_off149_inb k) 1 12 _ z lane (k1_off149_eq k) hz
  have e150 := ld4_lane B _ (k1_off150_inb k) 1 13 _ z lane (k1_off150_eq k) hz
  have e151 := ld4_lane B _ (k1_off151_inb k) 1 14 _ z lane (k1_off151_eq k) hz
  have e152 := ld4_lane B _ (k1_off152_inb k) 2 1 _ z lane (k1_off152_eq k) hz
  have e153 := ld4_lane B _ (k1_off153_inb k) 2 2 _ z lane (k1_off153_eq k) hz
  have e154 := ld4_lane B _ (k1_off154_inb k) 2 3 _ z lane (k1_off154_eq k) hz
  have e155 := ld4_lane B _ (k1_off155_inb k) 2 4 _ z lane (k1_off155_eq k) hz
  have e156 := ld4_lane B _ (k1_off156_inb k) 2 5 _ z lane (k1_off156_eq k) hz
  have e157 := ld4_lane B _ (k1_off157_inb k) 2 6 _ z lane (k1_off157_eq k) hz
  have e158 := ld4_lane B _ (k1_off158_inb k) 2 7 _ z lane (k1_off158_eq k) hz
  have e159 := ld4_lane B _ (k1_off159_inb k) 2 8 _ z lane (k1_off159_eq k) hz
  have e160 := ld4_lane B _ (k1_off160_inb k) 2 9 _ z lane (k1_off160_eq k) hz
  have e161 := ld4_lane B _ (k1_off161_inb k) 2 10 _ z lane (k1_off161_eq k) hz
  have e162 := ld4_lane B _ (k1_off162_inb k) 2 11 _ z lane (k1_off162_eq k) hz
  have e163 := ld4_lane B _ (k1_off163_inb k) 2 12 _ z lane (k1_off163_eq k) hz
  have e164 := ld4_lane B _ (k1_off164_inb k) 2 13 _ z lane (k1_off164_eq k) hz
  have e165 := ld4_lane B _ (k1_off165_inb k) 2 14 _ z lane (k1_off165_eq k) hz
  have e166 := ld4_lane B _ (k1_off166_inb k) 3 1 _ z lane (k1_off166_eq k) hz
  have e167 := ld4_lane B _ (k1_off167_inb k) 3 2 _ z lane (k1_off167_eq k) hz
  have e168 := ld4_lane B _ (k1_off168_inb k) 3 3 _ z lane (k1_off168_eq k) hz
  have e169 := ld4_lane B _ (k1_off169_inb k) 3 4 _ z lane (k1_off169_eq k) hz
  have e170 := ld4_lane B _ (k1_off170_inb k) 3 5 _ z lane (k1_off170_eq k) hz
  have e171 := ld4_lane B _ (k1_off171_inb k) 3 6 _ z lane (k1_off171_eq k) hz
  have e172 := ld4_lane B _ (k1_off172_inb k) 3 7 _ z lane (k1_off172_eq k) hz
  have e173 := ld4_lane B _ (k1_off173_inb k) 3 8 _ z lane (k1_off173_eq k) hz
  have e174 := ld4_lane B _ (k1_off174_inb k) 3 9 _ z lane (k1_off174_eq k) hz
  have e175 := ld4_lane B _ (k1_off175_inb k) 3 10 _ z lane (k1_off175_eq k) hz
  have e176 := ld4_lane B _ (k1_off176_inb k) 3 11 _ z lane (k1_off176_eq k) hz
  have e177 := ld4_lane B _ (k1_off177_inb k) 3 12 _ z lane (k1_off177_eq k) hz
  have e178 := ld4_lane B _ (k1_off178_inb k) 3 13 _ z lane (k1_off178_eq k) hz
  have e179 := ld4_lane B _ (k1_off179_inb k) 3 14 _ z lane (k1_off179_eq k) hz
  simp only [ph2,
    k1_pay163, k1_pay164, k1_pay165, k1_pay166, k1_pay167, k1_pay168, k1_pay169, k1_pay170, k1_pay171, k1_pay172, k1_pay173, k1_pay174,
    k1_pay175, k1_pay176, k1_pay177, k1_pay178, k1_pay179, k1_pay180, k1_pay181, k1_pay182, k1_pay183, k1_pay184, k1_pay185, k1_pay186,
    k1_pay187, k1_pay188, k1_pay189, k1_pay190, k1_pay191, k1_pay192, k1_pay193, k1_pay194, k1_pay195, k1_pay196, k1_pay197, k1_pay198,
    k1_pay199, k1_pay200, k1_pay201, k1_pay202, k1_pay203, k1_pay204, k1_pay205, k1_pay206, k1_pay207, k1_pay208, k1_pay209, k1_pay210,
    k1_pay211, k1_pay212, k1_pay213, k1_pay214, k1_pay215, k1_pay216, k1_pay217, k1_pay218, k1_pay219, k1_pay220, k1_pay221, k1_pay222,
    k1_pay223, k1_pay224, k1_pay225, k1_pay226, k1_pay227, k1_pay228, k1_pay229, k1_pay230, k1_pay231, k1_pay232, k1_pay233, k1_pay234,
    k1_pay235, k1_pay236, k1_pay237, k1_pay238, k1_pay239, k1_pay240, k1_pay241, k1_pay242, k1_pay300, k1_pay301, k1_pay302,
    addf_apply, shapeCast_same_apply,
    e124, e125, e126, e127, e128, e129, e130, e131, e132, e133, e134, e135, e136, e137, e138, e139, e140, e141, e142, e143,
    e144, e145, e146, e147, e148, e149, e150, e151, e152, e153, e154, e155, e156, e157, e158, e159, e160, e161, e162, e163,
    e164, e165, e166, e167, e168, e169, e170, e171, e172, e173, e174, e175, e176, e177, e178, e179]
  simp only [Fin.sum_univ_succ, Fin.sum_univ_zero, Fin.val_succ, Fin.val_zero, Nat.reduceAdd, add_zero]
  ac_rfl

end Cert.KernelIdeal.HandValue

end
-- ==== Proof.KI.ValueConst.lean ====
/-
  The one float constant both kernels multiply by, at the ideal values: the certificate's table gives the name
  "inv_210" the rational 1/210, and the printed constant is that value (whatever its bit pattern rounds to).
-/
import proofs.«214330_g12317966205028_cont_fleet_230_29_alg».proof.Proof.Gen.KernelIdeal
import Idealize.ShloMosaic.PureOps.IdealRules

noncomputable section

namespace Cert.KernelIdeal.HandValue

open Idealize.ShloMosaic

/-- The named reciprocal denotes 1/210 on the extended reals. -/
theorem inv_210 :
    Named.named (F := Ideal) Cert.KernelIdeal.κ "inv_210" (φ := .f32) 0x3B9C09C1#32 = ((1 / 210 : ℝ) : EReal) :=
  IdealRules.named_const.ideal_named_scalar _ _ _ _ rfl

end Cert.KernelIdeal.HandValue

end
-- ==== Proof.KI.ValueScPh3.lean ====
/-
  The last phase of one trip of the vector-subcore kernel, at one lane: the running vector and the 42 loaded lane
  vectors of the last staging buffer (rows 12…14 of the plane), columns 1…14, added in a fixed tree, then multiplied by
  the named constant 1/210.
-/
import proofs.«214330_g12317966205028_cont_fleet_230_29_alg».proof.Proof.KI.ValueScLeaf
import proofs.«214330_g12317966205028_cont_fleet_230_29_alg».proof.Proof.KI.ValueConst

noncomputable section

open scoped BigOperators

namespace Cert.KernelIdeal.HandValue

open Cert.KernelIdeal Cert.KernelIdeal.Gen Cert.KernelIdeal.Hand Idealize.ShloMosaic Idealize.ShloMosaic.ValueIdx

set_option maxRecDepth 4096 in
set_option maxHeartbeats 1000000 in
/-- Phase 3 at lane l: the running value plus the sum of the buffer's rows 0…2, columns 1…14 at channel z = 16 k + l,
    times 1/210. -/
theorem ph3_apply (B : S3x16x384.Idx → EReal) (a : Vec Ideal S16 .f32) (k : Fin k1_t5_loop.trips) (lane : Fin 16) (z : Fin 384)
    (hz : 16 * k.val + lane.val = z.val) :
    ph3 (F := Ideal) B a k (ix1 lane) = (a (ix1 lane) + ∑ r : Fin 3, ∑ q : Fin 14, cell3 B z r.val (q.val + 1)) * ((1 / 210 : ℝ) : EReal) := by
  have e183 := ld3_lane B _ (k1_off183_inb k) 0 1 _ z lane (k1_off183_eq k) hz
  have e184 := ld3_lane B _ (k1_off184_inb k) 0 2 _ z lane (k1_off184_eq k) hz
  have e185 := ld3_lane B _ (k1_off185_inb k) 0 3 _ z lane (k1_off185_eq k) hz
  have e186 := ld3_lane B _ (k1_off186_inb k) 0 4 _ z lane (k1_off186_eq k) hz
  have e187 := ld3_lane B _ (k1_off187_inb k) 0 5 _ z lane (k1_off187_eq k) hz
  have e188 := ld3_lane B _ (k1_off188_inb k) 0 6 _ z lane (k1_off188_eq k) hz
  have e189 := ld3_lane B _ (k1_off189_inb k) 0 7 _ z lane (k1_off189_eq k) hz
  have e190 := ld3_lane B _ (k1_off190_inb k) 0 8 _ z lane (k1_off190_eq k) hz
  have e191 := ld3_lane B _ (k1_off191_inb k) 0 9 _ z lane (k1_off191_eq k) hz
  have e192 := ld3_lane B _ (k1_off192_inb k) 0 10 _ z lane (k1_off192_eq k) hz
  have e193 := ld3_lane B _ (k1_off193_inb k) 0 11 _ z lane (k1_off193_eq k) hz
  have e194 := ld3_lane B _ (k1_off194_inb k) 0 12 _ z lane (k1_off194_eq k) hz
  have e195 := ld3_lane B _ (k1_off195_inb k) 0 13 _ z lane (k1_off195_eq k) hz
  have e196 := ld3_lane B _ (k1_off196_inb k) 0 14 _ z lane (k1_off196_eq k) hz
  have e197 := ld3_lane B _ (k1_off197_inb k) 1 1 _ z lane (k1_off197_eq k) hz
  have e198 := ld3_lane B _ (k1_off198_inb k) 1 2 _ z lane (k1_off198_eq k) hz
  have e199 := ld3_lane B _ (k1_off199_inb k) 1 3 _ z lane (k1_off199_eq k) hz
  have e200 := ld3_lane B _ (k1_off200_inb k) 1 4 _ z lane (k1_off200_eq k) hz
  have e201 := ld3_lane B _ (k1_off201_inb k) 1 5 _ z lane (k1_off201_eq k) hz
  have e202 := ld3_lane B _ (k1_off202_inb k) 1 6 _ z lane (k1_off202_eq k) hz
  have e203 := ld3_lane B _ (k1_off203_inb k) 1 7 _ z lane (k1_off203_eq k) hz
  have e204 := ld3_lane B _ (k1_off204_inb k) 1 8 _ z lane (k1_off204_eq k) hz
  have e205 := ld3_lane B _ (k1_off205_inb k) 1 9 _ z lane (k1_off205_eq k) hz
  have e206 := ld3_lane B _ (k1_off206_inb k) 1 10 _ z lane (k1_off206_eq k) hz
  have e207 := ld3_lane B _ (k1_off207_inb k) 1 11 _ z lane (k1_off207_eq k) hz
  have e208 := ld3_lane B _ (k1_off208_inb k) 1 12 _ z lane (k1_off208_eq k) hz
  have e209 := ld3_lane B _ (k1_off209_inb k) 1 13 _ z lane (k1_off209_eq k) hz
  have e210 := ld3_lane B _ (k1_off210_inb k) 1 14 _ z lane (k1_off210_eq k) hz
  have e211 := ld3_lane B _ (k1_off211_inb k) 2 1 _ z lane (k1_off211_eq k) hz
  have e212 := ld3_lane B _ (k1_off212_inb k) 2 2 _ z lane (k1_off212_eq k) hz
  have e213 := ld3_lane B _ (k1_off213_inb k) 2 3 _ z lane (k1_off213_eq k) hz
  have e214 := ld3_lane B _ (k1_off214_inb k) 2 4 _ z lane (k1_off214_eq k) hz
  have e215 := ld3_lane B _ (k1_off215_inb k) 2 5 _ z lane (k1_off215_eq k) hz
  have e216 := ld3_lane B _ (k1_off216_inb k) 2 6 _ z lane (k1_off216_eq k) hz
  have e217 := ld3_lane B _ (k1_off217_inb k) 2 7 _ z lane (k1_off217_eq k) hz
  have e218 := ld3_lane B _ (k1_off218_inb k) 2 8 _ z lane (k1_off218_eq k) hz
  have e219 := ld3_lane B _ (k1_off219_inb k) 2 9 _ z lane (k1_off219_eq k) hz
  have e220 := ld3_lane B _ (k1_off220_inb k) 2 10 _ z lane (k1_off220_eq k) hz
  have e221 := ld3_lane B _ (k1_off221_inb k) 2 11 _ z lane (k1_off221_eq k) hz
  have e222 := ld3_lane B _ (k1_off222_inb k) 2 12 _ z lane (k1_off222_eq k) hz
  have e223 := ld3_lane B _ (k1_off223_inb k) 2 13 _ z lane (k1_off223_eq k) hz
  have e224 := ld3_lane B _ (k1_off224_inb k) 2 14 _ z lane (k1_off224_eq k) hz
  simp only [ph3,
    k1_pay243, k1_pay244, k1_pay245, k1_pay246, k1_pay247, k1_pay248, k1_pay249, k1_pay250, k1_pay251, k1_pay252, k1_pay253, k1_pay254,
    k1_pay255, k1_pay256, k1_pay257, k1_pay258, k1_pay259, k1_pay260, k1_pay261, k1_pay262, k1_pay263, k1_pay264, k1_pay265, k1_pay266,
    k1_pay267, k1_pay268, k1_pay269, k1_pay270, k1_pay271, k1_pay272, k1_pay273, k1_pay274, k1_pay275, k1_pay276, k1_pay277, k1_pay278,
    k1_pay279, k1_pay280, k1_pay281, k1_pay282, k1_pay283, k1_pay284, k1_pay285, k1_pay286, k1_pay287, k1_pay288, k1_pay289, k1_pay290,
    k1_pay291, k1_pay292, k1_pay293, k1_pay294, k1_pay303,
    addf_apply, shapeCast_same_apply, mulf_apply, broadcast_apply, inv_210,
    e183, e184, e185, e186, e187, e188, e189, e190, e191, e192, e193, e194, e195, e196, e197, e198, e199, e200, e201, e202,
    e203, e204, e205, e206, e207, e208, e209, e210, e211, e212, e213, e214, e215, e216, e217, e218, e219, e220, e221, e222,
    e223, e224]
  simp only [Fin.sum_univ_succ, Fin.sum_univ_zero, Fin.val_succ, Fin.val_zero, Nat.reduceAdd, add_zero]
  ac_rfl

end Cert.KernelIdeal.HandValue

end
-- ==== Proof.KI.ValueScChunk.lean ====
/-
  The four staging buffers' contents while a plane is summed, read at an entry.

  The subcore at grid point (core, subcore) sums planes 4·subcore + 2·core and 4·subcore + 2·core + 1 (trip 0 and 1);
  plane P is batch P / 32 and time P mod 32 of the transposed input. The program's slices of the transposed input at
  rows 0…3, 4…7, 8…11 and 12…14 of that plane, with the two leading unit axes dropped, have at (r, c, z) the input's
  entry (P / 32, P mod 32, first row + r, c, z). The slices' offsets are word arithmetic of the grid point and the trip;
  their closed forms are decided over the 2 × 16 × 2 cases.
-/
import proofs.«214330_g12317966205028_cont_fleet_230_29_alg».proof.Proof.KI.ValueScLeaf

noncomputable section

open scoped BigOperators

namespace Cert.KernelIdeal.HandValue

open Cert.KernelIdeal Cert.KernelIdeal.Gen Cert.KernelIdeal.Hand Idealize.ShloMosaic Idealize.ShloMosaic.ValueIdx

/-- The plane that trip `pi` of the subcore at grid point `L` sums. -/
def planeOf (L : grid1.Coords) (pi : Fin k1_t1_loop.trips) : ℕ := 4 * (L 1).val + 2 * (L 0).val + pi.val

theorem k1_off5_closed : ∀ (L : grid1.Coords) (pi : Fin k1_t1_loop.trips),
    k1_off5 L pi = ![(4 * (L 1).val + 2 * (L 0).val + pi.val) / 32, (4 * (L 1).val + 2 * (L 0).val + pi.val) % 32, 0, 0, 0] := by
  decide +kernel
theorem k1_off64_closed : ∀ (L : grid1.Coords) (pi : Fin k1_t1_loop.trips),
    k1_off64 L pi = ![(4 * (L 1).val + 2 * (L 0).val + pi.val) / 32, (4 * (L 1).val + 2 * (L 0).val + pi.val) % 32, 4, 0, 0] := by
  decide +kernel
theorem k1_off123_closed : ∀ (L : grid1.Coords) (pi : Fin k1_t1_loop.trips),
    k1_off123 L pi = ![(4 * (L 1).val + 2 * (L 0).val + pi.val) / 32, (4 * (L 1).val + 2 * (L 0).val + pi.val) % 32, 8, 0, 0] := by
  decide +kernel
theorem k1_off182_closed : ∀ (L : grid1.Coords) (pi : Fin k1_t1_loop.trips),
    k1_off182 L pi = ![(4 * (L 1).val + 2 * (L 0).val + pi.val) / 32, (4 * (L 1).val + 2 * (L 0).val + pi.val) % 32, 12, 0, 0] := by
  decide +kernel

/-- A four-row slice of plane (b, t) from row r0, its unit axes dropped, read at (r, c, z). -/
theorem slice4_read (xt : S8x32x16x16x384.Idx → EReal) (off : Fin 5 → Nat)
    (inb : ∀ a, off a + S1x1x4x16x384.size a ≤ S8x32x16x16x384.size a) (b : Fin 8) (t : Fin 32) (r0 : ℕ)
    (hoff : off = ![b.val, t.val, r0, 0, 0]) (r : Fin 4) (c : Fin 16) (z : Fin 384) (hr : r0 + r.val < 16) :
    (((xtV).slice (Rect.unit (s := S8x32x16x16x384) off S1x1x4x16x384.size inb) (fun _ => rfl)).squeeze S4x16x384
        squeezes_S1x1x4x16x384_S4x16x384).view.read (Elt Ideal) xt (ix3 r c z)
      = xt (ix5 b t ⟨r0 + r.val, hr⟩ c z) := by
  subst hoff
  show shapeCast S4x16x384 (s := S1x1x4x16x384)
      (fun j => xt ((Rect.unit (s := S8x32x16x16x384) ![b.val, t.val, r0, 0, 0] S1x1x4x16x384.size inb).toLoadRect.idx j))
      (by decide) (ix3 r c z) = _
  rw [shapeCast_apply _ _ _ (ix5 (0 : Fin 1) (0 : Fin 1) r c z) (by
    rw [Shape.rowMajor_val_five, Shape.rowMajor_val_three]
    show ((((0 : Fin 1).val * 1 + (0 : Fin 1).val) * 4 + r.val) * 16 + c.val) * 384 + z.val = (r.val * 16 + c.val) * 384 + z.val
    simp only [Fin.val_zero, Nat.zero_mul, Nat.zero_add])]
  refine congrArg xt (funext fun a => Fin.ext ?_)
  rw [LoadRect.idx_apply]
  match a with
  | ⟨0, _⟩ => show b.val + 1 * 0 = b.val; omega
  | ⟨1, _⟩ => show t.val + 1 * 0 = t.val; omega
  | ⟨2, _⟩ => show r0 + 1 * r.val = r0 + r.val; omega
  | ⟨3, _⟩ => show 0 + 1 * c.val = c.val; omega
  | ⟨4, _⟩ => show 0 + 1 * z.val = z.val; omega

/-- The three-row slice likewise. -/
theorem slice3_read (xt : S8x32x16x16x384.Idx → EReal) (off : Fin 5 → Nat)
    (inb : ∀ a, off a + S1x1x3x16x384.size a ≤ S8x32x16x16x384.size a) (b : Fin 8) (t : Fin 32) (r0 : ℕ)
    (hoff : off = ![b.val, t.val, r0, 0, 0]) (r : Fin 3) (c : Fin 16) (z : Fin 384) (hr : r0 + r.val < 16) :
    (((xtV).slice (Rect.unit (s := S8x32x16x16x384) off S1x1x3x16x384.size inb) (fun _ => rfl)).squeeze S3x16x384
        squeezes_S1x1x3x16x384_S3x16x384).view.read (Elt Ideal) xt (ix3 r c z)
      = xt (ix5 b t ⟨r0 + r.val, hr⟩ c z) := by
  subst hoff
  show shapeCast S3x16x384 (s := S1x1x3x16x384)
      (fun j => xt ((Rect.unit (s := S8x32x16x16x384) ![b.val, t.val, r0, 0, 0] S1x1x3x16x384.size inb).toLoadRect.idx j))
      (by decide) (ix3 r c z) = _
  rw [shapeCast_apply _ _ _ (ix5 (0 : Fin 1) (0 : Fin 1) r c z) (by
    rw [Shape.rowMajor_val_five, Shape.rowMajor_val_three]
    show ((((0 : Fin 1).val * 1 + (0 : Fin 1).val) * 3 + r.val) * 16 + c.val) * 384 + z.val = (r.val * 16 + c.val) * 384 + z.val
    simp only [Fin.val_zero, Nat.zero_mul, Nat.zero_add])]
  refine congrArg xt (funext fun a => Fin.ext ?_)
  rw [LoadRect.idx_apply]
  match a with
  | ⟨0, _⟩ => show b.val + 1 * 0 = b.val; omega
  | ⟨1, _⟩ => show t.val + 1 * 0 = t.val; omega
  | ⟨2, _⟩ => show r0 + 1 * r.val = r0 + r.val; omega
  | ⟨3, _⟩ => show 0 + 1 * c.val = c.val; omega
  | ⟨4, _⟩ => show 0 + 1 * z.val = z.val; omega

section Cells

variable (xt : S8x32x16x16x384.Idx → EReal) (L : grid1.Coords) (pi : Fin k1_t1_loop.trips) (b : Fin 8) (t : Fin 32)
  (hb : b.val = planeOf L pi / 32) (ht : t.val = planeOf L pi % 32) (z : Fin 384)

include hb ht

/-- Rows 0…3 of the plane: the first staging buffer's entry (r, q + 1, z) is the plane's (r, q + 1, z). -/
theorem cell4_chunk0 (r : Fin 4) (q : Fin 14) :
    cell4 (chunk0 (F := Ideal) xt L pi) z r.val (q.val + 1) = cellx xt b t z r.val (q.val + 1) := by
  have hq := q.isLt
  have hr := r.isLt
  unfold cell4 cellx
  rw [dif_pos ⟨hr, by omega⟩, dif_pos ⟨by omega, by omega⟩]
  unfold chunk0
  rw [slice4_read xt _ _ b t 0 (by rw [k1_off5_closed, hb, ht]; rfl) r ⟨q.val + 1, by omega⟩ z (by omega)]
  exact congrArg xt (congrArg (fun i => ix5 b t i _ z) (Fin.ext (by show 0 + r.val = r.val; omega)))

/-- Rows 4…7. -/
theorem cell4_chunk1 (r : Fin 4) (q : Fin 14) :
    cell4 (chunk1 (F := Ideal) xt L pi) z r.val (q.val + 1) = cellx xt b t z (4 + r.val) (q.val + 1) := by
  have hq := q.isLt
  have hr := r.isLt
  unfold cell4 cellx
  rw [dif_pos ⟨hr, by omega⟩, dif_pos ⟨by omega, by omega⟩]
  unfold chunk1
  rw [slice4_read xt _ _ b t 4 (by rw [k1_off64_closed, hb, ht]; rfl) r ⟨q.val + 1, by omega⟩ z (by omega)]

/-- Rows 8…11. -/
theorem cell4_chunk2 (r : Fin 4) (q : Fin 14) :
    cell4 (chunk2 (F := Ideal) xt L pi) z r.val (q.val + 1) = cellx xt b t z (8 + r.val) (q.val + 1) := by
  have hq := q.isLt
  have hr := r.isLt
  unfold cell4 cellx
  rw [dif_pos ⟨hr, by omega⟩, dif_pos ⟨by omega, by omega⟩]
  unfold chunk2
  rw [slice4_read xt _ _ b t 8 (by rw [k1_off123_closed, hb, ht]; rfl) r ⟨q.val + 1, by omega⟩ z (by omega)]

/-- Rows 12…14. -/
theorem cell3_chunk3 (r : Fin 3) (q : Fin 14) :
    cell3 (chunk3 (F := Ideal) xt L pi) z r.val (q.val + 1) = cellx xt b t z (12 + r.val) (q.val + 1) := by
  have hq := q.isLt
  have hr := r.isLt
  unfold cell3 cellx
  rw [dif_pos ⟨hr, by omega⟩, dif_pos ⟨by omega, by omega⟩]
  unfold chunk3
  rw [slice3_read xt _ _ b t 12 (by rw [k1_off182_closed, hb, ht]; rfl) r ⟨q.val + 1, by omega⟩ z (by omega)]

end Cells

end Cert.KernelIdeal.HandValue

end
-- ==== Proof.KI.ValueSc.lean ====
/-
  The vector-subcore kernel's flat result, read at an entry, is the interior mean of a plane.

  One plane's stored vector for channels 16 k … 16 k + 15 is the four phases in turn: the sums of rows 0…3, 4…7, 8…11
  and 12…14 (columns 1…14) of the plane, handed on as a running value, the last phase multiplying by 1/210. The four
  row groups make the 15 kept rows. The flat result's entry 384·p + ch, for a pair p = 32·b + t below 64, is lane
  ch mod 16 of trip (ch / 16) of plane p mod 2 on the subcore whose grid point is (⌊p / 2⌋ mod 2, ⌊p / 4⌋): that subcore's
  plane number 4·⌊p / 4⌋ + 2·(⌊p / 2⌋ mod 2) + p mod 2 is p again.
-/
import proofs.«214330_g12317966205028_cont_fleet_230_29_alg».proof.Proof.KI.ValueScPh0
import proofs.«214330_g12317966205028_cont_fleet_230_29_alg».proof.Proof.KI.ValueScPh1
import proofs.«214330_g12317966205028_cont_fleet_230_29_alg».proof.Proof.KI.ValueScPh2
import proofs.«214330_g12317966205028_cont_fleet_230_29_alg».proof.Proof.KI.ValueScPh3
import proofs.«214330_g12317966205028_cont_fleet_230_29_alg».proof.Proof.KI.ValueScChunk

noncomputable section

open scoped BigOperators

namespace Cert.KernelIdeal.HandValue

open Cert.KernelIdeal Cert.KernelIdeal.Gen Cert.KernelIdeal.Hand Idealize.ShloMosaic Idealize.ShloMosaic.ValueIdx

/-- A plane's entry at a kept row and a kept column, by its numbers. -/
theorem cellx_kept (xt : S8x32x16x16x384.Idx → EReal) (b : Fin 8) (t : Fin 32) (z : Fin 384) (r : Fin 15) (q : Fin 14) :
    cellx xt b t z r.val (q.val + 1) = xt (ix5 b t (Cert.Spec.keptRow r) (Cert.Spec.keptCol q) z) := by
  have := r.isLt
  have := q.isLt
  unfold cellx
  rw [dif_pos ⟨by omega, by omega⟩]

/-- The stored vector of one plane at lane l of trip k: the plane's interior sum at channel 16 k + l, times 1/210. -/
theorem planeVal_lane (xt : S8x32x16x16x384.Idx → EReal) (L : grid1.Coords) (pi : Fin k1_t1_loop.trips) (k : Fin 24)
    (lane : Fin 16) (b : Fin 8) (t : Fin 32) (z : Fin 384)
    (hb : b.val = planeOf L pi / 32) (ht : t.val = planeOf L pi % 32) (hz : 16 * k.val + lane.val = z.val) :
    planeVal (F := Ideal) xt L pi k (ix1 lane)
      = (∑ r : Fin 15, ∑ q : Fin 14, xt (ix5 b t (Cert.Spec.keptRow r) (Cert.Spec.keptCol q) z)) * ((1 / 210 : ℝ) : EReal) := by
  unfold planeVal
  rw [ph3_apply _ _ (Fin.cast trips_t5.symm k) lane z hz, ph2_apply _ _ (Fin.cast trips_t4.symm k) lane z hz,
    ph1_apply _ _ (Fin.cast trips_t3.symm k) lane z hz, ph0_apply _ (Fin.cast trips_t2.symm k) lane z hz]
  congr 1
  simp only [cell4_chunk0 xt L pi b t hb ht z, cell4_chunk1 xt L pi b t hb ht z, cell4_chunk2 xt L pi b t hb ht z,
    cell3_chunk3 xt L pi b t hb ht z]
  refine Eq.trans (sum_rows (fun r => ∑ q : Fin 14, cellx xt b t z r (q.val + 1))).symm ?_
  exact Finset.sum_congr rfl fun r _ => Finset.sum_congr rfl fun q _ => cellx_kept xt b t z r q

/-- The same at any lane index. -/
theorem planeVal_apply (xt : S8x32x16x16x384.Idx → EReal) (L : grid1.Coords) (pi : Fin k1_t1_loop.trips) (k : Fin 24)
    (l : S16.Idx) (b : Fin 8) (t : Fin 32) (z : Fin 384)
    (hb : b.val = planeOf L pi / 32) (ht : t.val = planeOf L pi % 32) (hz : 16 * k.val + (l 0).val = z.val) :
    planeVal (F := Ideal) xt L pi k l
      = (∑ r : Fin 15, ∑ q : Fin 14, xt (ix5 b t (Cert.Spec.keptRow r) (Cert.Spec.keptCol q) z)) * ((1 / 210 : ℝ) : EReal) := by
  obtain ⟨lane, rfl⟩ : ∃ lane, l = ix1 lane := ⟨l 0, eq_ix1 l⟩
  exact planeVal_lane xt L pi k lane b t z hb ht hz

/-- The flat result at entry 384·(32 b + t) + ch, for a pair 32 b + t below 64: the interior mean of plane (b, t) at
    channel ch. -/
theorem scOut_apply (xt : S8x32x16x16x384.Idx → EReal) (b : Fin 8) (t : Fin 32) (ch : Fin 384) (h : 32 * b.val + t.val < 64) :
    scOut (F := Ideal) xt (ix1 ⟨384 * (32 * b.val + t.val) + ch.val, by have := ch.isLt; omega⟩)
      = (∑ r : Fin 15, ∑ q : Fin 14, xt (ix5 b t (Cert.Spec.keptRow r) (Cert.Spec.keptCol q) ch)) * ((1 / 210 : ℝ) : EReal) := by
  have key : ∀ J : ℕ, J = 384 * (32 * b.val + t.val) + ch.val →
      b.val = (4 * (J / 1536) + 2 * (J / 768 % 2) + J / 384 % 2) / 32
      ∧ t.val = (4 * (J / 1536) + 2 * (J / 768 % 2) + J / 384 % 2) % 32
      ∧ 16 * (J % 384 / 16) + J % 16 = ch.val := by
    intro J hJ
    have := b.isLt
    have := t.isLt
    have := ch.isLt
    omega
  obtain ⟨hb, ht, hz⟩ := key _ rfl
  unfold scOut
  exact planeVal_apply xt _ _ _ _ b t ch hb ht hz

end Cert.KernelIdeal.HandValue

end
-- ==== Proof.KI.ValueTc.lean ====
/-
  What the pipelined region computes, read at one entry of its result.

  The body of the region takes a block of 32 planes, each of 15 rows, 16 columns and 384 channels, keeps columns
  1 … 14 (a mask computed from the column number replaces the entries of columns 0 and 15 by zero), sums every plane
  over its rows and columns, and multiplies by the constant that denotes 1/210. On the extended reals the sum over
  16 columns of which the first and the last term are zero is the sum over the 14 kept columns, so the entry at
  (plane, channel) is the sum of the 15 × 14 kept entries of that plane and channel times 1/210. The block of grid
  point t holds planes 64 + 32·t … 64 + 32·t + 31 of the re-laid input, so row p of the region's result is computed
  from plane 64 + p.
-/
import proofs.«214330_g12317966205028_cont_fleet_230_29_alg».proof.Proof.KI.TcOut
import proofs.«214330_g12317966205028_cont_fleet_230_29_alg».proof.Proof.KI.ValueConst
import proofs.«214330_g12317966205028_cont_fleet_230_29_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.HandValue

open Cert.KernelIdeal Cert.KernelIdeal.Gen Cert.KernelIdeal.Hand
open Idealize.ShloMosaic Idealize.ShloMosaic.ValueIdx

/-! ## The column mask -/

/-- The mask's bit at column `c`: `1 ≤ c` and `c ≤ 14`, both compared as signed 32-bit words. -/
def colBit (c : Fin 16) : BitVec 1 :=
  IntOp.andi (IntOp.cmpi .sge (BitVec.ofNat 32 c.val) 1#32) (IntOp.cmpi .sle (BitVec.ofNat 32 c.val) 14#32)

/-- The bit is set at each of the kept columns 1 … 14. -/
theorem colBit_kept : ∀ q : Fin 14, colBit (Cert.Spec.keptCol q) = 1#1 := by decide
/-- The bit is clear at column 0. -/
theorem colBit_first : colBit (0 : Fin 16) = 0#1 := by decide
/-- The bit is clear at column 15. -/
theorem colBit_last : colBit (Fin.last 15) = 0#1 := by decide

/-- The body's mask: the column test on a [1, 1, 16, 1] vector of column numbers, repeated over the whole block. -/
def tcMask : IVec S32x15x16x384 1 :=
  broadcastTo S32x15x16x384
    (shapeCast S1x1x16x1
      (andi (cmpi .sge (iota .tc S1x1x16x1 32 [2] iota_S1x1x16x1_d2_w32) (broadcast S1x1x16x1 1#32))
        (cmpi .sle (iota .tc S1x1x16x1 32 [2] iota_S1x1x16x1_d2_w32) (broadcast S1x1x16x1 14#32)))
      shapeCasts_S1x1x16x1_S1x1x16x1)
    broadcasts_S1x1x16x1_S32x15x16x384

/-- The mask at (plane, row, column, channel) depends on the column only. -/
theorem tcMask_apply (y : Fin 32) (r : Fin 15) (c : Fin 16) (ch : Fin 384) : tcMask (ix4 y r c ch) = colBit c := by
  unfold tcMask
  rw [shapeCast_self]
  refine (broadcastTo_apply _ _ (ix4 y r c ch) (ix4 (0 : Fin 1) (0 : Fin 1) c (0 : Fin 1)) fun a => ?_).trans ?_
  · match a with
    | ⟨0, _⟩ => rfl
    | ⟨1, _⟩ => rfl
    | ⟨2, _⟩ => rfl
    | ⟨3, _⟩ => rfl
  · show IntOp.andi (IntOp.cmpi .sge (iota .tc S1x1x16x1 32 [2] iota_S1x1x16x1_d2_w32 _) 1#32)
      (IntOp.cmpi .sle (iota .tc S1x1x16x1 32 [2] iota_S1x1x16x1_d2_w32 _) 14#32) = _
    rw [iota_single_apply]
    rfl

/-! ## The sum over rows and columns -/

/-- The reduction over the row and column axes of a [32, 15, 16, 384] block, read at (plane, channel): the indices
    that keep that plane and channel are exactly the (plane, row, column, channel) for the 15 rows and 16 columns. -/
theorem reduce_rows_cols (x : S32x15x16x384.Idx → EReal) (y : Fin 32) (ch : Fin 384) :
    Ideal.reduceAdd reduces_S32x15x16x384_S32x384 x (ix2 y ch) = ∑ r : Fin 15, ∑ c : Fin 16, x (ix4 y r c ch) := by
  have hd0 : ∀ i : S32x15x16x384.Idx, ((reduces_S32x15x16x384_S32x384.drop i) 0).val = (i 0).val := fun i =>
    reduces_S32x15x16x384_S32x384.drop_apply_val_of_eq i 0 0
  have hd1 : ∀ i : S32x15x16x384.Idx, ((reduces_S32x15x16x384_S32x384.drop i) 1).val = (i 3).val := fun i =>
    reduces_S32x15x16x384_S32x384.drop_apply_val_of_eq i 1 3
  have key : ∀ i : S32x15x16x384.Idx, reduces_S32x15x16x384_S32x384.drop i = ix2 y ch →
      i = ix4 y (i 1) (i 2) ch := by
    intro i hi
    have h0 : (i 0).val = y.val := by rw [← hd0 i, hi]
    have h3 : (i 3).val = ch.val := by rw [← hd1 i, hi]
    funext a
    match a with
    | ⟨0, _⟩ => exact Fin.ext h0
    | ⟨1, _⟩ => rfl
    | ⟨2, _⟩ => rfl
    | ⟨3, _⟩ => exact Fin.ext h3
  unfold Ideal.reduceAdd
  refine Eq.trans ?_ (Fintype.sum_prod_type (fun p : Fin 15 × Fin 16 => x (ix4 y p.1 p.2 ch)))
  refine Finset.sum_nbij' (fun i => ((i 1 : Fin 15), (i 2 : Fin 16))) (fun p => ix4 y p.1 p.2 ch) ?_ ?_ ?_ ?_ ?_
  · intro i _; exact Finset.mem_univ _
  · intro p _
    refine Finset.mem_filter.2 ⟨Finset.mem_univ _, ?_⟩
    funext b
    match b with
    | ⟨0, _⟩ => exact Fin.ext (hd0 _)
    | ⟨1, _⟩ => exact Fin.ext (hd1 _)
  · intro i hi; exact (key i (Finset.mem_filter.1 hi).2).symm
  · intro p _; rfl
  · intro i hi; exact congrArg x (key i (Finset.mem_filter.1 hi).2)

/-- A sum over the 16 columns whose first and last terms are zero is the sum over the 14 kept columns. -/
theorem sum_cols (f : Fin 16 → EReal) (h0 : f 0 = 0) (h15 : f (Fin.last 15) = 0) :
    ∑ c : Fin 16, f c = ∑ q : Fin 14, f (Cert.Spec.keptCol q) := by
  have hl : f (Fin.last 14).succ = 0 := h15
  rw [Fin.sum_univ_succ, Fin.sum_univ_castSucc, h0, hl, zero_add, add_zero]
  exact Finset.sum_congr rfl fun q _ => congrArg f (Fin.ext rfl)

/-! ## The body's stored value, and the region's result -/

/-- The body's stored value at (plane, channel): the sum of the block's kept entries of that plane and channel,
    times 1/210. -/
theorem pay1_apply (v7 : Vec Ideal S32x15x16x384 .f32) (y : Fin 32) (ch : Fin 384) :
    k0_pay1 (F := Ideal) v7 (ix2 y ch)
      = (∑ r : Fin 15, ∑ q : Fin 14, v7 (ix4 y r (Cert.Spec.keptCol q) ch)) * ((1 / 210 : ℝ) : EReal) := by
  show Ideal.reduceAdd reduces_S32x15x16x384_S32x384
        (select tcMask (shapeCast S32x15x16x384 v7 shapeCasts_S32x15x16x384_S32x15x16x384)
          (broadcast S32x15x16x384 (Ideal.ofBits .f32 0x00000000#32))) (ix2 y ch)
      * Named.named (F := Ideal) κ "inv_210" (φ := .f32) 0x3B9C09C1#32 = _
  rw [inv_210, reduce_rows_cols, shapeCast_self]
  refine congrArg (· * ((1 / 210 : ℝ) : EReal)) (Finset.sum_congr rfl fun r _ => ?_)
  refine (sum_cols _ ?_ ?_).trans (Finset.sum_congr rfl fun q _ => ?_)
  · rw [select_apply, tcMask_apply, colBit_first, select_zero]
    exact Ideal.ofBits_zero_f32
  · rw [select_apply, tcMask_apply, colBit_last, select_zero]
    exact Ideal.ofBits_zero_f32
  · rw [select_apply, tcMask_apply, colBit_kept, select_one]

/-- Row `p` of the region's result at a channel: the sum of the kept entries of plane 64 + p of the re-laid input
    at that channel, times 1/210. -/
theorem tcOut_apply (v1 : S256x16x16x384.Idx → EReal) (p : Fin 192) (ch : Fin 384) :
    tcOut (F := Ideal) v1 (ix2 p ch)
      = (∑ r : Fin 15, ∑ q : Fin 14,
          v1 (ix4 ⟨64 + p.val, by have := p.isLt; omega⟩ (Cert.Spec.keptRow r) (Cert.Spec.keptCol q) ch))
        * ((1 / 210 : ℝ) : EReal) := by
  have hp : 64 + 32 * (p.val / 32) + p.val % 32 = 64 + p.val := by omega
  show k0_pay1 (F := Ideal) (tcIn v1 ⟨p.val / 32, by have := p.isLt; omega⟩)
      (ix2 (⟨p.val % 32, Nat.mod_lt _ (by decide)⟩ : Fin 32) ch) = _
  rw [pay1_apply]
  refine congrArg (· * ((1 / 210 : ℝ) : EReal))
    (Finset.sum_congr rfl fun r _ => Finset.sum_congr rfl fun q _ => ?_)
  rw [tcIn_apply]
  refine congrArg v1 (funext fun a => ?_)
  match a with
  | ⟨0, _⟩ => exact Fin.ext hp
  | ⟨1, _⟩ => rfl
  | ⟨2, _⟩ => rfl
  | ⟨3, _⟩ => rfl

end Cert.KernelIdeal.HandValue

end
-- ==== Proof.KI.ValueTail.lean ====
/-
  The host's layout operations read at an index given by coordinates.

  Before the kernels the input [8, 384, 32, 16, 16] is transposed so that the channel axis comes last, and batch and
  time are merged into the pair index p = 32·b + t. After them the SparseCore's flat result (entry 384·p + channel,
  pairs p < 64) and the pipelined region's result (row p − 64, pairs 64 ≤ p) are put one below the other, the pair
  index is split back into batch and time, and the last two axes are exchanged. Each statement below says which entry
  of its operand such an operation reads at one index; none depends on the arithmetic of the floats.
-/
import proofs.«214330_g12317966205028_cont_fleet_230_29_alg».proof.Proof.KI.Stages
import Idealize.ShloMosaic.Lib.ValueIdx
import Idealize.ShloMosaic.Lib.ValueLayout
import Idealize.ShloMosaic.Lib.Pipeline.Value

noncomputable section

namespace Cert.KernelIdeal.HandValue

open Cert.KernelIdeal Cert.KernelIdeal.Gen Cert.KernelIdeal.Hand
open Idealize.ShloMosaic Idealize.ShloMosaic.ValueIdx

variable {F : FTy → Type} [FloatOps F] [Named F]

/-- The transposed input at (b, t, row, column, channel) is the input at (b, channel, t, row, column). -/
theorem xtOf_apply (x : S8x384x32x16x16.Idx → Elt F .f32) (b : Fin 8) (t : Fin 32) (r c : Fin 16) (ch : Fin 384) :
    xtOf x (ix5 b t r c ch) = x (ix5 b ch t r c) := by
  unfold xtOf
  exact transpose_apply _ x _ _ _ fun a => match a with
    | ⟨0, _⟩ => rfl | ⟨1, _⟩ => rfl | ⟨2, _⟩ => rfl | ⟨3, _⟩ => rfl | ⟨4, _⟩ => rfl

/-- The re-laid input at pair p = 32·b + t is the transposed input at (b, t): both have the row-major position
    (((32·b + t)·16 + row)·16 + column)·384 + channel. -/
theorem v1Of_apply (xt : S8x32x16x16x384.Idx → Elt F .f32) (b : Fin 8) (t : Fin 32) (r c : Fin 16) (ch : Fin 384)
    (p : Fin 256) (hp : p.val = 32 * b.val + t.val) :
    v1Of xt (ix4 p r c ch) = xt (ix5 b t r c ch) := by
  unfold v1Of
  refine shapeCast_apply xt _ _ _ ?_
  rw [Shape.rowMajor_val_five, Shape.rowMajor_val_four]
  show (((b.val * 32 + t.val) * 16 + r.val) * 16 + c.val) * 384 + ch.val
    = ((p.val * 16 + r.val) * 16 + c.val) * 384 + ch.val
  omega

/-- The two results put one below the other and re-laid as [8, 32, 384], read at (b, t, channel): the entry of the
    [256, 384] array at row 32·b + t. -/
theorem tail_mid (v3 : S24576.Idx → Elt F .f32) (v2 : S192x384.Idx → Elt F .f32) (b : Fin 8) (ch : Fin 384) (t : Fin 32) :
    tailOf v3 v2 (ix3 b ch t)
      = concatenate S256x384 0 [⟨S64x384, fun j => shapeCast S64x384 v3 shapeCasts_S24576_S64x384 j⟩, ⟨S192x384, v2⟩]
          concatenates_S64x384_S192x384_S256x384_d0
          (ix2 ⟨32 * b.val + t.val, by have := b.isLt; have := t.isLt; omega⟩ ch) := by
  unfold tailOf
  refine (transpose_ix3_021_apply _ transposes_S8x32x384_S8x384x32_0_2_1 b ch t).trans ?_
  refine shapeCast_apply _ _ _ _ ?_
  rw [Shape.rowMajor_val_two, Shape.rowMajor_val_three]
  show (32 * b.val + t.val) * 384 + ch.val = (b.val * 32 + t.val) * 384 + ch.val
  omega

/-- Below pair 64 the result is the SparseCore's flat array at position 384·(32·b + t) + channel. -/
theorem tailOf_low (v3 : S24576.Idx → Elt F .f32) (v2 : S192x384.Idx → Elt F .f32) (b : Fin 8) (ch : Fin 384) (t : Fin 32)
    (h : 32 * b.val + t.val < 64) :
    tailOf v3 v2 (ix3 b ch t) = v3 (ix1 ⟨384 * (32 * b.val + t.val) + ch.val, by have := ch.isLt; omega⟩) := by
  rw [tail_mid]
  refine (concatenate_pair_apply_left (t := S256x384) (s₁ := S64x384) (s₂ := S192x384) 0 _ v2 concatenates_S64x384_S192x384_S256x384_d0 _ rfl
    (ix2 (⟨32 * b.val + t.val, h⟩ : Fin 64) ch) fun a => match a with | ⟨0, _⟩ => rfl | ⟨1, _⟩ => rfl).trans ?_
  refine shapeCast_apply v3 _ _ _ ?_
  rw [Shape.rowMajor_val_one, Shape.rowMajor_val_two]
  show 384 * (32 * b.val + t.val) + ch.val = (32 * b.val + t.val) * 384 + ch.val
  omega

/-- From pair 64 on the result is the pipelined region's array at row 32·b + t − 64. -/
theorem tailOf_high (v3 : S24576.Idx → Elt F .f32) (v2 : S192x384.Idx → Elt F .f32) (b : Fin 8) (ch : Fin 384) (t : Fin 32)
    (h : 64 ≤ 32 * b.val + t.val) :
    tailOf v3 v2 (ix3 b ch t)
      = v2 (ix2 ⟨32 * b.val + t.val - 64, by have := b.isLt; have := t.isLt; omega⟩ ch) := by
  rw [tail_mid]
  refine concatenate_pair_apply_right (t := S256x384) (s₁ := S64x384) (s₂ := S192x384) 0 _ v2 concatenates_S64x384_S192x384_S256x384_d0 _ rfl rfl
    (ix2 (⟨32 * b.val + t.val - 64, by have := b.isLt; have := t.isLt; omega⟩ : Fin 192) ch)
    (fun a => match a with
      | ⟨0, _⟩ => fun hne => absurd rfl hne
      | ⟨1, _⟩ => fun _ => rfl) ?_
  show 32 * b.val + t.val - 64 + 64 = 32 * b.val + t.val
  omega

end Cert.KernelIdeal.HandValue

end
-- ==== Proof.KI.Value.lean ====
/-
  The idealized kernel's whole result, as a function of the input, is the specification's array.

  Entry (b, ch, t) of the result is row p = 32·b + t of the [256, 384] array the host assembles: for p below 64 the
  vector-subcore kernel's entry 384·p + ch of the transposed input, for p from 64 the pipelined region's entry
  (p − 64, ch) of the re-laid transposed input. Either is the sum over rows 0…14 and columns 1…14 of the plane, times
  1/210, and the transposed (re-laid) input at (b, t, row, column, ch) (at (p, row, column, ch)) is the input at
  (b, ch, t, row, column).
-/
import proofs.«214330_g12317966205028_cont_fleet_230_29_alg».proof.Proof.KI.ValueSc
import proofs.«214330_g12317966205028_cont_fleet_230_29_alg».proof.Proof.KI.ValueTc
import proofs.«214330_g12317966205028_cont_fleet_230_29_alg».proof.Proof.KI.ValueTail

noncomputable section

open scoped BigOperators

namespace Cert.KernelIdeal.HandValue

open Cert.KernelIdeal Cert.KernelIdeal.Gen Cert.KernelIdeal.Hand Idealize.ShloMosaic Idealize.ShloMosaic.ValueIdx

theorem kernelOut_eq_pooled (x : Cert.KernelIdeal.S8x384x32x16x16.Idx → EReal) :
    Cert.KernelIdeal.Hand.kernelOut (F := Ideal) Cert.KernelIdeal.Hand.scOut Cert.KernelIdeal.Hand.tcOut x = Cert.Spec.pooled x := by
  funext i
  obtain ⟨b, ch, t, rfl⟩ : ∃ b ch t, i = ix3 b ch t := ⟨i 0, i 1, i 2, eq_ix3 i⟩
  show tailOf (F := Ideal) (scOut (xtOf x)) (tcOut (v1Of (xtOf x))) (ix3 b ch t) = Cert.Spec.pooledAt x b ch t
  unfold Cert.Spec.pooledAt Cert.Spec.interiorSum
  by_cases h : 32 * b.val + t.val < 64
  · rw [tailOf_low _ _ b ch t h, scOut_apply (xtOf (F := Ideal) x) b t ch h]
    simp only [xtOf_apply]
  · rw [tailOf_high _ _ b ch t (by omega), tcOut_apply]
    congr 1
    refine Finset.sum_congr rfl fun r _ => Finset.sum_congr rfl fun q _ => ?_
    rw [v1Of_apply (xtOf (F := Ideal) x) b t _ _ ch _ (by
      show 64 + (32 * b.val + t.val - 64) = 32 * b.val + t.val
      omega), xtOf_apply]

end Cert.KernelIdeal.HandValue

end
-- ==== Proof.KB.Base.lean ====
/-
  The kernel's program as the launch theorem of a SparseCore program sees it, and the resource algebra
  every part of its run is stated over.

  The program has three kinds of thread: the TensorCore, which runs the host operations and one pipelined kernel
  region (the plane sums of pairs 64 … 255) and starts the SparseCore call; the two sequencers, which only dispatch;
  and the 32 vector subcores, each of which sums the interior of two planes (pairs 0 … 63). The ghost state has three
  components side by side: the launch handshakes' rounds, the rounds of the pipelined region's staging cells, and the
  counters of the local copies a vector subcore makes and waits for.
-/
import proofs.«214330_g12317966205028_cont_fleet_230_29_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«214330_g12317966205028_cont_fleet_230_29_alg».proof.Proof.Gen.Kernel
import proofs.«214330_g12317966205028_cont_fleet_230_29_alg».proof.Proof.Gen.Kernel.Skeleton
import proofs.«214330_g12317966205028_cont_fleet_230_29_alg».proof.Proof.Gen.Kernel.Launch
import proofs.«214330_g12317966205028_cont_fleet_230_29_alg».proof.Proof.Gen.Kernel.Points

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

/-- The label signature of the TensorCore side: the kernels' labels and the one pipelined region. -/
abbrev ΛP : Labels := Pipeline.Sig Λ₀ (Fin 1) fun p => (pcfgs (F := F) p).Adm
/-- The SparseCore calls of @main: one, the vector-subcore kernel on 2 × 16 subcores. -/
abbrev K : SparseCore.Cfg τ sig (ΛP (F := F)) 1 := sc (F := F)
theorem nCore_zero : (K (F := F)).nCore 0 = 2 := rfl
theorem nSub_zero : (K (F := F)).nSub 0 = 16 := rfl
/-- The body table below the SparseCore dispatch: the kernels' bodies and the pipelined region. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelined region's staging cells' rounds. -/
abbrev UP : Type := URounds (GSem nD τ sig) Unit
/-- The three components side by side; the counters of local copies sit rightmost, where they are found by instance. -/
abbrev UU : Type := UH × (UP × Counters)

/-- The handshakes' component, embedded. -/
abbrev EH : Emb UH (MT nD τ sig (HIx 1) (Elt F) ℕ UU ℕ) := embL
/-- The staging cells' component, embedded: the left of the right. -/
def EP : Emb UP (MT nD τ sig (HIx 1) (Elt F) ℕ UU ℕ) :=
  (Emb.inl : Emb UP (UP × Counters)).trans ((Emb.inr : Emb (UP × Counters) UU).trans
    (uEmb (nD := nD) (τ := τ) (sig := sig) (Ix := HIx 1) (Val := Elt F) (Name := ℕ) (U := UU) (Lvl := ℕ)).toEmb)

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## Threads, locations and memrefs -/

/-- The SparseCore and the subcore a grid point of the vector-subcore kernel runs on. -/
abbrev cV (L : grid1.Coords) : Fin τ.nSC := (L 0).castLE hcore1
abbrev jV (L : grid1.Coords) : Fin τ.nSub := (L 1).castLE hsub1
/-- The grid point of SparseCore `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The transposed input [8, 32, 16, 16, 384] and the flat result [24576] of the SparseCore call, as locations of the device. -/
abbrev xtLoc (d : Dev nD) : Loc nD τ sig := (SparseCore.T d).loc main_v0
abbrev oLoc (d : Dev nD) : Loc nD τ sig := (SparseCore.T d).loc main_v3

/-- The same two arrays as a vector subcore's memrefs, and its five scratch buffers. -/
abbrev xtV : Memref sig .scVector .hbm S8x32x16x16x384 .f32 := Memref.whole main_v0_scv
abbrev oV : Memref sig .scVector .hbm S24576 .f32 := Memref.whole main_v3_scv
abbrev b0 : Memref sig .scVector .vmem S4x16x384 .f32 := Memref.whole cc1_scratch0
abbrev b1 : Memref sig .scVector .vmem S4x16x384 .f32 := Memref.whole cc1_scratch1
abbrev b2 : Memref sig .scVector .vmem S4x16x384 .f32 := Memref.whole cc1_scratch2
abbrev b3 : Memref sig .scVector .vmem S3x16x384 .f32 := Memref.whole cc1_scratch3
abbrev acc : Memref sig .scVector .vmem S768 .f32 := Memref.whole cc1_scratch4

/-- The 768 consecutive entries of the flat result that the subcore at grid point `L` writes: two planes × 384 channels. -/
abbrev oRect (L : grid1.Coords) : Rect S24576 := Rect.unit (s := S24576) (k1_off226 L) S768.size (k1_off226_inb L)
abbrev oSlice (L : grid1.Coords) : Memref sig .scVector .hbm S768 .f32 := (oV).slice (oRect L) (fun _ => rfl)
abbrev oSet (L : grid1.Coords) : Finset S24576.Idx := (oSlice L).view.set

/-- The vector-subcore kernel at grid point `L`, on the whole arrays and the subcore's own scratch: the task's program. -/
abbrev tileProg (L : grid1.Coords) :
    Prog (TpuEff nD τ sig (Elt F) Λ₀ (.scVector (cV L) (jV L))) PUnit :=
  cc1_sc_kernel (F := F) L xtV (Memref.isWhole_whole _) oV (Memref.isWhole_whole _) b0 (Memref.isWhole_whole _) b1 (Memref.isWhole_whole _)
    b2 (Memref.isWhole_whole _) b3 (Memref.isWhole_whole _) acc (Memref.isWhole_whole _) cc1_scratch5 cc1_scratch6 cc1_scratch7 cc1_scratch8 cc1_scoped0

theorem defs₀_vector (c : Fin τ.nSC) (s : Fin τ.nSub) :
    defs₀ (F := F) (.scVector c s) 1 ()
      = SparseCore.onTile hcore1 hsub1 (fun c s => tileProg (F := F) (coordsV c s)) ⟨⟩ c s := rfl

end Cert.Kernel.Hand

end
-- ==== Proof.KB.Pay.lean ====
/-
  What the launch handshakes of the SparseCore call carry.

  The TensorCore hands each of the two SparseCores a read share of the whole transposed input and the full ownership
  of that SparseCore's entries of the flat result: subcore s of SparseCore c computes pairs 4s + 2c and 4s + 2c + 1,
  so its entries are the 768 from (4s + 2c)·384 on, and a SparseCore's entries are the union over its sixteen
  subcores. A sequencer deals each subcore a read share of the input and the subcore's own 768 entries; the results
  come back the same way, the entries now at the final contents. The read shares are the input's full share with one
  token split off per SparseCore, and of that one token per subcore; the remainders stay with the giver.
-/
import proofs.«214330_g12317966205028_cont_fleet_230_29_alg».proof.Proof.KB.Base

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareDrop shareTokN shareTok)

variable {F : FTy → Type} [FloatOps F]

local notation "𝕄" => MT nD τ sig (HIx 1) (Elt F) ℕ UU ℕ

/-- The grid point of subcore `i` of SparseCore `c` of the call's grid. -/
abbrev LV (c : Fin ((K (F := F)).nCore 0)) (i : Fin ((K (F := F)).nSub 0)) : grid1.Coords := coordsV ⟨c.val, c.isLt⟩ ⟨i.val, i.isLt⟩

/-- SparseCore `c`'s read share of the input: the `c`-th token of the full share. -/
abbrev qC (c : ℕ) : PosShare TreeShare := shareTokN fullShare c
/-- Subcore `i`'s read share: the `i`-th token of its SparseCore's. -/
abbrev qT (c i : ℕ) : PosShare TreeShare := shareTokN (qC c) i

/-- The result entries of SparseCore `c`: its sixteen subcores' entries together. -/
def coreSet (c : Fin ((K (F := F)).nCore 0)) : Finset S24576.Idx :=
  (Finset.univ : Finset (Fin ((K (F := F)).nSub 0))).biUnion fun i => oSet (LV (F := F) c i)

section Payloads

variable (xt : (d : Dev nD) → Buf (Elt F) (xtLoc d)) (o₀ o₁ : (d : Dev nD) → Buf (Elt F) (oLoc d))

/-- The call's payloads: the input's contents `xt` when the call is made, the result's entries at `o₀` before and at `o₁` after. -/
def callPay : (K (F := F)).Pay (nD := nD) (Val := Elt F) (Name := ℕ) (U := UU) where
  st := fun q d c => match q with | 0 => iprop((xtLoc d ↦{qC c.val} xt d) ∗ (oLoc d ↦[coreSet (F := F) c]{fullShare} o₀ d))
  dn := fun q d c => match q with | 0 => iprop((xtLoc d ↦{qC c.val} xt d) ∗ (oLoc d ↦[coreSet (F := F) c]{fullShare} o₁ d))
  go := fun q d c i => match q with | 0 => iprop((xtLoc d ↦{qT c.val i.val} xt d) ∗ (oLoc d ↦[oSet (LV (F := F) c i)]{fullShare} o₀ d))
  td := fun q d c i => match q with | 0 => iprop((xtLoc d ↦{qT c.val i.val} xt d) ∗ (oLoc d ↦[oSet (LV (F := F) c i)]{fullShare} o₁ d))
  x := fun _ _ => iprop(emp)

instance callPay_storable : (callPay (F := F) xt o₀ o₁).IsStorable where
  st q d c := match q with | 0 => (inferInstance : BI.Storable (upEmb : UEmb _ 𝕄) iprop((xtLoc d ↦{qC c.val} xt d) ∗ (oLoc d ↦[coreSet (F := F) c]{fullShare} o₀ d)))
  dn q d c := match q with | 0 => (inferInstance : BI.Storable (upEmb : UEmb _ 𝕄) iprop((xtLoc d ↦{qC c.val} xt d) ∗ (oLoc d ↦[coreSet (F := F) c]{fullShare} o₁ d)))
  go q d c i := match q with | 0 => (inferInstance : BI.Storable (upEmb : UEmb _ 𝕄) iprop((xtLoc d ↦{qT c.val i.val} xt d) ∗ (oLoc d ↦[oSet (LV (F := F) c i)]{fullShare} o₀ d)))
  td q d c i := match q with | 0 => (inferInstance : BI.Storable (upEmb : UEmb _ 𝕄) iprop((xtLoc d ↦{qT c.val i.val} xt d) ∗ (oLoc d ↦[oSet (LV (F := F) c i)]{fullShare} o₁ d)))

end Payloads

/-! ## The result's entries, part by part -/

/-- The flat result splits into 32 equal parts of 768 entries. -/
theorem hdiv32 : 32 ∣ S24576.size 0 := ⟨768, rfl⟩
/-- Part `w` of the 32. -/
abbrev oPart (w : Fin 32) : Rect S24576 := Rect.part (s := S24576) (a₀ := 0) hdiv32 w
/-- The part of the subcore at grid point `L`: number 2·(subcore) + (SparseCore). -/
def widOf (L : grid1.Coords) : Fin 32 := ⟨2 * (L 1).val + (L 0).val, by
  have h0 : (L 0).val < 2 := (L 0).isLt
  have h1 : (L 1).val < 16 := (L 1).isLt
  omega⟩

theorem oRect_eq (L : grid1.Coords) : oRect L = oPart (widOf L) := by
  unfold oRect oPart Rect.part Rect.block
  congr 1 <;> funext a
  · rw [k1_off226_eq]
    match a with
    | 0 => simp [Shape.partIx, Shape.partSize, widOf]; omega
  · match a with
    | 0 => simp [Shape.partSize]

theorem oSet_eq (L : grid1.Coords) : oSet L = (oPart (widOf L)).set := by
  show ((View.whole (main_v3_scv : Ref sig .scVector)).slice (oRect L)).set = _
  rw [View.set_slice, oRect_eq]; exact Finset.map_refl

theorem widOf_LV_inj (c : Fin ((K (F := F)).nCore 0)) {i j : Fin ((K (F := F)).nSub 0)} (h : i ≠ j) :
    widOf (LV (F := F) c i) ≠ widOf (LV (F := F) c j) := by
  intro e
  apply h
  have := congrArg Fin.val e
  simp only [widOf, LV, coordsV] at this
  exact Fin.ext (by omega)

theorem oSets_disjoint (c : Fin ((K (F := F)).nCore 0)) :
    ∀ i ∈ (Finset.univ : Finset (Fin ((K (F := F)).nSub 0))), ∀ j ∈ (Finset.univ : Finset (Fin ((K (F := F)).nSub 0))), i ≠ j →
      Disjoint (oSet (LV (F := F) c i)) (oSet (LV (F := F) c j)) :=
  fun i _ j _ h => by rw [oSet_eq, oSet_eq]; exact Rect.part_disjoint hdiv32 (widOf_LV_inj (F := F) c h)

/-- A SparseCore's entries at one contents are its subcores' entries at those contents. -/
theorem oPts_tiles (d : Dev nD) (c : Fin ((K (F := F)).nCore 0)) (f : Buf (Elt F) (oLoc d)) :
    (oLoc d ↦[coreSet (F := F) c]{fullShare} f : sProp 𝕄)
      = bigSep Finset.univ fun i : Fin ((K (F := F)).nSub 0) => oLoc d ↦[oSet (LV (F := F) c i)]{fullShare} f := by
  unfold coreSet
  rw [← pointsTo_biUnion Finset.univ (ℓ := oLoc d) (fun i => oSet (LV (F := F) c i)) (oSets_disjoint (F := F) c)]

section Split

variable (xt : (d : Dev nD) → Buf (Elt F) (xtLoc d)) (o₀ o₁ : (d : Dev nD) → Buf (Elt F) (oLoc d))

/-- The sequencer's deal: one read token and one part per subcore out, the same back, the share's remainder kept meanwhile. -/
theorem vecSplit : (K (F := F)).VecSplit' (callPay (F := F) xt o₀ o₁) 0 := by
  intro d c
  show iprop((xtLoc d ↦{qC c.val} xt d) ∗ (oLoc d ↦[coreSet (F := F) c]{fullShare} o₀ d)) ⊢ |={Set.univ}=> iprop(
      (bigSep Finset.univ fun i : Fin ((K (F := F)).nSub 0) =>
        iprop((xtLoc d ↦{qT c.val i.val} xt d) ∗ (oLoc d ↦[oSet (LV (F := F) c i)]{fullShare} o₀ d)))
      ∗ ((bigSep Finset.univ fun i : Fin ((K (F := F)).nSub 0) =>
          iprop((xtLoc d ↦{qT c.val i.val} xt d) ∗ (oLoc d ↦[oSet (LV (F := F) c i)]{fullShare} o₁ d)))
          -∗ iprop((xtLoc d ↦{qC c.val} xt d) ∗ (oLoc d ↦[coreSet (F := F) c]{fullShare} o₁ d))))
  rw [bigSep_sep', bigSep_sep', oPts_tiles, oPts_tiles]
  iintro ⟨Hx, Ho⟩
  ihave Hx' := (Transfers.pointsTo_toks_split (qC c.val) ((K (F := F)).nSub 0)) $$ Hx
  icases Hx' with ⟨Hrem, Htoks⟩
  imodintro
  isplitl [Htoks Ho]
  · isplitl [Htoks]; · iexact Htoks
    iexact Ho
  iintro ⟨Htoks, Ho⟩
  isplitl [Hrem Htoks]
  · iapply (Transfers.pointsTo_toks_join (qC c.val) ((K (F := F)).nSub 0))
    isplitl [Hrem]; · iexact Hrem
    iexact Htoks
  iexact Ho

end Split

end Cert.Kernel.Hand

end
-- ==== Proof.KB.Stages.lean ====
/-
  The host operations around the two kernels, as functions of arrays.

  Before the kernels: the input [8, 384, 32, 16, 16] is transposed to [8, 32, 16, 16, 384] (the channel axis last) and
  that is re-laid as [256, 16, 16, 384] (batch and time merged into the pair index p = 32·b + t). After them: the
  SparseCore's flat result of 24576 entries is re-laid as [64, 384] (pairs 0 … 63), the pipelined region's [192, 384]
  (pairs 64 … 255) is appended below it, the [256, 384] array is re-laid as [8, 32, 384] and its last two axes are
  exchanged, giving [8, 384, 32].
-/
import proofs.«214330_g12317966205028_cont_fleet_230_29_alg».proof.Proof.Gen.Kernel

noncomputable section

namespace Cert.Kernel.Hand

open Cert.Kernel Cert.Kernel.Gen
open Idealize.ShloMosaic

variable {F : FTy → Type} [FloatOps F]

/-- The input with the channel axis moved last. -/
def xtOf (x : S8x384x32x16x16.Idx → Elt F .f32) : S8x32x16x16x384.Idx → Elt F .f32 :=
  transpose S8x32x16x16x384 [0, 2, 3, 4, 1] x transposes_S8x384x32x16x16_S8x32x16x16x384_0_2_3_4_1

/-- The transposed input with batch and time merged into the pair index. -/
def v1Of (xt : S8x32x16x16x384.Idx → Elt F .f32) : S256x16x16x384.Idx → Elt F .f32 :=
  fun i => shapeCast S256x16x16x384 xt shapeCasts_S8x32x16x16x384_S256x16x16x384 i

/-- The host operations after the kernels, of the SparseCore's flat result `v3` and the region's result `v2`. -/
def tailOf (v3 : S24576.Idx → Elt F .f32) (v2 : S192x384.Idx → Elt F .f32) : S8x384x32.Idx → Elt F .f32 :=
  transpose S8x384x32 [0, 2, 1]
    (fun i => shapeCast S8x32x384
      (concatenate S256x384 0 [⟨S64x384, fun j => shapeCast S64x384 v3 shapeCasts_S24576_S64x384 j⟩, ⟨S192x384, v2⟩]
        concatenates_S64x384_S192x384_S256x384_d0)
      shapeCasts_S256x384_S8x32x384 i)
    transposes_S8x32x384_S8x384x32_0_2_1

/-- The whole program's result from the input, given what the two kernels compute of their operands. -/
def kernelOut (fS : (S8x32x16x16x384.Idx → Elt F .f32) → S24576.Idx → Elt F .f32)
    (fT : (S256x16x16x384.Idx → Elt F .f32) → S192x384.Idx → Elt F .f32)
    (x : S8x384x32x16x16.Idx → Elt F .f32) : S8x384x32.Idx → Elt F .f32 :=
  tailOf (fS (xtOf x)) (fT (v1Of (xtOf x)))

end Cert.Kernel.Hand

end
-- ==== Proof.KB.Launch.lean ====
/-
  The launch of the SparseCore program: each thread's obligation from the proofs of the parts.

  The subcore's body enters as a hypothesis in the shape the launch theorem's tile obligation needs; the pipelined
  region on the TensorCore enters as a hypothesis too. From them: every weakly fair execution of the 35 threads ends,
  faults nowhere, leaves the input unchanged and the result at the host operations' value of the two kernels' outputs.
-/
import proofs.«214330_g12317966205028_cont_fleet_230_29_alg».proof.Proof.KB.Pay
import proofs.«214330_g12317966205028_cont_fleet_230_29_alg».proof.Proof.KB.Stages

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareDrop shareTokN shareTok)

variable {F : FTy → Type} [FloatOps F]

local notation "𝕄" => MT nD τ sig (HIx 1) (Elt F) ℕ UU ℕ

section Obligations

variable (xt : (d : Dev nD) → Buf (Elt F) (xtLoc d)) (o₀ o₁ : (d : Dev nD) → Buf (Elt F) (oLoc d))

/-- One subcore's task, at a symbolic grid point and read share: from a read share of the input at `xt` and its own
    768 result entries at `o₀`, it runs and leaves those entries at `o₁`. -/
def TileBody : Prop :=
  ∀ (d : Dev nD) (L : grid1.Coords) (q : PosShare TreeShare) (O : CellTallies nD τ sig (HIx 1)) (W : Waits sig (HIx 1)), (∀ g, O g none = 0) →
    iprop(levAts (K (F := F)).L (K (F := F)).lev ∗ (xtLoc d ↦{q} xt d) ∗ (oLoc d ↦[oSet L]{fullShare} o₀ d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => (iprop((xtLoc d ↦{q} xt d) ∗ (oLoc d ↦[oSet L]{fullShare} o₁ d)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

theorem obl_pre {A B C D' E' G : sProp 𝕄} : iprop(A ∗ emp ∗ (B ∗ C) ∗ D' ∗ E' ∗ G) ⊢ iprop(A ∗ B ∗ C ∗ D' ∗ E' ∗ G) := by
  iintro ⟨HA, -, ⟨HB, HC⟩, HD, HE, HG⟩
  isplitl [HA]; · iexact HA
  isplitl [HB]; · iexact HB
  isplitl [HC]; · iexact HC
  isplitl [HD]; · iexact HD
  isplitl [HE]; · iexact HE
  iexact HG

theorem obl_post {thr : Thread nD τ} {A B C D' : sProp 𝕄} {O : CellTallies nD τ sig (HIx 1)} {W : Waits sig (HIx 1)} {q : Fin 1} :
    iprop(A ∗ B ∗ C ∗ D' ∗ ∃ W', ⌜∀ p ∈ W', p ∈ W ∨ p.2 = none⌝ ∗ owes thr O W')
      ⊢ iprop((A ∗ B) ∗ C ∗ D' ∗ ∃ W', ⌜∀ p ∈ W', p ∈ W ∨ p.2 = none ∨ p.2 = some q⌝ ∗ owes thr O W') := by
  iintro ⟨HA, HB, HC, HD, %W', %hW', HO⟩
  isplitl [HA HB]
  · isplitl [HA]; · iexact HA
    iexact HB
  isplitl [HC]; · iexact HC
  isplitl [HD]; · iexact HD
  iexists W'; isplitr
  · ipureintro; exact fun p hp => (hW' p hp).imp_right Or.inl
  · iexact HO

/-- The launch theorem's tile obligation for the one call, from the body. -/
theorem tileObl (hbody : TileBody (F := F) xt o₀ o₁) : (K (F := F)).TileObl (D (F := F)) 𝒱 (callPay (F := F) xt o₀ o₁) v₀ 0 := by
  intro d c i O W hO _ _
  simp only [show (callPay (F := F) xt o₀ o₁).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact obl_pre.trans ((hbody d (LV (F := F) c i) (qT c.val i.val) O W hO).trans (wp_mono frame _ _ fun _ => obl_post))

end Obligations

/-! ## The launch element -/

section LaunchElement

variable (xt : (d : Dev nD) → Buf (Elt F) (xtLoc d)) (o₀ o₁ : (d : Dev nD) → Buf (Elt F) (oLoc d))
variable (uP : UP) (G : Dev nD → sProp (MT nD τ sig (HIx 1) (Elt F) ℕ UU ℕ))

/-- The launch element: the handshakes' rounds, the pipelined region's staging cells, the counters' unit. -/
def u₀ : UU := (initOf (K (F := F)).hsCells (K (F := F)).hsToks, (uP, (1 : Counters)))

theorem bigSep_emp' {I : Type} (s : Finset I) : (bigSep s fun _ => iprop(emp)) = (iprop(emp) : sProp 𝕄) := bigSep_emp_const s

/-- The element splits into the handshakes' component and the staging cells' (funded per device by `hG`); the counters' unit is dropped. -/
theorem hu₀ (hG : (BI.own (EP (F := F) uP) : sProp 𝕄) ⊢ |={Set.univ}=> bigSep Finset.univ G) :
    (ownU (u₀ (F := F) uP) : sProp 𝕄)
      ⊢ |={Set.univ}=> iprop(BI.own (EH (initOf (K (F := F)).hsCells (K (F := F)).hsToks)) ∗ (bigSep Finset.univ G)
        ∗ bigSep Finset.univ fun thr : Thread nD τ => bigSep Finset.univ fun q : Fin 1 => (callPay (F := F) xt o₀ o₁).x q thr) := by
  unfold u₀
  iintro Hu
  ihave H := (ownU_pair _ _) $$ Hu
  icases H with ⟨HH, HR⟩
  ihave HR' := (own_pair_emb (embR (A := UH) (B := UP × Counters)) uP (1 : Counters)) $$ HR
  icases HR' with ⟨HP, -⟩
  ihave HP' := (Entails.of_eq (show (BI.own (((Emb.inl : Emb UP (UP × Counters)).trans (embR (A := UH) (B := UP × Counters))) uP) : sProp 𝕄) = BI.own (EP (F := F) uP) from rfl)) $$ HP
  imod (hG) $$ HP' with HG
  imodintro
  isplitl [HH]; · iexact HH
  isplitl [HG]; · iexact HG
  unfold callPay; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end LaunchElement

/-! ## @main on the TensorCore -/

section Main

variable (m : (ℓ : Loc nD τ sig) → Buf (Elt F) ℓ) (ρ : Dev nD → PrngReg)
variable (fS : (S8x32x16x16x384.Idx → Elt F .f32) → S24576.Idx → Elt F .f32)
  (fT : (S256x16x16x384.Idx → Elt F .f32) → S192x384.Idx → Elt F .f32)

/-- The TensorCore's nine arrays: the input, and one per value of @main. -/
abbrev a0' : DevRef τ sig := Proc.devRef .tc (main_arg0 : Ref sig .tc)
abbrev r0' : DevRef τ sig := Proc.devRef .tc (main_v0 : Ref sig .tc)
abbrev r1' : DevRef τ sig := Proc.devRef .tc (main_v1 : Ref sig .tc)
abbrev r2' : DevRef τ sig := Proc.devRef .tc (main_v2 : Ref sig .tc)
abbrev r3' : DevRef τ sig := Proc.devRef .tc (main_v3 : Ref sig .tc)
abbrev r4' : DevRef τ sig := Proc.devRef .tc (main_v4 : Ref sig .tc)
abbrev r5' : DevRef τ sig := Proc.devRef .tc (main_v5 : Ref sig .tc)
abbrev r6' : DevRef τ sig := Proc.devRef .tc (main_v6 : Ref sig .tc)
abbrev r7' : DevRef τ sig := Proc.devRef .tc (main_v7 : Ref sig .tc)
abbrev S9 : Finset (DevRef τ sig) := {a0', r0', r1', r2', r3', r4', r5', r6', r7'}

/-- The host operations, as @main spells them. -/
abbrev op0 : HloOp τ sig (Elt F) :=
  StableHlo.unary main_arg0 main_v0 ((transpose S8x32x16x16x384 [0, 2, 3, 4, 1] · transposes_S8x384x32x16x16_S8x32x16x16x384_0_2_3_4_1) : (⟨S8x384x32x16x16, .f32⟩ : BufTy).Contents (Elt F) → (⟨S8x32x16x16x384, .f32⟩ : BufTy).Contents (Elt F))
abbrev op1 : HloOp τ sig (Elt F) := StableHlo.reshape main_v0 main_v1 rfl shapeCasts_S8x32x16x16x384_S256x16x16x384
abbrev op4 : HloOp τ sig (Elt F) := StableHlo.reshape main_v3 main_v4 rfl shapeCasts_S24576_S64x384
abbrev op5 : HloOp τ sig (Elt F) :=
  StableHlo.binary main_v4 main_v2 main_v5 ((fun a b => concatenate S256x384 0 [⟨S64x384, a⟩, ⟨S192x384, b⟩] concatenates_S64x384_S192x384_S256x384_d0) : (⟨S64x384, .f32⟩ : BufTy).Contents (Elt F) → (⟨S192x384, .f32⟩ : BufTy).Contents (Elt F) → (⟨S256x384, .f32⟩ : BufTy).Contents (Elt F))
abbrev op6 : HloOp τ sig (Elt F) := StableHlo.reshape main_v5 main_v6 rfl shapeCasts_S256x384_S8x32x384
abbrev op7 : HloOp τ sig (Elt F) :=
  StableHlo.unary main_v6 main_v7 ((transpose S8x384x32 [0, 2, 1] · transposes_S8x32x384_S8x384x32_0_2_1) : (⟨S8x32x384, .f32⟩ : BufTy).Contents (Elt F) → (⟨S8x384x32, .f32⟩ : BufTy).Contents (Elt F))

theorem h0 : (op0 (F := F)).bufs ⊆ S9 := show ({a0', r0'} : Finset (DevRef τ sig)) ⊆ S9 by decide
theorem h1 : (op1 (F := F)).bufs ⊆ S9 := show ({r0', r1'} : Finset (DevRef τ sig)) ⊆ S9 by decide
theorem h4 : (op4 (F := F)).bufs ⊆ S9 := show ({r3', r4'} : Finset (DevRef τ sig)) ⊆ S9 by decide
theorem h5 : (op5 (F := F)).bufs ⊆ S9 := show ({r4', r2', r5'} : Finset (DevRef τ sig)) ⊆ S9 by decide
theorem h6 : (op6 (F := F)).bufs ⊆ S9 := show ({r5', r6'} : Finset (DevRef τ sig)) ⊆ S9 by decide
theorem h7 : (op7 (F := F)).bufs ⊆ S9 := show ({r6', r7'} : Finset (DevRef τ sig)) ⊆ S9 by decide

/-- The arrays' contents: at the launch; after the two host operations before the kernels; after the pipelined region
    (its result at `fT` of its operand); after the SparseCore call (its result at `fS` of its operand); after each of the
    four host operations that follow. -/
abbrev V0 (d : Dev nD) : Valuation τ sig (Elt F) := fun b => m (d, b)
abbrev V1 (d : Dev nD) : Valuation τ sig (Elt F) := (op0 (F := F)).result (V0 m d)
abbrev V2 (d : Dev nD) : Valuation τ sig (Elt F) := (op1 (F := F)).result (V1 m d)
abbrev V3 (d : Dev nD) : Valuation τ sig (Elt F) := Function.update (V2 m d) r2' (fT (V2 m d r1'))
abbrev V4 (d : Dev nD) : Valuation τ sig (Elt F) := Function.update (V3 m fT d) r3' (fS (V3 m fT d r0'))
abbrev V5 (d : Dev nD) : Valuation τ sig (Elt F) := (op4 (F := F)).result (V4 m fS fT d)
abbrev V6 (d : Dev nD) : Valuation τ sig (Elt F) := (op5 (F := F)).result (V5 m fS fT d)
abbrev V7 (d : Dev nD) : Valuation τ sig (Elt F) := (op6 (F := F)).result (V6 m fS fT d)
abbrev V8 (d : Dev nD) : Valuation τ sig (Elt F) := (op7 (F := F)).result (V7 m fS fT d)

end Main

section Held

variable (thr : Thread nD τ) (x y : DevRef τ sig) (hxy : x ≠ y) (hx : x ∈ S9) (hy : y ∈ S9) (W : Valuation τ sig (Elt F))
include hxy hx hy

theorem pair_sub : ({x, y} : Finset (DevRef τ sig)) ⊆ S9 := by
  intro b hb
  rcases Finset.mem_insert.mp hb with rfl | hb
  · exact hx
  · rw [Finset.mem_singleton.mp hb]; exact hy

/-- Two of the nine arrays singled out, the other seven kept together. -/
theorem held_two_elim :
    (held thr S9 W : sProp 𝕄) ⊢ iprop(((thr.1, x) ↦{fullShare} W x) ∗ ((thr.1, y) ↦{fullShare} W y) ∗ held thr (S9 \ {x, y}) W) := by
  rw [StableHlo.held_sub_split thr (pair_sub x y hxy hx hy) W]
  unfold held
  rw [SparseCore.bigSep_insert' (by simpa using hxy), bigSep_singleton]
  iintro ⟨⟨Hx, Hy⟩, Hr⟩
  isplitl [Hx]; · iexact Hx
  isplitl [Hy]; · iexact Hy
  iexact Hr

/-- … and put back, the second at new contents. -/
theorem held_two_intro (f : Buf (Elt F) ((thr.1, y) : Loc nD τ sig)) :
    iprop(((thr.1, x) ↦{fullShare} W x) ∗ ((thr.1, y) ↦{fullShare} f) ∗ held thr (S9 \ {x, y}) W)
      ⊢ (held thr S9 (Function.update W y f) : sProp 𝕄) := by
  rw [StableHlo.held_sub_split thr (pair_sub x y hxy hx hy) (Function.update W y f),
    StableHlo.held_congr thr (S := S9 \ {x, y}) (V := Function.update W y f) (V' := W) (fun b hb => by
      have : b ≠ y := fun e => (Finset.mem_sdiff.mp hb).2 (by rw [e]; simp)
      exact Function.update_of_ne this _ _)]
  unfold held
  rw [SparseCore.bigSep_insert' (by simpa using hxy), bigSep_singleton, Function.update_of_ne hxy, Function.update_self]
  iintro ⟨Hx, Hy, Hr⟩
  isplitl [Hx Hy]
  · isplitl [Hx]; · iexact Hx
    iexact Hy
  iexact Hr

end Held

section MainProof

variable (m : (ℓ : Loc nD τ sig) → Buf (Elt F) ℓ) (ρ : Dev nD → PrngReg)
variable (fS : (S8x32x16x16x384.Idx → Elt F .f32) → S24576.Idx → Elt F .f32)
  (fT : (S256x16x16x384.Idx → Elt F .f32) → S192x384.Idx → Elt F .f32)
variable (Gd : Dev nD → sProp (MT nD τ sig (HIx 1) (Elt F) ℕ UU ℕ))

/-- The launch hands the TensorCore its nine arrays at the launch contents. -/
theorem unscoped_held (d : Dev nD) :
    (unscopedBufs d (fun b => m ((SparseCore.T d).loc b)) : sProp 𝕄) = held (T d) S9 (V0 m d) := by
  unfold unscopedBufs held S9
  rw [show (Finset.univ.filter fun b : Ref sig .tc => ¬ b.isScoped) = {main_arg0, main_v0, main_v1, main_v2, main_v3, main_v4, main_v5, main_v6, main_v7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! ### The SparseCores' shares of the call's operands -/

theorem widOf_LV_ne {c c' : Fin ((K (F := F)).nCore 0)} (h : c ≠ c') (i j : Fin ((K (F := F)).nSub 0)) :
    widOf (LV (F := F) c i) ≠ widOf (LV (F := F) c' j) := by
  intro e
  apply h
  have := congrArg Fin.val e
  simp only [widOf, LV, coordsV] at this
  have hc : c.val < 2 := c.isLt
  have hc' : c'.val < 2 := c'.isLt
  exact Fin.ext (by omega)

theorem coreSets_disjoint :
    ∀ c ∈ (Finset.univ : Finset (Fin ((K (F := F)).nCore 0))), ∀ c' ∈ (Finset.univ : Finset (Fin ((K (F := F)).nCore 0))), c ≠ c' →
      Disjoint (coreSet (F := F) c) (coreSet (F := F) c') := by
  intro c _ c' _ h
  unfold coreSet
  rw [Finset.disjoint_biUnion_left]
  intro i _
  rw [Finset.disjoint_biUnion_right]
  intro j _
  rw [oSet_eq, oSet_eq]
  exact Rect.part_disjoint hdiv32 (widOf_LV_ne (F := F) h i j)

theorem coreSets_cover : (Finset.univ : Finset (Fin ((K (F := F)).nCore 0))).biUnion (coreSet (F := F)) = Finset.univ := by
  apply Finset.eq_univ_of_forall
  intro idx
  have hidx : idx ∈ (Finset.univ : Finset (Fin 32)).biUnion (fun w => (oPart w).set) := by
    rw [Rect.biUnion_part hdiv32]; exact Finset.mem_univ _
  obtain ⟨w, -, hw⟩ := Finset.mem_biUnion.mp hidx
  have hw32 : w.val < 32 := w.isLt
  refine Finset.mem_biUnion.mpr ⟨⟨w.val % 2, Nat.mod_lt _ (by decide)⟩, Finset.mem_univ _, ?_⟩
  unfold coreSet
  refine Finset.mem_biUnion.mpr ⟨⟨w.val / 2, by show w.val / 2 < 16; omega⟩, Finset.mem_univ _, ?_⟩
  rw [oSet_eq]
  have : widOf (LV (F := F) ⟨w.val % 2, Nat.mod_lt _ (by decide)⟩ ⟨w.val / 2, by show w.val / 2 < 16; omega⟩) = w := by
    apply Fin.ext
    simp only [widOf, LV, coordsV]
    omega
  rw [this]; exact hw

/-- The flat result whole is the two SparseCores' entries. -/
theorem oPts_cores (d : Dev nD) (f : Buf (Elt F) (oLoc d)) :
    (oLoc d ↦{fullShare} f : sProp 𝕄) = bigSep Finset.univ fun c : Fin ((K (F := F)).nCore 0) => oLoc d ↦[coreSet (F := F) c]{fullShare} f := by
  rw [← pointsTo_biUnion Finset.univ (ℓ := oLoc d) (coreSet (F := F)) (coreSets_disjoint (F := F)), coreSets_cover]; try rfl

end MainProof

section MainRun

variable (m : (ℓ : Loc nD τ sig) → Buf (Elt F) ℓ) (ρ : Dev nD → PrngReg)
variable (fS : (S8x32x16x16x384.Idx → Elt F .f32) → S24576.Idx → Elt F .f32)
  (fT : (S256x16x16x384.Idx → Elt F .f32) → S192x384.Idx → Elt F .f32)
variable (Gd : Dev nD → sProp (MT nD τ sig (HIx 1) (Elt F) ℕ UU ℕ))

/-- The SparseCore call's operands: the transposed input when the call is made, the flat result before and after. -/
abbrev xtAt (d : Dev nD) : Buf (Elt F) (xtLoc d) := V3 m fT d r0'
abbrev oBefore (d : Dev nD) : Buf (Elt F) (oLoc d) := V3 m fT d r3'
abbrev oAfter (d : Dev nD) : Buf (Elt F) (oLoc d) := fS (V3 m fT d r0')

abbrev PP : (K (F := F)).Pay (nD := nD) (Val := Elt F) (Name := ℕ) (U := UU) := callPay (F := F) (xtAt m fT) (oBefore m fT) (oAfter m fS fT)

/-- The pipelined region on the TensorCore, as @main calls it: from the handshake state, the region boundary, its operand
    and result arrays whole and the staging cells' ghost state, to the same with the result at `fT` of the operand. -/
def TcRegion : Prop :=
  ∀ (κ : GSem nD τ sig → ℕ) (d : Dev nD) (v1 : Buf (Elt F) ((d, r1') : Loc nD τ sig)) (v2 : Buf (Elt F) ((d, r2') : Loc nD τ sig)) (Φ : PUnit → sProp 𝕄),
    iprop((K (F := F)).ctx EH (PP m fS fT) κ ∗ (K (F := F)).tcSt EH d 0 ∗ boundary (SparseCore.T d)
        ∗ (((d, r1') : Loc nD τ sig) ↦{fullShare} v1) ∗ (((d, r2') : Loc nD τ sig) ↦{fullShare} v2) ∗ Gd d
        ∗ (iprop((K (F := F)).tcSt EH d 0 ∗ boundary (SparseCore.T d) ∗ (((d, r1') : Loc nD τ sig) ↦{fullShare} v1)
            ∗ (((d, r2') : Loc nD τ sig) ↦{fullShare} fT v1)) -∗ Φ ⟨⟩))
      ⊢ wp frame (wpE ((K (F := F)).defs (D (F := F))) 𝒱 (SparseCore.T d) none) Set.univ
          (.op (.customCall (SparseCore.inner (Pipeline.entry 0)) ()) fun _ => .ret ⟨⟩) Φ

/-- What the call takes for the two SparseCores, and what it hands back: a read token of the input and its entries each. -/
theorem st0_eq (d : Dev nD) : (bigSep Finset.univ fun c : Fin ((K (F := F)).nCore 0) => (PP m fS fT).st 0 d c)
    = iprop((bigSep Finset.univ fun c : Fin ((K (F := F)).nCore 0) => xtLoc d ↦{qC c.val} xtAt m fT d)
        ∗ bigSep Finset.univ fun c : Fin ((K (F := F)).nCore 0) => oLoc d ↦[coreSet (F := F) c]{fullShare} oBefore m fT d) := by
  show (bigSep Finset.univ fun c : Fin ((K (F := F)).nCore 0) =>
    iprop((xtLoc d ↦{qC c.val} xtAt m fT d) ∗ (oLoc d ↦[coreSet (F := F) c]{fullShare} oBefore m fT d))) = _
  rw [bigSep_sep']
theorem dn0_eq (d : Dev nD) : (bigSep Finset.univ fun c : Fin ((K (F := F)).nCore 0) => (PP m fS fT).dn 0 d c)
    = iprop((bigSep Finset.univ fun c : Fin ((K (F := F)).nCore 0) => xtLoc d ↦{qC c.val} xtAt m fT d)
        ∗ bigSep Finset.univ fun c : Fin ((K (F := F)).nCore 0) => oLoc d ↦[coreSet (F := F) c]{fullShare} oAfter m fS fT d) := by
  show (bigSep Finset.univ fun c : Fin ((K (F := F)).nCore 0) =>
    iprop((xtLoc d ↦{qC c.val} xtAt m fT d) ∗ (oLoc d ↦[coreSet (F := F) c]{fullShare} oAfter m fS fT d))) = _
  rw [bigSep_sep']

/-- @main on device `d`'s TensorCore: the two host operations, the pipelined region (`hreg`), the SparseCore call (the
    library's rule for the call, each SparseCore handed a read token of the transposed input and its entries of the flat
    result), the four host operations after it. All nine arrays end at the last valuation. -/
theorem hmain (hreg : TcRegion (F := F) m fS fT Gd) (κ : GSem nD τ sig → ℕ) (d : Dev nD) :
    iprop((K (F := F)).ctx EH (PP m fS fT) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ held (T d) S9 (V8 m fS fT d)) := by
  unfold SparseCore.Cfg.tcRes
  rw [unscoped_held]
  simp only [main, wp_bind, wp_pure]
  iintro ⟨#Hctx, Hst, ⟨Hb, Hh, -, -⟩, HG⟩
  iapply (wp_hlo_within 𝒱 (SparseCore.T d) none Set.univ (op := op0 (F := F)) (S := S9) h0 (V := V0 m d)) $$ [Hb Hh]
  · isplitl [Hb]; · iexact Hb
    iexact Hh
  iintro ⟨Hb, Hh⟩
  rw [wp_ret]; imodintro
  iapply (wp_hlo_within 𝒱 (SparseCore.T d) none Set.univ (op := op1 (F := F)) (S := S9) h1 (V := V1 m d)) $$ [Hb Hh]
  · isplitl [Hb]; · iexact Hb
    iexact Hh
  iintro ⟨Hb, Hh⟩
  rw [wp_ret]; imodintro
  -- the pipelined region: its operand and result out of the nine, and back
  ihave Hh' := (held_two_elim (F := F) (T d) r1' r2' (by decide) (by decide) (by decide) (V2 m d)) $$ Hh
  icases Hh' with ⟨H1, H2, Hrest⟩
  iapply (hreg κ d (V2 m d r1') (V2 m d r2') _) $$ [Hst Hb H1 H2 HG Hrest]
  isplitr; · iexact Hctx
  isplitl [Hst]; · iexact Hst
  isplitl [Hb]; · iexact Hb
  isplitl [H1]; · iexact H1
  isplitl [H2]; · iexact H2
  isplitl [HG]; · iexact HG
  iintro ⟨Hst, Hb, H1, H2⟩
  ihave Hh := (held_two_intro (F := F) (T d) r1' r2' (by decide) (by decide) (by decide) (V2 m d) (fT (V2 m d r1'))) $$ [H1 H2 Hrest]
  · isplitl [H1]; · iexact H1
    isplitl [H2]; · iexact H2
    iexact Hrest
  -- the SparseCore call: the transposed input as two read tokens and a remainder, the flat result as the two SparseCores' entries
  ihave Hh' := (held_two_elim (F := F) (T d) r0' r3' (by decide) (by decide) (by decide) (V3 m fT d)) $$ Hh
  icases Hh' with ⟨H0, H3, Hrest⟩
  ihave H0' := (Transfers.pointsTo_toks_split fullShare ((K (F := F)).nCore 0)) $$ H0
  icases H0' with ⟨H0rem, H0toks⟩
  ihave H3' := (Entails.of_eq (oPts_cores (F := F) d (V3 m fT d r3'))) $$ H3
  iapply ((K (F := F)).wp_run (D (F := F)) 𝒱 (EH := EH) (P := PP m fS fT) κ d 0) $$ [Hst H0toks H3' Hb Hrest H0rem]
  isplitr; · iexact Hctx
  isplitl [Hst]; · iexact Hst
  isplitl [H0toks H3']
  · rw [st0_eq]
    isplitl [H0toks]; · iexact H0toks
    iexact H3'
  iintro ⟨Hst, Hdn⟩
  ihave Hdn' := (Entails.of_eq (dn0_eq m fS fT d)) $$ Hdn
  icases Hdn' with ⟨H0toks, H3'⟩
  ihave H0 := (Transfers.pointsTo_toks_join fullShare ((K (F := F)).nCore 0)) $$ [H0rem H0toks]
  · isplitl [H0rem]; · iexact H0rem
    iexact H0toks
  ihave H3 := (Entails.of_eq (oPts_cores (F := F) d (fS (V3 m fT d r0'))).symm) $$ H3'
  ihave Hh := (held_two_intro (F := F) (T d) r0' r3' (by decide) (by decide) (by decide) (V3 m fT d) (fS (V3 m fT d r0'))) $$ [H0 H3 Hrest]
  · isplitl [H0]; · iexact H0
    isplitl [H3]; · iexact H3
    iexact Hrest
  iapply (wp_hlo_within 𝒱 (SparseCore.T d) none Set.univ (op := op4 (F := F)) (S := S9) h4 (V := V4 m fS fT d)) $$ [Hb Hh]
  · isplitl [Hb]; · iexact Hb
    iexact Hh
  iintro ⟨Hb, Hh⟩
  rw [wp_ret]; imodintro
  iapply (wp_hlo_within 𝒱 (SparseCore.T d) none Set.univ (op := op5 (F := F)) (S := S9) h5 (V := V5 m fS fT d)) $$ [Hb Hh]
  · isplitl [Hb]; · iexact Hb
    iexact Hh
  iintro ⟨Hb, Hh⟩
  rw [wp_ret]; imodintro
  iapply (wp_hlo_within 𝒱 (SparseCore.T d) none Set.univ (op := op6 (F := F)) (S := S9) h6 (V := V6 m fS fT d)) $$ [Hb Hh]
  · isplitl [Hb]; · iexact Hb
    iexact Hh
  iintro ⟨Hb, Hh⟩
  rw [wp_ret]; imodintro
  iapply (wp_hlo_within 𝒱 (SparseCore.T d) none Set.univ (op := op7 (F := F)) (S := S9) h7 (V := V7 m fS fT d)) $$ [Hb Hh]
  · isplitl [Hb]; · iexact Hb
    iexact Hh
  iintro ⟨Hb, Hh⟩
  rw [wp_ret]; imodintro; imodintro
  isplitl [Hst]; · iexact Hst
  iexact Hh

end MainRun

/-! ## The arrays at the end, and the program's run -/

section Final

variable (m : (ℓ : Loc nD τ sig) → Buf (Elt F) ℓ) (ρ : Dev nD → PrngReg)
variable (fS : (S8x32x16x16x384.Idx → Elt F .f32) → S24576.Idx → Elt F .f32)
  (fT : (S256x16x16x384.Idx → Elt F .f32) → S192x384.Idx → Elt F .f32)

/-- The input's and the result's locations on device `d`. -/
abbrev xLoc (d : Dev nD) : Loc nD τ sig := (SparseCore.T d).loc main_arg0
abbrev yLoc (d : Dev nD) : Loc nD τ sig := (SparseCore.T d).loc main_v7

/-- No operation and neither kernel writes the input. -/
theorem V8_a0 (d : Dev nD) : V8 m fS fT d a0' = m (xLoc d) := by
  show (op7 (F := F)).result (V7 m fS fT d) a0' = _
  rw [StableHlo.unary_result_ne (h := show (main_arg0 : Ref sig .tc) ≠ main_v7 by decide)]
  show (op6 (F := F)).result (V6 m fS fT d) a0' = _
  rw [StableHlo.reshape_result_ne (h := show (main_arg0 : Ref sig .tc) ≠ main_v6 by decide)]
  show (op5 (F := F)).result (V5 m fS fT d) a0' = _
  rw [StableHlo.binary_result_ne (h := show (main_arg0 : Ref sig .tc) ≠ main_v5 by decide)]
  show (op4 (F := F)).result (V4 m fS fT d) a0' = _
  rw [StableHlo.reshape_result_ne (h := show (main_arg0 : Ref sig .tc) ≠ main_v4 by decide)]
  show Function.update (V3 m fT d) r3' _ a0' = _
  rw [Function.update_of_ne (show a0' ≠ r3' by decide)]
  show Function.update (V2 m d) r2' _ a0' = _
  rw [Function.update_of_ne (show a0' ≠ r2' by decide)]
  show (op1 (F := F)).result (V1 m d) a0' = _
  rw [StableHlo.reshape_result_ne (h := show (main_arg0 : Ref sig .tc) ≠ main_v1 by decide)]
  show (op0 (F := F)).result (V0 m d) a0' = _
  rw [StableHlo.unary_result_ne (h := show (main_arg0 : Ref sig .tc) ≠ main_v0 by decide)]

/-- The result array ends at the host operations' value of the two kernels' outputs. -/
theorem V8_r7 (d : Dev nD) : V8 m fS fT d r7' = kernelOut fS fT (m (xLoc d)) := by
  have e0 : V1 m d r0' = xtOf (m (xLoc d)) := StableHlo.unary_result _ _ _ _ _ _
  have e0' : V2 m d r0' = V1 m d r0' := StableHlo.reshape_result_ne (h := show (main_v0 : Ref sig .tc) ≠ main_v1 by decide) ..
  have e1 : V2 m d r1' = v1Of (V1 m d r0') := StableHlo.reshape_result _ _ _ _ _ _ _
  have e3 : V3 m fT d r0' = V2 m d r0' := Function.update_of_ne (show r0' ≠ r2' by decide) _ _
  have e2 : V3 m fT d r2' = fT (V2 m d r1') := Function.update_self _ _ _
  have e4 : V4 m fS fT d r3' = fS (V3 m fT d r0') := Function.update_self _ _ _
  have e2' : V4 m fS fT d r2' = V3 m fT d r2' := Function.update_of_ne (show r2' ≠ r3' by decide) _ _
  have e5 : V5 m fS fT d r4' = fun j => shapeCast S64x384 (V4 m fS fT d r3') shapeCasts_S24576_S64x384 j := StableHlo.reshape_result _ _ _ _ _ _ _
  have e5' : V5 m fS fT d r2' = V4 m fS fT d r2' := StableHlo.reshape_result_ne (h := show (main_v2 : Ref sig .tc) ≠ main_v4 by decide) ..
  have e6 : V6 m fS fT d r5' = concatenate S256x384 0 [⟨S64x384, V5 m fS fT d r4'⟩, ⟨S192x384, V5 m fS fT d r2'⟩] concatenates_S64x384_S192x384_S256x384_d0 :=
    StableHlo.binary_result _ _ _ _ _ _ _ _
  have e7 : V7 m fS fT d r6' = fun i => shapeCast S8x32x384 (V6 m fS fT d r5') shapeCasts_S256x384_S8x32x384 i := StableHlo.reshape_result _ _ _ _ _ _ _
  have e8 : V8 m fS fT d r7' = transpose S8x384x32 [0, 2, 1] (V7 m fS fT d r6') transposes_S8x32x384_S8x384x32_0_2_1 := StableHlo.unary_result _ _ _ _ _ _
  rw [e8, e7, e6, e5, e5', e2', e2, e1, e4, e3, e0', e0]
  rfl

/-- What the claim reads off the final memory of device `d`: the input unchanged, the result at the program's value. -/
def fq (d : Dev nD) (s' : Phys nD τ sig (Elt F)) : Prop :=
  s'.mem.mem (xLoc d) = m (xLoc d) ∧ s'.mem.mem (yLoc d) = kernelOut fS fT (m (xLoc d))

theorem hfin (d : Dev nD) (s' : Phys nD τ sig (Elt F)) :
    iprop(held (T d) S9 (V8 m fS fT d) ∗ SI s') ⊢ (⌜fq m fS fT d s'⌝ : sProp 𝕄) := by
  iintro ⟨Hh, HSI⟩
  ihave Hh' := (held_two_elim (F := F) (T d) a0' r7' (by decide) (by decide) (by decide) (V8 m fS fT d)) $$ Hh
  icases Hh' with ⟨Ha, Hy, -⟩
  ihave H := (persistent_entails_right (SI_pointsTo_agree (st := s') (ℓ := xLoc d) (I := Finset.univ) (q := fullShare) (f := V8 m fS fT d a0'))) $$ [HSI Ha]
  · isplitl [HSI] <;> iassumption
  icases H with ⟨%h1, HSI, -⟩
  ihave H := (SI_pointsTo_agree (st := s') (ℓ := yLoc d) (I := Finset.univ) (q := fullShare) (f := V8 m fS fT d r7')) $$ [HSI Hy]
  · isplitl [HSI] <;> iassumption
  icases H with %h2
  ipureintro
  exact ⟨(funext fun i => h1 i (Finset.mem_univ i)).trans (V8_a0 m fS fT d), (funext fun i => h2 i (Finset.mem_univ i)).trans (V8_r7 m fS fT d)⟩

/-- The run's post: on every device the result at the program's value of the input, the input unchanged. -/
def QC : PUnit × MemSt nD τ sig (Elt F) → Prop :=
  fun r => ∀ c : Dev nD, r.2.mem (yLoc c) = kernelOut fS fT (m (xLoc c)) ∧ r.2.mem (xLoc c) = m (xLoc c)

/-- Every weakly fair execution of the program's 35 threads from the launch memory ends, faults nowhere, and ends in `QC`:
    from the subcore's body, the pipelined region and the funding of its staging cells. -/
theorem run_main [∀ e, Nonempty (Elt F e)] (uP : UP) (Gd : Dev nD → sProp (MT nD τ sig (HIx 1) (Elt F) ℕ UU ℕ))
    (hG : (BI.own (EP (F := F) uP) : sProp 𝕄) ⊢ |={Set.univ}=> bigSep Finset.univ Gd)
    (hreg : TcRegion (F := F) m fS fT Gd)
    (hbody : TileBody (F := F) (xtAt m fT) (oBefore m fT) (oAfter m fS fT)) :
    θ_run (Cert.Kernel.defs (F := F)) (Cert.Kernel.threads (F := F)) ⟨m, fun _ => 0, ρ⟩ (QC m fS fT) :=
  SparseCore.Cfg.θ_run_sc (K := K (F := F)) (D := D (F := F)) (𝒱 := 𝒱) (EH := EH) (P := PP m fS fT) facts v₀
    (fun q hq => match q with | 0 => nomatch hq)
    (fun q _ => match q with | 0 => tileObl (xtAt m fT) (oBefore m fT) (oAfter m fS fT) hbody)
    (fun q _ => match q with | 0 => SparseCore.Cfg.VecSplit.of_plain (vecSplit (xtAt m fT) (oBefore m fT) (oAfter m fS fT)))
    m ρ main Gd (fun d => held (T d) S9 (V8 m fS fT d)) (u₀ (F := F) uP)
    (sep_elim_left.trans (hu₀ (xtAt m fT) (oBefore m fT) (oAfter m fS fT) uP Gd hG))
    (hmain m ρ fS fT Gd hreg) (fq m fS fT) (hfin m fS fT) (QC m fS fT) (fun _ h c => ⟨(h c).2, (h c).1⟩)

end Final

end Cert.Kernel.Hand

end
-- ==== Proof.KB.TcOut.lean ====
/-
  The one whole-array function the pipelined region of the TensorCore leaves in its result array.

  The region runs on a grid of six points. Point `t` reads the block of the reshaped input made of planes
  64 + 32·t … 64 + 32·t + 31, rows 0 … 14 of each plane, every column and every channel, and writes rows
  32·t … 32·t + 31 of the result: the body's one stored value, computed from that block. Read at a row
  `r = 32·t + y` and a channel, the result is therefore the stored value of block `r / 32` at `(r % 32, channel)`.
-/
import proofs.«214330_g12317966205028_cont_fleet_230_29_alg».proof.Proof.Gen.Kernel.Skeleton
import Idealize.ShloMosaic.Lib.ValueIdx

noncomputable section

namespace Cert.Kernel.Hand

open Cert.Kernel Cert.Kernel.Gen

open Idealize.ShloMosaic
open Idealize.ShloMosaic.ValueIdx

variable {F : FTy → Type} [FloatOps F]

/-- The input block of grid point `t`, read out of the whole reshaped input: entry `(y, h, w, c)` of the block is
    entry `(64 + 32·t + y, h, w, c)` of the array (planes 64 + 32·t … 64 + 32·t + 31; rows 0 … 14 of 16). -/
def tcIn (v1 : S256x16x16x384.Idx → Elt F .f32) (t : Fin 6) : Vec F S32x15x16x384 .f32 :=
  fun j => v1 (ix4 (n0 := 256) (n1 := 16) (n2 := 16) (n3 := 384)
    ⟨64 + 32 * t.val + (j 0).val, by have h : (j 0).val < 32 := (j 0).isLt; have := t.isLt; omega⟩
    ⟨(j 1).val, by have h : (j 1).val < 15 := (j 1).isLt; omega⟩
    ⟨(j 2).val, (j 2).isLt⟩ ⟨(j 3).val, (j 3).isLt⟩)

/-- What the region leaves in its result array, as one function of the reshaped input: row `r`, channel `c` is the
    body's stored value of block `r / 32` at `(r % 32, c)`. -/
def tcOut (v1 : S256x16x16x384.Idx → Elt F .f32) : S192x384.Idx → Elt F .f32 :=
  fun i => k0_pay1 (tcIn v1 ⟨(i 0).val / 32, by have h : (i 0).val < 192 := (i 0).isLt; omega⟩)
    (ix2 (n0 := 32) (n1 := 384) ⟨(i 0).val % 32, Nat.mod_lt _ (by decide)⟩ ⟨(i 1).val, (i 1).isLt⟩)

/-- The block read at an entry. -/
theorem tcIn_apply (v1 : S256x16x16x384.Idx → Elt F .f32) (t : Fin 6) (j : S32x15x16x384.Idx) :
    tcIn v1 t j = v1 (ix4 (n0 := 256) (n1 := 16) (n2 := 16) (n3 := 384)
      ⟨64 + 32 * t.val + (j 0).val, by have h : (j 0).val < 32 := (j 0).isLt; have := t.isLt; omega⟩
      ⟨(j 1).val, by have h : (j 1).val < 15 := (j 1).isLt; omega⟩
      ⟨(j 2).val, (j 2).isLt⟩ ⟨(j 3).val, (j 3).isLt⟩) := rfl

/-- The result read at row `32·t + y`: the stored value of block `t` at `(y, c)`. -/
theorem tcOut_block (v1 : S256x16x16x384.Idx → Elt F .f32) (t : Fin 6) (y : Fin 32) (c : Fin 384) :
    tcOut v1 (ix2 (n0 := 192) (n1 := 384) ⟨32 * t.val + y.val, by have := t.isLt; have := y.isLt; omega⟩ c)
      = k0_pay1 (tcIn v1 t) (ix2 (n0 := 32) (n1 := 384) y c) := by
  have h1 : (32 * t.val + y.val) / 32 = t.val := by have := y.isLt; omega
  have h2 : (32 * t.val + y.val) % 32 = y.val := by have := y.isLt; omega
  unfold tcOut
  have e1 : (⟨(32 * t.val + y.val) / 32, by have := t.isLt; have := y.isLt; omega⟩ : Fin 6) = t := Fin.ext h1
  have e2 : (⟨(32 * t.val + y.val) % 32, Nat.mod_lt _ (by decide)⟩ : Fin 32) = y := Fin.ext h2
  show k0_pay1 (tcIn v1 ⟨(32 * t.val + y.val) / 32, _⟩) (ix2 (n0 := 32) (n1 := 384) ⟨(32 * t.val + y.val) % 32, _⟩ ⟨c.val, _⟩) = _
  rw [e1, e2]

end Cert.Kernel.Hand

end
-- ==== Proof.KB.TcBody.lean ====
/-
  The body of the pipelined region at one grid point.

  The body loads its whole input staging block, computes one value from it and stores that value over its whole
  output staging block. So whatever the two staging buffers are, if the input's holds `X` the output's ends holding
  the stored value of `X`, and the input's is unchanged.
-/
import proofs.«214330_g12317966205028_cont_fleet_230_29_alg».proof.Proof.KB.Base

noncomputable section

namespace Cert.Kernel.Hand

open Cert.Kernel Cert.Kernel.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

variable {F : FTy → Type} [FloatOps F]

local notation "𝕄" => MT nD τ sig (HIx 1) (Elt F) ℕ UU ℕ

/-! ## A whole buffer read and written through the unit rectangle at zero offsets -/

section Whole

variable {κ : Kind} {sp : Space} {s : Shape} {e : EltTy} {Val : EltTy → Type}

/-- A load of a whole buffer through the rectangle of the buffer's own sizes at zero offsets reads what the buffer's
    view reads. -/
theorem tc_readAt_zero_of_isWhole {m : Memref sig κ sp s e} (h : m.IsWhole) {off : Fin s.rank → Nat} (h0 : off = fun _ => 0)
    (inb : ∀ a, off a + s.size a ≤ s.size a) (f : m.view.ty.Contents Val) :
    m.view.readAt Val (Rect.unit off s.size inb).toLoadRect f = m.view.read Val f := by
  obtain ⟨b, rfl, rfl, rfl, hm⟩ := h; cases hm
  exact Memref.readAt_unit_zero Val b h0 inb f

/-- An unmasked store of `w` through that rectangle leaves the buffer reading `w`. -/
theorem tc_read_write_zero_of_isWhole {m : Memref sig κ sp s e} (h : m.IsWhole) {off : Fin s.rank → Nat} (h0 : off = fun _ => 0)
    (inb : ∀ a, off a + s.size a ≤ s.size a) (f : m.view.ty.Contents Val) (w : s.Idx → Val e) :
    m.view.read Val ((m.access (Rect.unit off s.size inb)).write Val f w Finset.univ) = w := by
  obtain ⟨b, rfl, rfl, rfl, hm⟩ := h; cases hm
  exact Memref.write_access_unit_zero_univ Val b h0 inb f w

end Whole

/-! ## The body at one point -/

/-- The region's body on any two whole staging buffers: the input's holding `X` and the output's holding anything, it
    ends with the input's unchanged and the output's holding the stored value of `X`. -/
theorem tc_body_run (c : Dev nD) (E : Set ℕ) (i : grid0.Coords)
    (MX : Memref sig .tc .vmem S32x15x16x384 .f32) (hX : MX.IsWhole) (MO : Memref sig .tc .vmem S32x384 .f32) (hO : MO.IsWhole)
    (X : Vec F S32x15x16x384 .f32) (Y : Vec F S32x384 .f32) {Kc : PUnit → sProp 𝕄} :
    iprop(owns (c : Thread nD τ) MX fullShare X ∗ owns (c : Thread nD τ) MO fullShare Y
        ∗ (iprop(owns (c : Thread nD τ) MX fullShare X ∗ owns (c : Thread nD τ) MO fullShare (k0_pay1 X)) -∗ Kc ⟨⟩))
      ⊢ wp frame (wpE (defs₀ (F := F)) 𝒱₀ c none) E (cc0_tc_body i MX hX MO hO) Kc := by
  have hz4 : (![0, 0, 0, 0] : Fin 4 → Nat) = fun _ => 0 := funext fun a => by fin_cases a <;> rfl
  have hz2 : (![0, 0] : Fin 2 → Nat) = fun _ => 0 := funext fun a => by fin_cases a <;> rfl
  rw [cc0_tc_body_eq_skeleton]; unfold cc0_tc_body_skel owns
  simp only [Prog.lift, Prog.bind_op, Prog.bind_ret]
  iintro ⟨⟨%f, %hf, HX⟩, ⟨%g, %hg, HO⟩, Hk⟩
  sl_steps
  iapply Hk
  isplitl [HX]
  · iexists f; isplitr; · ipureintro; exact hf
    iexact HX
  · iexists _; isplitr
    swap; · iexact HO
    ipureintro
    rw [tc_read_write_zero_of_isWhole hO hz2, tc_readAt_zero_of_isWhole hX hz4, hf]

end Cert.Kernel.Hand

end
-- ==== Proof.KB.TcDat.lean ====
/-
  The proof data of the pipelined region, the body obligation at every grid point, and what the result array holds
  after the six write-backs.

  The input window's staging buffer holds, when the body runs at point `t`, the input block of that point (the fetch
  fills the whole buffer: the block lies inside the array); the output window's buffer holds anything. After the body
  the input's buffer is as it was and the output's holds the stored value of the input block. The six output blocks
  tile the result array, and block `t` of the one whole-array function `tcOut` is that stored value: so the array ends
  holding `tcOut` of the input.
-/
import proofs.«214330_g12317966205028_cont_fleet_230_29_alg».proof.Proof.KB.Base
import proofs.«214330_g12317966205028_cont_fleet_230_29_alg».proof.Proof.KB.TcOut
import proofs.«214330_g12317966205028_cont_fleet_230_29_alg».proof.Proof.KB.TcBody
import Idealize.ShloMosaic.Lib.Pipeline.Value

noncomputable section

namespace Cert.Kernel.Hand

open Cert.Kernel Cert.Kernel.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)
open Idealize.ShloMosaic.ValueIdx

variable {F : FTy → Type} [FloatOps F]

local notation "𝕄" => MT nD τ sig (HIx 1) (Elt F) ℕ UU ℕ

/-! ## The grid's points and the windows' geometry -/

/-- Grid point `t` as a number below six. -/
def tcPt (t : Fin cfg0.N) : Fin 6 := ⟨t.val, Nat.lt_of_lt_of_eq t.isLt N_0⟩

/-- The input window's block index at point `t` is `(2 + t, 0, 0, 0)`, and no axis of it is cut. -/
theorem tc_index_in : ∀ (t : Fin cfg0.N) (a : Fin 4), win0_0.index t a = (![2 + t.val, 0, 0, 0] : Fin 4 → Nat) a :=
  (by decide +kernel : ∀ (t : Fin grid0.N) (a : Fin 4), win0_0.index t a = (![2 + t.val, 0, 0, 0] : Fin 4 → Nat) a)
theorem tc_xsize_in : ∀ (t : Fin cfg0.N) (a : Fin 4), win0_0.xsize (grid0.coords t) a = win0_0.size a :=
  (by decide +kernel : ∀ (t : Fin grid0.N) (a : Fin 4), win0_0.xsize (grid0.coords t) a = win0_0.size a)
/-- The output window's block index at point `t` is `(t, 0)`. -/
theorem tc_index_out : ∀ (t : Fin cfg0.N) (a : Fin 2), win0_1.index t a = (![t.val, 0] : Fin 2 → Nat) a :=
  (by decide +kernel : ∀ (t : Fin grid0.N) (a : Fin 2), win0_1.index t a = (![t.val, 0] : Fin 2 → Nat) a)
/-- The output window is never fetched. -/
theorem tc_fetch_out : ∀ t : Fin cfg0.N, (cfg0.win 1).fetch t = false :=
  (by decide +kernel : ∀ t : Fin grid0.N, win0_1.fetch t = false)

/-- The fetch at point `t` fills the input's staging buffer with the input block of `t`, whatever it held. -/
theorem tc_fill_block (v1 : S256x16x16x384.Idx → Elt F .f32) (t : Fin cfg0.N) (d : S32x15x16x384.Idx → Elt F .f32) :
    win0_0.fill (grid0.coords t) d ((win0_0.blk t).view.read (Elt F) v1) = tcIn v1 (tcPt t) := by
  funext j
  have hm : win0_0.moved (grid0.coords t) j = true := (win0_0.moved_iff _ j).mpr fun a => by
    rw [tc_xsize_in t a]; exact (j a).isLt
  unfold Window.fill; rw [dif_pos hm, View.read_apply, cast_eq, tcIn_apply]
  refine congrArg v1 (funext fun a => Fin.ext ?_)
  show ((win0_0.rect t).emb _ a : Nat) = _
  rw [win0_0.rect_emb_val t _ a, tc_index_in t a]
  match a with
  | ⟨0, _⟩ => show (2 + t.val) * 32 + (j 0).val = 64 + 32 * t.val + (j 0).val; omega
  | ⟨1, _⟩ => show 0 * 15 + (j 1).val = (j 1).val; omega
  | ⟨2, _⟩ => show 0 * 16 + (j 2).val = (j 2).val; omega
  | ⟨3, _⟩ => show 0 * 384 + (j 3).val = (j 3).val; omega

/-- The result read where block `t`'s entry `y` sits: the stored value of block `t` at `y`. -/
theorem tcOut_at (v1 : S256x16x16x384.Idx → Elt F .f32) (i : S192x384.Idx) (t : Fin 6) (y : S32x384.Idx)
    (h0 : (i 0).val = 32 * t.val + (y 0).val) (h1 : (i 1).val = (y 1).val) : tcOut v1 i = k0_pay1 (tcIn v1 t) y := by
  have hy : (y 0).val < 32 := (y 0).isLt
  have e1 : (⟨(i 0).val / 32, by have h : (i 0).val < 192 := (i 0).isLt; omega⟩ : Fin 6) = t := Fin.ext (by show (i 0).val / 32 = t.val; omega)
  have e2 : ix2 (n0 := 32) (n1 := 384) ⟨(i 0).val % 32, Nat.mod_lt _ (by decide)⟩ ⟨(i 1).val, (i 1).isLt⟩ = y := by
    funext a
    match a with
    | ⟨0, _⟩ => exact Fin.ext (by show (i 0).val % 32 = (y 0).val; omega)
    | ⟨1, _⟩ => exact Fin.ext (by show (i 1).val = (y 1).val; exact h1)
  unfold tcOut; rw [e1, e2]

/-! ## The proof data -/

/-- The region's proof data on device `c`: the input array at `v1` and the result array at `v2₀` on entry; after the
    body at point `t` the input's staging buffer at the input block of `t` and the output's at its stored value; no
    invariant; the TensorCore owing throughout what it owes before its first SparseCore call, its recorded waits all
    at level zero. -/
def tcDats (v1 : S256x16x16x384.Idx → Elt F .f32) (v2₀ : S192x384.Idx → Elt F .f32) (_ : Fin 1) (c : Dev nD) :
    Dat τ (Elt F) (HIx 1) ℕ UU ℕ cfg0 c where
  A w := match w with
    | ⟨0, _⟩ => v1
    | ⟨1, _⟩ => v2₀
  after w t := match w with
    | ⟨0, _⟩ => tcIn v1 (tcPt t)
    | ⟨1, _⟩ => k0_pay1 (tcIn v1 (tcPt t))
  Φ _ := iprop(emp)
  q _ := fullShare
  owed _ := (K (F := F)).Otc c 0
  recorded _ := {p | (K (F := F)).lev (T c, p.1) p.2 ≤ 0}

variable (v1 : S256x16x16x384.Idx → Elt F .f32) (v2₀ : S192x384.Idx → Elt F .f32)

/-- What the body finds: the input's buffer just fetched, holding the input block; -/
theorem tc_before_in (c : Dev nD) (t : Fin cfg0.N) (d) : (tcDats v1 v2₀ 0 c).before (0 : Fin 2) t d = tcIn v1 (tcPt t) := by
  unfold Dat.before; rw [if_pos (fetch0_0 t)]
  exact tc_fill_block v1 t d
/-- the output's buffer at contents nothing names. -/
theorem tc_before_out (c : Dev nD) (t : Fin cfg0.N) (d) : (tcDats v1 v2₀ 0 c).before (1 : Fin 2) t d = d := by
  unfold Dat.before
  rw [if_neg (by rw [tc_fetch_out t]; exact Bool.false_ne_true)]
  by_cases h0 : t.val = 0
  · rw [if_pos h0]
  · rw [if_neg h0]; exact if_pos (flush0_1 _)

/-- The body obligation at every point. -/
theorem tc_body_obligation (c : Dev nD) :
    BodyObligationLoose (tcDats v1 v2₀ 0 c) (defs₀ (F := F)) 𝒱₀ (none : HIx 1) Set.univ := fun t => by
  rw [bigSep_W0, bigSep_W0]
  simp only
  rw [show (tcDats v1 v2₀ 0 c).Φ t.succ = (tcDats v1 v2₀ 0 c).Φ t.castSucc from rfl,
    show (tcDats v1 v2₀ 0 c).owesAt none t.succ = (tcDats v1 v2₀ 0 c).owesAt none t.castSucc from rfl]
  iintro ⟨HΦ, Ho, ⟨%d0, H0⟩, ⟨%d1, H1⟩⟩
  rw [tc_before_in, tc_before_out]
  iapply (tc_body_run (F := F) c Set.univ (grid0.coords t) _ (hstage0_0 ((cfg0.slots t 0).cast nbuf0_0)) _
    (hstage0_1 ((cfg0.slots t 1).cast nbuf0_1)) (tcIn v1 (tcPt t)) d1)
  isplitl [H0]; · iexact H0
  isplitl [H1]; · iexact H1
  iintro ⟨H0, H1⟩
  isplitl [HΦ]; · iexact HΦ
  isplitl [Ho]; · iexact Ho
  isplitl [H0]
  · -- the input window is described on the part its transfers move: what the buffer holds, cut and filled back
    iexists tcIn v1 (tcPt t)
    rw [show (tcDats v1 v2₀ 0 c).after 0 t = tcIn v1 (tcPt t) from rfl, (win0 0).fill_cut]
    iexact H0
  · iexact H1

/-! ## The result array after the six write-backs -/

/-- What point `t` writes back is block `t` of `tcOut v1`. -/
theorem tc_flushed_out (c : Dev nD) (t : Fin cfg0.N) :
    (tcDats v1 v2₀ 0 c).flushed (1 : Fin 2) t = ((cfg0.win 1).blk t).view.read (Elt F) (tcOut v1) := by
  funext y
  rw [View.read_apply, cast_eq]
  show k0_pay1 (tcIn v1 (tcPt t)) ((win0 1).xinj (grid0.coords t) y) = tcOut v1 (((cfg0.win 1).blk t).view.emb y)
  refine (tcOut_at v1 _ (tcPt t) _ ?_ ?_).symm
  · show ((win0_1.rect t).emb y 0 : Nat) = 32 * t.val + (y 0).val
    rw [win0_1.rect_emb_val t y 0, tc_index_out t 0]
    show t.val * 32 + (y 0).val = 32 * t.val + (y 0).val; omega
  · show ((win0_1.rect t).emb y 1 : Nat) = (y 1).val
    rw [win0_1.rect_emb_val t y 1, tc_index_out t 1]
    show 0 * 384 + (y 1).val = (y 1).val; omega

/-- Every entry of the result array lies in the block of the point its row belongs to. -/
theorem tc_cover_out (i : S192x384.Idx) :
    ∃ t : Fin cfg0.N, (cfg0.win 1).flush t = true ∧ i ∈ ((cfg0.win 1).blk t).view.set := by
  have hi : (i 0).val < 192 := (i 0).isLt
  have hi1 : (i 1).val < 384 := (i 1).isLt
  let t : Fin cfg0.N := ⟨(i 0).val / 32, by rw [show cfg0.N = 6 from N_0]; omega⟩
  refine ⟨t, flush0_1 t, ?_⟩
  show i ∈ ((View.whole main_v2).slice (win0_1.rect t)).set
  rw [View.set_slice_whole, Rect.mem_set_unit]
  intro a
  match a with
  | ⟨0, _⟩ =>
    show win0_1.index t 0 * 32 ≤ (i 0).val ∧ (i 0).val < win0_1.index t 0 * 32 + 32
    rw [tc_index_out t 0]; show (i 0).val / 32 * 32 ≤ (i 0).val ∧ (i 0).val < (i 0).val / 32 * 32 + 32; omega
  | ⟨1, _⟩ =>
    show win0_1.index t 1 * 384 ≤ (i 1).val ∧ (i 1).val < win0_1.index t 1 * 384 + 384
    rw [tc_index_out t 1]; show 0 * 384 ≤ (i 1).val ∧ (i 1).val < 0 * 384 + 384; omega

/-- The result array after the run: `tcOut` of the input, whatever it held on entry. -/
theorem tc_arrAt_out (c : Dev nD) : (tcDats v1 v2₀ 0 c).arrAt (1 : Fin 2) cfg0.N = tcOut v1 :=
  (tcDats v1 v2₀ 0 c).arrAt_eq_of_cover (1 : Fin 2) (tcOut v1) (fun t _ => tc_flushed_out v1 v2₀ c t) (tc_cover_out)

/-- The input array is never written. -/
theorem tc_arrAt_in (c : Dev nD) (n : ℕ) : (tcDats v1 v2₀ 0 c).arrAt (0 : Fin 2) n = v1 :=
  (tcDats v1 v2₀ 0 c).arrAt_in (0 : Fin 2) rfl n

end Cert.Kernel.Hand

end
-- ==== Proof.KB.TcRegion.lean ====
/-
  The pipelined region of the TensorCore as one step of @main.

  The region is entered from the boundary between host operations with the input array at `v1`, the result array at
  anything, what the TensorCore owes the SparseCores (its start signals, all still ahead) and the staging cells' ghost
  state as the launch dealt it; it leaves the input array as it was and the result array at `tcOut v1`. The staging
  cells' waits are at the kernels' own index, below every start signal owed.
-/
import proofs.«214330_g12317966205028_cont_fleet_230_29_alg».proof.Proof.KB.Base
import proofs.«214330_g12317966205028_cont_fleet_230_29_alg».proof.Proof.KB.TcOut
import proofs.«214330_g12317966205028_cont_fleet_230_29_alg».proof.Proof.KB.TcBody
import proofs.«214330_g12317966205028_cont_fleet_230_29_alg».proof.Proof.KB.TcDat
import Idealize.ShloMosaic.Lib.Pipeline.Value

noncomputable section

namespace Cert.Kernel.Hand

open Cert.Kernel Cert.Kernel.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)
open Idealize.ShloMosaic.ValueIdx

variable {F : FTy → Type} [FloatOps F]

local notation "𝕄" => MT nD τ sig (HIx 1) (Elt F) ℕ UU ℕ

variable (v1 : S256x16x16x384.Idx → Elt F .f32) (v2₀ : S192x384.Idx → Elt F .f32)

/-- The reshaped input and the region's result, as locations of the device. -/
abbrev v1Loc (d : Dev nD) : Loc nD τ sig := (SparseCore.T d).loc main_v1
abbrev v2Loc (d : Dev nD) : Loc nD τ sig := (SparseCore.T d).loc main_v2

/-- The region prefetches no table. -/
abbrev tcAdm : (p : Fin 1) → (pcfgs (F := F) p).Adm := fun p => (cfgs p).toPCfg_adm

/-! ## What the TensorCore owes through the region -/

/-- Everything the TensorCore owes before its first SparseCore call is at a call's index. -/
theorem tc_Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- The TensorCore's debts as it holds them before its first SparseCore call: its recorded waits all at level zero. -/
abbrev tcOwes (c : Dev nD) : sProp 𝕄 :=
  iprop(∃ W, ⌜(K (F := F)).WBelow (T c) W (8 * 0)⌝ ∗ owes (T c) ((K (F := F)).Otc c 0) W)

theorem owesAt_of_tcOwes (c : Dev nD) (t : Fin (cfg0.N + 1)) : tcOwes (F := F) c ⊢ (tcDats v1 v2₀ 0 c).owesAt none t := by
  unfold Dat.owesAt Pipeline.owesWithin
  iintro ⟨%W, %hW, HO⟩
  iexists W; isplitr
  · ipureintro; exact fun p hp => Or.inl (hW p hp)
  · iexact HO

theorem tcOwes_of_owesAt (c : Dev nD) (t : Fin (cfg0.N + 1)) : (tcDats v1 v2₀ 0 c).owesAt none t ⊢ tcOwes (F := F) c := by
  unfold Dat.owesAt Pipeline.owesWithin
  iintro ⟨%W, %hW, HO⟩
  iexists W; isplitr
  · ipureintro
    intro p hp
    rcases hW hp with h | ⟨w, s, rfl⟩
    · exact h
    · exact Nat.le_of_eq ((K (F := F)).lev_none _)
  · iexact HO

/-! ## The arrays -/

theorem tcArrays_eq (c : Dev nD) (F' : (w : Fin cfg0.W) → Buf (Elt F) ((cfg0.win w).arr.view.loc (c.tc : Thread nD τ))) :
    (tcDats v1 v2₀ 0 c).arrays F' = iprop((v1Loc c ↦{fullShare} F' 0) ∗ (v2Loc c ↦{fullShare} F' 1)) := by
  rw [Pipeline.arrays_eq (fun _ : Fin 1 => cfg0) (tcDats v1 v2₀) 0 c arr_whole0 (fun w => (tcDats v1 v2₀ 0 c).share_full (fun _ => rfl) w) F',
    bigSep_W0]

/-! ## The region's record -/

/-- The staging cells may be waited on at the kernels' own index under everything the TensorCore then owes. -/
theorem tc_region_waits (c : Dev nD) :
    (levAts (K (F := F)).L (K (F := F)).lev : sProp 𝕄) ⊢ Pipeline.cellsWaits (Pipeline.pin (pcfgs (F := F)) tcAdm) (tcDats v1 v2₀) (none : HIx 1) 0 c :=
  Pipeline.cellsWaits_intro (Pipeline.pin (pcfgs (F := F)) tcAdm) (tcDats v1 v2₀) (none : HIx 1) 0 c fun w s t =>
    (K (F := F)).mayWait_none (.dma ((cfg0.win w).sem s)) (fun g => tc_Otc_none c 0 g)

-- the record's fields are stated over the pinned configuration, which is `cfg0` up to unfolding plain definitions
set_option backward.isDefEq.respectTransparency.types false in
/-- The region as a segment of @main: entered with the TensorCore's debts, the input array at `v1` and the result array
    at `v2₀`; left with the same debts, the input array as it was and the result array at `tcOut v1`. The kernel has no
    semaphore of its own and no invariant; nothing bypasses the region. -/
def tcReg : Pipeline.RegionSeg (pcfgs (F := F)) tcAdm (tcDats v1 v2₀) (none : HIx 1) defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := tc_body_obligation v1 v2₀ c
  hwaits c := tc_region_waits v1 v2₀ c
  pre c := iprop(tcOwes (F := F) c ∗ (v1Loc c ↦{fullShare} v1) ∗ (v2Loc c ↦{fullShare} v2₀))
  post c := iprop(tcOwes (F := F) c ∗ (v1Loc c ↦{fullShare} v1) ∗ (v2Loc c ↦{fullShare} tcOut v1))
  X _ := iprop(emp)
  Y _ := iprop(emp)
  Z _ := iprop(emp)
  hentry c := by
    rw [tcArrays_eq]
    iintro ⟨⟨HO, H1, H2⟩, -, -⟩
    imodintro
    isplitl [H1 H2]
    · isplitl [H1]; · iexact H1
      iexact H2
    isplitr
    · unfold Pipeline.prefHeld; rw [show (Finset.univ : Finset (Fin 0)) = ∅ from rfl, BI.bigSep_empty]; iempintro
    isplitl [HO]
    · iapply (owesAt_of_tcOwes v1 v2₀ c 0); iexact HO
    isplitr <;> iempintro
  hin c := by
    rw [show (tcDats v1 v2₀ 0 c).Φ 0 = iprop(emp) from rfl, scopedRest0_eq]
    iintro -; iempintro
  hout c := by
    rw [show (tcDats v1 v2₀ 0 c).Φ (Fin.last _) = iprop(emp) from rfl, scopedRest0_eq, Pipeline.ownSems0_none]
    iintro -
    isplitr; · iempintro
    isplitr <;> iempintro
  hexit c := by
    rw [tcArrays_eq, tc_arrAt_in, tc_arrAt_out]
    iintro ⟨⟨H1, H2⟩, HO, -, -⟩
    imodintro
    isplitl [HO]
    · iapply (tcOwes_of_owesAt v1 v2₀ c (Fin.last _)); iexact HO
    isplitl [H1]; · iexact H1
    iexact H2

theorem tcReg_pre (c : Dev nD) :
    (tcReg v1 v2₀).pre c = iprop(tcOwes (F := F) c ∗ (v1Loc c ↦{fullShare} v1) ∗ (v2Loc c ↦{fullShare} v2₀)) := rfl
theorem tcReg_post (c : Dev nD) :
    (tcReg v1 v2₀).post c = iprop(tcOwes (F := F) c ∗ (v1Loc c ↦{fullShare} v1) ∗ (v2Loc c ↦{fullShare} tcOut v1)) := rfl

/-! ## The launch's part: the staging cells' ghost state -/

/-- What the launch element must provide device `d` for the region: its staging cells' launch ghost state and the duty
    tokens of the pipeline's transfers. -/
def regionGhost (d : Dev nD) : sProp 𝕄 :=
  iprop(Pipeline.cellsGhost (Pipeline.pin (pcfgs (F := F)) tcAdm) EP 0 d ∗ Pipeline.toksInit (Pipeline.pin (pcfgs (F := F)) tcAdm) EP 0 d)

/-- The staging component's launch element: the rounds library's at the staging cells and the pipeline's transfers. -/
def uP₀ : UP := initOf (Pipeline.cells (nD := nD) (τ := τ) cfgs cellOf_inj) (Pipeline.launchToks (nD := nD) (τ := τ) cfgs cellOf_inj)

/-- A conjunction over the one pipeline is its one conjunct. -/
theorem tc_bigSep_fin1 (Ψ : Fin 1 → sProp 𝕄) : bigSep Finset.univ Ψ = Ψ 0 := by
  rw [show (Finset.univ : Finset (Fin 1)) = {0} from by decide]; exact bigSep_singleton

/-- Funding: the launch element yields every device's staging ghost state, by a plain update. -/
theorem regionGhost_intro :
    (BI.own (EP (F := F) uP₀) : sProp 𝕄) ⊢ |==> bigSep Finset.univ fun d : Dev nD => regionGhost (F := F) d := by
  have h := Pipeline.fund_ghost (nD := nD) (τ := τ) (Ix := HIx 1) (Val := Elt F) (Name := ℕ) (U := UU) (Lvl := ℕ) cfgs (EP (F := F)) cellOf_inj
  simp only [tc_bigSep_fin1] at h
  unfold regionGhost uP₀
  simp only [tc_bigSep_fin1]
  exact h

/-! ## The region as a step of @main -/

/-- The region call under the pipelines' body table is the region call under the whole program's: the SparseCore
    dispatch labels are added beside the program's own, and a call of a label of the program's runs the same body. -/
theorem tc_lift_region (d : Dev nD) (Φ : PUnit → sProp 𝕄) :
    wp frame (wpE (D (F := F)) 𝒱 (SparseCore.T d) none) Set.univ
        (.op (.customCall (Pipeline.entry 0) ()) fun _ => .ret ⟨⟩) Φ
      ⊢ wp frame (wpE ((K (F := F)).defs (D (F := F))) 𝒱 (SparseCore.T d) none) Set.univ
          (.op (.customCall (SparseCore.inner (Pipeline.entry 0)) ()) fun _ => .ret ⟨⟩) Φ :=
  (K (F := F)).wp_liftProg (D (F := F)) 𝒱 (SparseCore.T d) Set.univ none _ Φ

set_option backward.isDefEq.respectTransparency.types false in
/-- The region call on the TensorCore of device `d`, under the whole program's body table: from the handshakes'
    records, the TensorCore's state before its first SparseCore call, the boundary, the two arrays and the staging
    ghost state, it runs to the same state, the input array as it was and the result array at `tcOut v1`. -/
theorem tc_region (P : (K (F := F)).Pay (nD := nD) (Val := Elt F) (Name := ℕ) (U := UU)) (κ : GSem nD τ sig → ℕ) (d : Dev nD)
    {Φ : PUnit → sProp 𝕄} :
    iprop((K (F := F)).ctx EH P κ ∗ (K (F := F)).tcSt EH d 0 ∗ boundary (SparseCore.T d) ∗ (v1Loc d ↦{fullShare} v1) ∗ (v2Loc d ↦{fullShare} v2₀)
        ∗ regionGhost (F := F) d
        ∗ (iprop((K (F := F)).tcSt EH d 0 ∗ boundary (SparseCore.T d) ∗ (v1Loc d ↦{fullShare} v1) ∗ (v2Loc d ↦{fullShare} tcOut v1)) -∗ Φ ⟨⟩))
      ⊢ wp frame (wpE ((K (F := F)).defs (D (F := F))) 𝒱 (SparseCore.T d) none) Set.univ
          (.op (.customCall (SparseCore.inner (Pipeline.entry 0)) ()) fun _ => .ret ⟨⟩) Φ := by
  refine .trans ?_ (tc_lift_region d Φ)
  have hreg := Pipeline.RegionSeg.wp (pcfgs (F := F)) tcAdm (tcDats v1 v2₀) (none : HIx 1) cellOf_inj EP defs₀ 𝒱₀ (K (F := F)).L (K (F := F)).lev
    (tcReg v1 v2₀) d none (fun _ h => nomatch h) (fun _ => .ret ⟨⟩) Φ
  rw [tcReg_pre, tcReg_post] at hreg
  unfold SparseCore.Cfg.tcSt regionGhost
  iintro ⟨#Hctx, ⟨HO, Hrest⟩, Hb, H1, H2, ⟨Hg, Ht⟩, Hk⟩
  ihave Hlev := (SparseCore.Cfg.ctx_levAts κ) $$ Hctx
  iapply hreg
  isplitl [Hk Hrest]
  · iintro ⟨Hb, HO, H1, H2⟩
    iapply (le_wp_ret _ _)
    iapply Hk
    isplitl [HO Hrest]
    · isplitl [HO]; · iexact HO
      iexact Hrest
    isplitl [Hb]; · iexact Hb
    isplitl [H1]; · iexact H1
    iexact H2
  isplitl [Hb]; · iexact Hb
  isplitl [HO H1 H2]
  · isplitl [HO]; · iexact HO
    isplitl [H1]; · iexact H1
    iexact H2
  isplitl [Hlev]; · iexact Hlev
  isplitl [Hg]; · iexact Hg
  iexact Ht

end Cert.Kernel.Hand

end
-- ==== Proof.KB.ScOut.lean ====
/-
  The flat result of the vector-subcore kernel as ONE function of the transposed input.

  Subcore `wid = 2·subcore + core` sums the interiors of planes `2·wid` and `2·wid + 1`; a plane is brought in as
  four groups of rows (0…3, 4…7, 8…11, 12…14), each into its own staging buffer, and summed in four phases over 24
  groups of 16 channels: a phase adds the lane vectors of its rows at columns 1…14 — and, after the first, the running
  vector — pairwise in a fixed tree order; the last phase multiplies by the constant. `ph0 … ph3` are the phases'
  stored vectors as functions of the staging buffer's contents, the running vector and the trip; `planeVal` composes
  them over the four row groups of one plane; `scOut` places the planes' values in the flat result.
-/
import proofs.«214330_g12317966205028_cont_fleet_230_29_alg».proof.Proof.KB.Base

noncomputable section

namespace Cert.Kernel.Hand

open Cert.Kernel Cert.Kernel.Gen
open Idealize.ShloMosaic

variable {F : FTy → Type} [FloatOps F]

/-! ## Lane vectors of a staging buffer -/

/-- The 16 consecutive channels from `off` of a 4 × 16 × 384 buffer's contents: what a load of one lane vector reads. -/
def ld4 (B : S4x16x384.Idx → Elt F .f32) (off : Fin 3 → Nat) (h : ∀ a, off a + S1x1x16.size a ≤ S4x16x384.size a) : Vec F S1x1x16 .f32 :=
  fun j => B ((Rect.unit (s := S4x16x384) off S1x1x16.size h).toLoadRect.idx j)
/-- The same of a 3 × 16 × 384 buffer's contents. -/
def ld3 (B : S3x16x384.Idx → Elt F .f32) (off : Fin 3 → Nat) (h : ∀ a, off a + S1x1x16.size a ≤ S3x16x384.size a) : Vec F S1x1x16 .f32 :=
  fun j => B ((Rect.unit (s := S3x16x384) off S1x1x16.size h).toLoadRect.idx j)

/-! ## The four phases of one trip -/

/-- Phase 0 of trip `k`: the 56 lane vectors of rows 0…3, columns 1…14 of the staging buffer's contents `B` at channels `16 k … 16 k + 15`, added pairwise in the program's order. -/
def ph0 (B : S4x16x384.Idx → Elt F .f32) (k : Fin k1_t2_loop.trips) : FVec F S16 .f32 :=
  have c1 : FVec F S16 .f32 := k1_pay1 (ld4 B (k1_off6 k) (k1_off6_inb k))
  have c2 : FVec F S16 .f32 := k1_pay2 (ld4 B (k1_off7 k) (k1_off7_inb k))
  have c3 : FVec F S16 .f32 := k1_pay3 (ld4 B (k1_off8 k) (k1_off8_inb k))
  have c4 : FVec F S16 .f32 := k1_pay4 (ld4 B (k1_off9 k) (k1_off9_inb k))
  have c5 : FVec F S16 .f32 := k1_pay5 (ld4 B (k1_off10 k) (k1_off10_inb k))
  have c6 : FVec F S16 .f32 := k1_pay6 (ld4 B (k1_off11 k) (k1_off11_inb k))
  have c7 : FVec F S16 .f32 := k1_pay7 (ld4 B (k1_off12 k) (k1_off12_inb k))
  have c8 : FVec F S16 .f32 := k1_pay8 (ld4 B (k1_off13 k) (k1_off13_inb k))
  have c9 : FVec F S16 .f32 := k1_pay9 (ld4 B (k1_off14 k) (k1_off14_inb k))
  have c10 : FVec F S16 .f32 := k1_pay10 (ld4 B (k1_off15 k) (k1_off15_inb k))
  have c11 : FVec F S16 .f32 := k1_pay11 (ld4 B (k1_off16 k) (k1_off16_inb k))
  have c12 : FVec F S16 .f32 := k1_pay12 (ld4 B (k1_off17 k) (k1_off17_inb k))
  have c13 : FVec F S16 .f32 := k1_pay13 (ld4 B (k1_off18 k) (k1_off18_inb k))
  have c14 : FVec F S16 .f32 := k1_pay14 (ld4 B (k1_off19 k) (k1_off19_inb k))
  have c15 : FVec F S16 .f32 := k1_pay15 (ld4 B (k1_off20 k) (k1_off20_inb k))
  have c16 : FVec F S16 .f32 := k1_pay16 (ld4 B (k1_off21 k) (k1_off21_inb k))
  have c17 : FVec F S16 .f32 := k1_pay17 (ld4 B (k1_off22 k) (k1_off22_inb k))
  have c18 : FVec F S16 .f32 := k1_pay18 (ld4 B (k1_off23 k) (k1_off23_inb k))
  have c19 : FVec F S16 .f32 := k1_pay19 (ld4 B (k1_off24 k) (k1_off24_inb k))
  have c20 : FVec F S16 .f32 := k1_pay20 (ld4 B (k1_off25 k) (k1_off25_inb k))
  have c21 : FVec F S16 .f32 := k1_pay21 (ld4 B (k1_off26 k) (k1_off26_inb k))
  have c22 : FVec F S16 .f32 := k1_pay22 (ld4 B (k1_off27 k) (k1_off27_inb k))
  have c23 : FVec F S16 .f32 := k1_pay23 (ld4 B (k1_off28 k) (k1_off28_inb k))
  have c24 : FVec F S16 .f32 := k1_pay24 (ld4 B (k1_off29 k) (k1_off29_inb k))
  have c25 : FVec F S16 .f32 := k1_pay25 (ld4 B (k1_off30 k) (k1_off30_inb k))
  have c26 : FVec F S16 .f32 := k1_pay26 (ld4 B (k1_off31 k) (k1_off31_inb k))
  have c27 : FVec F S16 .f32 := k1_pay27 (ld4 B (k1_off32 k) (k1_off32_inb k))
  have c28 : FVec F S16 .f32 := k1_pay28 (ld4 B (k1_off33 k) (k1_off33_inb k))
  have c29 : FVec F S16 .f32 := k1_pay29 (ld4 B (k1_off34 k) (k1_off34_inb k))
  have c30 : FVec F S16 .f32 := k1_pay30 (ld4 B (k1_off35 k) (k1_off35_inb k))
  have c31 : FVec F S16 .f32 := k1_pay31 (ld4 B (k1_off36 k) (k1_off36_inb k))
  have c32 : FVec F S16 .f32 := k1_pay32 (ld4 B (k1_off37 k) (k1_off37_inb k))
  have c33 : FVec F S16 .f32 := k1_pay33 (ld4 B (k1_off38 k) (k1_off38_inb k))
  have c34 : FVec F S16 .f32 := k1_pay34 (ld4 B (k1_off39 k) (k1_off39_inb k))
  have c35 : FVec F S16 .f32 := k1_pay35 (ld4 B (k1_off40 k) (k1_off40_inb k))
  have c36 : FVec F S16 .f32 := k1_pay36 (ld4 B (k1_off41 k) (k1_off41_inb k))
  have c37 : FVec F S16 .f32 := k1_pay37 (ld4 B (k1_off42 k) (k1_off42_inb k))
  have c38 : FVec F S16 .f32 := k1_pay38 (ld4 B (k1_off43 k) (k1_off43_inb k))
  have c39 : FVec F S16 .f32 := k1_pay39 (ld4 B (k1_off44 k) (k1_off44_inb k))
  have c40 : FVec F S16 .f32 := k1_pay40 (ld4 B (k1_off45 k) (k1_off45_inb k))
  have c41 : FVec F S16 .f32 := k1_pay41 (ld4 B (k1_off46 k) (k1_off46_inb k))
  have c42 : FVec F S16 .f32 := k1_pay42 (ld4 B (k1_off47 k) (k1_off47_inb k))
  have c43 : FVec F S16 .f32 := k1_pay43 (ld4 B (k1_off48 k) (k1_off48_inb k))
  have c44 : FVec F S16 .f32 := k1_pay44 (ld4 B (k1_off49 k) (k1_off49_inb k))
  have c45 : FVec F S16 .f32 := k1_pay45 (ld4 B (k1_off50 k) (k1_off50_inb k))
  have c46 : FVec F S16 .f32 := k1_pay46 (ld4 B (k1_off51 k) (k1_off51_inb k))
  have c47 : FVec F S16 .f32 := k1_pay47 (ld4 B (k1_off52 k) (k1_off52_inb k))
  have c48 : FVec F S16 .f32 := k1_pay48 (ld4 B (k1_off53 k) (k1_off53_inb k))
  have c49 : FVec F S16 .f32 := k1_pay49 (ld4 B (k1_off54 k) (k1_off54_inb k))
  have c50 : FVec F S16 .f32 := k1_pay50 (ld4 B (k1_off55 k) (k1_off55_inb k))
  have c51 : FVec F S16 .f32 := k1_pay51 (ld4 B (k1_off56 k) (k1_off56_inb k))
  have c52 : FVec F S16 .f32 := k1_pay52 (ld4 B (k1_off57 k) (k1_off57_inb k))
  have c53 : FVec F S16 .f32 := k1_pay53 (ld4 B (k1_off58 k) (k1_off58_inb k))
  have c54 : FVec F S16 .f32 := k1_pay54 (ld4 B (k1_off59 k) (k1_off59_inb k))
  have c55 : FVec F S16 .f32 := k1_pay55 (ld4 B (k1_off60 k) (k1_off60_inb k))
  have c56 : FVec F S16 .f32 := k1_pay56 (ld4 B (k1_off61 k) (k1_off61_inb k))
  have s1 : FVec F S16 .f32 := k1_pay57 c1 c2
  have s2 : FVec F S16 .f32 := k1_pay58 c3 c4
  have s3 : FVec F S16 .f32 := k1_pay59 c5 c6
  have s4 : FVec F S16 .f32 := k1_pay60 c7 c8
  have s5 : FVec F S16 .f32 := k1_pay61 c9 c10
  have s6 : FVec F S16 .f32 := k1_pay62 c11 c12
  have s7 : FVec F S16 .f32 := k1_pay63 c13 c14
  have s8 : FVec F S16 .f32 := k1_pay64 c15 c16
  have s9 : FVec F S16 .f32 := k1_pay65 c17 c18
  have s10 : FVec F S16 .f32 := k1_pay66 c19 c20
  have s11 : FVec F S16 .f32 := k1_pay67 c21 c22
  have s12 : FVec F S16 .f32 := k1_pay68 c23 c24
  have s13 : FVec F S16 .f32 := k1_pay69 c25 c26
  have s14 : FVec F S16 .f32 := k1_pay70 c27 c28
  have s15 : FVec F S16 .f32 := k1_pay71 c29 c30
  have s16 : FVec F S16 .f32 := k1_pay72 c31 c32
  have s17 : FVec F S16 .f32 := k1_pay73 c33 c34
  have s18 : FVec F S16 .f32 := k1_pay74 c35 c36
  have s19 : FVec F S16 .f32 := k1_pay75 c37 c38
  have s20 : FVec F S16 .f32 := k1_pay76 c39 c40
  have s21 : FVec F S16 .f32 := k1_pay77 c41 c42
  have s22 : FVec F S16 .f32 := k1_pay78 c43 c44
  have s23 : FVec F S16 .f32 := k1_pay79 c45 c46
  have s24 : FVec F S16 .f32 := k1_pay80 c47 c48
  have s25 : FVec F S16 .f32 := k1_pay81 c49 c50
  have s26 : FVec F S16 .f32 := k1_pay82 c51 c52
  have w : FVec F S16 .f32 := k1_pay295 s1 s2 s3 s4 s5 s6 s7 s8 s9 s10 s11 s12 s13 s14 s15 s16
  k1_pay296 c53 c54 c55 c56 s17 s18 s19 s20 s21 s22 s23 s24 s25 s26 w

/-- Phase 1 of trip `k`: the 56 lane vectors of the second staging buffer's contents `B` (rows 4…7) and the accumulator's vector `a`, added pairwise in the program's order. -/
def ph1 (B : S4x16x384.Idx → Elt F .f32) (a : Vec F S16 .f32) (k : Fin k1_t3_loop.trips) : FVec F S16 .f32 :=
  have c1 : FVec F S16 .f32 := k1_pay83 (ld4 B (k1_off65 k) (k1_off65_inb k))
  have c2 : FVec F S16 .f32 := k1_pay84 (ld4 B (k1_off66 k) (k1_off66_inb k))
  have c3 : FVec F S16 .f32 := k1_pay85 (ld4 B (k1_off67 k) (k1_off67_inb k))
  have c4 : FVec F S16 .f32 := k1_pay86 (ld4 B (k1_off68 k) (k1_off68_inb k))
  have c5 : FVec F S16 .f32 := k1_pay87 (ld4 B (k1_off69 k) (k1_off69_inb k))
  have c6 : FVec F S16 .f32 := k1_pay88 (ld4 B (k1_off70 k) (k1_off70_inb k))
  have c7 : FVec F S16 .f32 := k1_pay89 (ld4 B (k1_off71 k) (k1_off71_inb k))
  have c8 : FVec F S16 .f32 := k1_pay90 (ld4 B (k1_off72 k) (k1_off72_inb k))
  have c9 : FVec F S16 .f32 := k1_pay91 (ld4 B (k1_off73 k) (k1_off73_inb k))
  have c10 : FVec F S16 .f32 := k1_pay92 (ld4 B (k1_off74 k) (k1_off74_inb k))
  have c11 : FVec F S16 .f32 := k1_pay93 (ld4 B (k1_off75 k) (k1_off75_inb k))
  have c12 : FVec F S16 .f32 := k1_pay94 (ld4 B (k1_off76 k) (k1_off76_inb k))
  have c13 : FVec F S16 .f32 := k1_pay95 (ld4 B (k1_off77 k) (k1_off77_inb k))
  have c14 : FVec F S16 .f32 := k1_pay96 (ld4 B (k1_off78 k) (k1_off78_inb k))
  have c15 : FVec F S16 .f32 := k1_pay97 (ld4 B (k1_off79 k) (k1_off79_inb k))
  have c16 : FVec F S16 .f32 := k1_pay98 (ld4 B (k1_off80 k) (k1_off80_inb k))
  have c17 : FVec F S16 .f32 := k1_pay99 (ld4 B (k1_off81 k) (k1_off81_inb k))
  have c18 : FVec F S16 .f32 := k1_pay100 (ld4 B (k1_off82 k) (k1_off82_inb k))
  have c19 : FVec F S16 .f32 := k1_pay101 (ld4 B (k1_off83 k) (k1_off83_inb k))
  have c20 : FVec F S16 .f32 := k1_pay102 (ld4 B (k1_off84 k) (k1_off84_inb k))
  have c21 : FVec F S16 .f32 := k1_pay103 (ld4 B (k1_off85 k) (k1_off85_inb k))
  have c22 : FVec F S16 .f32 := k1_pay104 (ld4 B (k1_off86 k) (k1_off86_inb k))
  have c23 : FVec F S16 .f32 := k1_pay105 (ld4 B (k1_off87 k) (k1_off87_inb k))
  have c24 : FVec F S16 .f32 := k1_pay106 (ld4 B (k1_off88 k) (k1_off88_inb k))
  have c25 : FVec F S16 .f32 := k1_pay107 (ld4 B (k1_off89 k) (k1_off89_inb k))
  have c26 : FVec F S16 .f32 := k1_pay108 (ld4 B (k1_off90 k) (k1_off90_inb k))
  have c27 : FVec F S16 .f32 := k1_pay109 (ld4 B (k1_off91 k) (k1_off91_inb k))
  have c28 : FVec F S16 .f32 := k1_pay110 (ld4 B (k1_off92 k) (k1_off92_inb k))
  have c29 : FVec F S16 .f32 := k1_pay111 (ld4 B (k1_off93 k) (k1_off93_inb k))
  have c30 : FVec F S16 .f32 := k1_pay112 (ld4 B (k1_off94 k) (k1_off94_inb k))
  have c31 : FVec F S16 .f32 := k1_pay113 (ld4 B (k1_off95 k) (k1_off95_inb k))
  have c32 : FVec F S16 .f32 := k1_pay114 (ld4 B (k1_off96 k) (k1_off96_inb k))
  have c33 : FVec F S16 .f32 := k1_pay115 (ld4 B (k1_off97 k) (k1_off97_inb k))
  have c34 : FVec F S16 .f32 := k1_pay116 (ld4 B (k1_off98 k) (k1_off98_inb k))
  have c35 : FVec F S16 .f32 := k1_pay117 (ld4 B (k1_off99 k) (k1_off99_inb k))
  have c36 : FVec F S16 .f32 := k1_pay118 (ld4 B (k1_off100 k) (k1_off100_inb k))
  have c37 : FVec F S16 .f32 := k1_pay119 (ld4 B (k1_off101 k) (k1_off101_inb k))
  have c38 : FVec F S16 .f32 := k1_pay120 (ld4 B (k1_off102 k) (k1_off102_inb k))
  have c39 : FVec F S16 .f32 := k1_pay121 (ld4 B (k1_off103 k) (k1_off103_inb k))
  have c40 : FVec F S16 .f32 := k1_pay122 (ld4 B (k1_off104 k) (k1_off104_inb k))
  have c41 : FVec F S16 .f32 := k1_pay123 (ld4 B (k1_off105 k) (k1_off105_inb k))
  have c42 : FVec F S16 .f32 := k1_pay124 (ld4 B (k1_off106 k) (k1_off106_inb k))
  have c43 : FVec F S16 .f32 := k1_pay125 (ld4 B (k1_off107 k) (k1_off107_inb k))
  have c44 : FVec F S16 .f32 := k1_pay126 (ld4 B (k1_off108 k) (k1_off108_inb k))
  have c45 : FVec F S16 .f32 := k1_pay127 (ld4 B (k1_off109 k) (k1_off109_inb k))
  have c46 : FVec F S16 .f32 := k1_pay128 (ld4 B (k1_off110 k) (k1_off110_inb k))
  have c47 : FVec F S16 .f32 := k1_pay129 (ld4 B (k1_off111 k) (k1_off111_inb k))
  have c48 : FVec F S16 .f32 := k1_pay130 (ld4 B (k1_off112 k) (k1_off112_inb k))
  have c49 : FVec F S16 .f32 := k1_pay131 (ld4 B (k1_off113 k) (k1_off113_inb k))
  have c50 : FVec F S16 .f32 := k1_pay132 (ld4 B (k1_off114 k) (k1_off114_inb k))
  have c51 : FVec F S16 .f32 := k1_pay133 (ld4 B (k1_off115 k) (k1_off115_inb k))
  have c52 : FVec F S16 .f32 := k1_pay134 (ld4 B (k1_off116 k) (k1_off116_inb k))
  have c53 : FVec F S16 .f32 := k1_pay135 (ld4 B (k1_off117 k) (k1_off117_inb k))
  have c54 : FVec F S16 .f32 := k1_pay136 (ld4 B (k1_off118 k) (k1_off118_inb k))
  have c55 : FVec F S16 .f32 := k1_pay137 (ld4 B (k1_off119 k) (k1_off119_inb k))
  have c56 : FVec F S16 .f32 := k1_pay138 (ld4 B (k1_off120 k) (k1_off120_inb k))
  have a' : FVec F S16 .f32 := k1_pay139 a
  have s1 : FVec F S16 .f32 := k1_pay140 c1 c2
  have s2 : FVec F S16 .f32 := k1_pay141 c3 c4
  have s3 : FVec F S16 .f32 := k1_pay142 c5 c6
  have s4 : FVec F S16 .f32 := k1_pay143 c7 c8
  have s5 : FVec F S16 .f32 := k1_pay144 c9 c10
  have s6 : FVec F S16 .f32 := k1_pay145 c11 c12
  have s7 : FVec F S16 .f32 := k1_pay146 c13 c14
  have s8 : FVec F S16 .f32 := k1_pay147 c15 c16
  have s9 : FVec F S16 .f32 := k1_pay148 c17 c18
  have s10 : FVec F S16 .f32 := k1_pay149 c19 c20
  have s11 : FVec F S16 .f32 := k1_pay150 c21 c22
  have s12 : FVec F S16 .f32 := k1_pay151 c23 c24
  have s13 : FVec F S16 .f32 := k1_pay152 c25 c26
  have s14 : FVec F S16 .f32 := k1_pay153 c27 c28
  have s15 : FVec F S16 .f32 := k1_pay154 c29 c30
  have s16 : FVec F S16 .f32 := k1_pay155 c31 c32
  have s17 : FVec F S16 .f32 := k1_pay156 c33 c34
  have s18 : FVec F S16 .f32 := k1_pay157 c35 c36
  have s19 : FVec F S16 .f32 := k1_pay158 c37 c38
  have s20 : FVec F S16 .f32 := k1_pay159 c39 c40
  have s21 : FVec F S16 .f32 := k1_pay160 c41 c42
  have s22 : FVec F S16 .f32 := k1_pay161 c43 c44
  have s23 : FVec F S16 .f32 := k1_pay162 c45 c46
  have u : FVec F S16 .f32 := k1_pay297 c47 c48 s17 s18 s19 s20 s21 s22 s23
  have w : FVec F S16 .f32 := k1_pay298 s1 s2 s3 s4 s5 s6 s7 s8 s9 s10 s11 s12 s13 s14 s15 s16
  k1_pay299 c49 c50 c51 c52 c53 c54 c55 c56 a' u w

/-- Phase 2 of trip `k`: the same over the third staging buffer's contents (rows 8…11). -/
def ph2 (B : S4x16x384.Idx → Elt F .f32) (a : Vec F S16 .f32) (k : Fin k1_t4_loop.trips) : FVec F S16 .f32 :=
  have c1 : FVec F S16 .f32 := k1_pay163 (ld4 B (k1_off124 k) (k1_off124_inb k))
  have c2 : FVec F S16 .f32 := k1_pay164 (ld4 B (k1_off125 k) (k1_off125_inb k))
  have c3 : FVec F S16 .f32 := k1_pay165 (ld4 B (k1_off126 k) (k1_off126_inb k))
  have c4 : FVec F S16 .f32 := k1_pay166 (ld4 B (k1_off127 k) (k1_off127_inb k))
  have c5 : FVec F S16 .f32 := k1_pay167 (ld4 B (k1_off128 k) (k1_off128_inb k))
  have c6 : FVec F S16 .f32 := k1_pay168 (ld4 B (k1_off129 k) (k1_off129_inb k))
  have c7 : FVec F S16 .f32 := k1_pay169 (ld4 B (k1_off130 k) (k1_off130_inb k))
  have c8 : FVec F S16 .f32 := k1_pay170 (ld4 B (k1_off131 k) (k1_off131_inb k))
  have c9 : FVec F S16 .f32 := k1_pay171 (ld4 B (k1_off132 k) (k1_off132_inb k))
  have c10 : FVec F S16 .f32 := k1_pay172 (ld4 B (k1_off133 k) (k1_off133_inb k))
  have c11 : FVec F S16 .f32 := k1_pay173 (ld4 B (k1_off134 k) (k1_off134_inb k))
  have c12 : FVec F S16 .f32 := k1_pay174 (ld4 B (k1_off135 k) (k1_off135_inb k))
  have c13 : FVec F S16 .f32 := k1_pay175 (ld4 B (k1_off136 k) (k1_off136_inb k))
  have c14 : FVec F S16 .f32 := k1_pay176 (ld4 B (k1_off137 k) (k1_off137_inb k))
  have c15 : FVec F S16 .f32 := k1_pay177 (ld4 B (k1_off138 k) (k1_off138_inb k))
  have c16 : FVec F S16 .f32 := k1_pay178 (ld4 B (k1_off139 k) (k1_off139_inb k))
  have c17 : FVec F S16 .f32 := k1_pay179 (ld4 B (k1_off140 k) (k1_off140_inb k))
  have c18 : FVec F S16 .f32 := k1_pay180 (ld4 B (k1_off141 k) (k1_off141_inb k))
  have c19 : FVec F S16 .f32 := k1_pay181 (ld4 B (k1_off142 k) (k1_off142_inb k))
  have c20 : FVec F S16 .f32 := k1_pay182 (ld4 B (k1_off143 k) (k1_off143_inb k))
  have c21 : FVec F S16 .f32 := k1_pay183 (ld4 B (k1_off144 k) (k1_off144_inb k))
  have c22 : FVec F S16 .f32 := k1_pay184 (ld4 B (k1_off145 k) (k1_off145_inb k))
  have c23 : FVec F S16 .f32 := k1_pay185 (ld4 B (k1_off146 k) (k1_off146_inb k))
  have c24 : FVec F S16 .f32 := k1_pay186 (ld4 B (k1_off147 k) (k1_off147_inb k))
  have c25 : FVec F S16 .f32 := k1_pay187 (ld4 B (k1_off148 k) (k1_off148_inb k))
  have c26 : FVec F S16 .f32 := k1_pay188 (ld4 B (k1_off149 k) (k1_off149_inb k))
  have c27 : FVec F S16 .f32 := k1_pay189 (ld4 B (k1_off150 k) (k1_off150_inb k))
  have c28 : FVec F S16 .f32 := k1_pay190 (ld4 B (k1_off151 k) (k1_off151_inb k))
  have c29 : FVec F S16 .f32 := k1_pay191 (ld4 B (k1_off152 k) (k1_off152_inb k))
  have c30 : FVec F S16 .f32 := k1_pay192 (ld4 B (k1_off153 k) (k1_off153_inb k))
  have c31 : FVec F S16 .f32 := k1_pay193 (ld4 B (k1_off154 k) (k1_off154_inb k))
  have c32 : FVec F S16 .f32 := k1_pay194 (ld4 B (k1_off155 k) (k1_off155_inb k))
  have c33 : FVec F S16 .f32 := k1_pay195 (ld4 B (k1_off156 k) (k1_off156_inb k))
  have c34 : FVec F S16 .f32 := k1_pay196 (ld4 B (k1_off157 k) (k1_off157_inb k))
  have c35 : FVec F S16 .f32 := k1_pay197 (ld4 B (k1_off158 k) (k1_off158_inb k))
  have c36 : FVec F S16 .f32 := k1_pay198 (ld4 B (k1_off159 k) (k1_off159_inb k))
  have c37 : FVec F S16 .f32 := k1_pay199 (ld4 B (k1_off160 k) (k1_off160_inb k))
  have c38 : FVec F S16 .f32 := k1_pay200 (ld4 B (k1_off161 k) (k1_off161_inb k))
  have c39 : FVec F S16 .f32 := k1_pay201 (ld4 B (k1_off162 k) (k1_off162_inb k))
  have c40 : FVec F S16 .f32 := k1_pay202 (ld4 B (k1_off163 k) (k1_off163_inb k))
  have c41 : FVec F S16 .f32 := k1_pay203 (ld4 B (k1_off164 k) (k1_off164_inb k))
  have c42 : FVec F S16 .f32 := k1_pay204 (ld4 B (k1_off165 k) (k1_off165_inb k))
  have c43 : FVec F S16 .f32 := k1_pay205 (ld4 B (k1_off166 k) (k1_off166_inb k))
  have c44 : FVec F S16 .f32 := k1_pay206 (ld4 B (k1_off167 k) (k1_off167_inb k))
  have c45 : FVec F S16 .f32 := k1_pay207 (ld4 B (k1_off168 k) (k1_off168_inb k))
  have c46 : FVec F S16 .f32 := k1_pay208 (ld4 B (k1_off169 k) (k1_off169_inb k))
  have c47 : FVec F S16 .f32 := k1_pay209 (ld4 B (k1_off170 k) (k1_off170_inb k))
  have c48 : FVec F S16 .f32 := k1_pay210 (ld4 B (k1_off171 k) (k1_off171_inb k))
  have c49 : FVec F S16 .f32 := k1_pay211 (ld4 B (k1_off172 k) (k1_off172_inb k))
  have c50 : FVec F S16 .f32 := k1_pay212 (ld4 B (k1_off173 k) (k1_off173_inb k))
  have c51 : FVec F S16 .f32 := k1_pay213 (ld4 B (k1_off174 k) (k1_off174_inb k))
  have c52 : FVec F S16 .f32 := k1_pay214 (ld4 B (k1_off175 k) (k1_off175_inb k))
  have c53 : FVec F S16 .f32 := k1_pay215 (ld4 B (k1_off176 k) (k1_off176_inb k))
  have c54 : FVec F S16 .f32 := k1_pay216 (ld4 B (k1_off177 k) (k1_off177_inb k))
  have c55 : FVec F S16 .f32 := k1_pay217 (ld4 B (k1_off178 k) (k1_off178_inb k))
  have c56 : FVec F S16 .f32 := k1_pay218 (ld4 B (k1_off179 k) (k1_off179_inb k))
  have a' : FVec F S16 .f32 := k1_pay219 a
  have s1 : FVec F S16 .f32 := k1_pay220 c1 c2
  have s2 : FVec F S16 .f32 := k1_pay221 c3 c4
  have s3 : FVec F S16 .f32 := k1_pay222 c5 c6
  have s4 : FVec F S16 .f32 := k1_pay223 c7 c8
  have s5 : FVec F S16 .f32 := k1_pay224 c9 c10
  have s6 : FVec F S16 .f32 := k1_pay225 c11 c12
  have s7 : FVec F S16 .f32 := k1_pay226 c13 c14
  have s8 : FVec F S16 .f32 := k1_pay227 c15 c16
  have s9 : FVec F S16 .f32 := k1_pay228 c17 c18
  have s10 : FVec F S16 .f32 := k1_pay229 c19 c20
  have s11 : FVec F S16 .f32 := k1_pay230 c21 c22
  have s12 : FVec F S16 .f32 := k1_pay231 c23 c24
  have s13 : FVec F S16 .f32 := k1_pay232 c25 c26
  have s14 : FVec F S16 .f32 := k1_pay233 c27 c28
  have s15 : FVec F S16 .f32 := k1_pay234 c29 c30
  have s16 : FVec F S16 .f32 := k1_pay235 c31 c32
  have s17 : FVec F S16 .f32 := k1_pay236 c33 c34
  have s18 : FVec F S16 .f32 := k1_pay237 c35 c36
  have s19 : FVec F S16 .f32 := k1_pay238 c37 c38
  have s20 : FVec F S16 .f32 := k1_pay239 c39 c40
  have s21 : FVec F S16 .f32 := k1_pay240 c41 c42
  have s22 : FVec F S16 .f32 := k1_pay241 c43 c44
  have s23 : FVec F S16 .f32 := k1_pay242 c45 c46
  have u : FVec F S16 .f32 := k1_pay300 c47 c48 s17 s18 s19 s20 s21 s22 s23
  have w : FVec F S16 .f32 := k1_pay301 s1 s2 s3 s4 s5 s6 s7 s8 s9 s10 s11 s12 s13 s14 s15 s16
  k1_pay302 c49 c50 c51 c52 c53 c54 c55 c56 a' u w

/-- Phase 3 of trip `k`: the 42 lane vectors of the last staging buffer's contents `B` (rows 12…14) and the accumulator's vector `a`, added pairwise in the program's order, times the constant. -/
def ph3 (B : S3x16x384.Idx → Elt F .f32) (a : Vec F S16 .f32) (k : Fin k1_t5_loop.trips) : FVec F S16 .f32 :=
  have c1 : FVec F S16 .f32 := k1_pay243 (ld3 B (k1_off183 k) (k1_off183_inb k))
  have c2 : FVec F S16 .f32 := k1_pay244 (ld3 B (k1_off184 k) (k1_off184_inb k))
  have c3 : FVec F S16 .f32 := k1_pay245 (ld3 B (k1_off185 k) (k1_off185_inb k))
  have c4 : FVec F S16 .f32 := k1_pay246 (ld3 B (k1_off186 k) (k1_off186_inb k))
  have c5 : FVec F S16 .f32 := k1_pay247 (ld3 B (k1_off187 k) (k1_off187_inb k))
  have c6 : FVec F S16 .f32 := k1_pay248 (ld3 B (k1_off188 k) (k1_off188_inb k))
  have c7 : FVec F S16 .f32 := k1_pay249 (ld3 B (k1_off189 k) (k1_off189_inb k))
  have c8 : FVec F S16 .f32 := k1_pay250 (ld3 B (k1_off190 k) (k1_off190_inb k))
  have c9 : FVec F S16 .f32 := k1_pay251 (ld3 B (k1_off191 k) (k1_off191_inb k))
  have c10 : FVec F S16 .f32 := k1_pay252 (ld3 B (k1_off192 k) (k1_off192_inb k))
  have c11 : FVec F S16 .f32 := k1_pay253 (ld3 B (k1_off193 k) (k1_off193_inb k))
  have c12 : FVec F S16 .f32 := k1_pay254 (ld3 B (k1_off194 k) (k1_off194_inb k))
  have c13 : FVec F S16 .f32 := k1_pay255 (ld3 B (k1_off195 k) (k1_off195_inb k))
  have c14 : FVec F S16 .f32 := k1_pay256 (ld3 B (k1_off196 k) (k1_off196_inb k))
  have c15 : FVec F S16 .f32 := k1_pay257 (ld3 B (k1_off197 k) (k1_off197_inb k))
  have c16 : FVec F S16 .f32 := k1_pay258 (ld3 B (k1_off198 k) (k1_off198_inb k))
  have c17 : FVec F S16 .f32 := k1_pay259 (ld3 B (k1_off199 k) (k1_off199_inb k))
  have c18 : FVec F S16 .f32 := k1_pay260 (ld3 B (k1_off200 k) (k1_off200_inb k))
  have c19 : FVec F S16 .f32 := k1_pay261 (ld3 B (k1_off201 k) (k1_off201_inb k))
  have c20 : FVec F S16 .f32 := k1_pay262 (ld3 B (k1_off202 k) (k1_off202_inb k))
  have c21 : FVec F S16 .f32 := k1_pay263 (ld3 B (k1_off203 k) (k1_off203_inb k))
  have c22 : FVec F S16 .f32 := k1_pay264 (ld3 B (k1_off204 k) (k1_off204_inb k))
  have c23 : FVec F S16 .f32 := k1_pay265 (ld3 B (k1_off205 k) (k1_off205_inb k))
  have c24 : FVec F S16 .f32 := k1_pay266 (ld3 B (k1_off206 k) (k1_off206_inb k))
  have c25 : FVec F S16 .f32 := k1_pay267 (ld3 B (k1_off207 k) (k1_off207_inb k))
  have c26 : FVec F S16 .f32 := k1_pay268 (ld3 B (k1_off208 k) (k1_off208_inb k))
  have c27 : FVec F S16 .f32 := k1_pay269 (ld3 B (k1_off209 k) (k1_off209_inb k))
  have c28 : FVec F S16 .f32 := k1_pay270 (ld3 B (k1_off210 k) (k1_off210_inb k))
  have c29 : FVec F S16 .f32 := k1_pay271 (ld3 B (k1_off211 k) (k1_off211_inb k))
  have c30 : FVec F S16 .f32 := k1_pay272 (ld3 B (k1_off212 k) (k1_off212_inb k))
  have c31 : FVec F S16 .f32 := k1_pay273 (ld3 B (k1_off213 k) (k1_off213_inb k))
  have c32 : FVec F S16 .f32 := k1_pay274 (ld3 B (k1_off214 k) (k1_off214_inb k))
  have c33 : FVec F S16 .f32 := k1_pay275 (ld3 B (k1_off215 k) (k1_off215_inb k))
  have c34 : FVec F S16 .f32 := k1_pay276 (ld3 B (k1_off216 k) (k1_off216_inb k))
  have c35 : FVec F S16 .f32 := k1_pay277 (ld3 B (k1_off217 k) (k1_off217_inb k))
  have c36 : FVec F S16 .f32 := k1_pay278 (ld3 B (k1_off218 k) (k1_off218_inb k))
  have c37 : FVec F S16 .f32 := k1_pay279 (ld3 B (k1_off219 k) (k1_off219_inb k))
  have c38 : FVec F S16 .f32 := k1_pay280 (ld3 B (k1_off220 k) (k1_off220_inb k))
  have r39 : Vec F S1x1x16 .f32 := ld3 B (k1_off221 k) (k1_off221_inb k)
  have r40 : Vec F S1x1x16 .f32 := ld3 B (k1_off222 k) (k1_off222_inb k)
  have r41 : Vec F S1x1x16 .f32 := ld3 B (k1_off223 k) (k1_off223_inb k)
  have r42 : Vec F S1x1x16 .f32 := ld3 B (k1_off224 k) (k1_off224_inb k)
  have a' : FVec F S16 .f32 := k1_pay281 a
  have t1 : FVec F S16 .f32 := k1_pay282 c33 c34
  have t2 : FVec F S16 .f32 := k1_pay283 c35 c36
  have t3 : FVec F S16 .f32 := k1_pay284 c37 c38
  have t4 : FVec F S16 .f32 := k1_pay285 r39 r40
  have t5 : FVec F S16 .f32 := k1_pay286 r41 r42
  have q1 : FVec F S16 .f32 := k1_pay287 c1 c2 c3 c4
  have q2 : FVec F S16 .f32 := k1_pay288 c5 c6 c7 c8
  have q3 : FVec F S16 .f32 := k1_pay289 c9 c10 c11 c12
  have q4 : FVec F S16 .f32 := k1_pay290 c13 c14 c15 c16
  have q5 : FVec F S16 .f32 := k1_pay291 c17 c18 c19 c20
  have q6 : FVec F S16 .f32 := k1_pay292 c21 c22 c23 c24
  have q7 : FVec F S16 .f32 := k1_pay293 c25 c26 c27 c28
  have q8 : FVec F S16 .f32 := k1_pay294 c29 c30 c31 c32
  k1_pay303 a' t1 t2 t3 t4 t5 q1 q2 q3 q4 q5 q6 q7 q8

/-! ## One plane, and the flat result -/

theorem trips_t1 : k1_t1_loop.trips = 2 := by decide
theorem trips_t2 : k1_t2_loop.trips = 24 := by decide
theorem trips_t3 : k1_t3_loop.trips = 24 := by decide
theorem trips_t4 : k1_t4_loop.trips = 24 := by decide
theorem trips_t5 : k1_t5_loop.trips = 24 := by decide

/-- The contents of the four staging buffers while plane `pi` of the subcore at `L` is summed: the plane's rows 0…3,
    4…7, 8…11 and 12…14, read off the transposed input through the program's own slices. -/
def chunk0 (xt : S8x32x16x16x384.Idx → Elt F .f32) (L : grid1.Coords) (pi : Fin k1_t1_loop.trips) : S4x16x384.Idx → Elt F .f32 :=
  (((xtV).slice (Rect.unit (s := S8x32x16x16x384) (k1_off5 L pi) S1x1x4x16x384.size (k1_off5_inb L pi)) (fun _ => rfl)).squeeze S4x16x384 squeezes_S1x1x4x16x384_S4x16x384).view.read (Elt F) xt
def chunk1 (xt : S8x32x16x16x384.Idx → Elt F .f32) (L : grid1.Coords) (pi : Fin k1_t1_loop.trips) : S4x16x384.Idx → Elt F .f32 :=
  (((xtV).slice (Rect.unit (s := S8x32x16x16x384) (k1_off64 L pi) S1x1x4x16x384.size (k1_off64_inb L pi)) (fun _ => rfl)).squeeze S4x16x384 squeezes_S1x1x4x16x384_S4x16x384).view.read (Elt F) xt
def chunk2 (xt : S8x32x16x16x384.Idx → Elt F .f32) (L : grid1.Coords) (pi : Fin k1_t1_loop.trips) : S4x16x384.Idx → Elt F .f32 :=
  (((xtV).slice (Rect.unit (s := S8x32x16x16x384) (k1_off123 L pi) S1x1x4x16x384.size (k1_off123_inb L pi)) (fun _ => rfl)).squeeze S4x16x384 squeezes_S1x1x4x16x384_S4x16x384).view.read (Elt F) xt
def chunk3 (xt : S8x32x16x16x384.Idx → Elt F .f32) (L : grid1.Coords) (pi : Fin k1_t1_loop.trips) : S3x16x384.Idx → Elt F .f32 :=
  (((xtV).slice (Rect.unit (s := S8x32x16x16x384) (k1_off182 L pi) S1x1x3x16x384.size (k1_off182_inb L pi)) (fun _ => rfl)).squeeze S3x16x384 squeezes_S1x1x3x16x384_S3x16x384).view.read (Elt F) xt

/-- The vector stored for channels `16 k … 16 k + 15` of plane `pi` of the subcore at `L`: the four phases in turn,
    each over its row group, the running vector handed on. -/
def planeVal (xt : S8x32x16x16x384.Idx → Elt F .f32) (L : grid1.Coords) (pi : Fin k1_t1_loop.trips) (k : Fin 24) : FVec F S16 .f32 :=
  ph3 (chunk3 xt L pi)
    (ph2 (chunk2 xt L pi)
      (ph1 (chunk1 xt L pi) (ph0 (chunk0 xt L pi) (Fin.cast trips_t2.symm k)) (Fin.cast trips_t3.symm k))
      (Fin.cast trips_t4.symm k))
    (Fin.cast trips_t5.symm k)

theorem lt_of_idx (j : S24576.Idx) : (j 0).val < 24576 := (j 0).isLt

/-- The flat result once every subcore has finished: entry `768·wid + 384·pi + 16·k + lane` is lane `lane` of the
    vector stored for trip `k` of plane `pi` on subcore `wid = 2·subcore + core`. -/
def scOut (xt : S8x32x16x16x384.Idx → Elt F .f32) : S24576.Idx → Elt F .f32 := fun j =>
  planeVal xt
    (coordsV ⟨(j 0).val / 768 % 2, by show _ < 2; omega⟩ ⟨(j 0).val / 1536, by have := lt_of_idx j; show _ < 16; omega⟩)
    ⟨(j 0).val / 384 % 2, by rw [trips_t1]; omega⟩
    ⟨(j 0).val % 384 / 16, by omega⟩
    (fun a => ⟨(j 0).val % 16, by rw [Subsingleton.elim a 0]; show _ < 16; omega⟩)

end Cert.Kernel.Hand

end
-- ==== Proof.KB.AccRel.lean ====
/-
  The accumulator's contents through one phase's 24 trips, as a relation between what it held when the phase began
  and what it holds after `n` trips: the 16-entry groups of the trips done hold the phase's vectors, every other
  entry is as before. One trip's store extends the relation by one group; a load of the group the trip is about to
  write reads what the phase began with.
-/
import proofs.«214330_g12317966205028_cont_fleet_230_29_alg».proof.Proof.KB.ScOut

noncomputable section

namespace Cert.Kernel.Hand

open Cert.Kernel Cert.Kernel.Gen
open Idealize.ShloMosaic

variable {F : FTy → Type} [FloatOps F]

/-- Entry `384 p + 16 k + l` of the accumulator: lane `l` of trip `k` of plane `p`. -/
def accIdx (p : Fin 2) (k : Fin 24) (l : Fin 16) : S768.Idx :=
  fun a => ⟨384 * p.val + 16 * k.val + l.val, by rw [Subsingleton.elim a 0]; show _ < 768; omega⟩

/-- Lane `l` as an index of a 16-lane vector. -/
def lane16 (l : Fin 16) : S16.Idx := fun a => ⟨l.val, by rw [Subsingleton.elim a 0]; exact l.isLt⟩

omit [FloatOps F] in
theorem lane16_zero (j : S16.Idx) : lane16 (j 0) = j := by
  funext a; rw [Subsingleton.elim a 0]; rfl

omit [FloatOps F] in
theorem accIdx_val (p : Fin 2) (k : Fin 24) (l : Fin 16) : ((accIdx p k l) 0).val = 384 * p.val + 16 * k.val + l.val := rfl

/-- After `n` trips of a phase over plane `p`: the groups of the trips done hold `g`, the other entries what `A` held. -/
def AccRel (p : Fin 2) (g : Fin 24 → Fin 16 → Elt F .f32) (A A' : S768.Idx → Elt F .f32) (n : ℕ) : Prop :=
  (∀ (k : Fin 24) (l : Fin 16), k.val < n → A' (accIdx p k l) = g k l) ∧
  (∀ x : S768.Idx, ¬(384 * p.val ≤ (x 0).val ∧ (x 0).val < 384 * p.val + 16 * n) → A' x = A x)

omit [FloatOps F] in
theorem AccRel.zero (p : Fin 2) (g : Fin 24 → Fin 16 → Elt F .f32) (A : S768.Idx → Elt F .f32) : AccRel p g A A 0 :=
  ⟨fun _ _ h => absurd h (Nat.not_lt_zero _), fun _ _ => rfl⟩

omit [FloatOps F] in
/-- The group a unit rectangle of 16 entries at `384 p + 16 n` covers. -/
theorem mem_group {p : Fin 2} {n : ℕ} {off : Fin 1 → Nat} (hoff : off = ![384 * p.val + 16 * n])
    (inb : ∀ a, off a + S16.size a ≤ S768.size a) (x : S768.Idx) :
    x ∈ (Rect.unit (s := S768) off S16.size inb).set ↔ 384 * p.val + 16 * n ≤ (x 0).val ∧ (x 0).val < 384 * p.val + 16 * n + 16 := by
  rw [Rect.mem_set_unit]
  subst hoff
  constructor
  · intro h; exact h 0
  · intro h a; rw [Subsingleton.elim a 0]; exact h

omit [FloatOps F] in
theorem emb_group {p : Fin 2} {k : Fin 24} {off : Fin 1 → Nat} (hoff : off = ![384 * p.val + 16 * k.val])
    (inb : ∀ a, off a + S16.size a ≤ S768.size a) (j : S16.Idx) :
    (Rect.unit (s := S768) off S16.size inb).emb j = accIdx p k (j 0) := by
  subst hoff
  funext a
  rw [Subsingleton.elim a 0]
  apply Fin.ext
  rw [Rect.emb_apply]
  show (384 * p.val + 16 * k.val) + 1 * (j 0).val = 384 * p.val + 16 * k.val + (j 0).val
  omega

omit [FloatOps F] in
/-- One trip's store: the relation at `n` becomes the relation at `n + 1`. -/
theorem AccRel.step {p : Fin 2} {g : Fin 24 → Fin 16 → Elt F .f32} {A A' : S768.Idx → Elt F .f32} {n : ℕ} (hn : n < 24)
    (h : AccRel p g A A' n) {off : Fin 1 → Nat} (hoff : off = ![384 * p.val + 16 * n]) (inb : ∀ a, off a + S16.size a ≤ S768.size a)
    (w : S16.Idx → Elt F .f32) (hw : ∀ j : S16.Idx, w j = g ⟨n, hn⟩ (j 0)) :
    AccRel p g A ((acc).view.writes (Elt F) A' [⟨Rect.unit (s := S768) off S16.size inb, w⟩]) (n + 1) := by
  rw [View.writes_singleton]
  refine ⟨fun k l hk => ?_, fun x hx => ?_⟩
  · by_cases hkn : k.val = n
    · have hk' : k = ⟨n, hn⟩ := Fin.ext hkn
      subst hk'
      have e := emb_group (p := p) (k := ⟨n, hn⟩) hoff inb (lane16 l)
      rw [show accIdx p ⟨n, hn⟩ l = accIdx p ⟨n, hn⟩ ((lane16 l) 0) from rfl, ← e]
      refine (View.read_slice_write_emb (v := (acc).view) (Rect.unit (s := S768) off S16.size inb) A' w (Finset.mem_univ (lane16 l))).trans ?_
      exact hw _
    · have hlt : k.val < n := by omega
      refine (View.read_slice_write_of_not_mem (v := (acc).view) (Rect.unit (s := S768) off S16.size inb) A' w Finset.univ
        (y := accIdx p k l) ?_).trans (h.1 k l hlt)
      rw [Rect.map_emb_univ, mem_group hoff inb, accIdx_val]
      have := l.isLt
      omega
  · refine (View.read_slice_write_of_not_mem (v := (acc).view) (Rect.unit (s := S768) off S16.size inb) A' w Finset.univ
      (y := x) ?_).trans (h.2 x (fun hh => hx ⟨hh.1, by omega⟩))
    rw [Rect.map_emb_univ, mem_group hoff inb]
    intro hh
    exact hx ⟨by omega, by omega⟩

omit [FloatOps F] in
/-- A load of the group trip `k` is about to write, `k` trips into the phase: what the phase began with. -/
theorem AccRel.readAt {p : Fin 2} {g : Fin 24 → Fin 16 → Elt F .f32} {A A' : S768.Idx → Elt F .f32} {k : Fin 24}
    (h : AccRel p g A A' k.val) {off : Fin 1 → Nat} (hoff : off = ![384 * p.val + 16 * k.val]) (inb : ∀ a, off a + S16.size a ≤ S768.size a) :
    (acc).view.readAt (Elt F) (Rect.unit (s := S768) off S16.size inb).toLoadRect A' = fun j => A (accIdx p k (j 0)) := by
  funext (j : S16.Idx)
  have e := emb_group (p := p) (k := k) hoff inb j
  show A' ((Rect.unit (s := S768) off S16.size inb).emb j) = _
  rw [e]
  refine h.2 _ ?_
  have hv := accIdx_val p k (j 0)
  have := (j 0).isLt
  omega

end Cert.Kernel.Hand

end
-- ==== Proof.KB.Inner.lean ====
/-
  The four inner loops of the vector-subcore kernel: one trip of each phase, from the loop's invariant at trip `k` to
  the invariant at `k + 1`. A trip loads the lane vectors of its staging buffer (and, after the first phase, the
  accumulator's group), adds them in the program's order and stores the group; the invariant holds the staging buffer
  unchanged and the accumulator related to what the phase began with.
-/
import proofs.«214330_g12317966205028_cont_fleet_230_29_alg».proof.Proof.KB.AccRel

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The inner loops -/

/-- Plane `pi` as a number below 2. -/
abbrev P (pi : Fin k1_t1_loop.trips) : Fin 2 := Fin.cast trips_t1 pi

/-- Phase 0's vectors over the staging contents `B`, by trip and lane. -/
def g0 (B : S4x16x384.Idx → Elt F .f32) : Fin 24 → Fin 16 → Elt F .f32 :=
  fun k l => ph0 B (Fin.cast trips_t2.symm k) (lane16 l)

/-- Before trip `k` of phase 0 on plane `pi`: the first staging buffer at `B`, the accumulator `k` groups into the phase. -/
def inv0 (d : Dev nD) (L : grid1.Coords) (pi : Fin k1_t1_loop.trips) (B : Buf (Elt F) ((b0).view.loc (V d (cV L) (jV L))))
    (A : Buf (Elt F) ((acc).view.loc (V d (cV L) (jV L)))) (k : Nat) (_ : Unit) : sProp 𝕄 :=
  iprop(((b0).view.loc (V d (cV L) (jV L)) ↦{fullShare} B)
    ∗ ∃ A', ((acc).view.loc (V d (cV L) (jV L)) ↦{fullShare} A') ∗ ⌜AccRel (P pi) (g0 B) A A' k⌝)

theorem region0 (d : Dev nD) (L : grid1.Coords) (pi : Fin k1_t1_loop.trips) (v2 v102 : BitVec 32)
    (B : Buf (Elt F) ((b0).view.loc (V d (cV L) (jV L)))) (A : Buf (Elt F) ((acc).view.loc (V d (cV L) (jV L))))
    (k : Fin k1_t2_loop.trips) (s : Unit) :
    inv0 d L pi B A k.val s
      ⊢ wp frame (wpE (defs₀ (F := F)) 𝒱₀ (V d (cV L) (jV L)) none) Set.univ
          (k1_t2_body (F := F) L xtV (Memref.isWhole_whole _) oV (Memref.isWhole_whole _) b0 (Memref.isWhole_whole _) b1 (Memref.isWhole_whole _)
            b2 (Memref.isWhole_whole _) b3 (Memref.isWhole_whole _) acc (Memref.isWhole_whole _) cc1_scratch5 cc1_scratch6 cc1_scratch7 cc1_scratch8 cc1_scoped0 v2 pi v102 k s)
          (inv0 d L pi B A (k.val + 1)) := by
  unfold inv0 k1_t2_body
  iintro ⟨HB, %A', HA, %hrel⟩
  sl_exec
  sl_step
  isplitl [HB]; · iexact HB
  iexists _
  isplitl [HA]; · iexact HA
  ipureintro
  have hn : k.val < 24 := trips_t2 ▸ k.isLt
  refine AccRel.step hn hrel (k1_off62_eq pi k) _ _ (fun j => ?_)
  have e1 : Fin.cast trips_t2.symm ⟨k.val, hn⟩ = k := Fin.ext rfl
  show _ = ph0 B (Fin.cast trips_t2.symm ⟨k.val, hn⟩) (lane16 (j 0))
  rw [e1, lane16_zero]
  rfl

/-- Phase 1's vectors over the staging contents `B` and the previous phase's vectors `gp`, by trip and lane. -/
def g1 (B : S4x16x384.Idx → Elt F .f32) (gp : Fin 24 → Fin 16 → Elt F .f32) : Fin 24 → Fin 16 → Elt F .f32 :=
  fun k l => ph1 B (fun j => gp k (j 0)) (Fin.cast trips_t3.symm k) (lane16 l)

/-- Before trip `k` of phase 1 on plane `pi`: its staging buffer at `B`, the accumulator `k` groups into the phase. -/
def inv1 (d : Dev nD) (L : grid1.Coords) (pi : Fin k1_t1_loop.trips) (B : Buf (Elt F) ((b1).view.loc (V d (cV L) (jV L))))
    (A : Buf (Elt F) ((acc).view.loc (V d (cV L) (jV L)))) (gp : Fin 24 → Fin 16 → Elt F .f32) (k : Nat) (_ : Unit) : sProp 𝕄 :=
  iprop(((b1).view.loc (V d (cV L) (jV L)) ↦{fullShare} B)
    ∗ ∃ A', ((acc).view.loc (V d (cV L) (jV L)) ↦{fullShare} A') ∗ ⌜AccRel (P pi) (g1 B gp) A A' k⌝)

theorem region1 (d : Dev nD) (L : grid1.Coords) (pi : Fin k1_t1_loop.trips) (v2 v102 : BitVec 32)
    (B : Buf (Elt F) ((b1).view.loc (V d (cV L) (jV L)))) (A : Buf (Elt F) ((acc).view.loc (V d (cV L) (jV L))))
    (gp : Fin 24 → Fin 16 → Elt F .f32) (hprev : ∀ k l, A (accIdx (P pi) k l) = gp k l)
    (k : Fin k1_t3_loop.trips) (s : Unit) :
    inv1 d L pi B A gp k.val s
      ⊢ wp frame (wpE (defs₀ (F := F)) 𝒱₀ (V d (cV L) (jV L)) none) Set.univ
          (k1_t3_body (F := F) L xtV (Memref.isWhole_whole _) oV (Memref.isWhole_whole _) b0 (Memref.isWhole_whole _) b1 (Memref.isWhole_whole _)
            b2 (Memref.isWhole_whole _) b3 (Memref.isWhole_whole _) acc (Memref.isWhole_whole _) cc1_scratch5 cc1_scratch6 cc1_scratch7 cc1_scratch8 cc1_scoped0 v2 pi v102 k s)
          (inv1 d L pi B A gp (k.val + 1)) := by
  unfold inv1 k1_t3_body
  iintro ⟨HB, %A', HA, %hrel⟩
  sl_exec
  sl_step
  isplitl [HB]; · iexact HB
  iexists _
  isplitl [HA]; · iexact HA
  ipureintro
  have hn : k.val < 24 := trips_t3 ▸ k.isLt
  refine AccRel.step hn hrel (k1_off121_eq pi k) _ _ (fun j => ?_)
  have e1 : Fin.cast trips_t3.symm ⟨k.val, hn⟩ = k := Fin.ext rfl
  have hread := AccRel.readAt (k := ⟨k.val, hn⟩) hrel (k1_off121_eq pi k) (k1_off121_inb pi k)
  have e2 : (fun j' : S16.Idx => gp ⟨k.val, hn⟩ (j' 0))
      = (acc).view.readAt (Elt F) (Rect.unit (s := S768) (k1_off121 pi k) S16.size (k1_off121_inb pi k)).toLoadRect A' := by
    rw [hread]; funext j'; exact (hprev _ _).symm
  show _ = ph1 B (fun j' : S16.Idx => gp ⟨k.val, hn⟩ (j' 0)) (Fin.cast trips_t3.symm ⟨k.val, hn⟩) (lane16 (j 0))
  rw [e2, e1, lane16_zero]
  rfl

/-- Phase 2's vectors over the staging contents `B` and the previous phase's vectors `gp`, by trip and lane. -/
def g2 (B : S4x16x384.Idx → Elt F .f32) (gp : Fin 24 → Fin 16 → Elt F .f32) : Fin 24 → Fin 16 → Elt F .f32 :=
  fun k l => ph2 B (fun j => gp k (j 0)) (Fin.cast trips_t4.symm k) (lane16 l)

/-- Before trip `k` of phase 2 on plane `pi`: its staging buffer at `B`, the accumulator `k` groups into the phase. -/
def inv2 (d : Dev nD) (L : grid1.Coords) (pi : Fin k1_t1_loop.trips) (B : Buf (Elt F) ((b2).view.loc (V d (cV L) (jV L))))
    (A : Buf (Elt F) ((acc).view.loc (V d (cV L) (jV L)))) (gp : Fin 24 → Fin 16 → Elt F .f32) (k : Nat) (_ : Unit) : sProp 𝕄 :=
  iprop(((b2).view.loc (V d (cV L) (jV L)) ↦{fullShare} B)
    ∗ ∃ A', ((acc).view.loc (V d (cV L) (jV L)) ↦{fullShare} A') ∗ ⌜AccRel (P pi) (g2 B gp) A A' k⌝)

theorem region2 (d : Dev nD) (L : grid1.Coords) (pi : Fin k1_t1_loop.trips) (v2 v102 v200 v201 : BitVec 32) (v202 v203 : BitVec 1)
    (B : Buf (Elt F) ((b2).view.loc (V d (cV L) (jV L)))) (A : Buf (Elt F) ((acc).view.loc (V d (cV L) (jV L))))
    (gp : Fin 24 → Fin 16 → Elt F .f32) (hprev : ∀ k l, A (accIdx (P pi) k l) = gp k l)
    (k : Fin k1_t4_loop.trips) (s : Unit) :
    inv2 d L pi B A gp k.val s
      ⊢ wp frame (wpE (defs₀ (F := F)) 𝒱₀ (V d (cV L) (jV L)) none) Set.univ
          (k1_t4_body (F := F) L xtV (Memref.isWhole_whole _) oV (Memref.isWhole_whole _) b0 (Memref.isWhole_whole _) b1 (Memref.isWhole_whole _)
            b2 (Memref.isWhole_whole _) b3 (Memref.isWhole_whole _) acc (Memref.isWhole_whole _) cc1_scratch5 cc1_scratch6 cc1_scratch7 cc1_scratch8 cc1_scoped0 v2 pi v102 v200 v201 v202 v203 k s)
          (inv2 d L pi B A gp (k.val + 1)) := by
  unfold inv2 k1_t4_body
  iintro ⟨HB, %A', HA, %hrel⟩
  sl_exec
  sl_step
  isplitl [HB]; · iexact HB
  iexists _
  isplitl [HA]; · iexact HA
  ipureintro
  have hn : k.val < 24 := trips_t4 ▸ k.isLt
  refine AccRel.step hn hrel (k1_off180_eq pi k) _ _ (fun j => ?_)
  have e1 : Fin.cast trips_t4.symm ⟨k.val, hn⟩ = k := Fin.ext rfl
  have hread := AccRel.readAt (k := ⟨k.val, hn⟩) hrel (k1_off180_eq pi k) (k1_off180_inb pi k)
  have e2 : (fun j' : S16.Idx => gp ⟨k.val, hn⟩ (j' 0))
      = (acc).view.readAt (Elt F) (Rect.unit (s := S768) (k1_off180 pi k) S16.size (k1_off180_inb pi k)).toLoadRect A' := by
    rw [hread]; funext j'; exact (hprev _ _).symm
  show _ = ph2 B (fun j' : S16.Idx => gp ⟨k.val, hn⟩ (j' 0)) (Fin.cast trips_t4.symm ⟨k.val, hn⟩) (lane16 (j 0))
  rw [e2, e1, lane16_zero]
  rfl

/-- Phase 3's vectors over the staging contents `B` and the previous phase's vectors `gp`, by trip and lane. -/
def g3 (B : S3x16x384.Idx → Elt F .f32) (gp : Fin 24 → Fin 16 → Elt F .f32) : Fin 24 → Fin 16 → Elt F .f32 :=
  fun k l => ph3 B (fun j => gp k (j 0)) (Fin.cast trips_t5.symm k) (lane16 l)

/-- Before trip `k` of phase 3 on plane `pi`: its staging buffer at `B`, the accumulator `k` groups into the phase. -/
def inv3 (d : Dev nD) (L : grid1.Coords) (pi : Fin k1_t1_loop.trips) (B : Buf (Elt F) ((b3).view.loc (V d (cV L) (jV L))))
    (A : Buf (Elt F) ((acc).view.loc (V d (cV L) (jV L)))) (gp : Fin 24 → Fin 16 → Elt F .f32) (k : Nat) (_ : Unit) : sProp 𝕄 :=
  iprop(((b3).view.loc (V d (cV L) (jV L)) ↦{fullShare} B)
    ∗ ∃ A', ((acc).view.loc (V d (cV L) (jV L)) ↦{fullShare} A') ∗ ⌜AccRel (P pi) (g3 B gp) A A' k⌝)

theorem region3 (d : Dev nD) (L : grid1.Coords) (pi : Fin k1_t1_loop.trips) (v2 v67 c32 v68 v70 v102 : BitVec 32)
    (B : Buf (Elt F) ((b3).view.loc (V d (cV L) (jV L)))) (A : Buf (Elt F) ((acc).view.loc (V d (cV L) (jV L))))
    (gp : Fin 24 → Fin 16 → Elt F .f32) (hprev : ∀ k l, A (accIdx (P pi) k l) = gp k l)
    (k : Fin k1_t5_loop.trips) (s : Unit) :
    inv3 d L pi B A gp k.val s
      ⊢ wp frame (wpE (defs₀ (F := F)) 𝒱₀ (V d (cV L) (jV L)) none) Set.univ
          (k1_t5_body (F := F) L xtV (Memref.isWhole_whole _) oV (Memref.isWhole_whole _) b0 (Memref.isWhole_whole _) b1 (Memref.isWhole_whole _)
            b2 (Memref.isWhole_whole _) b3 (Memref.isWhole_whole _) acc (Memref.isWhole_whole _) cc1_scratch5 cc1_scratch6 cc1_scratch7 cc1_scratch8 cc1_scoped0 v2 v67 c32 v68 v70 pi v102 k s)
          (inv3 d L pi B A gp (k.val + 1)) := by
  unfold inv3 k1_t5_body
  iintro ⟨HB, %A', HA, %hrel⟩
  sl_exec
  sl_step
  isplitl [HB]; · iexact HB
  iexists _
  isplitl [HA]; · iexact HA
  ipureintro
  have hn : k.val < 24 := trips_t5 ▸ k.isLt
  refine AccRel.step hn hrel (k1_off225_eq pi k) _ _ (fun j => ?_)
  have e1 : Fin.cast trips_t5.symm ⟨k.val, hn⟩ = k := Fin.ext rfl
  have hread := AccRel.readAt (k := ⟨k.val, hn⟩) hrel (k1_off225_eq pi k) (k1_off225_inb pi k)
  have e2 : (fun j' : S16.Idx => gp ⟨k.val, hn⟩ (j' 0))
      = (acc).view.readAt (Elt F) (Rect.unit (s := S768) (k1_off225 pi k) S16.size (k1_off225_inb pi k)).toLoadRect A' := by
    rw [hread]; funext j'; exact (hprev _ _).symm
  show _ = ph3 B (fun j' : S16.Idx => gp ⟨k.val, hn⟩ (j' 0)) (Fin.cast trips_t5.symm ⟨k.val, hn⟩) (lane16 (j 0))
  rw [e2, e1, lane16_zero]
  rfl

end Cert.Kernel.Hand

end
-- ==== Proof.KB.Own.lean ====
/-
  A vector subcore's own DMA semaphores and scratch buffers, taken out of the families the launch hands it.
-/
import proofs.«214330_g12317966205028_cont_fleet_230_29_alg».proof.Proof.KB.Base

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The subcore's own semaphores and scratch buffers -/

section Tile

variable (d : Dev nD) (L : grid1.Coords)

/-- The DMA semaphore `sm` of the subcore at `L`, as a cell. -/
abbrev cellV (sm : DmaSems sig S_) : GSem nD τ sig := (V d (cV L) (jV L), .dma sm.sem)

omit [FloatOps F] in
theorem cellV_mem (sm : DmaSems sig S_) (h : (SemLoc.dma sm.sem : SemLoc sig).isScoped .scVector = true) :
    cellV d L sm ∈ ownCells (V d (cV L) (jV L)) := (mem_ownCells (g := cellV d L sm)).mpr ⟨rfl, h⟩

omit [FloatOps F] in
theorem cellV_ne {a b : DmaSems sig S_} (h : (SemLoc.dma a.sem : SemLoc sig) ≠ SemLoc.dma b.sem) : cellV d L a ≠ cellV d L b :=
  fun e => h (congrArg Prod.snd e)

omit [FloatOps F] in
theorem ownSems0_V :
    (ownSems0 (V d (cV L) (jV L)) : sProp 𝕄)
      = iprop(semVal (cellV d L cc1_scratch5) 0 ∗ semVal (cellV d L cc1_scratch6) 0 ∗ semVal (cellV d L cc1_scratch7) 0
          ∗ semVal (cellV d L cc1_scratch8) 0 ∗ semVal (cellV d L cc1_scoped0) 0
          ∗ bigSep (((((ownCells (V d (cV L) (jV L))).erase (cellV d L cc1_scratch5)).erase (cellV d L cc1_scratch6)).erase (cellV d L cc1_scratch7)).erase
              (cellV d L cc1_scratch8) |>.erase (cellV d L cc1_scoped0)) fun g => semVal g 0) := by
  unfold SparseCore.Cfg.ownSems0
  rw [SparseCore.bigSep_erase' (cellV_mem d L cc1_scratch5 (by decide)),
    SparseCore.bigSep_erase' (Finset.mem_erase.mpr ⟨cellV_ne d L (by decide), cellV_mem d L cc1_scratch6 (by decide)⟩),
    SparseCore.bigSep_erase' (Finset.mem_erase.mpr ⟨cellV_ne d L (by decide), Finset.mem_erase.mpr ⟨cellV_ne d L (by decide), cellV_mem d L cc1_scratch7 (by decide)⟩⟩),
    SparseCore.bigSep_erase' (Finset.mem_erase.mpr ⟨cellV_ne d L (by decide), Finset.mem_erase.mpr ⟨cellV_ne d L (by decide),
      Finset.mem_erase.mpr ⟨cellV_ne d L (by decide), cellV_mem d L cc1_scratch8 (by decide)⟩⟩⟩),
    SparseCore.bigSep_erase' (Finset.mem_erase.mpr ⟨cellV_ne d L (by decide), Finset.mem_erase.mpr ⟨cellV_ne d L (by decide),
      Finset.mem_erase.mpr ⟨cellV_ne d L (by decide), Finset.mem_erase.mpr ⟨cellV_ne d L (by decide), cellV_mem d L cc1_scoped0 (by decide)⟩⟩⟩⟩)]

/-- Scratch buffer `b` of the subcore at `L`, as a buffer of the device. -/
abbrev refV (b : Ref sig .scVector) : DevRef τ sig := (Proc.scVector (cV L) (jV L)).devRef b

omit [FloatOps F] in
theorem refV_mem (b : Ref sig .scVector) (h : (refV L b).owner = .proc (Proc.scVector (cV L) (jV L))) :
    refV L b ∈ ownRefs (τ := τ) (.scVector (cV L) (jV L)) := SparseCore.Cfg.mem_ownRefs_of_owner h

omit [FloatOps F] in
theorem refV_ne {a b : Ref sig .scVector} (h : a ≠ b) : refV L a ≠ refV L b :=
  fun e => h (Proc.devRef_injective _ e)

omit [FloatOps F] in
/-- The five scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ (∃ f, (V d (cV L) (jV L)).loc cc1_scratch4 ↦{fullShare} f)
          ∗ bigSep (((((ownRefs (τ := τ) (.scVector (cV L) (jV L))).erase (refV L cc1_scratch0)).erase (refV L cc1_scratch1)).erase (refV L cc1_scratch2)).erase
              (refV L cc1_scratch3) |>.erase (refV L cc1_scratch4)) fun b => iprop(∃ f, ((d, b) : Loc nD τ sig) ↦{fullShare} f)) := by
  unfold SparseCore.Cfg.ownBufs
  refine (SparseCore.bigSep_erase' (refV_mem L cc1_scratch0 rfl)).trans ?_
  rw [SparseCore.bigSep_erase' (Finset.mem_erase.mpr ⟨refV_ne L (by decide), refV_mem L cc1_scratch1 rfl⟩),
    SparseCore.bigSep_erase' (Finset.mem_erase.mpr ⟨refV_ne L (by decide), Finset.mem_erase.mpr ⟨refV_ne L (by decide), refV_mem L cc1_scratch2 rfl⟩⟩),
    SparseCore.bigSep_erase' (Finset.mem_erase.mpr ⟨refV_ne L (by decide), Finset.mem_erase.mpr ⟨refV_ne L (by decide),
      Finset.mem_erase.mpr ⟨refV_ne L (by decide), refV_mem L cc1_scratch3 rfl⟩⟩⟩),
    SparseCore.bigSep_erase' (Finset.mem_erase.mpr ⟨refV_ne L (by decide), Finset.mem_erase.mpr ⟨refV_ne L (by decide),
      Finset.mem_erase.mpr ⟨refV_ne L (by decide), Finset.mem_erase.mpr ⟨refV_ne L (by decide), refV_mem L cc1_scratch4 rfl⟩⟩⟩⟩)]

end Tile

end Cert.Kernel.Hand

end
-- ==== Proof.KB.Outer.lean ====
/-
  The outer loop of the vector-subcore kernel: one plane per trip. Before plane `n` the plane's first three row
  groups are in flight into the first three staging buffers (started by the prologue or by the trip before); the trip
  starts the fourth group, and per phase waits for the phase's group, runs the phase's inner loop and — if another
  plane follows — starts that plane's group into the buffer just consumed. The input is read under one share per DMA
  semaphore, so that up to four transfers read it at once. The invariant carries the flights, the accumulator with the
  planes done so far at their values, and what the subcore owes.
-/
import proofs.«214330_g12317966205028_cont_fleet_230_29_alg».proof.Proof.KB.Inner
import proofs.«214330_g12317966205028_cont_fleet_230_29_alg».proof.Proof.KB.Own

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile2

variable (d : Dev nD) (L : grid1.Coords)

omit [FloatOps F] in
/-- The transposed input as the subcore's memref addresses it is the device's array. -/
theorem pts_xt (q : PosShare TreeShare) (f : Buf (Elt F) (xtLoc d)) :
    ((xtV).view.loc (V d (cV L) (jV L)) ↦{q} f : sProp 𝕄) = xtLoc d ↦{q} f := by
  simp only [Memref.view_whole, View.set_whole]
omit [FloatOps F] in
/-- The subcore's 768 entries of the flat result, as its slice addresses them. -/
theorem pts_o (f : Buf (Elt F) (oLoc d)) :
    ((oSlice L).view.loc (V d (cV L) (jV L)) ↦[(oSlice L).view.set]{fullShare} f : sProp 𝕄) = oLoc d ↦[oSet L]{fullShare} f := rfl
omit [FloatOps F] in
theorem pts_b (b : Ref sig .scVector) (f : Buf (Elt F) ((V d (cV L) (jV L)).loc b)) :
    ((Memref.whole b : Memref sig .scVector _ _ _).view.loc (V d (cV L) (jV L)) ↦{fullShare} f : sProp 𝕄) = (V d (cV L) (jV L)).loc b ↦{fullShare} f := rfl

omit [FloatOps F] in
/-- The input's share as the remainder and eight read tokens, numbered as the DMA semaphores are. -/
theorem xt_toks (q : PosShare TreeShare) (f : Buf (Elt F) (xtLoc d)) :
    ((xtV).view.loc (V d (cV L) (jV L)) ↦{q} f : sProp 𝕄)
      ⊣⊢ iprop(((xtV).view.loc (V d (cV L) (jV L)) ↦{Transfers.shareDrop q 8} f)
          ∗ ((xtV).view.loc (V d (cV L) (jV L)) ↦{Transfers.shareTokN q 7} f) ∗ ((xtV).view.loc (V d (cV L) (jV L)) ↦{Transfers.shareTokN q 6} f)
          ∗ ((xtV).view.loc (V d (cV L) (jV L)) ↦{Transfers.shareTokN q 5} f) ∗ ((xtV).view.loc (V d (cV L) (jV L)) ↦{Transfers.shareTokN q 4} f)
          ∗ ((xtV).view.loc (V d (cV L) (jV L)) ↦{Transfers.shareTokN q 3} f) ∗ ((xtV).view.loc (V d (cV L) (jV L)) ↦{Transfers.shareTokN q 2} f)
          ∗ ((xtV).view.loc (V d (cV L) (jV L)) ↦{Transfers.shareTokN q 1} f) ∗ ((xtV).view.loc (V d (cV L) (jV L)) ↦{Transfers.shareTokN q 0} f) ∗ emp) := by
  have hs : ∀ (k : ℕ) (A : ℕ → sProp 𝕄), bigSep (Finset.range (k + 1)) A = iprop(A k ∗ bigSep (Finset.range k) A) := fun k A => by
    rw [Finset.range_add_one, BI.bigSep_insert Finset.notMem_range_self]; rfl
  have h := Transfers.pointsTo_toks_range (Ix := HIx 1) (Name := ℕ) (U := UU) (Lvl := ℕ) (ℓ := (xtV).view.loc (V d (cV L) (jV L))) (S := Finset.univ) (f := f) q 8
  rw [hs 7, hs 6, hs 5, hs 4, hs 3, hs 2, hs 1, hs 0, Finset.range_zero, BI.bigSep_empty] at h
  exact h

end Tile2

/-! ## The plane chunks in flight -/

/-- Four rows of a plane of the transposed input, as the program slices and squeezes them. -/
abbrev src4 (off : Fin 5 → Nat) (h : ∀ a, off a + S1x1x4x16x384.size a ≤ S8x32x16x16x384.size a) : Memref sig .scVector .hbm S4x16x384 .f32 :=
  ((xtV).slice (Rect.unit (s := S8x32x16x16x384) off S1x1x4x16x384.size h) (fun _ => rfl)).squeeze S4x16x384 squeezes_S1x1x4x16x384_S4x16x384
/-- Three rows of a plane likewise. -/
abbrev src3 (off : Fin 5 → Nat) (h : ∀ a, off a + S1x1x3x16x384.size a ≤ S8x32x16x16x384.size a) : Memref sig .scVector .hbm S3x16x384 .f32 :=
  ((xtV).slice (Rect.unit (s := S8x32x16x16x384) off S1x1x3x16x384.size h) (fun _ => rfl)).squeeze S3x16x384 squeezes_S1x1x3x16x384_S3x16x384

omit [FloatOps F] in
theorem src4_congr {off off' : Fin 5 → Nat} (e : off = off') (h h') : src4 off h = src4 off' h' := by subst e; rfl
omit [FloatOps F] in
theorem src3_congr {off off' : Fin 5 → Nat} (e : off = off') (h h') : src3 off h = src3 off' h' := by subst e; rfl

/-- The offsets of the chunks the prologue and a trip start are those the waits name. -/
theorem off1_eq : ∀ L : grid1.Coords, k1_off1 L = k1_off5 L ⟨0, by decide⟩ := by decide +kernel
theorem off2_eq : ∀ L : grid1.Coords, k1_off2 L = k1_off64 L ⟨0, by decide⟩ := by decide +kernel
theorem off3_eq : ∀ L : grid1.Coords, k1_off3 L = k1_off123 L ⟨0, by decide⟩ := by decide +kernel
theorem off63_eq : ∀ L : grid1.Coords, k1_off63 L ⟨0, by decide⟩ = k1_off5 L ⟨1, by decide⟩ := by decide +kernel
theorem off122_eq : ∀ L : grid1.Coords, k1_off122 L ⟨0, by decide⟩ = k1_off64 L ⟨1, by decide⟩ := by decide +kernel
theorem off181_eq : ∀ L : grid1.Coords, k1_off181 L ⟨0, by decide⟩ = k1_off123 L ⟨1, by decide⟩ := by decide +kernel
theorem off4_eq : ∀ (L : grid1.Coords) (pi : Fin k1_t1_loop.trips), k1_off4 L pi = k1_off182 L pi := by decide +kernel

section Outer

variable (d : Dev nD) (L : grid1.Coords) (q : PosShare TreeShare) (xt : Buf (Elt F) (xtLoc d))

/-- What a chunk's transfer delivers: the staging buffer at the chunk's rows `B`, and the rows' read share. -/
def D4 (m : Memref sig .scVector .vmem S4x16x384 .f32) (B : Buf (Elt F) (m.view.loc (V d (cV L) (jV L)))) (i : ℕ) (off : Fin 5 → Nat)
    (h : ∀ a, off a + S1x1x4x16x384.size a ≤ S8x32x16x16x384.size a) : sProp 𝕄 :=
  iprop((m.view.loc (V d (cV L) (jV L)) ↦{fullShare} B)
    ∗ ((xtV).view.loc (V d (cV L) (jV L)) ↦[(src4 off h).view.set]{Transfers.shareTokN q i} xt))

/-- A chunk in flight on DMA semaphore `i` into `m`: the transfer, and what is left of the semaphore's read token. -/
def Fly4 (m : Memref sig .scVector .vmem S4x16x384 .f32) (B : Buf (Elt F) (m.view.loc (V d (cV L) (jV L)))) (i : ℕ) (hi : i < 9) (off : Fin 5 → Nat)
    (h : ∀ a, off a + S1x1x4x16x384.size a ≤ S8x32x16x16x384.size a) : sProp 𝕄 :=
  iprop(Transfers.Flight (countersEmb (U := UU)) (V d (cV L) (jV L)) (SemLoc.dma (sig := sig) ⟨i, hi⟩) default 786432 (D4 d L q xt m B i off h)
    ∗ ((xtV).view.loc (V d (cV L) (jV L)) ↦[Finset.univ \ (src4 off h).view.set]{Transfers.shareTokN q i} xt))

/-- A transfer just issued, restated at another name of the same offsets and at the contents it lands. -/
theorem fly4_of (m : Memref sig .scVector .vmem S4x16x384 .f32) (i : ℕ) (hi : i < 9) {off off' : Fin 5 → Nat} (e : off = off') (h h')
    (f0 B : Buf (Elt F) (m.view.loc (V d (cV L) (jV L)))) (w : S4x16x384.Idx → Elt F .f32) (hw : w = ReadAs.same.apply ((src4 off h).view.read (Elt F) xt))
    (hB : View.write (Elt F) m.view f0 (ReadAs.same.apply ((src4 off' h').view.read (Elt F) xt)) Finset.univ = B) :
    iprop(Transfers.Flight (countersEmb (U := UU)) (V d (cV L) (jV L)) (SemLoc.dma (sig := sig) ⟨i, hi⟩) default 786432
        iprop((m.view.loc (V d (cV L) (jV L)) ↦{fullShare} View.write (Elt F) m.view f0 w Finset.univ)
          ∗ ((xtV).view.loc (V d (cV L) (jV L)) ↦[(src4 off h).view.set]{Transfers.shareTokN q i} xt))
      ∗ ((xtV).view.loc (V d (cV L) (jV L)) ↦[Finset.univ \ (src4 off h).view.set]{Transfers.shareTokN q i} xt))
    ⊢ Fly4 d L q xt m B i hi off' h' := by
  subst e hw
  unfold Fly4 D4
  rw [hB]

end Outer

section Outer2

variable (d : Dev nD) (L : grid1.Coords) (q : PosShare TreeShare) (xt : Buf (Elt F) (xtLoc d))

/-- The planes below `n` are summed: their entries of the accumulator hold the planes' values. -/
def PlanesDone (n : ℕ) (A : S768.Idx → Elt F .f32) : Prop :=
  ∀ p : Fin 2, p.val < n → ∀ (k : Fin 24) (l : Fin 16), A (accIdx p k l) = planeVal xt L (Fin.cast trips_t1.symm p) k (lane16 l)

/-- Before plane `p`: its first three chunks are in flight into the first three staging buffers. -/
def Pend (p : Fin k1_t1_loop.trips) : sProp 𝕄 :=
  iprop(Fly4 d L q xt b0 (chunk0 xt L p) 4 (by decide) (k1_off5 L p) (k1_off5_inb L p)
    ∗ Fly4 d L q xt b1 (chunk1 xt L p) 5 (by decide) (k1_off64 L p) (k1_off64_inb L p)
    ∗ Fly4 d L q xt b2 (chunk2 xt L p) 6 (by decide) (k1_off123 L p) (k1_off123_inb L p))

/-- After the last plane: nothing in flight. -/
def Idle : sProp 𝕄 :=
  iprop((∃ f, (b0).view.loc (V d (cV L) (jV L)) ↦{fullShare} f) ∗ (∃ f, (b1).view.loc (V d (cV L) (jV L)) ↦{fullShare} f) ∗ (∃ f, (b2).view.loc (V d (cV L) (jV L)) ↦{fullShare} f)
    ∗ semVal (cellV d L cc1_scratch5) 0 ∗ semVal (cellV d L cc1_scratch6) 0 ∗ semVal (cellV d L cc1_scratch7) 0
    ∗ ((xtV).view.loc (V d (cV L) (jV L)) ↦{Transfers.shareTokN q 4} xt) ∗ ((xtV).view.loc (V d (cV L) (jV L)) ↦{Transfers.shareTokN q 5} xt) ∗ ((xtV).view.loc (V d (cV L) (jV L)) ↦{Transfers.shareTokN q 6} xt))

/-- The first three staging buffers and their semaphores before plane `n`. -/
def Stage (n : ℕ) : sProp 𝕄 := if h : n < 2 then Pend d L q xt ⟨n, trips_t1 ▸ h⟩ else Idle d L q xt

/-- The outer loop's invariant before plane `n`. -/
def outerInv (O : CellTallies nD τ sig (HIx 1)) (W : Waits sig (HIx 1)) (n : ℕ) (_ : Unit) : sProp 𝕄 :=
  iprop(Transfers.MayWaits (V d (cV L) (jV L)) (none : HIx 1) O
    ∗ Stage d L q xt n
    ∗ (∃ f, (b3).view.loc (V d (cV L) (jV L)) ↦{fullShare} f) ∗ semVal (cellV d L cc1_scratch8) 0 ∗ ((xtV).view.loc (V d (cV L) (jV L)) ↦{Transfers.shareTokN q 7} xt)
    ∗ (∃ A, ((acc).view.loc (V d (cV L) (jV L)) ↦{fullShare} A) ∗ ⌜PlanesDone d L xt n A⌝)
    ∗ ∃ W', ⌜∀ p ∈ W', p ∈ W ∨ p.2 = none⌝ ∗ owes (V d (cV L) (jV L)) O W')

end Outer2

/-- The two planes. -/
abbrev p0 : Fin k1_t1_loop.trips := ⟨0, by decide⟩
abbrev p1 : Fin k1_t1_loop.trips := ⟨1, by decide⟩

section Planes

variable (d : Dev nD) (L : grid1.Coords) (xt : Buf (Elt F) (xtLoc d))

theorem read_src3_congr {off off' : Fin 5 → Nat} (e : off = off') (h h') :
    (src3 off h).view.read (Elt F) xt = (src3 off' h').view.read (Elt F) xt := by subst e; rfl

/-- The last staging buffer once its chunk has landed holds the plane's rows 12…14 as the wait names them. -/
theorem chunk3_of (pi : Fin k1_t1_loop.trips) (h : ∀ a, (k1_off4 L pi) a + S1x1x3x16x384.size a ≤ S8x32x16x16x384.size a)
    (f3 : Buf (Elt F) ((b3).view.loc (V d (cV L) (jV L)))) (w : S3x16x384.Idx → Elt F .f32) (hw : w = ReadAs.same.apply ((src3 (k1_off4 L pi) h).view.read (Elt F) xt)) :
    View.write (Elt F) (b3).view f3 w Finset.univ = chunk3 xt L pi := by
  subst hw
  refine (View.write_whole_univ _ _ _).trans ?_
  exact read_src3_congr d xt (off4_eq L pi) h (k1_off182_inb L pi)

/-- The four phases over plane `pi`'s chunks give the plane's value. -/
theorem gchain_eq (pi : Fin k1_t1_loop.trips) (k : Fin 24) (l : Fin 16) :
    g3 (chunk3 xt L pi) (g2 (chunk2 xt L pi) (g1 (chunk1 xt L pi) (g0 (chunk0 xt L pi)))) k l = planeVal xt L pi k (lane16 l) := by
  unfold g3 g2 g1 g0 planeVal
  simp only [lane16_zero]

/-- One plane's four phases extend the planes done by one. -/
theorem planes_step (pi : Fin k1_t1_loop.trips) {A0 A1 A2 A3 A4 : S768.Idx → Elt F .f32}
    (h0 : AccRel (P pi) (g0 (chunk0 xt L pi)) A0 A1 k1_t2_loop.trips)
    (h1 : AccRel (P pi) (g1 (chunk1 xt L pi) (g0 (chunk0 xt L pi))) A1 A2 k1_t3_loop.trips)
    (h2 : AccRel (P pi) (g2 (chunk2 xt L pi) (g1 (chunk1 xt L pi) (g0 (chunk0 xt L pi)))) A2 A3 k1_t4_loop.trips)
    (h3 : AccRel (P pi) (g3 (chunk3 xt L pi) (g2 (chunk2 xt L pi) (g1 (chunk1 xt L pi) (g0 (chunk0 xt L pi))))) A3 A4 k1_t5_loop.trips)
    (hA : PlanesDone d L xt pi.val A0) : PlanesDone d L xt (pi.val + 1) A4 := by
  rw [trips_t2] at h0; rw [trips_t3] at h1; rw [trips_t4] at h2; rw [trips_t5] at h3
  intro p hp k l
  by_cases hpp : p = P pi
  · subst hpp
    rw [h3.1 k l k.isLt, gchain_eq]
    rfl
  · have hlt : p.val < pi.val := by
      have : p.val ≠ pi.val := fun e => hpp (Fin.ext e)
      omega
    have hx : ¬(384 * (P pi).val ≤ ((accIdx p k l) 0).val ∧ ((accIdx p k l) 0).val < 384 * (P pi).val + 16 * 24) := by
      rw [accIdx_val]
      have := k.isLt; have := l.isLt
      show ¬(384 * pi.val ≤ _ ∧ _ < 384 * pi.val + 16 * 24)
      omega
    rw [h3.2 _ hx, h2.2 _ hx, h1.2 _ hx, h0.2 _ hx]
    exact hA p hlt k l

end Planes

set_option maxHeartbeats 2000000 in
theorem trip_first (d : Dev nD) (L : grid1.Coords) (q : PosShare TreeShare) (xt : Buf (Elt F) (xtLoc d))
    (O : CellTallies nD τ sig (HIx 1)) (W : Waits sig (HIx 1)) (v2 v67 c32 v68 v70 : BitVec 32) (s : Unit) :
    outerInv d L q xt O W 0 s
      ⊢ wp frame (wpE (defs₀ (F := F)) 𝒱₀ (V d (cV L) (jV L)) none) Set.univ
          (k1_t1_body (F := F) L xtV (Memref.isWhole_whole _) oV (Memref.isWhole_whole _) b0 (Memref.isWhole_whole _) b1 (Memref.isWhole_whole _)
            b2 (Memref.isWhole_whole _) b3 (Memref.isWhole_whole _) acc (Memref.isWhole_whole _) cc1_scratch5 cc1_scratch6 cc1_scratch7 cc1_scratch8 cc1_scoped0 v2 v67 c32 v68 v70 p0 s)
          (outerInv d L q xt O W 1) := by
  have k1_h1 : k1_cond1 p0 = 1#1 := by decide
  have k1_h2 : k1_cond2 p0 = 1#1 := by decide
  have k1_h3 : k1_cond3 p0 = 1#1 := by decide
  have k1_h4 : k1_cond4 p0 = 1#1 := by decide
  unfold outerInv k1_t1_body
  rw [show Stage d L q xt 0 = Pend d L q xt p0 from dif_pos (by decide)]
  unfold Pend Fly4 D4
  iintro ⟨#Hmw, ⟨⟨Hs0, Hr0⟩, ⟨Hs1, Hr1⟩, ⟨Hs2, Hr2⟩⟩, ⟨%f3, Hb3⟩, Hs3, Ht7, ⟨%A, Hacc, %hA⟩, %W', %hW', HO⟩
  sl_exec
  -- phase 0
  sl_for (inv0 d L p0 (chunk0 xt L p0) A) $$ [Hs0_dst Hacc]
  · exact fun k s => region0 d L p0 v2 _ _ _ k s
  · unfold inv0
    isplitl [Hs0_dst]; · iexact Hs0_dst
    iexists A; isplitl [Hacc]; · iexact Hacc
    ipureintro; exact AccRel.zero _ _ _
  iintro %_ HI
  unfold inv0
  icases HI with ⟨Hb0, %A1, Hacc, %hr0⟩
  sl_exec
  -- phase 1
  sl_for (inv1 d L p0 (chunk1 xt L p0) A1 (g0 (chunk0 xt L p0))) $$ [Hs1_dst Hacc]
  · exact fun k s => region1 d L p0 v2 _ _ _ _ (fun k l => hr0.1 k l (lt_of_lt_of_eq k.isLt trips_t2.symm)) k s
  · unfold inv1
    isplitl [Hs1_dst]; · iexact Hs1_dst
    iexists A1; isplitl [Hacc]; · iexact Hacc
    ipureintro; exact AccRel.zero _ _ _
  iintro %_ HI
  unfold inv1
  icases HI with ⟨Hb1, %A2, Hacc, %hr1⟩
  sl_exec
  -- phase 2
  sl_for (inv2 d L p0 (chunk2 xt L p0) A2 (g1 (chunk1 xt L p0) (g0 (chunk0 xt L p0)))) $$ [Hs2_dst Hacc]
  · exact fun k s => region2 d L p0 v2 _ 0#32 0#32 0#1 0#1 _ _ _ (fun k l => hr1.1 k l (lt_of_lt_of_eq k.isLt trips_t3.symm)) k s
  · unfold inv2
    isplitl [Hs2_dst]; · iexact Hs2_dst
    iexists A2; isplitl [Hacc]; · iexact Hacc
    ipureintro; exact AccRel.zero _ _ _
  iintro %_ HI
  unfold inv2
  icases HI with ⟨Hb2, %A3, Hacc, %hr2⟩
  sl_exec
  -- phase 3: the last staging buffer at the plane's rows 12…14
  ihave Hb3c := (Entails.of_eq (congrArg (fun B => ((b3).view.loc (V d (cV L) (jV L)) ↦{fullShare} B : sProp 𝕄)) (chunk3_of d L xt p0 (k1_off4_inb L p0 k1_h1) f3 (trip_first.sl.dma0 d L xt k1_h1) rfl))) $$ Hb3
  sl_for (inv3 d L p0 (chunk3 xt L p0) A3 (g2 (chunk2 xt L p0) (g1 (chunk1 xt L p0) (g0 (chunk0 xt L p0))))) $$ [Hb3c Hacc]
  · exact fun k s => region3 d L p0 v2 v67 c32 v68 v70 _ _ _ _ (fun k l => hr2.1 k l (lt_of_lt_of_eq k.isLt trips_t4.symm)) k s
  · unfold inv3
    isplitl [Hb3c]; · iexact Hb3c
    iexists A3; isplitl [Hacc]; · iexact Hacc
    ipureintro; exact AccRel.zero _ _ _
  iintro %_ HI
  unfold inv3
  icases HI with ⟨Hb3, %A4, Hacc, %hr3⟩
  sl_exec
  sl_step
  have hA4 : PlanesDone d L xt (p0.val + 1) A4 := planes_step d L xt p0 hr0 hr1 hr2 hr3 hA
  rw [show Stage d L q xt 1 = Pend d L q xt p1 from dif_pos (by decide)]
  unfold Pend
  isplitr; · iexact Hmw
  isplitl [Hs0 Hr0 Hs1 Hr1 Hs2 Hr2]
  · isplitl [Hs0 Hr0]
    · iapply (fly4_of d L q xt b0 4 (by decide) (off63_eq L) (k1_off63_inb L p0 k1_h2) _ _ _ (trip_first.sl.dma0_1 d L xt k1_h2) rfl (View.write_whole_univ _ _ _))
      isplitl [Hs0]; · iexact Hs0
      iexact Hr0
    isplitl [Hs1 Hr1]
    · iapply (fly4_of d L q xt b1 5 (by decide) (off122_eq L) (k1_off122_inb L p0 k1_h3) _ _ _ (trip_first.sl.dma0_2 d L xt k1_h3) rfl (View.write_whole_univ _ _ _))
      isplitl [Hs1]; · iexact Hs1
      iexact Hr1
    · iapply (fly4_of d L q xt b2 6 (by decide) (off181_eq L) (k1_off181_inb L p0 k1_h4) _ _ _ (trip_first.sl.dma0_3 d L xt k1_h4) rfl (View.write_whole_univ _ _ _))
      isplitl [Hs2]; · iexact Hs2
      iexact Hr2
  isplitl [Hb3]; · iexists _; iexact Hb3
  isplitl [Hs3]; · iexact Hs3
  isplitl [Ht7]; · iexact Ht7
  isplitl [Hacc]
  · iexists A4; isplitl [Hacc]; · iexact Hacc
    ipureintro; exact hA4
  iexists (insert (SemLoc.dma (sig := sig) ⟨7, by decide⟩, (default : HIx 1)) (insert (SemLoc.dma (sig := sig) ⟨6, by decide⟩, (default : HIx 1))
    (insert (SemLoc.dma (sig := sig) ⟨5, by decide⟩, (default : HIx 1)) (insert (SemLoc.dma (sig := sig) ⟨4, by decide⟩, (default : HIx 1)) W'))))
  isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

set_option maxHeartbeats 2000000 in
theorem trip_last (d : Dev nD) (L : grid1.Coords) (q : PosShare TreeShare) (xt : Buf (Elt F) (xtLoc d))
    (O : CellTallies nD τ sig (HIx 1)) (W : Waits sig (HIx 1)) (v2 v67 c32 v68 v70 : BitVec 32) (s : Unit) :
    outerInv d L q xt O W 1 s
      ⊢ wp frame (wpE (defs₀ (F := F)) 𝒱₀ (V d (cV L) (jV L)) none) Set.univ
          (k1_t1_body (F := F) L xtV (Memref.isWhole_whole _) oV (Memref.isWhole_whole _) b0 (Memref.isWhole_whole _) b1 (Memref.isWhole_whole _)
            b2 (Memref.isWhole_whole _) b3 (Memref.isWhole_whole _) acc (Memref.isWhole_whole _) cc1_scratch5 cc1_scratch6 cc1_scratch7 cc1_scratch8 cc1_scoped0 v2 v67 c32 v68 v70 p1 s)
          (outerInv d L q xt O W 2) := by
  have k1_h1 : k1_cond1 p1 = 1#1 := by decide
  have k1_h2 : ¬ k1_cond2 p1 = 1#1 := by decide
  have k1_h3 : ¬ k1_cond3 p1 = 1#1 := by decide
  have k1_h4 : ¬ k1_cond4 p1 = 1#1 := by decide
  unfold outerInv k1_t1_body
  rw [show Stage d L q xt 1 = Pend d L q xt p1 from dif_pos (by decide)]
  unfold Pend Fly4 D4
  iintro ⟨#Hmw, ⟨⟨Hs0, Hr0⟩, ⟨Hs1, Hr1⟩, ⟨Hs2, Hr2⟩⟩, ⟨%f3, Hb3⟩, Hs3, Ht7, ⟨%A, Hacc, %hA⟩, %W', %hW', HO⟩
  sl_exec
  -- phase 0
  sl_for (inv0 d L p1 (chunk0 xt L p1) A) $$ [Hs0_dst Hacc]
  · exact fun k s => region0 d L p1 v2 _ _ _ k s
  · unfold inv0
    isplitl [Hs0_dst]; · iexact Hs0_dst
    iexists A; isplitl [Hacc]; · iexact Hacc
    ipureintro; exact AccRel.zero _ _ _
  iintro %_ HI
  unfold inv0
  icases HI with ⟨Hb0, %A1, Hacc, %hr0⟩
  sl_exec
  -- phase 1
  sl_for (inv1 d L p1 (chunk1 xt L p1) A1 (g0 (chunk0 xt L p1))) $$ [Hs1_dst Hacc]
  · exact fun k s => region1 d L p1 v2 _ _ _ _ (fun k l => hr0.1 k l (lt_of_lt_of_eq k.isLt trips_t2.symm)) k s
  · unfold inv1
    isplitl [Hs1_dst]; · iexact Hs1_dst
    iexists A1; isplitl [Hacc]; · iexact Hacc
    ipureintro; exact AccRel.zero _ _ _
  iintro %_ HI
  unfold inv1
  icases HI with ⟨Hb1, %A2, Hacc, %hr1⟩
  sl_exec
  -- phase 2
  sl_for (inv2 d L p1 (chunk2 xt L p1) A2 (g1 (chunk1 xt L p1) (g0 (chunk0 xt L p1)))) $$ [Hs2_dst Hacc]
  · exact fun k s => region2 d L p1 v2 _ 0#32 0#32 0#1 0#1 _ _ _ (fun k l => hr1.1 k l (lt_of_lt_of_eq k.isLt trips_t3.symm)) k s
  · unfold inv2
    isplitl [Hs2_dst]; · iexact Hs2_dst
    iexists A2; isplitl [Hacc]; · iexact Hacc
    ipureintro; exact AccRel.zero _ _ _
  iintro %_ HI
  unfold inv2
  icases HI with ⟨Hb2, %A3, Hacc, %hr2⟩
  sl_exec
  -- phase 3: the last staging buffer at the plane's rows 12…14
  ihave Hb3c := (Entails.of_eq (congrArg (fun B => ((b3).view.loc (V d (cV L) (jV L)) ↦{fullShare} B : sProp 𝕄)) (chunk3_of d L xt p1 (k1_off4_inb L p1 k1_h1) f3 (trip_last.sl.dma0 d L xt k1_h1) rfl))) $$ Hb3
  sl_for (inv3 d L p1 (chunk3 xt L p1) A3 (g2 (chunk2 xt L p1) (g1 (chunk1 xt L p1) (g0 (chunk0 xt L p1))))) $$ [Hb3c Hacc]
  · exact fun k s => region3 d L p1 v2 v67 c32 v68 v70 _ _ _ _ (fun k l => hr2.1 k l (lt_of_lt_of_eq k.isLt trips_t4.symm)) k s
  · unfold inv3
    isplitl [Hb3c]; · iexact Hb3c
    iexists A3; isplitl [Hacc]; · iexact Hacc
    ipureintro; exact AccRel.zero _ _ _
  iintro %_ HI
  unfold inv3
  icases HI with ⟨Hb3, %A4, Hacc, %hr3⟩
  sl_exec
  sl_step
  have hA4 : PlanesDone d L xt (p1.val + 1) A4 := planes_step d L xt p1 hr0 hr1 hr2 hr3 hA
  rw [show Stage d L q xt 2 = Idle d L q xt from dif_neg (by decide)]
  unfold Idle
  isplitr; · iexact Hmw
  isplitl [Hb0 Hb1 Hb2 Hs0 Hs1 Hs2 Hr0 Hr1 Hr2]
  · isplitl [Hb0]; · iexists _; iexact Hb0
    isplitl [Hb1]; · iexists _; iexact Hb1
    isplitl [Hb2]; · iexists _; iexact Hb2
    isplitl [Hs0]; · iexact Hs0
    isplitl [Hs1]; · iexact Hs1
    isplitl [Hs2]; · iexact Hs2
    isplitl [Hr0]; · iexact Hr0
    isplitl [Hr1]; · iexact Hr1
    iexact Hr2
  isplitl [Hb3]; · iexists _; iexact Hb3
  isplitl [Hs3]; · iexact Hs3
  isplitl [Ht7]; · iexact Ht7
  isplitl [Hacc]
  · iexists A4; isplitl [Hacc]; · iexact Hacc
    ipureintro; exact hA4
  iexists (insert (SemLoc.dma (sig := sig) ⟨7, by decide⟩, (default : HIx 1)) (insert (SemLoc.dma (sig := sig) ⟨6, by decide⟩, (default : HIx 1))
    (insert (SemLoc.dma (sig := sig) ⟨5, by decide⟩, (default : HIx 1)) (insert (SemLoc.dma (sig := sig) ⟨4, by decide⟩, (default : HIx 1)) W'))))
  isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

/-- One plane, at either trip of the outer loop. -/
theorem outer_region (d : Dev nD) (L : grid1.Coords) (q : PosShare TreeShare) (xt : Buf (Elt F) (xtLoc d))
    (O : CellTallies nD τ sig (HIx 1)) (W : Waits sig (HIx 1)) (v2 v67 c32 v68 v70 : BitVec 32) (pi : Fin k1_t1_loop.trips) (s : Unit) :
    outerInv d L q xt O W pi.val s
      ⊢ wp frame (wpE (defs₀ (F := F)) 𝒱₀ (V d (cV L) (jV L)) none) Set.univ
          (k1_t1_body (F := F) L xtV (Memref.isWhole_whole _) oV (Memref.isWhole_whole _) b0 (Memref.isWhole_whole _) b1 (Memref.isWhole_whole _)
            b2 (Memref.isWhole_whole _) b3 (Memref.isWhole_whole _) acc (Memref.isWhole_whole _) cc1_scratch5 cc1_scratch6 cc1_scratch7 cc1_scratch8 cc1_scoped0 v2 v67 c32 v68 v70 pi s)
          (outerInv d L q xt O W (pi.val + 1)) := by
  obtain ⟨n, hn⟩ := pi
  have hn2 : n < 2 := trips_t1 ▸ hn
  interval_cases n
  · exact trip_first d L q xt O W v2 v67 c32 v68 v70 s
  · exact trip_last d L q xt O W v2 v67 c32 v68 v70 s

end Cert.Kernel.Hand

end
-- ==== Proof.KB.TileBody.lean ====
/-
  One vector subcore's task: from a read share of the transposed input, its own 768 entries of the flat result, its
  scratch buffers and DMA semaphores, the kernel runs and leaves those entries at the flat result's function `scOut`.
  The prologue starts the first plane's first three row groups; the outer loop sums the two planes (its invariant and
  trips are the outer-loop module's); the accumulator is copied out and the copy awaited.
-/
import proofs.«214330_g12317966205028_cont_fleet_230_29_alg».proof.Proof.KB.Outer

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The flat result -/

section Final

variable (d : Dev nD) (L : grid1.Coords) (xt : Buf (Elt F) (xtLoc d))

omit [FloatOps F] in
/-- Entry `x` of the subcore's slice is entry `768·wid + x` of the flat result. -/
theorem oEmb_val (x : S768.Idx) : (((oSlice L).view.emb x) 0).val = 1536 * (L 1).val + 768 * (L 0).val + (x 0).val := by
  have e : (oSlice L).view.emb x = (oRect L).emb x := rfl
  rw [e, Rect.emb_apply]
  show k1_off226 L 0 + 1 * (x 0).val = _
  rw [k1_off226_eq]
  simp

/-- With both planes done, the flat result's function at an entry of the subcore's slice is the accumulator's entry. -/
theorem scOut_emb (A : S768.Idx → Elt F .f32) (hA : PlanesDone d L xt 2 A) (x : S768.Idx) :
    scOut xt ((oSlice L).view.emb x) = A x := by
  have hv := oEmb_val L x
  have h0 : (L 0).val < 2 := (L 0).isLt
  have h1 : (L 1).val < 16 := (L 1).isLt
  have hx : (x 0).val < 768 := (x 0).isLt
  have hx' : x = accIdx ⟨(x 0).val / 384, by omega⟩ ⟨(x 0).val % 384 / 16, by omega⟩ ⟨(x 0).val % 16, by omega⟩ := by
    funext a; rw [Subsingleton.elim a 0]; apply Fin.ext
    show (x 0).val = 384 * ((x 0).val / 384) + 16 * ((x 0).val % 384 / 16) + (x 0).val % 16
    omega
  conv_rhs => rw [hx']
  rw [hA ⟨(x 0).val / 384, by omega⟩ (by show (x 0).val / 384 < 2; omega)]
  unfold scOut
  congr 1
  · funext a
    match a with
    | ⟨0, _⟩ => apply Fin.ext; show ((oSlice L).view.emb x 0).val / 768 % 2 = (L 0).val; omega
    | ⟨1, _⟩ => apply Fin.ext; show ((oSlice L).view.emb x 0).val / 1536 = (L 1).val; omega
    | ⟨n + 2, h⟩ => exact absurd h (Nat.not_lt.2 (Nat.le_add_left _ _))
  · apply Fin.ext; show ((oSlice L).view.emb x 0).val / 384 % 2 = (x 0).val / 384; omega
  · apply Fin.ext; show ((oSlice L).view.emb x 0).val % 384 / 16 = (x 0).val % 384 / 16; omega
  · funext a; rw [Subsingleton.elim a 0]; apply Fin.ext
    show ((oSlice L).view.emb x 0).val % 16 = (x 0).val % 16; omega

end Final

section Final2

variable (d : Dev nD) (L : grid1.Coords) (xt : Buf (Elt F) (xtLoc d))

set_option maxHeartbeats 2000000 in
/-- The subcore's entries of the flat result after the copy out of the accumulator hold the flat result's function. -/
theorem o_final (A : S768.Idx → Elt F .f32) (hA : PlanesDone d L xt 2 A) (o₀ : Buf (Elt F) (oLoc d))
    (w : S768.Idx → Elt F .f32) (hw : w = A) :
    ((oSlice L).view.loc (V d (cV L) (jV L)) ↦[(oSlice L).view.set]{fullShare}
        (oSlice L).view.writes (Elt F) o₀ [⟨Rect.whole S768, w⟩] : sProp 𝕄)
      = (oLoc d ↦[oSet L]{fullShare} scOut xt) := by
  subst hw
  rw [pts_o]
  refine pointsTo_congr (fun i hi => ?_)
  obtain ⟨x, -, rfl⟩ := Finset.mem_map.mp hi
  rw [scOut_emb d L xt w hA x]
  have h1 := View.read_writes_cons_emb (v := (oSlice L).view) (f := o₀) (Rect.whole S768) w [] x
  rw [Rect.emb_whole_apply] at h1
  exact h1

end Final2

set_option maxHeartbeats 2000000 in
theorem tile_body (hF : (K (F := F)).Facts) (d : Dev nD) (L : grid1.Coords) (q : PosShare TreeShare)
    (xt : Buf (Elt F) (xtLoc d)) (o₀ : Buf (Elt F) (oLoc d))
    (O : CellTallies nD τ sig (HIx 1)) (W : Waits sig (HIx 1)) (hO : ∀ g, O g none = 0) :
    iprop(levAts (K (F := F)).L (K (F := F)).lev
        ∗ ((xtLoc d ↦{q} xt : sProp 𝕄))
        ∗ (oLoc d ↦[oSet L]{fullShare} o₀)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop((xtLoc d ↦{q} xt) ∗ (oLoc d ↦[oSet L]{fullShare} scOut xt)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [tileProg, cc1_sc_kernel_eq_skeleton]; unfold cc1_sc_kernel_skel
  rw [(K (F := F)).scopedBufs_V hF d (cV L) (jV L), SparseCore.Cfg.scopedSems0_V (Val := Elt F) d (cV L) (jV L), ownSems0_V, ownBufs_V]
  iintro ⟨#Hlv, Hxt, Ho, ⟨⟨%f0, Hb0⟩, ⟨%f1, Hb1⟩, ⟨%f2, Hb2⟩, ⟨%f3, Hb3⟩, ⟨%fa, Hacc⟩, Hbufs⟩, ⟨Hs0, Hs1, Hs2, Hs3, Hs4, Hsems⟩, HO⟩
  ihave Hmw := ((K (F := F)).mayWaits_none (thr := (V d (cV L) (jV L))) hO) $$ Hlv
  -- the input under one read share per DMA semaphore; the arrays and scratch buffers as the subcore's memrefs address them
  ihave Hxt' := (Entails.of_eq (pts_xt (F := F) d L q xt).symm) $$ Hxt
  ihave Hxt'' := (xt_toks (F := F) d L q xt).1 $$ Hxt'
  icases Hxt'' with ⟨Hxr, Ht7, Ht6, Ht5, Ht4, Htlow⟩
  ihave Ho' := (Entails.of_eq (pts_o (F := F) d L o₀).symm) $$ Ho
  ihave Hb0' := (Entails.of_eq (pts_b (F := F) d L cc1_scratch0 f0).symm) $$ Hb0
  ihave Hb1' := (Entails.of_eq (pts_b (F := F) d L cc1_scratch1 f1).symm) $$ Hb1
  ihave Hb2' := (Entails.of_eq (pts_b (F := F) d L cc1_scratch2 f2).symm) $$ Hb2
  ihave Hb3' := (Entails.of_eq (pts_b (F := F) d L cc1_scratch3 f3).symm) $$ Hb3
  ihave Hacc' := (Entails.of_eq (pts_b (F := F) d L cc1_scratch4 fa).symm) $$ Hacc
  -- the prologue: the first plane's first three row groups started
  sl_exec
  ihave HF0 := (fly4_of d L q xt b0 4 (by decide) (off1_eq L) (k1_off1_inb L) (k1_off5_inb L p0) _ (chunk0 xt L p0) (tile_body.sl.dma0 d L xt) rfl (View.write_whole_univ _ _ _)) $$ [Hs0 Ht4]
  · isplitl [Hs0]; · iexact Hs0
    iexact Ht4
  ihave HF1 := (fly4_of d L q xt b1 5 (by decide) (off2_eq L) (k1_off2_inb L) (k1_off64_inb L p0) _ (chunk1 xt L p0) (tile_body.sl.dma0_1 d L xt) rfl (View.write_whole_univ _ _ _)) $$ [Hs1 Ht5]
  · isplitl [Hs1]; · iexact Hs1
    iexact Ht5
  ihave HF2 := (fly4_of d L q xt b2 6 (by decide) (off3_eq L) (k1_off3_inb L) (k1_off123_inb L p0) _ (chunk2 xt L p0) (tile_body.sl.dma0_2 d L xt) rfl (View.write_whole_univ _ _ _)) $$ [Hs2 Ht6]
  · isplitl [Hs2]; · iexact Hs2
    iexact Ht6
  -- the two planes
  sl_for (outerInv d L q xt O W) $$ [Hmw HF0 HF1 HF2 Hb3' Hs3 Ht7 Hacc' HO]
  · exact fun pi s => outer_region d L q xt O W _ _ _ _ _ pi s
  · unfold outerInv
    rw [show Stage d L q xt 0 = Pend d L q xt p0 from dif_pos (by decide)]
    unfold Pend
    isplitr; · iexact Hmw
    isplitl [HF0 HF1 HF2]
    · isplitl [HF0]; · iexact HF0
      isplitl [HF1]; · iexact HF1
      iexact HF2
    isplitl [Hb3']; · iexists _; iexact Hb3'
    isplitl [Hs3]; · iexact Hs3
    isplitl [Ht7]; · iexact Ht7
    isplitl [Hacc']
    · iexists fa; isplitl [Hacc']; · iexact Hacc'
      ipureintro; intro p hp; exact absurd hp (Nat.not_lt_zero _)
    iexists W; isplitr
    · ipureintro; exact fun p hp => .inl hp
    · iexact HO
  iintro %_ HI
  unfold outerInv
  rw [show Stage d L q xt k1_t1_loop.trips = Idle d L q xt from dif_neg (by decide)]
  unfold Idle
  icases HI with ⟨-, ⟨⟨%g0, Hb0⟩, ⟨%g1, Hb1⟩, ⟨%g2, Hb2⟩, Hs0, Hs1, Hs2, Ht4, Ht5, Ht6⟩, ⟨%g3, Hb3⟩, Hs3, Ht7, ⟨%A, Hacc, %hA⟩, %W', %hW', HO⟩
  have hA2 : PlanesDone d L xt 2 A := by
    have h := hA
    rwa [show Scf.trips k1_t1_loop.lb k1_t1_loop.ub k1_t1_loop.st = 2 from trips_t1] at h
  -- the accumulator copied out to the subcore's entries of the flat result, and the copy awaited
  sl_exec
  sl_step
  -- the input's shares joined; the result's entries at the flat result's function; the scratch and semaphores handed back
  isplitl [Hxr Ht7 Ht6 Ht5 Ht4 Htlow]
  · iapply (Entails.of_eq (pts_xt (F := F) d L q xt))
    iapply (xt_toks (F := F) d L q xt).2
    isplitl [Hxr]; · iexact Hxr
    isplitl [Ht7]; · iexact Ht7
    isplitl [Ht6]; · iexact Ht6
    isplitl [Ht5]; · iexact Ht5
    isplitl [Ht4]; · iexact Ht4
    iexact Htlow
  isplitl [Ho']
  · iapply (Entails.of_eq (o_final (F := F) d L xt A hA2 o₀ (tile_body.sl.dma0_3 d L A) rfl))
    iexact Ho'
  isplitl [Hb0 Hb1 Hb2 Hb3 Hacc Hbufs]
  · isplitl [Hb0]; · iexists _; iexact Hb0
    isplitl [Hb1]; · iexists _; iexact Hb1
    isplitl [Hb2]; · iexists _; iexact Hb2
    isplitl [Hb3]; · iexists _; iexact Hb3
    isplitl [Hacc]; · iexists _; iexact Hacc
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists (insert (SemLoc.dma (sig := sig) ⟨8, by decide⟩, (default : HIx 1)) W')
  isplitr
  · ipureintro; intro p hp
    rcases Finset.mem_insert.mp hp with rfl | hp
    · exact .inr rfl
    · exact hW' p hp
  · iexact HO

end Cert.Kernel.Hand

end
-- ==== Proof.KB.Run.lean ====
/-
  The program's run, with every part in place: the launch, the pipelined region with its funded staging cells, and the
  subcore's task. Every weakly fair execution of the 35 threads ends, faults nowhere, leaves the input unchanged and the
  result array at the host operations' value of the two kernels' outputs.
-/
import proofs.«214330_g12317966205028_cont_fleet_230_29_alg».proof.Proof.KB.Launch
import proofs.«214330_g12317966205028_cont_fleet_230_29_alg».proof.Proof.KB.TcRegion
import proofs.«214330_g12317966205028_cont_fleet_230_29_alg».proof.Proof.KB.TileBody

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareDrop shareTokN shareTok)

variable {F : FTy → Type} [FloatOps F]

local notation "𝕄" => MT nD τ sig (HIx 1) (Elt F) ℕ UU ℕ

/-- The staging cells' launch element funds every device's region ghost state (a plain update, read as a mask-changing one). -/
theorem regionGhost_fund : (BI.own (EP (F := F) uP₀) : sProp 𝕄) ⊢ |={Set.univ}=> bigSep Finset.univ fun d : Dev nD => regionGhost (F := F) d := by
  iintro H
  imod (regionGhost_intro (F := F)) $$ H with HG
  imodintro
  iexact HG

section Run

variable (m : (ℓ : Loc nD τ sig) → Buf (Elt F) ℓ) (ρ : Dev nD → PrngReg)

/-- The run: the result at `kernelOut scOut tcOut` of the input, the input unchanged, on every device. -/
theorem run [∀ e, Nonempty (Elt F e)] :
    θ_run (Cert.Kernel.defs (F := F)) (Cert.Kernel.threads (F := F)) ⟨m, fun _ => 0, ρ⟩ (QC m scOut tcOut) :=
  run_main m ρ scOut tcOut uP₀ (fun d => regionGhost (F := F) d) regionGhost_fund
    (fun κ d v1 v2 _ => tc_region v1 v2 (PP m scOut tcOut) κ d)
    (fun d L q O W hO => tile_body (facts (F := F)) d L q (xtAt m tcOut d) (oBefore m tcOut d) O W hO)

end Run

end Cert.Kernel.Hand

end
-- ==== Proof.lean ====
/-
  The five claims of this certificate, assembled.

  Both programs compute, for an input x of shape [8, 384, 32, 16, 16], the mean of the 15 × 14 interior entries of
  every 16 × 16 plane (rows 0 … 14, columns 1 … 14): their sum times 1/210 on the extended reals
  (`Cert.Spec.pooled`). The reference gathers the 210 entries of the flattened plane by a constant index table, sums
  them and divides by 210; division by the real 210 is multiplication by 1/210 on every extended real. The kernel
  transposes the input so that the channel axis is last and splits the 256 (batch, time) pairs: pairs 0 … 63 go to the
  32 vector subcores of the two SparseCores, two planes each, summed chunk by chunk of rows (0–3, 4–7, 8–11, 12–14)
  into an accumulator in a fixed tree order and multiplied by the named constant 1/210 at the end; pairs 64 … 255 go to
  one pipelined TensorCore region that masks columns 0 and 15 to zero, sums rows 0 … 14 and all columns and
  multiplies by the same constant. Addition of extended reals is commutative and associative, so the orders of
  summation do not matter, and the masked columns add zero. The host operations after the kernels re-lay the two
  results as [8, 384, 32].

  The frames: each program's every weakly fair execution ends without a fault and leaves the input unchanged. For the
  kernel this is a statement about 35 threads (the TensorCore, two sequencers, 32 vector subcores) and is proved once,
  generic in the float instance, by the launch theorem for SparseCore programs from three parts: the subcore's task at
  a symbolic grid point (four local copies in flight on four semaphores, each waited for before its buffer is read),
  the pipelined region (entered from the TensorCore's state in the middle of the launch handshakes), and @main's host
  operations. The same text, with the program's namespace substituted, is the word-level program's frame. The
  idealization's ledger has one rule applied twice: the reciprocal's literal is the name `inv_210`, which denotes 1/210.
-/
import proofs.«214330_g12317966205028_cont_fleet_230_29_alg».proof.Defs
import proofs.«214330_g12317966205028_cont_fleet_230_29_alg».proof.Proof.Gen.Kernel
import proofs.«214330_g12317966205028_cont_fleet_230_29_alg».proof.Proof.Gen.Kernel.Skeleton
import proofs.«214330_g12317966205028_cont_fleet_230_29_alg».proof.Proof.Gen.Kernel.Launch
import proofs.«214330_g12317966205028_cont_fleet_230_29_alg».proof.Proof.Gen.Kernel.Points
import proofs.«214330_g12317966205028_cont_fleet_230_29_alg».proof.Proof.Gen.KernelIdeal
import proofs.«214330_g12317966205028_cont_fleet_230_29_alg».proof.Proof.Gen.KernelIdeal.Skeleton
import proofs.«214330_g12317966205028_cont_fleet_230_29_alg».proof.Proof.Gen.KernelIdeal.Launch
import proofs.«214330_g12317966205028_cont_fleet_230_29_alg».proof.Proof.Gen.KernelIdeal.Points
import proofs.«214330_g12317966205028_cont_fleet_230_29_alg».proof.Proof.Gen.ReferenceIdeal
import proofs.«214330_g12317966205028_cont_fleet_230_29_alg».proof.Proof.Gen.Pre_finite_inputs
import Idealize.ShloMosaic.Adequacy
import Idealize.ShloMosaic.Init
import proofs.«214330_g12317966205028_cont_fleet_230_29_alg».proof.Proof.Spec
import proofs.«214330_g12317966205028_cont_fleet_230_29_alg».proof.Proof.RefRun
import proofs.«214330_g12317966205028_cont_fleet_230_29_alg».proof.Proof.KI.Run
import proofs.«214330_g12317966205028_cont_fleet_230_29_alg».proof.Proof.KI.Value
import proofs.«214330_g12317966205028_cont_fleet_230_29_alg».proof.Proof.KB.Run

noncomputable section

namespace Cert.Proof

open Idealize.ShloMosaic Idealize.SL.Sem

/-- The word-level kernel runs and leaves the input unchanged: its run with the result's value dropped. -/
theorem frame_k : Cert.frame_Kernel (hKernel := Cert.Kernel.Gen.facts) (hPre_finite_inputs := Cert.Pre_finite_inputs.Gen.facts) := fun m g _ =>
  (θ_run (Cert.Kernel.defs (F := Bits)) _ _).mono (fun _ h c => (h c).2) (Cert.Kernel.Hand.run (F := Bits) m g)

/-- The idealized kernel runs and leaves the input unchanged. -/
theorem frame_ki : Cert.frame_KernelIdeal (hKernelIdeal := Cert.KernelIdeal.Gen.facts) (hPre_finite_inputs := Cert.Pre_finite_inputs.Gen.facts) := fun m g _ =>
  (θ_run (Cert.KernelIdeal.defs (F := Ideal)) _ _).mono (fun _ h c => (h c).2) (Cert.KernelIdeal.Hand.run (F := Ideal) m g)

/-- The reference runs and leaves the input unchanged. -/
theorem frame_ri : Cert.frame_ReferenceIdeal (hReferenceIdeal := Cert.ReferenceIdeal.Gen.facts) (hPre_finite_inputs := Cert.Pre_finite_inputs.Gen.facts) := fun m g _ =>
  (θ_run (Cert.ReferenceIdeal.defs (F := Ideal)) _ _).mono (fun _ h c => (h c).2) (Cert.ReferenceIdeal.RefValue.run m g)

/-- The ledger's two entries are one statement: the name `inv_210` denotes 1/210, and the printed constant is that value at the ideal instance. -/
theorem preserves : Cert.preserves_Kernel_KernelIdeal :=
  ⟨IdealRules.named_const.statement Cert.KernelIdeal.κ "inv_210" .f32 0x3B9C09C1#32 ((1 / 210 : ℝ) : EReal) rfl,
   IdealRules.named_const.statement Cert.KernelIdeal.κ "inv_210" .f32 0x3B9C09C1#32 ((1 / 210 : ℝ) : EReal) rfl⟩

/-- From memories that agree on the input both idealized programs end with the result at the interior mean of every
    plane of the input: the kernel's run ends at the host operations' value of the two kernels' outputs, which is that
    mean index by index; the reference's run ends at it directly. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m g m' g' _ hagree
  refine ⟨fun c => Cert.Spec.pooled (m ((c.tc : Thread Cert.KernelIdeal.nD Cert.KernelIdeal.τ).loc Cert.KernelIdeal.main_arg0)), ?_, ?_⟩
  · exact (θ_run (Cert.KernelIdeal.defs (F := Ideal)) _ _).mono
      (fun _ h c => ⟨(h c).1.trans (Cert.KernelIdeal.HandValue.kernelOut_eq_pooled _), (h c).2⟩) (Cert.KernelIdeal.Hand.run (F := Ideal) m g)
  · exact (θ_run (Cert.ReferenceIdeal.defs (F := Ideal)) _ _).mono
      (fun _ h c => ⟨(h c).1.trans (by rw [hagree c]), (h c).2⟩) (Cert.ReferenceIdeal.RefValue.run m' g')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
